-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩
abbrev S128x128 : Shape := ⟨2, ![128, 128]⟩
abbrev S128 : Shape := ⟨1, ![128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v66 : IVec S_ 1) (main_v67 : FVec F S128 .f32) : IVec S_ 1 :=
  let main_cst_26 : FVec F S_ .f32 := constant S_ .f32 0x7F800000#32
  let main_v68 : FVec F S128 .f32 := broadcastInDim S128 ![] bcast_S_S128 main_cst_26
  let main_v69 : IVec S128 1 := cmpf .olt main_v67 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v66 main_v70
  main_v71

def fn_part3 {F : FTy → Type} [FloatOps F] (main_arg13 : FVec F S128 .f32) (main_arg14 : FVec F S128 .f32) (main_arg15 : FVec F S128x128 .f32) (main_arg16 : FVec F S128 .f32) (main_v46 : IVec S_ 1) (main_v49 : IVec S128 1) (main_c_19 : IVec S_ 1) : IVec S_ 1 :=
  let main_v50 : IVec S_ 1 := (fun x v => Host.reduce IntOp.andi x v reducesTo_S128_S_d0 h_S_) main_v49 main_c_19
  let main_v51 : IVec S_ 1 := andi main_v46 main_v50
  let main_v52 : FVec F S128 .f32 := Host.absf main_arg13
  let main_cst_20 : FVec F S_ .f32 := constant S_ .f32 0x7F800000#32
  let main_v53 : FVec F S128 .f32 := broadcastInDim S128 ![] bcast_S_S128 main_cst_20
  let main_v54 : IVec S128 1 := cmpf .olt main_v52 main_v53
  let main_c_21 : IVec S_ 1 := constantI S_ 1 1#1
  let main_v55 : IVec S_ 1 := (fun x v => Host.reduce IntOp.andi x v reducesTo_S128_S_d0 h_S_) main_v54 main_c_21
  let main_v56 : IVec S_ 1 := andi main_v51 main_v55
  let main_v57 : FVec F S128 .f32 := Host.absf main_arg14
  let main_cst_22 : FVec F S_ .f32 := constant S_ .f32 0x7F800000#32
  let main_v58 : FVec F S128 .f32 := broadcastInDim S128 ![] bcast_S_S128 main_cst_22
  let main_v59 : IVec S128 1 := cmpf .olt main_v57 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v56 main_v60
  let main_v62 : FVec F S128x128 .f32 := Host.absf main_arg15
  let main_cst_24 : FVec F S_ .f32 := constant S_ .f32 0x7F800000#32
  let main_v63 : FVec F S128x128 .f32 := broadcastInDim S128x128 ![] bcast_S_S128x128 main_cst_24
  let main_v64 : IVec S128x128 1 := cmpf .olt main_v62 main_v63
  let main_c_25 : IVec S_ 1 := constantI S_ 1 1#1
  let main_v65 : IVec S_ 1 := (fun x v => Host.reduce IntOp.andi x v reducesTo_S128x128_S_d0_1 h_S_) main_v64 main_c_25
  let main_v66 : IVec S_ 1 := andi main_v61 main_v65
  let main_v67 : FVec F S128 .f32 := Host.absf main_arg16
  fn_part4 (F := F) main_v66 main_v67

def fn_part2 {F : FTy → Type} [FloatOps F] (main_arg10 : FVec F S_ .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S_ .f32 := Host.absf main_arg10
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  let main_v42 : FVec F S128x128 .f32 := Host.absf main_arg11
  let main_cst_16 : FVec F S_ .f32 := constant S_ .f32 0x7F800000#32
  let main_v43 : FVec F S128x128 .f32 := broadcastInDim S128x128 ![] bcast_S_S128x128 main_cst_16
  let main_v44 : IVec S128x128 1 := cmpf .olt main_v42 main_v43
  let main_c_17 : IVec S_ 1 := constantI S_ 1 1#1
  let main_v45 : IVec S_ 1 := (fun x v => Host.reduce IntOp.andi x v reducesTo_S128x128_S_d0_1 h_S_) main_v44 main_c_17
  let main_v46 : IVec S_ 1 := andi main_v41 main_v45
  let main_v47 : FVec F S128 .f32 := Host.absf main_arg12
  let main_cst_18 : FVec F S_ .f32 := constant S_ .f32 0x7F800000#32
  let main_v48 : FVec F S128 .f32 := broadcastInDim S128 ![] bcast_S_S128 main_cst_18
  let main_v49 : IVec S128 1 := cmpf .olt main_v47 main_v48
  let main_c_19 : IVec S_ 1 := constantI S_ 1 1#1
  fn_part3 (F := F) main_arg13 main_arg14 main_arg15 main_arg16 main_v46 main_v49 main_c_19

def fn_part1 {F : FTy → Type} [FloatOps F] (main_arg6 : FVec F S128 .f32) (main_arg7 : FVec F S128 .f32) (main_arg8 : FVec F S128x128 .f32) (main_arg9 : FVec F S128 .f32) (main_arg10 : FVec F S_ .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128 .f32 := Host.absf main_arg6
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128 .f32 := Host.absf main_arg7
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128x128 .f32 := Host.absf main_arg8
  let main_cst_10 : FVec F S_ .f32 := constant S_ .f32 0x7F800000#32
  let main_v29 : FVec F S128x128 .f32 := broadcastInDim S128x128 ![] bcast_S_S128x128 main_cst_10
  let main_v30 : IVec S128x128 1 := cmpf .olt main_v28 main_v29
  let main_c_11 : IVec S_ 1 := constantI S_ 1 1#1
  let main_v31 : IVec S_ 1 := (fun x v => Host.reduce IntOp.andi x v reducesTo_S128x128_S_d0_1 h_S_) main_v30 main_c_11
  let main_v32 : IVec S_ 1 := andi main_v27 main_v31
  let main_v33 : FVec F S128 .f32 := Host.absf main_arg9
  fn_part2 (F := F) main_arg10 main_arg11 main_arg12 main_arg13 main_arg14 main_arg15 main_arg16 main_v32 main_v33

def fn {F : FTy → Type} [FloatOps F] (main_arg0 : FVec F S100000x128 .f32) (main_arg1 : IVec S1600000 32) (main_arg2 : IVec S1600000 32) (main_arg3 : FVec F S_ .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S_ .f32) (main_arg11 : FVec F S128x128 .f32) (main_arg12 : FVec F S128 .f32) (main_arg13 : FVec F S128 .f32) (main_arg14 : FVec F S128 .f32) (main_arg15 : FVec F S128x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x128 .f32 := Host.absf main_arg4
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  let main_c_3 : IVec S_ 1 := constantI S_ 1 1#1
  let main_v11 : IVec S_ 1 := (fun x v => Host.reduce IntOp.andi x v reducesTo_S128x128_S_d0_1 h_S_) main_v10 main_c_3
  let main_v12 : IVec S_ 1 := andi main_v7 main_v11
  let main_v13 : FVec F S128 .f32 := Host.absf main_arg5
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg6 main_arg7 main_arg8 main_arg9 main_arg10 main_arg11 main_arg12 main_arg13 main_arg14 main_arg15 main_arg16 main_v12 main_v15 main_c_5
-- ==== Kernel.lean ====
abbrev S100000x128 : Shape := ⟨2, ![100000, 128]⟩
abbrev S1600000 : Shape := ⟨1, ![1600000]⟩
abbrev S_ : Shape := ⟨0, ![]⟩
abbrev S128x128 : Shape := ⟨2, ![128, 128]⟩
abbrev S128 : Shape := ⟨1, ![128]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩
abbrev S4000x128 : Shape := ⟨2, ![4000, 128]⟩

abbrev nBuf : Space → Nat
  | .hbm => 79
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S_, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x1, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S128x128, .bf16⟩
  | .hbm, ⟨36, _⟩ => ⟨S128x128, .bf16⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x1, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S128x128, .bf16⟩
  | .hbm, ⟨67, _⟩ => ⟨S128x128, .bf16⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x1, .f32⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S1x1, .f32⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S1x1, .f32⟩
  | .local _ .vmem, ⟨31, _⟩ => ⟨S128x128, .bf16⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S1x1, .f32⟩
  | .local _ .vmem, ⟨42, _⟩ => ⟨S128x128, .bf16⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S128x128, .bf16⟩
  | .local _ .vmem, ⟨49, _⟩ => ⟨S1x128, .f32⟩
  | .local _ .vmem, ⟨50, _⟩ => ⟨S4000x128, .f32⟩
  | .local _ .vmem, ⟨51, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_scratch0 : Ref sig .tc := ⟨.vmem, 35, rfl⟩
abbrev cc2_scratch1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg9_0 : Ref sig .tc := ⟨.vmem, 48, rfl⟩
abbrev cc3_stg10_0 : Ref sig .tc := ⟨.vmem, 49, rfl⟩
abbrev cc3_stg11_0 : Ref sig .tc := ⟨.vmem, 50, rfl⟩
abbrev cc3_stg11_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem11_0 : DmaSem sig := 46
abbrev cc3_sem11_1 : DmaSem sig := 47

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v37 : BitVec 1 := Scalar.cmpi .eq arg0 c24_i32
  let v38 : BitVec 32 := Scalar.extui v37
  let c0_i32_21 : BitVec 32 := 0#32
  let v39 : BitVec 1 := Scalar.cmpi .ne v38 c0_i32_21
  v39

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S_S1x1 : S_.ShapeCasts S1x1
  shapeCasts_S128_S1x128 : S128.ShapeCasts S1x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x128_S4000x128_0_0 : ∀ a, (![0, 0] : Fin 2 → Nat) a + S4000x128.size a ≤ S4000x128.size a
  h_S4000x128 : 0 < S4000x128.numel
  broadcasts_S1x1_S4000x128 : S1x1.Broadcasts S4000x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  reduces_S4000x128_S128 : S4000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S100000x128.size a
  hwx1_11 : ∀ i : grid1.Coords, EltTy.bits .f32 = 32 ∨ (Rect.block (s := S100000x128) S4000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .bf16 = 32 ∨ (Rect.block (s := S128x128) S128x128.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x128.size a ≤ S100000x128.size a
  hwx3_11 : ∀ i : grid3.Coords, EltTy.bits .f32 = 32 ∨ (Rect.block (s := S100000x128) S4000x128.size (cc3_transform_11 i) (hinb3_11 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v24) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S1x128.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S1x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v24) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v39) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v41) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v37) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v49) S4000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S_ : Shape := ⟨0, ![]⟩
abbrev S128x128 : Shape := ⟨2, ![128, 128]⟩
abbrev S128 : Shape := ⟨1, ![128]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S_, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S_, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S_, .f32⟩
  | 32 => ⟨S100000x128, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S100000x128, .f32⟩
  | 52 => ⟨S100000x128, .f32⟩
  | 53 => ⟨S100000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S_, .f32⟩
  | 107 => ⟨S_, .f32⟩
  | 108 => ⟨S100000x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S100000x128, .f32⟩
  | 17 => ⟨S100000x128, .f32⟩
  | 18 => ⟨S_, .f32⟩
  | 19 => ⟨S128, .f32⟩
  | 20 => ⟨S128, .f32⟩
  | 21 => ⟨S128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_5 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_call1_cst : Ref sig .tc := ⟨.hbm, 83, rfl⟩
abbrev main_call1_v0 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_call2_cst : Ref sig .tc := ⟨.hbm, 90, rfl⟩
abbrev main_call2_v0 : Ref sig .tc := ⟨.hbm, 91, rfl⟩
abbrev main_v42 : Ref sig .tc := ⟨.hbm, 92, rfl⟩
abbrev main_c_6 : Ref sig .tc := ⟨.hbm, 93, rfl⟩
abbrev main_v43 : Ref sig .tc := ⟨.hbm, 94, rfl⟩
abbrev main_v44 : Ref sig .tc := ⟨.hbm, 95, rfl⟩
abbrev main_c_7 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst_8 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_9 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_10 : Ref sig .tc := ⟨.hbm, 115, rfl⟩
abbrev main_v61 : Ref sig .tc := ⟨.hbm, 116, rfl⟩
abbrev main_cst_11 : Ref sig .tc := ⟨.hbm, 117, rfl⟩
abbrev main_v62 : Ref sig .tc := ⟨.hbm, 118, rfl⟩
abbrev main_v63 : Ref sig .tc := ⟨.hbm, 119, rfl⟩
abbrev main_c_12 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_cst_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_cst_1 : Ref sig .tc := ⟨.hbm, 131, rfl⟩
abbrev main_call3_v8 : Ref sig .tc := ⟨.hbm, 132, rfl⟩
abbrev main_call3_cst_2 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_cst_3 : Ref sig .tc := ⟨.hbm, 137, rfl⟩
abbrev main_call3_v12 : Ref sig .tc := ⟨.hbm, 138, rfl⟩
abbrev main_call3_cst_4 : Ref sig .tc := ⟨.hbm, 139, rfl⟩
abbrev main_call3_call0_v0 : Ref sig .tc := ⟨.hbm, 140, rfl⟩
abbrev main_call3_call0_v1 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_cst_13 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_call4_cst : Ref sig .tc := ⟨.hbm, 159, rfl⟩
abbrev main_call4_v0 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunK.lean ====
import proofs.«143642_j88098369176165_1_alg».proof.Proof.LaunchK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: four kernel regions among four stretches of host operations

@main is eight segments in order: a stretch of host operations, then a kernel region, four times over. This
module composes them. It is written over the regions' proof data as PARAMETERS (`RegionData`): for each
region, at any contents `V` of the core's buffers when the region is entered, the proof data, the fact that
their entry arrays are read off `V`, the body obligation, and that the body owes nothing, records no wait of
its own, holds every array at the full share, and keeps the class invariant `ΦA` (the generator register and
the scoped rest).

From these: the buffer contents at each of the nine segment boundaries (a fold from the launch memory: a
stretch's `StableHlo.after`, a region's arrays at what its write-backs leave), the proof-data family, each
region as a segment over the thread state "every unscoped buffer at the boundary's contents, the generator
register at some state, nothing owed", and the launch: every unscoped buffer ends at the last boundary's
contents. The arguments are then read back through the fold to the launch memory. -/

-- membership in a rectangle of production extents: the elaborator's structural look recurses once per
-- coordinate of the long axes
set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

/-- The TensorCores' buffer contents at a segment boundary, read at the TensorCore's references: what a
    region's proof data are stated at. -/
abbrev VTy (F : FTy → Type) : Type := (c : Dev nD) → (b : Ref sig .tc) → Buf (Elt F) ((c : Thread nD τ).loc b)

/-- What the run takes of one kernel region (pipeline configuration `cfg`), at any entry contents `V`:
    the proof data on each core; their entry arrays are `V`'s; the body obligation; the body owes nothing at
    any point and bounds the recorded waits by nothing; every array is held at the full share; the invariant
    before the first point is the class invariant `ΦA`, and the invariant after the last point gives it back. -/
structure RegionData (F : FTy → Type) [FloatOps F] (cfg : Pipeline.Cfg sig Λ₀) where
  dat : VTy F → (c : Dev nD) → Dat τ (Elt F) Unit ℕ (UR sig nD τ) ℕ cfg c
  hA : ∀ V c (w : Fin cfg.W), (dat V c).A w = V c (Pipeline.arrRef cfg.spec w)
  hbody : ∀ V c, Pipeline.BodyObligation (dat V c) (defs₀ (F := F)) Variants.none () Set.univ
  howed : ∀ V c t, (dat V c).owed t = 0
  hrec : ∀ V c t, (dat V c).recorded t = Set.univ
  hq : ∀ V c w, (dat V c).q w = fullShare
  hΦin : ∀ V c, (dat V c).Φ 0 = Pipeline.ΦA cfg.spec c
  hΦout : ∀ V c, (dat V c).Φ (Fin.last cfg.N) ⊢ (Pipeline.ΦA cfg.spec c : sProp (MT nD τ sig Unit (Elt F) ℕ (UR sig nD τ) ℕ))

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : RegionData F cfg0) (D1 : RegionData F cfg1) (D2 : RegionData F cfg2) (D3 : RegionData F cfg3)

/-! ## What the host stretches write, and that they allocate nothing -/

/-- No operation of `hostOps0` allocates a buffer. -/
theorem hostOps0_fresh : (hostOps0 : List (HloOp τ sig (Elt F))).Forall fun op => op.fresh = ∅ := by
  simp only [List.Forall]; repeat' constructor
/-- The references `hostOps0`'s operations write: each operation's one result. -/
abbrev hostOps0_W : List (Ref sig .tc) := [main_c, main_v0, main_v1, main_c_0, main_v2, main_v3, main_v4, main_v5, main_v6, main_cst, main_v7, main_v8, main_v9, main_v10, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write: each operation's one result. -/
abbrev hostOps1_W : List (Ref sig .tc) := [main_cst_1, main_v18, main_v19, main_cst_2, main_v20, main_v21, main_v22, main_v23]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write: each operation's one result. -/
abbrev hostOps2_W : List (Ref sig .tc) := [main_c_3, main_v25, main_v26, main_c_4, main_v27, main_v28, main_v29, main_v30, main_v31, main_cst_5, main_v32, main_v33, main_v34, main_v35, main_v36, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write: each operation's one result. -/
abbrev hostOps3_W : List (Ref sig .tc) := [main_cst_6, main_v43, main_v44, main_cst_7, main_v45, main_v46, main_v47, main_v48]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : VTy F := fun c b => W1 m ρ c b
/-- A reference `hostOps0` does not write holds after the stretch what it held before. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (D0.dat (V1 m ρ) c).arrAt w cfg0.N
theorem W2_arr (c : Dev nD) (w : Fin cfg0.W) :
    W2 m ρ D0 c (Proc.devRef .tc (Pipeline.arrRef spec0 w)) = (D0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ D0 c (Proc.devRef .tc b) = W1 m ρ c (Proc.devRef .tc b) := by
  unfold W2; exact Pipeline.withArrays_of_ne spec0 c _ _ b hb
/-- The same read at the TensorCore's references (region 0's exit contents). -/
abbrev V2 : VTy F := fun c b => W2 m ρ D0 c b
/-- At region 0's exit each of its arrays holds what the pipeline leaves (`hF0`) and every other buffer what it
    held at entry (`hrest0`). -/
theorem hF0 (c : Dev nD) (w : Fin cfg0.W) : (D0.dat (V1 m ρ) c).arrAt w cfg0.N = V2 m ρ D0 c (Pipeline.arrRef spec0 w) :=
  (W2_arr m ρ D0 c w).symm
theorem hrest0 (c : Dev nD) : ∀ b, b ∉ Finset.univ.image (Pipeline.arrRef spec0) → V2 m ρ D0 c b = V1 m ρ c b :=
  fun b hb => W2_of_ne m ρ D0 c b fun w e => hb (Finset.mem_image.mpr ⟨w, Finset.mem_univ _, e⟩)

/-- After `hostOps1` (region 1's entry). -/
abbrev W3 : Dev nD → Valuation τ sig (Elt F) := fun c => StableHlo.after hostOps1 (W2 m ρ D0 c)
/-- The same read at the TensorCore's references (what region 1's proof data take). -/
abbrev V3 : VTy F := fun c b => W3 m ρ D0 c b
/-- A reference `hostOps1` does not write holds after the stretch what it held before. -/
theorem W3_keep (c : Dev nD) (r : Ref sig .tc) (h : r ∉ hostOps1_W) :
    W3 m ρ D0 c (Proc.devRef .tc r) = W2 m ρ D0 c (Proc.devRef .tc r) :=
  StableHlo.after_of_writes_sub hostOps1 _ hostOps1_writes h
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ D0 c) fun w => (D1.dat (V3 m ρ D0) c).arrAt w cfg1.N
theorem W4_arr (c : Dev nD) (w : Fin cfg1.W) :
    W4 m ρ D0 D1 c (Proc.devRef .tc (Pipeline.arrRef spec1 w)) = (D1.dat (V3 m ρ D0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ D0 D1 c (Proc.devRef .tc b) = W3 m ρ D0 c (Proc.devRef .tc b) := by
  unfold W4; exact Pipeline.withArrays_of_ne spec1 c _ _ b hb
/-- The same read at the TensorCore's references (region 1's exit contents). -/
abbrev V4 : VTy F := fun c b => W4 m ρ D0 D1 c b
/-- At region 1's exit each of its arrays holds what the pipeline leaves (`hF1`) and every other buffer what it
    held at entry (`hrest1`). -/
theorem hF1 (c : Dev nD) (w : Fin cfg1.W) : (D1.dat (V3 m ρ D0) c).arrAt w cfg1.N = V4 m ρ D0 D1 c (Pipeline.arrRef spec1 w) :=
  (W4_arr m ρ D0 D1 c w).symm
theorem hrest1 (c : Dev nD) : ∀ b, b ∉ Finset.univ.image (Pipeline.arrRef spec1) → V4 m ρ D0 D1 c b = V3 m ρ D0 c b :=
  fun b hb => W4_of_ne m ρ D0 D1 c b fun w e => hb (Finset.mem_image.mpr ⟨w, Finset.mem_univ _, e⟩)

/-- After `hostOps2` (region 2's entry). -/
abbrev W5 : Dev nD → Valuation τ sig (Elt F) := fun c => StableHlo.after hostOps2 (W4 m ρ D0 D1 c)
/-- The same read at the TensorCore's references (what region 2's proof data take). -/
abbrev V5 : VTy F := fun c b => W5 m ρ D0 D1 c b
/-- A reference `hostOps2` does not write holds after the stretch what it held before. -/
theorem W5_keep (c : Dev nD) (r : Ref sig .tc) (h : r ∉ hostOps2_W) :
    W5 m ρ D0 D1 c (Proc.devRef .tc r) = W4 m ρ D0 D1 c (Proc.devRef .tc r) :=
  StableHlo.after_of_writes_sub hostOps2 _ hostOps2_writes h
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ D0 D1 c) fun w => (D2.dat (V5 m ρ D0 D1) c).arrAt w cfg2.N
theorem W6_arr (c : Dev nD) (w : Fin cfg2.W) :
    W6 m ρ D0 D1 D2 c (Proc.devRef .tc (Pipeline.arrRef spec2 w)) = (D2.dat (V5 m ρ D0 D1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ D0 D1 D2 c (Proc.devRef .tc b) = W5 m ρ D0 D1 c (Proc.devRef .tc b) := by
  unfold W6; exact Pipeline.withArrays_of_ne spec2 c _ _ b hb
/-- The same read at the TensorCore's references (region 2's exit contents). -/
abbrev V6 : VTy F := fun c b => W6 m ρ D0 D1 D2 c b
/-- At region 2's exit each of its arrays holds what the pipeline leaves (`hF2`) and every other buffer what it
    held at entry (`hrest2`). -/
theorem hF2 (c : Dev nD) (w : Fin cfg2.W) : (D2.dat (V5 m ρ D0 D1) c).arrAt w cfg2.N = V6 m ρ D0 D1 D2 c (Pipeline.arrRef spec2 w) :=
  (W6_arr m ρ D0 D1 D2 c w).symm
theorem hrest2 (c : Dev nD) : ∀ b, b ∉ Finset.univ.image (Pipeline.arrRef spec2) → V6 m ρ D0 D1 D2 c b = V5 m ρ D0 D1 c b :=
  fun b hb => W6_of_ne m ρ D0 D1 D2 c b fun w e => hb (Finset.mem_image.mpr ⟨w, Finset.mem_univ _, e⟩)

/-- After `hostOps3` (region 3's entry). -/
abbrev W7 : Dev nD → Valuation τ sig (Elt F) := fun c => StableHlo.after hostOps3 (W6 m ρ D0 D1 D2 c)
/-- The same read at the TensorCore's references (what region 3's proof data take). -/
abbrev V7 : VTy F := fun c b => W7 m ρ D0 D1 D2 c b
/-- A reference `hostOps3` does not write holds after the stretch what it held before. -/
theorem W7_keep (c : Dev nD) (r : Ref sig .tc) (h : r ∉ hostOps3_W) :
    W7 m ρ D0 D1 D2 c (Proc.devRef .tc r) = W6 m ρ D0 D1 D2 c (Proc.devRef .tc r) :=
  StableHlo.after_of_writes_sub hostOps3 _ hostOps3_writes h
/-- At region 3's exit: its arrays at what the pipeline leaves (the inputs as entered, each output's write-backs
    folded: `Dat.arrAt … N`), every other buffer as entered. -/
def W8 (c : Dev nD) : Valuation τ sig (Elt F) :=
  Pipeline.withArrays spec3 c (W7 m ρ D0 D1 D2 c) fun w => (D3.dat (V7 m ρ D0 D1 D2) c).arrAt w cfg3.N
theorem W8_arr (c : Dev nD) (w : Fin cfg3.W) :
    W8 m ρ D0 D1 D2 D3 c (Proc.devRef .tc (Pipeline.arrRef spec3 w)) = (D3.dat (V7 m ρ D0 D1 D2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ D0 D1 D2 D3 c (Proc.devRef .tc b) = W7 m ρ D0 D1 D2 c (Proc.devRef .tc b) := by
  unfold W8; exact Pipeline.withArrays_of_ne spec3 c _ _ b hb
/-- The same read at the TensorCore's references (region 3's exit contents). -/
abbrev V8 : VTy F := fun c b => W8 m ρ D0 D1 D2 D3 c b
/-- At region 3's exit each of its arrays holds what the pipeline leaves (`hF3`) and every other buffer what it
    held at entry (`hrest3`). -/
theorem hF3 (c : Dev nD) (w : Fin cfg3.W) : (D3.dat (V7 m ρ D0 D1 D2) c).arrAt w cfg3.N = V8 m ρ D0 D1 D2 D3 c (Pipeline.arrRef spec3 w) :=
  (W8_arr m ρ D0 D1 D2 D3 c w).symm
theorem hrest3 (c : Dev nD) : ∀ b, b ∉ Finset.univ.image (Pipeline.arrRef spec3) → V8 m ρ D0 D1 D2 D3 c b = V7 m ρ D0 D1 D2 c b :=
  fun b hb => W8_of_ne m ρ D0 D1 D2 D3 c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the
    configuration pinned at a numeral reduces to the printed configuration. -/
def pdats : (p : Fin 4) → (c : Dev nD) → Dat τ (Elt F) Unit ℕ (UR sig nD τ) ℕ (Pipeline.pin (pcfgs (F := F)) adm p) c
  | ⟨0, _⟩ => fun c => D0.dat (V1 m ρ) c
  | ⟨1, _⟩ => fun c => D1.dat (V3 m ρ D0) c
  | ⟨2, _⟩ => fun c => D2.dat (V5 m ρ D0 D1) c
  | ⟨3, _⟩ => fun c => D3.dat (V7 m ρ D0 D1 D2) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ D0 D1 D2 D3 c) ∗ ∃ r, prngReg c r)

/-! ## The regions as segments -/

-- `iapply` of a library lemma stated over the pinned configuration unifies with it only when unification may
-- unfold plain definitions in a metavariable's type
set_option backward.isDefEq.respectTransparency.types false in
/-- REGION 0 over the thread state: entered from every unscoped buffer at `W1`, left at `W2`. Its arrays
    are split out of the unscoped buffers and put back at the exit contents; the generator register goes into the
    class invariant `ΦA` and comes out; nothing is owed; the kernel has no semaphore of its own. -/
def reg0 : Pipeline.RegionSeg (pcfgs (F := F)) adm (pdats m ρ D0 D1 D2 D3) () defs₀ 𝒱₀ L lv 0 where
  win := launch0.win.to₀
  block_pos := launch0.block_pos
  stage_whole := launch0.stage_whole
  K := PEmpty
  osem k := k.elim
  ho := Pipeline.OwnSemFacts.none _
  hbody c := (D0.hbody (V1 m ρ) c).loose
  hwaits := Pipeline.hwaits_of_owed_zero _ _ _ _ L lv 0 fun c t => D0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ D0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ D0 D1 D2 D3) launch0.win launch0.arr_whole c
      ((pdats m ρ D0 D1 D2 D3 0 c).share_full fun w => D0.hq (V1 m ρ) c w) (V1 m ρ c) fun w => D0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 0 c).owed 0 = 0 from D0.howed (V1 m ρ) c 0]
      icases HO with ⟨%W, HO⟩; iexists W; isplitr
      · ipureintro
        exact fun x _ => Or.inl (show x ∈ (D0.dat (V1 m ρ) c).recorded 0 from by rw [D0.hrec]; trivial)
      iexact HO
    isplitl [Hp]; · iexact Hp
    iexact Hrest
  hin c := by
    rw [show (pdats m ρ D0 D1 D2 D3 0 c).Φ 0 = Pipeline.ΦA spec0 c from D0.hΦin (V1 m ρ) c]; unfold Pipeline.ΦA
    iintro ⟨Hp, -, Hr⟩
    isplitl [Hr]; · iexact Hr
    iexact Hp
  hout c := by
    rw [Pipeline.ownSems0_none]
    refine (show (pdats m ρ D0 D1 D2 D3 0 c).Φ (Fin.last _) ⊢ (Pipeline.ΦA spec0 c : sProp 𝕄) from D0.hΦout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D0 D1 D2 D3) ((pdats m ρ D0 D1 D2 D3 0 c).share_full fun w => D0.hq (V1 m ρ) c w)
      (V1 m ρ c) (V2 m ρ D0 c) ((pdats m ρ D0 D1 D2 D3 0 c).arrAt · cfg0.N) (hF0 m ρ D0 c) (hrest0 m ρ D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 D3 0 c).owed (Fin.last (Pipeline.pin (pcfgs (F := F)) adm 0).N) = 0 from D0.howed (V1 m ρ) c _]
    icases HO with ⟨%W, -, HO⟩; iexists W; iexact HO

-- `iapply` of a library lemma stated over the pinned configuration unifies with it only when unification may
-- unfold plain definitions in a metavariable's type
set_option backward.isDefEq.respectTransparency.types false in
/-- REGION 1 over the thread state: entered from every unscoped buffer at `W3`, left at `W4`. Its arrays
    are split out of the unscoped buffers and put back at the exit contents; the generator register goes into the
    class invariant `ΦA` and comes out; nothing is owed; the kernel has no semaphore of its own. -/
def reg1 : Pipeline.RegionSeg (pcfgs (F := F)) adm (pdats m ρ D0 D1 D2 D3) () defs₀ 𝒱₀ L lv 1 where
  win := launch1.win.to₀
  block_pos := launch1.block_pos
  stage_whole := launch1.stage_whole
  K := PEmpty
  osem k := k.elim
  ho := Pipeline.OwnSemFacts.none _
  hbody c := (D1.hbody (V3 m ρ D0) c).loose
  hwaits := Pipeline.hwaits_of_owed_zero _ _ _ _ L lv 1 fun c t => D1.howed (V3 m ρ D0) c t
  pre c := iprop(StableHlo.held (c : Thread nD τ) (Pipeline.ucRefs τ sig) (W3 m ρ D0 c) ∗ R c)
  post c := iprop(StableHlo.held (c : Thread nD τ) (Pipeline.ucRefs τ sig) (W4 m ρ D0 D1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ D0 c)
  hentry c := by
    rw [Pipeline.ownSems0_none]
    have hsplit := Pipeline.arrays_of_unscopedBufs (p := 1) (pcfgs (F := F)) adm (pdats m ρ D0 D1 D2 D3) launch1.win launch1.arr_whole c
      ((pdats m ρ D0 D1 D2 D3 1 c).share_full fun w => D1.hq (V3 m ρ D0) c w) (V3 m ρ D0 c) fun w => D1.hA (V3 m ρ D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 1 c).owed 0 = 0 from D1.howed (V3 m ρ D0) c 0]
      icases HO with ⟨%W, HO⟩; iexists W; isplitr
      · ipureintro
        exact fun x _ => Or.inl (show x ∈ (D1.dat (V3 m ρ D0) c).recorded 0 from by rw [D1.hrec]; trivial)
      iexact HO
    isplitl [Hp]; · iexact Hp
    iexact Hrest
  hin c := by
    rw [show (pdats m ρ D0 D1 D2 D3 1 c).Φ 0 = Pipeline.ΦA spec1 c from D1.hΦin (V3 m ρ D0) c]; unfold Pipeline.ΦA
    iintro ⟨Hp, -, Hr⟩
    isplitl [Hr]; · iexact Hr
    iexact Hp
  hout c := by
    rw [Pipeline.ownSems0_none]
    refine (show (pdats m ρ D0 D1 D2 D3 1 c).Φ (Fin.last _) ⊢ (Pipeline.ΦA spec1 c : sProp 𝕄) from D1.hΦout (V3 m ρ D0) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D0 D1 D2 D3) ((pdats m ρ D0 D1 D2 D3 1 c).share_full fun w => D1.hq (V3 m ρ D0) c w)
      (V3 m ρ D0 c) (V4 m ρ D0 D1 c) ((pdats m ρ D0 D1 D2 D3 1 c).arrAt · cfg1.N) (hF1 m ρ D0 D1 c) (hrest1 m ρ D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 D3 1 c).owed (Fin.last (Pipeline.pin (pcfgs (F := F)) adm 1).N) = 0 from D1.howed (V3 m ρ D0) c _]
    icases HO with ⟨%W, -, HO⟩; iexists W; iexact HO

-- `iapply` of a library lemma stated over the pinned configuration unifies with it only when unification may
-- unfold plain definitions in a metavariable's type
set_option backward.isDefEq.respectTransparency.types false in
/-- REGION 2 over the thread state: entered from every unscoped buffer at `W5`, left at `W6`. Its arrays
    are split out of the unscoped buffers and put back at the exit contents; the generator register goes into the
    class invariant `ΦA` and comes out; nothing is owed; the kernel has no semaphore of its own. -/
def reg2 : Pipeline.RegionSeg (pcfgs (F := F)) adm (pdats m ρ D0 D1 D2 D3) () defs₀ 𝒱₀ L lv 2 where
  win := launch2.win.to₀
  block_pos := launch2.block_pos
  stage_whole := launch2.stage_whole
  K := PEmpty
  osem k := k.elim
  ho := Pipeline.OwnSemFacts.none _
  hbody c := (D2.hbody (V5 m ρ D0 D1) c).loose
  hwaits := Pipeline.hwaits_of_owed_zero _ _ _ _ L lv 2 fun c t => D2.howed (V5 m ρ D0 D1) c t
  pre c := iprop(StableHlo.held (c : Thread nD τ) (Pipeline.ucRefs τ sig) (W5 m ρ D0 D1 c) ∗ R c)
  post c := iprop(StableHlo.held (c : Thread nD τ) (Pipeline.ucRefs τ sig) (W6 m ρ D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c (V5 m ρ D0 D1 c)
  hentry c := by
    rw [Pipeline.ownSems0_none]
    have hsplit := Pipeline.arrays_of_unscopedBufs (p := 2) (pcfgs (F := F)) adm (pdats m ρ D0 D1 D2 D3) launch2.win launch2.arr_whole c
      ((pdats m ρ D0 D1 D2 D3 2 c).share_full fun w => D2.hq (V5 m ρ D0 D1) c w) (V5 m ρ D0 D1 c) fun w => D2.hA (V5 m ρ D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 2 c).owed 0 = 0 from D2.howed (V5 m ρ D0 D1) c 0]
      icases HO with ⟨%W, HO⟩; iexists W; isplitr
      · ipureintro
        exact fun x _ => Or.inl (show x ∈ (D2.dat (V5 m ρ D0 D1) c).recorded 0 from by rw [D2.hrec]; trivial)
      iexact HO
    isplitl [Hp]; · iexact Hp
    iexact Hrest
  hin c := by
    rw [show (pdats m ρ D0 D1 D2 D3 2 c).Φ 0 = Pipeline.ΦA spec2 c from D2.hΦin (V5 m ρ D0 D1) c]; unfold Pipeline.ΦA
    iintro ⟨Hp, -, Hr⟩
    isplitl [Hr]; · iexact Hr
    iexact Hp
  hout c := by
    rw [Pipeline.ownSems0_none]
    refine (show (pdats m ρ D0 D1 D2 D3 2 c).Φ (Fin.last _) ⊢ (Pipeline.ΦA spec2 c : sProp 𝕄) from D2.hΦout (V5 m ρ D0 D1) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ D0 D1 D2 D3) ((pdats m ρ D0 D1 D2 D3 2 c).share_full fun w => D2.hq (V5 m ρ D0 D1) c w)
      (V5 m ρ D0 D1 c) (V6 m ρ D0 D1 D2 c) ((pdats m ρ D0 D1 D2 D3 2 c).arrAt · cfg2.N) (hF2 m ρ D0 D1 D2 c) (hrest2 m ρ D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 D3 2 c).owed (Fin.last (Pipeline.pin (pcfgs (F := F)) adm 2).N) = 0 from D2.howed (V5 m ρ D0 D1) c _]
    icases HO with ⟨%W, -, HO⟩; iexists W; iexact HO

-- `iapply` of a library lemma stated over the pinned configuration unifies with it only when unification may
-- unfold plain definitions in a metavariable's type
set_option backward.isDefEq.respectTransparency.types false in
/-- REGION 3 over the thread state: entered from every unscoped buffer at `W7`, left at `W8`. Its arrays
    are split out of the unscoped buffers and put back at the exit contents; the generator register goes into the
    class invariant `ΦA` and comes out; nothing is owed; the kernel has no semaphore of its own. -/
def reg3 : Pipeline.RegionSeg (pcfgs (F := F)) adm (pdats m ρ D0 D1 D2 D3) () defs₀ 𝒱₀ L lv 3 where
  win := launch3.win.to₀
  block_pos := launch3.block_pos
  stage_whole := launch3.stage_whole
  K := PEmpty
  osem k := k.elim
  ho := Pipeline.OwnSemFacts.none _
  hbody c := (D3.hbody (V7 m ρ D0 D1 D2) c).loose
  hwaits := Pipeline.hwaits_of_owed_zero _ _ _ _ L lv 3 fun c t => D3.howed (V7 m ρ D0 D1 D2) c t
  pre c := iprop(StableHlo.held (c : Thread nD τ) (Pipeline.ucRefs τ sig) (W7 m ρ D0 D1 D2 c) ∗ R c)
  post c := iprop(Tₙ m ρ D0 D1 D2 D3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ D0 D1 D2 c)
  hentry c := by
    rw [Pipeline.ownSems0_none]
    have hsplit := Pipeline.arrays_of_unscopedBufs (p := 3) (pcfgs (F := F)) adm (pdats m ρ D0 D1 D2 D3) launch3.win launch3.arr_whole c
      ((pdats m ρ D0 D1 D2 D3 3 c).share_full fun w => D3.hq (V7 m ρ D0 D1 D2) c w) (V7 m ρ D0 D1 D2 c) fun w => D3.hA (V7 m ρ D0 D1 D2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 3 c).owed 0 = 0 from D3.howed (V7 m ρ D0 D1 D2) c 0]
      icases HO with ⟨%W, HO⟩; iexists W; isplitr
      · ipureintro
        exact fun x _ => Or.inl (show x ∈ (D3.dat (V7 m ρ D0 D1 D2) c).recorded 0 from by rw [D3.hrec]; trivial)
      iexact HO
    isplitl [Hp]; · iexact Hp
    iexact Hrest
  hin c := by
    rw [show (pdats m ρ D0 D1 D2 D3 3 c).Φ 0 = Pipeline.ΦA spec3 c from D3.hΦin (V7 m ρ D0 D1 D2) c]; unfold Pipeline.ΦA
    iintro ⟨Hp, -, Hr⟩
    isplitl [Hr]; · iexact Hr
    iexact Hp
  hout c := by
    rw [Pipeline.ownSems0_none]
    refine (show (pdats m ρ D0 D1 D2 D3 3 c).Φ (Fin.last _) ⊢ (Pipeline.ΦA spec3 c : sProp 𝕄) from D3.hΦout (V7 m ρ D0 D1 D2) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ D0 D1 D2 D3) ((pdats m ρ D0 D1 D2 D3 3 c).share_full fun w => D3.hq (V7 m ρ D0 D1 D2) c w)
      (V7 m ρ D0 D1 D2 c) (V8 m ρ D0 D1 D2 D3 c) ((pdats m ρ D0 D1 D2 D3 3 c).arrAt · cfg3.N) (hF3 m ρ D0 D1 D2 D3 c) (hrest3 m ρ D0 D1 D2 D3 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ D0 D1 D2 D3 3 c).owed (Fin.last (Pipeline.pin (pcfgs (F := F)) adm 3).N) = 0 from D3.howed (V7 m ρ D0 D1 D2) c _]
    icases HO with ⟨%W, -, HO⟩; iexists W; iexact HO

/-! ## What a region leaves unchanged, and its outputs by name

A region's input windows read their arrays and never write them (`Dat.arrAt_in`), and a buffer no window stages
bypasses the region: after region K every buffer but its output arrays holds what it held at entry. -/

theorem W2_keep (c : Dev nD) (b : Ref sig .tc) (hb : b ≠ main_v17_0 ∧ b ≠ main_v17_1) :
    W2 m ρ D0 c (Proc.devRef .tc b) = W1 m ρ c (Proc.devRef .tc b) := by
  by_cases h : ∃ w, Pipeline.arrRef spec0 w = b
  · obtain ⟨w, rfl⟩ := h
    have key : ∀ w : Fin cfg0.W, (Pipeline.arrRef spec0 w ≠ main_v17_0 ∧ Pipeline.arrRef spec0 w ≠ main_v17_1) → (cfg0.win w).isOut = false := by decide
    exact (W2_arr m ρ D0 c w).trans (((D0.dat (V1 m ρ) c).arrAt_in w (key w hb) _).trans (D0.hA (V1 m ρ) c w))
  · exact W2_of_ne m ρ D0 c b fun w e => h ⟨w, e⟩
/-- Region 0's output `main_v17_0` (window 5) ends at what the pipeline's write-backs leave in it. -/
theorem W2_main_v17_0 (c : Dev nD) :
    W2 m ρ D0 c (Proc.devRef .tc main_v17_0) = (D0.dat (V1 m ρ) c).arrAt 5 cfg0.N :=
  W2_arr m ρ D0 c 5
/-- Region 0's output `main_v17_1` (window 6) ends at what the pipeline's write-backs leave in it. -/
theorem W2_main_v17_1 (c : Dev nD) :
    W2 m ρ D0 c (Proc.devRef .tc main_v17_1) = (D0.dat (V1 m ρ) c).arrAt 6 cfg0.N :=
  W2_arr m ρ D0 c 6

theorem W4_keep (c : Dev nD) (b : Ref sig .tc) (hb : b ≠ main_v24) :
    W4 m ρ D0 D1 c (Proc.devRef .tc b) = W3 m ρ D0 c (Proc.devRef .tc b) := by
  by_cases h : ∃ w, Pipeline.arrRef spec1 w = b
  · obtain ⟨w, rfl⟩ := h
    have key : ∀ w : Fin cfg1.W, (Pipeline.arrRef spec1 w ≠ main_v24) → (cfg1.win w).isOut = false := by decide
    exact (W4_arr m ρ D0 D1 c w).trans (((D1.dat (V3 m ρ D0) c).arrAt_in w (key w hb) _).trans (D1.hA (V3 m ρ D0) c w))
  · exact W4_of_ne m ρ D0 D1 c b fun w e => h ⟨w, e⟩
/-- Region 1's output `main_v24` (window 11) ends at what the pipeline's write-backs leave in it. -/
theorem W4_main_v24 (c : Dev nD) :
    W4 m ρ D0 D1 c (Proc.devRef .tc main_v24) = (D1.dat (V3 m ρ D0) c).arrAt 11 cfg1.N :=
  W4_arr m ρ D0 D1 c 11

theorem W6_keep (c : Dev nD) (b : Ref sig .tc) (hb : b ≠ main_v42_0 ∧ b ≠ main_v42_1) :
    W6 m ρ D0 D1 D2 c (Proc.devRef .tc b) = W5 m ρ D0 D1 c (Proc.devRef .tc b) := by
  by_cases h : ∃ w, Pipeline.arrRef spec2 w = b
  · obtain ⟨w, rfl⟩ := h
    have key : ∀ w : Fin cfg2.W, (Pipeline.arrRef spec2 w ≠ main_v42_0 ∧ Pipeline.arrRef spec2 w ≠ main_v42_1) → (cfg2.win w).isOut = false := by decide
    exact (W6_arr m ρ D0 D1 D2 c w).trans (((D2.dat (V5 m ρ D0 D1) c).arrAt_in w (key w hb) _).trans (D2.hA (V5 m ρ D0 D1) c w))
  · exact W6_of_ne m ρ D0 D1 D2 c b fun w e => h ⟨w, e⟩
/-- Region 2's output `main_v42_0` (window 5) ends at what the pipeline's write-backs leave in it. -/
theorem W6_main_v42_0 (c : Dev nD) :
    W6 m ρ D0 D1 D2 c (Proc.devRef .tc main_v42_0) = (D2.dat (V5 m ρ D0 D1) c).arrAt 5 cfg2.N :=
  W6_arr m ρ D0 D1 D2 c 5
/-- Region 2's output `main_v42_1` (window 6) ends at what the pipeline's write-backs leave in it. -/
theorem W6_main_v42_1 (c : Dev nD) :
    W6 m ρ D0 D1 D2 c (Proc.devRef .tc main_v42_1) = (D2.dat (V5 m ρ D0 D1) c).arrAt 6 cfg2.N :=
  W6_arr m ρ D0 D1 D2 c 6

theorem W8_keep (c : Dev nD) (b : Ref sig .tc) (hb : b ≠ main_v49) :
    W8 m ρ D0 D1 D2 D3 c (Proc.devRef .tc b) = W7 m ρ D0 D1 D2 c (Proc.devRef .tc b) := by
  by_cases h : ∃ w, Pipeline.arrRef spec3 w = b
  · obtain ⟨w, rfl⟩ := h
    have key : ∀ w : Fin cfg3.W, (Pipeline.arrRef spec3 w ≠ main_v49) → (cfg3.win w).isOut = false := by decide
    exact (W8_arr m ρ D0 D1 D2 D3 c w).trans (((D3.dat (V7 m ρ D0 D1 D2) c).arrAt_in w (key w hb) _).trans (D3.hA (V7 m ρ D0 D1 D2) c w))
  · exact W8_of_ne m ρ D0 D1 D2 D3 c b fun w e => h ⟨w, e⟩
/-- Region 3's output `main_v49` (window 11) ends at what the pipeline's write-backs leave in it. -/
theorem W8_main_v49 (c : Dev nD) :
    W8 m ρ D0 D1 D2 D3 c (Proc.devRef .tc main_v49) = (D3.dat (V7 m ρ D0 D1 D2) c).arrAt 11 cfg3.N :=
  W8_arr m ρ D0 D1 D2 D3 c 11

/-! ### The arguments end as launched: no host operation writes one and no region has one as an output, so the
    fold at an argument's buffer walks back to the launch memory -/

theorem W8_main_arg0 (c : Dev nD) : W8 m ρ D0 D1 D2 D3 c (Proc.devRef .tc main_arg0) = m ((c : Thread nD τ).loc main_arg0) :=
  (W8_keep m ρ D0 D1 D2 D3 c main_arg0 (by decide)).trans <| (W7_keep m ρ D0 D1 D2 c main_arg0 (by decide)).trans <|
  (W6_keep m ρ D0 D1 D2 c main_arg0 (by decide)).trans <| (W5_keep m ρ D0 D1 c main_arg0 (by decide)).trans <|
  (W4_keep m ρ D0 D1 c main_arg0 (by decide)).trans <| (W3_keep m ρ D0 c main_arg0 (by decide)).trans <|
  (W2_keep m ρ D0 c main_arg0 (by decide)).trans <| (W1_keep m ρ c main_arg0 (by decide)).trans rfl
theorem W8_main_arg1 (c : Dev nD) : W8 m ρ D0 D1 D2 D3 c (Proc.devRef .tc main_arg1) = m ((c : Thread nD τ).loc main_arg1) :=
  (W8_keep m ρ D0 D1 D2 D3 c main_arg1 (by decide)).trans <| (W7_keep m ρ D0 D1 D2 c main_arg1 (by decide)).trans <|
  (W6_keep m ρ D0 D1 D2 c main_arg1 (by decide)).trans <| (W5_keep m ρ D0 D1 c main_arg1 (by decide)).trans <|
  (W4_keep m ρ D0 D1 c main_arg1 (by decide)).trans <| (W3_keep m ρ D0 c main_arg1 (by decide)).trans <|
  (W2_keep m ρ D0 c main_arg1 (by decide)).trans <| (W1_keep m ρ c main_arg1 (by decide)).trans rfl
theorem W8_main_arg2 (c : Dev nD) : W8 m ρ D0 D1 D2 D3 c (Proc.devRef .tc main_arg2) = m ((c : Thread nD τ).loc main_arg2) :=
  (W8_keep m ρ D0 D1 D2 D3 c main_arg2 (by decide)).trans <| (W7_keep m ρ D0 D1 D2 c main_arg2 (by decide)).trans <|
  (W6_keep m ρ D0 D1 D2 c main_arg2 (by decide)).trans <| (W5_keep m ρ D0 D1 c main_arg2 (by decide)).trans <|
  (W4_keep m ρ D0 D1 c main_arg2 (by decide)).trans <| (W3_keep m ρ D0 c main_arg2 (by decide)).trans <|
  (W2_keep m ρ D0 c main_arg2 (by decide)).trans <| (W1_keep m ρ c main_arg2 (by decide)).trans rfl
theorem W8_main_arg3 (c : Dev nD) : W8 m ρ D0 D1 D2 D3 c (Proc.devRef .tc main_arg3) = m ((c : Thread nD τ).loc main_arg3) :=
  (W8_keep m ρ D0 D1 D2 D3 c main_arg3 (by decide)).trans <| (W7_keep m ρ D0 D1 D2 c main_arg3 (by decide)).trans <|
  (W6_keep m ρ D0 D1 D2 c main_arg3 (by decide)).trans <| (W5_keep m ρ D0 D1 c main_arg3 (by decide)).trans <|
  (W4_keep m ρ D0 D1 c main_arg3 (by decide)).trans <| (W3_keep m ρ D0 c main_arg3 (by decide)).trans <|
  (W2_keep m ρ D0 c main_arg3 (by decide)).trans <| (W1_keep m ρ c main_arg3 (by decide)).trans rfl
theorem W8_main_arg4 (c : Dev nD) : W8 m ρ D0 D1 D2 D3 c (Proc.devRef .tc main_arg4) = m ((c : Thread nD τ).loc main_arg4) :=
  (W8_keep m ρ D0 D1 D2 D3 c main_arg4 (by decide)).trans <| (W7_keep m ρ D0 D1 D2 c main_arg4 (by decide)).trans <|
  (W6_keep m ρ D0 D1 D2 c main_arg4 (by decide)).trans <| (W5_keep m ρ D0 D1 c main_arg4 (by decide)).trans <|
  (W4_keep m ρ D0 D1 c main_arg4 (by decide)).trans <| (W3_keep m ρ D0 c main_arg4 (by decide)).trans <|
  (W2_keep m ρ D0 c main_arg4 (by decide)).trans <| (W1_keep m ρ c main_arg4 (by decide)).trans rfl
theorem W8_main_arg5 (c : Dev nD) : W8 m ρ D0 D1 D2 D3 c (Proc.devRef .tc main_arg5) = m ((c : Thread nD τ).loc main_arg5) :=
  (W8_keep m ρ D0 D1 D2 D3 c main_arg5 (by decide)).trans <| (W7_keep m ρ D0 D1 D2 c main_arg5 (by decide)).trans <|
  (W6_keep m ρ D0 D1 D2 c main_arg5 (by decide)).trans <| (W5_keep m ρ D0 D1 c main_arg5 (by decide)).trans <|
  (W4_keep m ρ D0 D1 c main_arg5 (by decide)).trans <| (W3_keep m ρ D0 c main_arg5 (by decide)).trans <|
  (W2_keep m ρ D0 c main_arg5 (by decide)).trans <| (W1_keep m ρ c main_arg5 (by decide)).trans rfl
theorem W8_main_arg6 (c : Dev nD) : W8 m ρ D0 D1 D2 D3 c (Proc.devRef .tc main_arg6) = m ((c : Thread nD τ).loc main_arg6) :=
  (W8_keep m ρ D0 D1 D2 D3 c main_arg6 (by decide)).trans <| (W7_keep m ρ D0 D1 D2 c main_arg6 (by decide)).trans <|
  (W6_keep m ρ D0 D1 D2 c main_arg6 (by decide)).trans <| (W5_keep m ρ D0 D1 c main_arg6 (by decide)).trans <|
  (W4_keep m ρ D0 D1 c main_arg6 (by decide)).trans <| (W3_keep m ρ D0 c main_arg6 (by decide)).trans <|
  (W2_keep m ρ D0 c main_arg6 (by decide)).trans <| (W1_keep m ρ c main_arg6 (by decide)).trans rfl
theorem W8_main_arg7 (c : Dev nD) : W8 m ρ D0 D1 D2 D3 c (Proc.devRef .tc main_arg7) = m ((c : Thread nD τ).loc main_arg7) :=
  (W8_keep m ρ D0 D1 D2 D3 c main_arg7 (by decide)).trans <| (W7_keep m ρ D0 D1 D2 c main_arg7 (by decide)).trans <|
  (W6_keep m ρ D0 D1 D2 c main_arg7 (by decide)).trans <| (W5_keep m ρ D0 D1 c main_arg7 (by decide)).trans <|
  (W4_keep m ρ D0 D1 c main_arg7 (by decide)).trans <| (W3_keep m ρ D0 c main_arg7 (by decide)).trans <|
  (W2_keep m ρ D0 c main_arg7 (by decide)).trans <| (W1_keep m ρ c main_arg7 (by decide)).trans rfl
theorem W8_main_arg8 (c : Dev nD) : W8 m ρ D0 D1 D2 D3 c (Proc.devRef .tc main_arg8) = m ((c : Thread nD τ).loc main_arg8) :=
  (W8_keep m ρ D0 D1 D2 D3 c main_arg8 (by decide)).trans <| (W7_keep m ρ D0 D1 D2 c main_arg8 (by decide)).trans <|
  (W6_keep m ρ D0 D1 D2 c main_arg8 (by decide)).trans <| (W5_keep m ρ D0 D1 c main_arg8 (by decide)).trans <|
  (W4_keep m ρ D0 D1 c main_arg8 (by decide)).trans <| (W3_keep m ρ D0 c main_arg8 (by decide)).trans <|
  (W2_keep m ρ D0 c main_arg8 (by decide)).trans <| (W1_keep m ρ c main_arg8 (by decide)).trans rfl
theorem W8_main_arg9 (c : Dev nD) : W8 m ρ D0 D1 D2 D3 c (Proc.devRef .tc main_arg9) = m ((c : Thread nD τ).loc main_arg9) :=
  (W8_keep m ρ D0 D1 D2 D3 c main_arg9 (by decide)).trans <| (W7_keep m ρ D0 D1 D2 c main_arg9 (by decide)).trans <|
  (W6_keep m ρ D0 D1 D2 c main_arg9 (by decide)).trans <| (W5_keep m ρ D0 D1 c main_arg9 (by decide)).trans <|
  (W4_keep m ρ D0 D1 c main_arg9 (by decide)).trans <| (W3_keep m ρ D0 c main_arg9 (by decide)).trans <|
  (W2_keep m ρ D0 c main_arg9 (by decide)).trans <| (W1_keep m ρ c main_arg9 (by decide)).trans rfl
theorem W8_main_arg10 (c : Dev nD) : W8 m ρ D0 D1 D2 D3 c (Proc.devRef .tc main_arg10) = m ((c : Thread nD τ).loc main_arg10) :=
  (W8_keep m ρ D0 D1 D2 D3 c main_arg10 (by decide)).trans <| (W7_keep m ρ D0 D1 D2 c main_arg10 (by decide)).trans <|
  (W6_keep m ρ D0 D1 D2 c main_arg10 (by decide)).trans <| (W5_keep m ρ D0 D1 c main_arg10 (by decide)).trans <|
  (W4_keep m ρ D0 D1 c main_arg10 (by decide)).trans <| (W3_keep m ρ D0 c main_arg10 (by decide)).trans <|
  (W2_keep m ρ D0 c main_arg10 (by decide)).trans <| (W1_keep m ρ c main_arg10 (by decide)).trans rfl
theorem W8_main_arg11 (c : Dev nD) : W8 m ρ D0 D1 D2 D3 c (Proc.devRef .tc main_arg11) = m ((c : Thread nD τ).loc main_arg11) :=
  (W8_keep m ρ D0 D1 D2 D3 c main_arg11 (by decide)).trans <| (W7_keep m ρ D0 D1 D2 c main_arg11 (by decide)).trans <|
  (W6_keep m ρ D0 D1 D2 c main_arg11 (by decide)).trans <| (W5_keep m ρ D0 D1 c main_arg11 (by decide)).trans <|
  (W4_keep m ρ D0 D1 c main_arg11 (by decide)).trans <| (W3_keep m ρ D0 c main_arg11 (by decide)).trans <|
  (W2_keep m ρ D0 c main_arg11 (by decide)).trans <| (W1_keep m ρ c main_arg11 (by decide)).trans rfl
theorem W8_main_arg12 (c : Dev nD) : W8 m ρ D0 D1 D2 D3 c (Proc.devRef .tc main_arg12) = m ((c : Thread nD τ).loc main_arg12) :=
  (W8_keep m ρ D0 D1 D2 D3 c main_arg12 (by decide)).trans <| (W7_keep m ρ D0 D1 D2 c main_arg12 (by decide)).trans <|
  (W6_keep m ρ D0 D1 D2 c main_arg12 (by decide)).trans <| (W5_keep m ρ D0 D1 c main_arg12 (by decide)).trans <|
  (W4_keep m ρ D0 D1 c main_arg12 (by decide)).trans <| (W3_keep m ρ D0 c main_arg12 (by decide)).trans <|
  (W2_keep m ρ D0 c main_arg12 (by decide)).trans <| (W1_keep m ρ c main_arg12 (by decide)).trans rfl
theorem W8_main_arg13 (c : Dev nD) : W8 m ρ D0 D1 D2 D3 c (Proc.devRef .tc main_arg13) = m ((c : Thread nD τ).loc main_arg13) :=
  (W8_keep m ρ D0 D1 D2 D3 c main_arg13 (by decide)).trans <| (W7_keep m ρ D0 D1 D2 c main_arg13 (by decide)).trans <|
  (W6_keep m ρ D0 D1 D2 c main_arg13 (by decide)).trans <| (W5_keep m ρ D0 D1 c main_arg13 (by decide)).trans <|
  (W4_keep m ρ D0 D1 c main_arg13 (by decide)).trans <| (W3_keep m ρ D0 c main_arg13 (by decide)).trans <|
  (W2_keep m ρ D0 c main_arg13 (by decide)).trans <| (W1_keep m ρ c main_arg13 (by decide)).trans rfl
theorem W8_main_arg14 (c : Dev nD) : W8 m ρ D0 D1 D2 D3 c (Proc.devRef .tc main_arg14) = m ((c : Thread nD τ).loc main_arg14) :=
  (W8_keep m ρ D0 D1 D2 D3 c main_arg14 (by decide)).trans <| (W7_keep m ρ D0 D1 D2 c main_arg14 (by decide)).trans <|
  (W6_keep m ρ D0 D1 D2 c main_arg14 (by decide)).trans <| (W5_keep m ρ D0 D1 c main_arg14 (by decide)).trans <|
  (W4_keep m ρ D0 D1 c main_arg14 (by decide)).trans <| (W3_keep m ρ D0 c main_arg14 (by decide)).trans <|
  (W2_keep m ρ D0 c main_arg14 (by decide)).trans <| (W1_keep m ρ c main_arg14 (by decide)).trans rfl
theorem W8_main_arg15 (c : Dev nD) : W8 m ρ D0 D1 D2 D3 c (Proc.devRef .tc main_arg15) = m ((c : Thread nD τ).loc main_arg15) :=
  (W8_keep m ρ D0 D1 D2 D3 c main_arg15 (by decide)).trans <| (W7_keep m ρ D0 D1 D2 c main_arg15 (by decide)).trans <|
  (W6_keep m ρ D0 D1 D2 c main_arg15 (by decide)).trans <| (W5_keep m ρ D0 D1 c main_arg15 (by decide)).trans <|
  (W4_keep m ρ D0 D1 c main_arg15 (by decide)).trans <| (W3_keep m ρ D0 c main_arg15 (by decide)).trans <|
  (W2_keep m ρ D0 c main_arg15 (by decide)).trans <| (W1_keep m ρ c main_arg15 (by decide)).trans rfl
theorem W8_main_arg16 (c : Dev nD) : W8 m ρ D0 D1 D2 D3 c (Proc.devRef .tc main_arg16) = m ((c : Thread nD τ).loc main_arg16) :=
  (W8_keep m ρ D0 D1 D2 D3 c main_arg16 (by decide)).trans <| (W7_keep m ρ D0 D1 D2 c main_arg16 (by decide)).trans <|
  (W6_keep m ρ D0 D1 D2 c main_arg16 (by decide)).trans <| (W5_keep m ρ D0 D1 c main_arg16 (by decide)).trans <|
  (W4_keep m ρ D0 D1 c main_arg16 (by decide)).trans <| (W3_keep m ρ D0 c main_arg16 (by decide)).trans <|
  (W2_keep m ρ D0 c main_arg16 (by decide)).trans <| (W1_keep m ρ c main_arg16 (by decide)).trans rfl

/-! ## @main as segments, and the launch -/

/-- @main's 8 segments in order: a host segment per stretch from its boundary's contents, a region per kernel call. -/
abbrev segs : List (Pipeline.Seg (pcfgs (F := F)) adm (pdats m ρ D0 D1 D2 D3) () defs₀ 𝒱₀ L lv) :=
  [ .host (hseg hostOps0 hostOps0_sub hostOps0_fresh (W0 m ρ)),
    .region (reg0 m ρ D0 D1 D2 D3),
    .host (hseg hostOps1 hostOps1_sub hostOps1_fresh (W2 m ρ D0)),
    .region (reg1 m ρ D0 D1 D2 D3),
    .host (hseg hostOps2 hostOps2_sub hostOps2_fresh (W4 m ρ D0 D1)),
    .region (reg2 m ρ D0 D1 D2 D3),
    .host (hseg hostOps3 hostOps3_sub hostOps3_fresh (W6 m ρ D0 D1 D2)),
    .region (reg3 m ρ D0 D1 D2 D3) ]
/-- @main IS the run of the segments: @main is the chain of its stretches and calls, and each host segment's
    program is its stretch run in order. -/
theorem main_run (c : Dev nD) : main (F := F) c = Pipeline.Seg.run (segs m ρ D0 D1 D2 D3) :=
  main_segs adm (pdats m ρ D0 D1 D2 D3) () 𝒱₀ L lv _ _ _ _ (reg0 m ρ D0 D1 D2 D3) (reg1 m ρ D0 D1 D2 D3) (reg2 m ρ D0 D1 D2 D3) (reg3 m ρ D0 D1 D2 D3) rfl rfl rfl rfl c

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state every unscoped buffer holds the last
    boundary's contents `W8`: the launch over the segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ D0 D1 D2 D3 c b) :=
  Pipeline.θ_run_regions_kit (pcfgs (F := F)) adm (pdats m ρ D0 D1 D2 D3) () cellOf_inj emb₁ defs₀ 𝒱₀ L lv m ρ main (segs m ρ D0 D1 D2 D3)
    (fun c Q => by rw [main_run m ρ D0 D1 D2 D3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D0 D1 D2 D3)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ D0 D1 D2 D3 c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ D0 D1 D2 D3 c) s')
      isplitl [Hh] <;> iassumption)
    (hQ := fun _ h => h)

include D0 D1 D2 D3 in
/-- THE FRAME: every argument array ends holding its launch contents — each argument's buffer is unscoped, so it
    ends at the last boundary's contents, which for an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W8_main_arg0 m ρ D0 D1 D2 D3 c),
      (h c _ (mem_uc main_arg1 (by decide))).trans (W8_main_arg1 m ρ D0 D1 D2 D3 c),
      (h c _ (mem_uc main_arg2 (by decide))).trans (W8_main_arg2 m ρ D0 D1 D2 D3 c),
      (h c _ (mem_uc main_arg3 (by decide))).trans (W8_main_arg3 m ρ D0 D1 D2 D3 c),
      (h c _ (mem_uc main_arg4 (by decide))).trans (W8_main_arg4 m ρ D0 D1 D2 D3 c),
      (h c _ (mem_uc main_arg5 (by decide))).trans (W8_main_arg5 m ρ D0 D1 D2 D3 c),
      (h c _ (mem_uc main_arg6 (by decide))).trans (W8_main_arg6 m ρ D0 D1 D2 D3 c),
      (h c _ (mem_uc main_arg7 (by decide))).trans (W8_main_arg7 m ρ D0 D1 D2 D3 c),
      (h c _ (mem_uc main_arg8 (by decide))).trans (W8_main_arg8 m ρ D0 D1 D2 D3 c),
      (h c _ (mem_uc main_arg9 (by decide))).trans (W8_main_arg9 m ρ D0 D1 D2 D3 c),
      (h c _ (mem_uc main_arg10 (by decide))).trans (W8_main_arg10 m ρ D0 D1 D2 D3 c),
      (h c _ (mem_uc main_arg11 (by decide))).trans (W8_main_arg11 m ρ D0 D1 D2 D3 c),
      (h c _ (mem_uc main_arg12 (by decide))).trans (W8_main_arg12 m ρ D0 D1 D2 D3 c),
      (h c _ (mem_uc main_arg13 (by decide))).trans (W8_main_arg13 m ρ D0 D1 D2 D3 c),
      (h c _ (mem_uc main_arg14 (by decide))).trans (W8_main_arg14 m ρ D0 D1 D2 D3 c),
      (h c _ (mem_uc main_arg15 (by decide))).trans (W8_main_arg15 m ρ D0 D1 D2 D3 c),
      (h c _ (mem_uc main_arg16 (by decide))).trans (W8_main_arg16 m ρ D0 D1 D2 D3 c)⟩) (run m ρ D0 D1 D2 D3)

/-- info: 'Cert.Kernel.Hand.run' depends on axioms: [propext, Classical.choice, Quot.sound] -/
#guard_msgs in #print axioms run
/-- info: 'Cert.Kernel.Hand.frame' depends on axioms: [propext, Classical.choice, Quot.sound] -/
#guard_msgs in #print axioms frame

end Cert.Kernel.Hand

end
-- ==== Proof.ApplyK.lean ====
/- The APPLY regions of the two-layer graph network (pipelines 1 and 3), their class-A frame half, at any float
   model `F` and at a PARAMETER `V` (the TensorCore's buffer contents when the region is entered): each window's
   block at a grid point, what the body leaves in the output window's staging buffer (one whole-buffer store, so the
   stored payload itself), the body's triple by symbolic execution of its skeleton, the pipeline's proof data and
   the body obligation at every point. -/
import proofs.«143642_j88098369176165_1_alg».proof.Proof.LaunchK
import proofs.«143642_j88098369176165_1_alg».proof.Proof.Gen.Kernel.Skeleton
import proofs.«143642_j88098369176165_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 x 128 extents recurses once per coordinate of the long axis
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter both regions' halves are stated at
variable (V : (c : Dev nD) → (b : Ref sig .tc) → Buf (Elt F) ((c : Thread nD τ).loc b))

/-! # The apply region of pipeline 1 (`cc1__apply_kernel`), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is `V`'s and whose body leaves the block in place: unfetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for any proof
    data whose array is `V`'s and whose body leaves the block in place: unfetched, the block index has not moved. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The whole 4000 x 128 output staging buffer as one rectangle: the body's single store goes through it. -/
abbrev rOut1 : Rect S4000x128 := (Rect.unit (s := S4000x128) ![0, 0] S4000x128.size inb_S4000x128_S4000x128_0_0)

/-- Window 11's staging buffer after the body, from the eleven input blocks: its one store as a single piece,
    whose payload is the second linear layer's value over the first part's (the skeleton's payloads). -/
def out1_11 (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) : Vec F S4000x128 .f32 :=
  View.canon [⟨rOut1, k1_pay1 (k1_pay2 (View.ld x2 (Rect.unit (s := S1x1) ![0, 0] S1x1.size inb_S1x1_S1x1_0_0)) (View.ld x0 (Rect.unit (s := S4000x128) ![0, 0] S4000x128.size inb_S4000x128_S4000x128_0_0)) (View.ld x1 (Rect.unit (s := S4000x128) ![0, 0] S4000x128.size inb_S4000x128_S4000x128_0_0)) (View.ld x3 (Rect.unit (s := S128x128) ![0, 0] S128x128.size inb_S128x128_S128x128_0_0)) (View.ld x4 (Rect.unit (s := S1x128) ![0, 0] S1x128.size inb_S1x128_S1x128_0_0)) (View.ld x6 (Rect.unit (s := S1x128) ![0, 0] S1x128.size inb_S1x128_S1x128_0_0)) (View.ld x5 (Rect.unit (s := S1x128) ![0, 0] S1x128.size inb_S1x128_S1x128_0_0)) (View.ld x7 (Rect.unit (s := S1x128) ![0, 0] S1x128.size inb_S1x128_S1x128_0_0)) (View.ld x8 (Rect.unit (s := S1x128) ![0, 0] S1x128.size inb_S1x128_S1x128_0_0))) (Scalar.ofBits .f32 0x00000000#32) (View.ld x9 (Rect.unit (s := S128x128) ![0, 0] S128x128.size inb_S128x128_S128x128_0_0)) (View.ld x10 (Rect.unit (s := S1x128) ![0, 0] S1x128.size inb_S1x128_S1x128_0_0))⟩]

/-- The one store's rectangle is the whole buffer, so it covers it. -/
theorem cover1_11 (p0 : Vec F S4000x128 .f32) (y : S4000x128.Idx) :
    ∃ pc ∈ ([⟨rOut1, p0⟩] : List (View.Piece (Elt F) S4000x128 .f32)), y ∈ pc.1.set :=
  View.cover_of_tiled [⟨rOut1, p0⟩] S4000x128.size (by rfl) y

/-! ## The body's triple -/

set_option maxHeartbeats 1000000 in
/-- The kernel body on whole staging memrefs, the eleven inputs' at read contents `xW` and the output's at anything,
    runs to the continuation holding the inputs' as they were and the output's at `out1_11` of the inputs: the printed
    functions are their skeletons, which symbolic execution runs through the first part's call. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4000x128 .f32) (harg12 : arg12.IsWhole)
    (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9 arg10 harg10 arg11 harg11 arg12 harg12) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-! ## The pipeline's proof data -/

/-- The proof data of pipeline 1 on core `c`: the arrays as the region finds them (`V`); after the body at point
    `t` each input's buffer at its block and the output's at `out1_11` of the input blocks; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # The apply region of pipeline 3 (`cc3__apply_kernel`), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not, for any proof
    data whose array is `V`'s and whose body leaves the block in place: unfetched, the block index has not moved. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not, for any proof
    data whose array is `V`'s and whose body leaves the block in place: unfetched, the block index has not moved. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The whole 4000 x 128 output staging buffer as one rectangle: the body's single store goes through it. -/
abbrev rOut3 : Rect S4000x128 := (Rect.unit (s := S4000x128) ![0, 0] S4000x128.size inb_S4000x128_S4000x128_0_0)

/-- Window 11's staging buffer after the body, from the eleven input blocks: its one store as a single piece,
    whose payload is the second linear layer's value over the first part's (the skeleton's payloads). -/
def out3_11 (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) : Vec F S4000x128 .f32 :=
  View.canon [⟨rOut3, k3_pay1 (k3_pay2 (View.ld x2 (Rect.unit (s := S1x1) ![0, 0] S1x1.size inb_S1x1_S1x1_0_0)) (View.ld x0 (Rect.unit (s := S4000x128) ![0, 0] S4000x128.size inb_S4000x128_S4000x128_0_0)) (View.ld x1 (Rect.unit (s := S4000x128) ![0, 0] S4000x128.size inb_S4000x128_S4000x128_0_0)) (View.ld x3 (Rect.unit (s := S128x128) ![0, 0] S128x128.size inb_S128x128_S128x128_0_0)) (View.ld x4 (Rect.unit (s := S1x128) ![0, 0] S1x128.size inb_S1x128_S1x128_0_0)) (View.ld x6 (Rect.unit (s := S1x128) ![0, 0] S1x128.size inb_S1x128_S1x128_0_0)) (View.ld x5 (Rect.unit (s := S1x128) ![0, 0] S1x128.size inb_S1x128_S1x128_0_0)) (View.ld x7 (Rect.unit (s := S1x128) ![0, 0] S1x128.size inb_S1x128_S1x128_0_0)) (View.ld x8 (Rect.unit (s := S1x128) ![0, 0] S1x128.size inb_S1x128_S1x128_0_0))) (View.ld x9 (Rect.unit (s := S128x128) ![0, 0] S128x128.size inb_S128x128_S128x128_0_0)) (View.ld x10 (Rect.unit (s := S1x128) ![0, 0] S1x128.size inb_S1x128_S1x128_0_0))⟩]

/-- The one store's rectangle is the whole buffer, so it covers it. -/
theorem cover3_11 (p0 : Vec F S4000x128 .f32) (y : S4000x128.Idx) :
    ∃ pc ∈ ([⟨rOut3, p0⟩] : List (View.Piece (Elt F) S4000x128 .f32)), y ∈ pc.1.set :=
  View.cover_of_tiled [⟨rOut3, p0⟩] S4000x128.size (by rfl) y

/-! ## The body's triple -/

set_option maxHeartbeats 1000000 in
/-- The kernel body on whole staging memrefs, the eleven inputs' at read contents `xW` and the output's at anything,
    runs to the continuation holding the inputs' as they were and the output's at `out3_11` of the inputs: the printed
    functions are their skeletons, which symbolic execution runs through the first part's call. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4000x128 .f32) (harg12 : arg12.IsWhole)
    (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__apply_kernel i arg1 harg1 arg2 harg2 arg3 harg3 arg4 harg4 arg5 harg5 arg6 harg6 arg7 harg7 arg8 harg8 arg9 harg9 arg10 harg10 arg11 harg11 arg12 harg12) K := by
  simp only [cc3__apply_kernel_eq_skeleton]; unfold cc3__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data of pipeline 3 on core `c`: the arrays as the region finds them (`V`); after the body at point
    `t` each input's buffer at its block and the output's at `out3_11` of the input blocks; the class's invariant
    (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 1000000 in
/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.StatsBodyK.lean ====
/- The statistics kernels' bodies (pipelines 0 and 2), at any float values: the two branch conditions of the body
   (the first grid point resets the two scratch accumulators, the last copies them into the two outputs' buffers), one
   step of the running column sums and of the running column sums of squares, and the body's triple in each of the
   three control cases: a middle point, the first point, the last point. -/
import proofs.«143642_j88098369176165_1_alg».proof.Proof.LaunchK
import proofs.«143642_j88098369176165_1_alg».proof.Proof.Gen.Kernel.Skeleton
import proofs.«143642_j88098369176165_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

theorem off2_zero : (![0, 0] : Fin 2 → ℕ) = fun _ => 0 := by
  funext a; fin_cases a <;> rfl

theorem rd_S1x1 {κ : Kind} {sp : Space} {e : EltTy} (v : View sig κ sp S1x1 e) (f : v.ty.Contents (Elt F)) :
    View.readAt (Elt F) v (Rect.unit (s := S1x1) ![0, 0] S1x1.size inb_S1x1_S1x1_0_0).toLoadRect f = v.read (Elt F) f := by
  rw [View.readAt_eq_ld, View.ld_unit_zero off2_zero]

theorem rd_S4000x128 {κ : Kind} {sp : Space} {e : EltTy} (v : View sig κ sp S4000x128 e) (f : v.ty.Contents (Elt F)) :
    View.readAt (Elt F) v (Rect.unit (s := S4000x128) ![0, 0] S4000x128.size inb_S4000x128_S4000x128_0_0).toLoadRect f = v.read (Elt F) f := by
  rw [View.readAt_eq_ld, View.ld_unit_zero off2_zero]

theorem rd_S128x128 {κ : Kind} {sp : Space} {e : EltTy} (v : View sig κ sp S128x128 e) (f : v.ty.Contents (Elt F)) :
    View.readAt (Elt F) v (Rect.unit (s := S128x128) ![0, 0] S128x128.size inb_S128x128_S128x128_0_0).toLoadRect f = v.read (Elt F) f := by
  rw [View.readAt_eq_ld, View.ld_unit_zero off2_zero]

theorem rd_S1x128 {κ : Kind} {sp : Space} {e : EltTy} (v : View sig κ sp S1x128 e) (f : v.ty.Contents (Elt F)) :
    View.readAt (Elt F) v (Rect.unit (s := S1x128) ![0, 0] S1x128.size inb_S1x128_S1x128_0_0).toLoadRect f = v.read (Elt F) f := by
  rw [View.readAt_eq_ld, View.ld_unit_zero off2_zero]

theorem rc_S1x128 {κ : Kind} {sp : Space} {e : EltTy} (v : View sig κ sp S1x128 e) (w : S1x128.Idx → Elt F e) :
    v.readCov [(⟨Rect.unit (s := S1x128) ![0, 0] S1x128.size inb_S1x128_S1x128_0_0, w⟩ : View.Piece (Elt F) S1x128 e)]
      (Rect.unit (s := S1x128) ![0, 0] S1x128.size inb_S1x128_S1x128_0_0).toLoadRect = w :=
  View.readCov_unit_zero v off2_zero inb_S1x128_S1x128_0_0 w

theorem rw_S1x128 {κ : Kind} {sp : Space} {e : EltTy} (v : View sig κ sp S1x128 e) (f : v.ty.Contents (Elt F)) (w : S1x128.Idx → Elt F e)
    (L : List (View.Piece (Elt F) S1x128 e)) :
    v.read (Elt F) (v.writes (Elt F) f ((⟨Rect.unit (s := S1x128) ![0, 0] S1x128.size inb_S1x128_S1x128_0_0, w⟩ : View.Piece (Elt F) S1x128 e) :: L)) = w := by
  have hcov : ∀ y : S1x128.Idx, ∃ p ∈ ((⟨Rect.unit (s := S1x128) ![0, 0] S1x128.size inb_S1x128_S1x128_0_0, w⟩ : View.Piece (Elt F) S1x128 e) :: L), y ∈ p.1.set :=
    fun y => ⟨_, List.mem_cons_self, View.mem_set_unit_zero off2_zero inb_S1x128_S1x128_0_0 y⟩
  rw [View.read_writes_eq_canon v f _ hcov]
  exact View.canon_cons_unit_zero off2_zero inb_S1x128_S1x128_0_0 w L

/-! ## Pipeline 0: the body's branch conditions -/

/-- The condition of the body's first `scf.if`: the grid coordinate is 0. -/
abbrev cond0_0 (i : grid0.Coords) : Prop := (Scalar.cmpi .ne (Scalar.extui (Scalar.cmpi .eq (BitVec.ofNat 32 (i 0).val) 0#32)) 0#32) = 1#1
/-- The condition of the body's last `scf.if`: the grid coordinate is 24. -/
abbrev cond0_2 (i : grid0.Coords) : Prop := k0_cond2 i = 1#1

/-- The first holds at point 0 only, the last at point 24 only: decided over the 25 grid points. -/
theorem hcond0_0 : ∀ t : Fin cfg0.N, cond0_0 (grid0.coords t) ↔ t.val = 0 :=
  (by decide +kernel : ∀ t : Fin grid0.N, cond0_0 (grid0.coords t) ↔ t.val = 0)
theorem hcond0_2 : ∀ t : Fin cfg0.N, cond0_2 (grid0.coords t) ↔ t.val = 24 :=
  (by decide +kernel : ∀ t : Fin grid0.N, cond0_2 (grid0.coords t) ↔ t.val = 24)

/-! ## Pipeline 0: one step of the two running sums -/

/-- The column-sum accumulator after a point: what it held plus the column sums of the block's h1. -/
def stepS0 (eps : Vec F S1x1 .f32) (x agg : Vec F S4000x128 .f32) (wa : Vec F S128x128 .bf16) (ba prev : Vec F S1x128 .f32) :
    Vec F S1x128 .f32 := k0_pay5 eps x agg wa ba prev
/-- The accumulator of squares after a point: what it held plus the column sums of the block's h1 squared. -/
def stepQ0 (eps : Vec F S1x1 .f32) (x agg : Vec F S4000x128 .f32) (wa : Vec F S128x128 .bf16) (ba prev : Vec F S1x128 .f32) :
    Vec F S1x128 .f32 := k0_pay1 (k0_pay6 eps x agg wa ba prev)
/-- What the first point resets the two accumulators to. -/
def zeroS0 : Vec F S1x128 .f32 := k0_pay2
def zeroQ0 : Vec F S1x128 .f32 := k0_pay3

/-! ## Pipeline 0: the body's triple, one per control case -/

set_option maxHeartbeats 1000000 in
/-- A point that is neither the first nor the last: both accumulators advance one step, the outputs' buffers are not touched. -/
theorem kernel_mid0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond0_0 i) (hc2 : ¬ cond0_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS0 eps x agg wa ba s) ∗ owns (c : Thread nD τ) arg9 fullShare (stepQ0 eps x agg wa ba q))
            -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  unfold owns stepS0 stepQ0
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf1 hf2 hf3 hf4 hf5 hf8 hf9
  sl_exec (disch := first | exact hc0 | exact hc2)
  unfold kernel_mid0.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The first point: both accumulators are reset, then advance one step from the reset value. -/
theorem kernel_first0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : cond0_0 i) (hc2 : ¬ cond0_2 i)
    (eps : Vec F S1x1 .f32) (x agg : Vec F S4000x128 .f32) (wa : Vec F S128x128 .bf16) (ba : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg8 fullShare d) ∗ (∃ d, owns (c : Thread nD τ) arg9 fullShare d)
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS0 eps x agg wa ba zeroS0) ∗ owns (c : Thread nD τ) arg9 fullShare (stepQ0 eps x agg wa ba zeroQ0))
            -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  unfold owns stepS0 stepQ0 zeroS0 zeroQ0
  iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf1 hf2 hf3 hf4 hf5
  sl_exec (disch := first | exact hc0 | exact hc2)
  unfold kernel_first0.sl.v21 kernel_first0.sl.H8_1 kernel_first0.sl.H9_1 kernel_first0.sl.r
  unfold kernel_first0.sl.v28
  unfold kernel_first0.sl.H9_1
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The last point: both accumulators advance one step and are then copied whole into the two outputs' buffers. -/
theorem kernel_last0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond0_0 i) (hc2 : cond0_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg6 fullShare (stepS0 eps x agg wa ba s) ∗ owns (c : Thread nD τ) arg7 fullShare (stepQ0 eps x agg wa ba q)
            ∗ owns (c : Thread nD τ) arg8 fullShare (stepS0 eps x agg wa ba s) ∗ owns (c : Thread nD τ) arg9 fullShare (stepQ0 eps x agg wa ba q))
            -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  unfold owns stepS0 stepQ0
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf1 hf2 hf3 hf4 hf5 hf8 hf9
  sl_exec (disch := first | exact hc0 | exact hc2)
  unfold kernel_last0.sl.v39 kernel_last0.sl.v41 kernel_last0.sl.H8_1 kernel_last0.sl.H9_1
  unfold kernel_last0.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H7]
  · iexists _; isplitr
    swap; · iexact H7
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

/-! ## Pipeline 2: the body's branch conditions -/

/-- The condition of the body's first `scf.if`: the grid coordinate is 0. -/
abbrev cond2_0 (i : grid2.Coords) : Prop := (Scalar.cmpi .ne (Scalar.extui (Scalar.cmpi .eq (BitVec.ofNat 32 (i 0).val) 0#32)) 0#32) = 1#1
/-- The condition of the body's last `scf.if`: the grid coordinate is 24. -/
abbrev cond2_2 (i : grid2.Coords) : Prop := k2_cond2 i = 1#1

/-- The first holds at point 0 only, the last at point 24 only: decided over the 25 grid points. -/
theorem hcond2_0 : ∀ t : Fin cfg2.N, cond2_0 (grid2.coords t) ↔ t.val = 0 :=
  (by decide +kernel : ∀ t : Fin grid2.N, cond2_0 (grid2.coords t) ↔ t.val = 0)
theorem hcond2_2 : ∀ t : Fin cfg2.N, cond2_2 (grid2.coords t) ↔ t.val = 24 :=
  (by decide +kernel : ∀ t : Fin grid2.N, cond2_2 (grid2.coords t) ↔ t.val = 24)

/-! ## Pipeline 2: one step of the two running sums -/

/-- The column-sum accumulator after a point: what it held plus the column sums of the block's h1. -/
def stepS2 (eps : Vec F S1x1 .f32) (x agg : Vec F S4000x128 .f32) (wa : Vec F S128x128 .bf16) (ba prev : Vec F S1x128 .f32) :
    Vec F S1x128 .f32 := k2_pay5 eps x agg wa ba prev
/-- The accumulator of squares after a point: what it held plus the column sums of the block's h1 squared. -/
def stepQ2 (eps : Vec F S1x1 .f32) (x agg : Vec F S4000x128 .f32) (wa : Vec F S128x128 .bf16) (ba prev : Vec F S1x128 .f32) :
    Vec F S1x128 .f32 := k2_pay1 (k2_pay6 eps x agg wa ba prev)
/-- What the first point resets the two accumulators to. -/
def zeroS2 : Vec F S1x128 .f32 := k2_pay2
def zeroQ2 : Vec F S1x128 .f32 := k2_pay3

/-! ## Pipeline 2: the body's triple, one per control case -/

set_option maxHeartbeats 1000000 in
/-- A point that is neither the first nor the last: both accumulators advance one step, the outputs' buffers are not touched. -/
theorem kernel_mid2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond2_0 i) (hc2 : ¬ cond2_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS2 eps x agg wa ba s) ∗ owns (c : Thread nD τ) arg9 fullShare (stepQ2 eps x agg wa ba q))
            -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  unfold owns stepS2 stepQ2
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf1 hf2 hf3 hf4 hf5 hf8 hf9
  sl_exec (disch := first | exact hc0 | exact hc2)
  unfold kernel_mid2.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The first point: both accumulators are reset, then advance one step from the reset value. -/
theorem kernel_first2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : cond2_0 i) (hc2 : ¬ cond2_2 i)
    (eps : Vec F S1x1 .f32) (x agg : Vec F S4000x128 .f32) (wa : Vec F S128x128 .bf16) (ba : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg8 fullShare d) ∗ (∃ d, owns (c : Thread nD τ) arg9 fullShare d)
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS2 eps x agg wa ba zeroS2) ∗ owns (c : Thread nD τ) arg9 fullShare (stepQ2 eps x agg wa ba zeroQ2))
            -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  unfold owns stepS2 stepQ2 zeroS2 zeroQ2
  iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf1 hf2 hf3 hf4 hf5
  sl_exec (disch := first | exact hc0 | exact hc2)
  unfold kernel_first2.sl.v22 kernel_first2.sl.H8_1 kernel_first2.sl.H9_1 kernel_first2.sl.r
  unfold kernel_first2.sl.v29
  unfold kernel_first2.sl.H9_1
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The last point: both accumulators advance one step and are then copied whole into the two outputs' buffers. -/
theorem kernel_last2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond2_0 i) (hc2 : cond2_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg6 fullShare (stepS2 eps x agg wa ba s) ∗ owns (c : Thread nD τ) arg7 fullShare (stepQ2 eps x agg wa ba q)
            ∗ owns (c : Thread nD τ) arg8 fullShare (stepS2 eps x agg wa ba s) ∗ owns (c : Thread nD τ) arg9 fullShare (stepQ2 eps x agg wa ba q))
            -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  unfold owns stepS2 stepQ2
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf1 hf2 hf3 hf4 hf5 hf8 hf9
  sl_exec (disch := first | exact hc0 | exact hc2)
  unfold kernel_last2.sl.v40 kernel_last2.sl.v42 kernel_last2.sl.H8_1 kernel_last2.sl.H9_1
  unfold kernel_last2.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H7]
  · iexists _; isplitr
    swap; · iexact H7
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

end Cert.Kernel.Hand
end
-- ==== Proof.StatsK.lean ====
/- The statistics regions (pipelines 0 and 2) at a PARAMETER `V` (the TensorCore's buffer contents when the region
   is entered): each window's block at a grid point, what the two scratch accumulators hold after each point (the
   running column sums and sums of squares), the region invariant that carries the accumulators from point to
   point, the pipeline's proof data, the points at which the output windows are idle, and the body obligation at
   every point. -/
import proofs.«143642_j88098369176165_1_alg».proof.Proof.StatsBodyK

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Pipeline 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The inputs' buffers hold their blocks at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The running sums -/

/-- One step of the column-sum accumulator at point `t`, over what it held. -/
def stepSAt0 (c : Dev nD) (t : Fin cfg0.N) (prev : Vec F S1x128 .f32) : Vec F S1x128 .f32 :=
  stepS0 (iblk0 V c 2 t) (iblk0 V c 0 t) (iblk0 V c 1 t) (iblk0 V c 3 t) (iblk0 V c 4 t) prev
/-- One step of the accumulator of squares at point `t`, over what it held. -/
def stepQAt0 (c : Dev nD) (t : Fin cfg0.N) (prev : Vec F S1x128 .f32) : Vec F S1x128 .f32 :=
  stepQ0 (iblk0 V c 2 t) (iblk0 V c 0 t) (iblk0 V c 1 t) (iblk0 V c 3 t) (iblk0 V c 4 t) prev

/-- What the column-sum accumulator holds after point `n`: reset at point 0, one step per point. -/
def runS0 (c : Dev nD) : ℕ → Vec F S1x128 .f32
  | 0 => if h : 0 < cfg0.N then stepSAt0 V c ⟨0, h⟩ zeroS0 else zeroS0
  | n + 1 => if h : n + 1 < cfg0.N then stepSAt0 V c ⟨n + 1, h⟩ (runS0 c n) else runS0 c n
/-- What the accumulator of squares holds after point `n`. -/
def runQ0 (c : Dev nD) : ℕ → Vec F S1x128 .f32
  | 0 => if h : 0 < cfg0.N then stepQAt0 V c ⟨0, h⟩ zeroQ0 else zeroQ0
  | n + 1 => if h : n + 1 < cfg0.N then stepQAt0 V c ⟨n + 1, h⟩ (runQ0 c n) else runQ0 c n

theorem runS0_first (c : Dev nD) (t : Fin cfg0.N) (h : t.val = 0) : runS0 V c t.val = stepSAt0 V c t zeroS0 := by
  obtain ⟨n, hn⟩ := t; dsimp only at h; subst h; exact dif_pos hn
theorem runQ0_first (c : Dev nD) (t : Fin cfg0.N) (h : t.val = 0) : runQ0 V c t.val = stepQAt0 V c t zeroQ0 := by
  obtain ⟨n, hn⟩ := t; dsimp only at h; subst h; exact dif_pos hn
theorem runS0_pos (c : Dev nD) (t : Fin cfg0.N) (h : t.val ≠ 0) : runS0 V c t.val = stepSAt0 V c t (runS0 V c (t.val - 1)) := by
  obtain ⟨n, hn⟩ := t
  cases n with
  | zero => exact absurd rfl h
  | succ n => exact dif_pos hn
theorem runQ0_pos (c : Dev nD) (t : Fin cfg0.N) (h : t.val ≠ 0) : runQ0 V c t.val = stepQAt0 V c t (runQ0 V c (t.val - 1)) := by
  obtain ⟨n, hn⟩ := t
  cases n with
  | zero => exact absurd rfl h
  | succ n => exact dif_pos hn

/-! ## The region invariant: the scratch accumulators at the running sums -/

/-- Before the first point the class's invariant (every scoped buffer at anything, the generator register at some state);
    before point `n + 1` the two accumulators owned whole at the running sums after point `n`, the other scoped buffers
    and the generator register as before. -/
def PhiS0 (c : Dev nD) : ℕ → sProp 𝕄
  | 0 => Pipeline.ΦA spec0 c
  | n + 1 => iprop((owns (c : Thread nD τ) (Memref.whole cc0_scratch0 : Memref sig .tc .vmem S1x128 .f32) fullShare (runS0 V c n) ∗ owns (c : Thread nD τ) (Memref.whole cc0_scratch1 : Memref sig .tc .vmem S1x128 .f32) fullShare (runQ0 V c n))
      ∗ Pipeline.scopedRestBut (Ix := Unit) (Name := ℕ) (U := UR sig nD τ) (Lvl := ℕ) (Val := Elt F) spec0 c [cc0_scratch0, cc0_scratch1] ∗ (∃ r, prngReg c r))

theorem PhiS0_zero (c : Dev nD) (n : ℕ) (hz : n = 0) : PhiS0 V c n = Pipeline.ΦA spec0 c := by
  subst hz; rfl

theorem PhiS0_succ (c : Dev nD) (n : ℕ) :
    PhiS0 V c (n + 1) = iprop((owns (c : Thread nD τ) (Memref.whole cc0_scratch0 : Memref sig .tc .vmem S1x128 .f32) fullShare (runS0 V c n) ∗ owns (c : Thread nD τ) (Memref.whole cc0_scratch1 : Memref sig .tc .vmem S1x128 .f32) fullShare (runQ0 V c n))
      ∗ Pipeline.scopedRestBut (Ix := Unit) (Name := ℕ) (U := UR sig nD τ) (Lvl := ℕ) (Val := Elt F) spec0 c [cc0_scratch0, cc0_scratch1] ∗ (∃ r, prngReg c r)) := rfl

theorem PhiS0_pos (c : Dev nD) (n : ℕ) (hz : n ≠ 0) :
    PhiS0 V c n = iprop((owns (c : Thread nD τ) (Memref.whole cc0_scratch0 : Memref sig .tc .vmem S1x128 .f32) fullShare (runS0 V c (n - 1)) ∗ owns (c : Thread nD τ) (Memref.whole cc0_scratch1 : Memref sig .tc .vmem S1x128 .f32) fullShare (runQ0 V c (n - 1)))
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

/-- The class's invariant with the two accumulators taken out of the scoped rest, each owned whole at some contents. -/
theorem PhiA0_eq (c : Dev nD) :
    (Pipeline.ΦA spec0 c : sProp 𝕄)
      = iprop((((∃ d, owns (c : Thread nD τ) (Memref.whole cc0_scratch0 : Memref sig .tc .vmem S1x128 .f32) fullShare d) ∗ (∃ d, owns (c : Thread nD τ) (Memref.whole cc0_scratch1 : Memref sig .tc .vmem S1x128 .f32) fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [owns_whole]; try rfl

/-! ## The proof data -/

/-- The proof data of pipeline 0 on core `c`: the arrays as the region finds them; after the body each input's buffer at
    its block, the two outputs' at the running sums (stored only at the last point, where alone they are read);
    the invariant carries the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => runS0 V c t.val
    | ⟨6, _⟩ => runQ0 V c t.val
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = runS0 V c t.val := by dsimp only [dat0]
theorem after0_6 (c : Dev nD) (t : Fin cfg0.N) : (dat0 V c).after 6 t = runQ0 V c t.val := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi0_castSucc (c : Dev nD) (t : Fin cfg0.N) : (dat0 V c).Φ t.castSucc = PhiS0 V c t.val := by
  dsimp only [dat0]; simp only [Fin.coe_castSucc]
theorem Phi0_succ (c : Dev nD) (t : Fin cfg0.N) : (dat0 V c).Φ t.succ = PhiS0 V c (t.val + 1) := by
  dsimp only [dat0]; simp only [Fin.val_succ]

theorem Phi0_first (c : Dev nD) : (dat0 V c).Φ 0 = Pipeline.ΦA spec0 c := rfl

theorem Phi0_last (c : Dev nD) : (dat0 V c).Φ (Fin.last cfg0.N) ⊢ (Pipeline.ΦA spec0 c : sProp 𝕄) := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨⟨HS, HQ⟩, Hr, Hg⟩
  isplitl [HS HQ Hr]
  · isplitl [HS HQ]
    · isplitl [HS]
      · iexists _; iexact HS
      iexists _; iexact HQ
    iexact Hr
  iexact Hg

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_2 (grid0.coords t) → cfg0.idle 5 (grid0.coords t) = true := by decide +kernel
theorem idleAt0_6 : ∀ t : Fin cfg0.N, ¬cond0_2 (grid0.coords t) → cfg0.idle 6 (grid0.coords t) = true := by decide +kernel
theorem noFlush0_5 : ∀ t : Fin cfg0.N, ¬cond0_2 (grid0.coords t) → (cfg0.win 5).flush t = false := by decide +kernel
theorem noFlush0_6 : ∀ t : Fin cfg0.N, ¬cond0_2 (grid0.coords t) → (cfg0.win 6).flush t = false := by decide +kernel
theorem liveAt0_5 : ∀ t : Fin cfg0.N, cond0_2 (grid0.coords t) → cfg0.idle 5 (grid0.coords t) = false := by decide +kernel
theorem liveAt0_6 : ∀ t : Fin cfg0.N, cond0_2 (grid0.coords t) → cfg0.idle 6 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [Phi0_succ, PhiS0_succ, Phi0_castSucc]
  have hN : t.val < 25 := lt_of_lt_of_eq t.isLt (show cfg0.N = 25 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  by_cases h0 : t.val = 0
  · have hc0 : cond0_0 (grid0.coords t) := (hcond0_0 t).mpr h0
    have hc2 : ¬cond0_2 (grid0.coords t) := fun h => by have := (hcond0_2 t).mp h; omega
    rw [Dat.leavesExact_idle (dat0 V c) 5 t (idleAt0_5 t hc2) (noFlush0_5 t hc2),
      Dat.leavesExact_idle (dat0 V c) 6 t (idleAt0_6 t hc2) (noFlush0_6 t hc2)]
    rw [runS0_first V c t h0, runQ0_first V c t h0, PhiS0_zero V c _ h0, PhiA0_eq]
    unfold stepSAt0 stepQAt0
    iintro ⟨⟨⟨⟨HS, HQ⟩, Hr⟩, Hg⟩, Ho, ⟨%d0, H0⟩, ⟨%d1, H1⟩, ⟨%d2, H2⟩, ⟨%d3, H3⟩, ⟨%d4, H4⟩, H5, H6⟩
    iapply (kernel_first0 c Set.univ (grid0.coords t) _ _ _ _ _ _ _ _ _ _ _ _ _ _ _ _ _ _ hc0 hc2 _ _ _ _ _ _)
    isplitl [H0]; · iexact H0
    isplitl [H1]; · iexact H1
    isplitl [H2]; · iexact H2
    isplitl [H3]; · iexact H3
    isplitl [H4]; · iexact H4
    isplitl [HS]; · iexact HS
    isplitl [HQ]; · iexact HQ
    iintro ⟨H0, H1, H2, H3, H4, HS, HQ⟩
    isplitl [HS HQ Hr Hg]
    · isplitl [HS HQ]
      · isplitl [HS]; · iexact HS
        iexact HQ
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond0_0 (grid0.coords t) := fun h => h0 ((hcond0_0 t).mp h)
    by_cases h2 : t.val = 24
    · have hc2 : cond0_2 (grid0.coords t) := (hcond0_2 t).mpr h2
      rw [show (dat0 V c).leavesExact 5 t = owns (c : Thread nD τ) (st0_5 t) fullShare ((dat0 V c).after 5 t) from by
        unfold Dat.leavesExact; rw [liveAt0_5 t hc2], after0_5]
      rw [show (dat0 V c).leavesExact 6 t = owns (c : Thread nD τ) (st0_6 t) fullShare ((dat0 V c).after 6 t) from by
        unfold Dat.leavesExact; rw [liveAt0_6 t hc2], after0_6]
      rw [runS0_pos V c t h0, runQ0_pos V c t h0, PhiS0_pos V c _ h0]
      unfold stepSAt0 stepQAt0
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_last0 c Set.univ (grid0.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HQ]; · iexact HQ
      iintro ⟨H0, H1, H2, H3, H4, H5, H6, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond0_2 (grid0.coords t) := fun h => h2 ((hcond0_2 t).mp h)
      rw [Dat.leavesExact_idle (dat0 V c) 5 t (idleAt0_5 t hc2) (noFlush0_5 t hc2),
        Dat.leavesExact_idle (dat0 V c) 6 t (idleAt0_6 t hc2) (noFlush0_6 t hc2)]
      rw [runS0_pos V c t h0, runQ0_pos V c t h0, PhiS0_pos V c _ h0]
      unfold stepSAt0 stepQAt0
      iintro ⟨⟨⟨HS, HQ⟩, Hr, Hg⟩, Ho, ⟨%d0, H0⟩, ⟨%d1, H1⟩, ⟨%d2, H2⟩, ⟨%d3, H3⟩, ⟨%d4, H4⟩, H5, H6⟩
      iapply (kernel_mid0 c Set.univ (grid0.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [HS]; · iexact HS
      isplitl [HQ]; · iexact HQ
      iintro ⟨H0, H1, H2, H3, H4, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Pipeline 2 at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The inputs' buffers hold their blocks at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The running sums -/

/-- One step of the column-sum accumulator at point `t`, over what it held. -/
def stepSAt2 (c : Dev nD) (t : Fin cfg2.N) (prev : Vec F S1x128 .f32) : Vec F S1x128 .f32 :=
  stepS2 (iblk2 V c 2 t) (iblk2 V c 0 t) (iblk2 V c 1 t) (iblk2 V c 3 t) (iblk2 V c 4 t) prev
/-- One step of the accumulator of squares at point `t`, over what it held. -/
def stepQAt2 (c : Dev nD) (t : Fin cfg2.N) (prev : Vec F S1x128 .f32) : Vec F S1x128 .f32 :=
  stepQ2 (iblk2 V c 2 t) (iblk2 V c 0 t) (iblk2 V c 1 t) (iblk2 V c 3 t) (iblk2 V c 4 t) prev

/-- What the column-sum accumulator holds after point `n`: reset at point 0, one step per point. -/
def runS2 (c : Dev nD) : ℕ → Vec F S1x128 .f32
  | 0 => if h : 0 < cfg2.N then stepSAt2 V c ⟨0, h⟩ zeroS2 else zeroS2
  | n + 1 => if h : n + 1 < cfg2.N then stepSAt2 V c ⟨n + 1, h⟩ (runS2 c n) else runS2 c n
/-- What the accumulator of squares holds after point `n`. -/
def runQ2 (c : Dev nD) : ℕ → Vec F S1x128 .f32
  | 0 => if h : 0 < cfg2.N then stepQAt2 V c ⟨0, h⟩ zeroQ2 else zeroQ2
  | n + 1 => if h : n + 1 < cfg2.N then stepQAt2 V c ⟨n + 1, h⟩ (runQ2 c n) else runQ2 c n

theorem runS2_first (c : Dev nD) (t : Fin cfg2.N) (h : t.val = 0) : runS2 V c t.val = stepSAt2 V c t zeroS2 := by
  obtain ⟨n, hn⟩ := t; dsimp only at h; subst h; exact dif_pos hn
theorem runQ2_first (c : Dev nD) (t : Fin cfg2.N) (h : t.val = 0) : runQ2 V c t.val = stepQAt2 V c t zeroQ2 := by
  obtain ⟨n, hn⟩ := t; dsimp only at h; subst h; exact dif_pos hn
theorem runS2_pos (c : Dev nD) (t : Fin cfg2.N) (h : t.val ≠ 0) : runS2 V c t.val = stepSAt2 V c t (runS2 V c (t.val - 1)) := by
  obtain ⟨n, hn⟩ := t
  cases n with
  | zero => exact absurd rfl h
  | succ n => exact dif_pos hn
theorem runQ2_pos (c : Dev nD) (t : Fin cfg2.N) (h : t.val ≠ 0) : runQ2 V c t.val = stepQAt2 V c t (runQ2 V c (t.val - 1)) := by
  obtain ⟨n, hn⟩ := t
  cases n with
  | zero => exact absurd rfl h
  | succ n => exact dif_pos hn

/-! ## The region invariant: the scratch accumulators at the running sums -/

/-- Before the first point the class's invariant (every scoped buffer at anything, the generator register at some state);
    before point `n + 1` the two accumulators owned whole at the running sums after point `n`, the other scoped buffers
    and the generator register as before. -/
def PhiS2 (c : Dev nD) : ℕ → sProp 𝕄
  | 0 => Pipeline.ΦA spec2 c
  | n + 1 => iprop((owns (c : Thread nD τ) (Memref.whole cc2_scratch0 : Memref sig .tc .vmem S1x128 .f32) fullShare (runS2 V c n) ∗ owns (c : Thread nD τ) (Memref.whole cc2_scratch1 : Memref sig .tc .vmem S1x128 .f32) fullShare (runQ2 V c n))
      ∗ Pipeline.scopedRestBut (Ix := Unit) (Name := ℕ) (U := UR sig nD τ) (Lvl := ℕ) (Val := Elt F) spec2 c [cc2_scratch0, cc2_scratch1] ∗ (∃ r, prngReg c r))

theorem PhiS2_zero (c : Dev nD) (n : ℕ) (hz : n = 0) : PhiS2 V c n = Pipeline.ΦA spec2 c := by
  subst hz; rfl

theorem PhiS2_succ (c : Dev nD) (n : ℕ) :
    PhiS2 V c (n + 1) = iprop((owns (c : Thread nD τ) (Memref.whole cc2_scratch0 : Memref sig .tc .vmem S1x128 .f32) fullShare (runS2 V c n) ∗ owns (c : Thread nD τ) (Memref.whole cc2_scratch1 : Memref sig .tc .vmem S1x128 .f32) fullShare (runQ2 V c n))
      ∗ Pipeline.scopedRestBut (Ix := Unit) (Name := ℕ) (U := UR sig nD τ) (Lvl := ℕ) (Val := Elt F) spec2 c [cc2_scratch0, cc2_scratch1] ∗ (∃ r, prngReg c r)) := rfl

theorem PhiS2_pos (c : Dev nD) (n : ℕ) (hz : n ≠ 0) :
    PhiS2 V c n = iprop((owns (c : Thread nD τ) (Memref.whole cc2_scratch0 : Memref sig .tc .vmem S1x128 .f32) fullShare (runS2 V c (n - 1)) ∗ owns (c : Thread nD τ) (Memref.whole cc2_scratch1 : Memref sig .tc .vmem S1x128 .f32) fullShare (runQ2 V c (n - 1)))
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The class's invariant with the two accumulators taken out of the scoped rest, each owned whole at some contents. -/
theorem PhiA2_eq (c : Dev nD) :
    (Pipeline.ΦA spec2 c : sProp 𝕄)
      = iprop((((∃ d, owns (c : Thread nD τ) (Memref.whole cc2_scratch0 : Memref sig .tc .vmem S1x128 .f32) fullShare d) ∗ (∃ d, owns (c : Thread nD τ) (Memref.whole cc2_scratch1 : Memref sig .tc .vmem S1x128 .f32) fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [owns_whole]; try rfl

/-! ## The proof data -/

/-- The proof data of pipeline 2 on core `c`: the arrays as the region finds them; after the body each input's buffer at
    its block, the two outputs' at the running sums (stored only at the last point, where alone they are read);
    the invariant carries the accumulators; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => runS2 V c t.val
    | ⟨6, _⟩ => runQ2 V c t.val
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = runS2 V c t.val := by dsimp only [dat2]
theorem after2_6 (c : Dev nD) (t : Fin cfg2.N) : (dat2 V c).after 6 t = runQ2 V c t.val := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem Phi2_castSucc (c : Dev nD) (t : Fin cfg2.N) : (dat2 V c).Φ t.castSucc = PhiS2 V c t.val := by
  dsimp only [dat2]; simp only [Fin.coe_castSucc]
theorem Phi2_succ (c : Dev nD) (t : Fin cfg2.N) : (dat2 V c).Φ t.succ = PhiS2 V c (t.val + 1) := by
  dsimp only [dat2]; simp only [Fin.val_succ]

theorem Phi2_first (c : Dev nD) : (dat2 V c).Φ 0 = Pipeline.ΦA spec2 c := rfl

theorem Phi2_last (c : Dev nD) : (dat2 V c).Φ (Fin.last cfg2.N) ⊢ (Pipeline.ΦA spec2 c : sProp 𝕄) := by
  rw [show (dat2 V c).Φ (Fin.last cfg2.N) = PhiS2 V c (Fin.last cfg2.N).val from rfl,
    PhiS2_pos V c _ (by rw [Fin.val_last]; have : cfg2.N = 25 := N_2; omega), PhiA2_eq]
  iintro ⟨⟨HS, HQ⟩, Hr, Hg⟩
  isplitl [HS HQ Hr]
  · isplitl [HS HQ]
    · isplitl [HS]
      · iexists _; iexact HS
      iexists _; iexact HQ
    iexact Hr
  iexact Hg

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_2 (grid2.coords t) → cfg2.idle 5 (grid2.coords t) = true := by decide +kernel
theorem idleAt2_6 : ∀ t : Fin cfg2.N, ¬cond2_2 (grid2.coords t) → cfg2.idle 6 (grid2.coords t) = true := by decide +kernel
theorem noFlush2_5 : ∀ t : Fin cfg2.N, ¬cond2_2 (grid2.coords t) → (cfg2.win 5).flush t = false := by decide +kernel
theorem noFlush2_6 : ∀ t : Fin cfg2.N, ¬cond2_2 (grid2.coords t) → (cfg2.win 6).flush t = false := by decide +kernel
theorem liveAt2_5 : ∀ t : Fin cfg2.N, cond2_2 (grid2.coords t) → cfg2.idle 5 (grid2.coords t) = false := by decide +kernel
theorem liveAt2_6 : ∀ t : Fin cfg2.N, cond2_2 (grid2.coords t) → cfg2.idle 6 (grid2.coords t) = false := by decide +kernel

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [Phi2_succ, PhiS2_succ, Phi2_castSucc]
  have hN : t.val < 25 := lt_of_lt_of_eq t.isLt (show cfg2.N = 25 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  by_cases h0 : t.val = 0
  · have hc0 : cond2_0 (grid2.coords t) := (hcond2_0 t).mpr h0
    have hc2 : ¬cond2_2 (grid2.coords t) := fun h => by have := (hcond2_2 t).mp h; omega
    rw [Dat.leavesExact_idle (dat2 V c) 5 t (idleAt2_5 t hc2) (noFlush2_5 t hc2),
      Dat.leavesExact_idle (dat2 V c) 6 t (idleAt2_6 t hc2) (noFlush2_6 t hc2)]
    rw [runS2_first V c t h0, runQ2_first V c t h0, PhiS2_zero V c _ h0, PhiA2_eq]
    unfold stepSAt2 stepQAt2
    iintro ⟨⟨⟨⟨HS, HQ⟩, Hr⟩, Hg⟩, Ho, ⟨%d0, H0⟩, ⟨%d1, H1⟩, ⟨%d2, H2⟩, ⟨%d3, H3⟩, ⟨%d4, H4⟩, H5, H6⟩
    iapply (kernel_first2 c Set.univ (grid2.coords t) _ _ _ _ _ _ _ _ _ _ _ _ _ _ _ _ _ _ hc0 hc2 _ _ _ _ _ _)
    isplitl [H0]; · iexact H0
    isplitl [H1]; · iexact H1
    isplitl [H2]; · iexact H2
    isplitl [H3]; · iexact H3
    isplitl [H4]; · iexact H4
    isplitl [HS]; · iexact HS
    isplitl [HQ]; · iexact HQ
    iintro ⟨H0, H1, H2, H3, H4, HS, HQ⟩
    isplitl [HS HQ Hr Hg]
    · isplitl [HS HQ]
      · isplitl [HS]; · iexact HS
        iexact HQ
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond2_0 (grid2.coords t) := fun h => h0 ((hcond2_0 t).mp h)
    by_cases h2 : t.val = 24
    · have hc2 : cond2_2 (grid2.coords t) := (hcond2_2 t).mpr h2
      rw [show (dat2 V c).leavesExact 5 t = owns (c : Thread nD τ) (st2_5 t) fullShare ((dat2 V c).after 5 t) from by
        unfold Dat.leavesExact; rw [liveAt2_5 t hc2], after2_5]
      rw [show (dat2 V c).leavesExact 6 t = owns (c : Thread nD τ) (st2_6 t) fullShare ((dat2 V c).after 6 t) from by
        unfold Dat.leavesExact; rw [liveAt2_6 t hc2], after2_6]
      rw [runS2_pos V c t h0, runQ2_pos V c t h0, PhiS2_pos V c _ h0]
      unfold stepSAt2 stepQAt2
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_last2 c Set.univ (grid2.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HQ]; · iexact HQ
      iintro ⟨H0, H1, H2, H3, H4, H5, H6, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond2_2 (grid2.coords t) := fun h => h2 ((hcond2_2 t).mp h)
      rw [Dat.leavesExact_idle (dat2 V c) 5 t (idleAt2_5 t hc2) (noFlush2_5 t hc2),
        Dat.leavesExact_idle (dat2 V c) 6 t (idleAt2_6 t hc2) (noFlush2_6 t hc2)]
      rw [runS2_pos V c t h0, runQ2_pos V c t h0, PhiS2_pos V c _ h0]
      unfold stepSAt2 stepQAt2
      iintro ⟨⟨⟨HS, HQ⟩, Hr, Hg⟩, Ho, ⟨%d0, H0⟩, ⟨%d1, H1⟩, ⟨%d2, H2⟩, ⟨%d3, H3⟩, ⟨%d4, H4⟩, H5, H6⟩
      iapply (kernel_mid2 c Set.univ (grid2.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [HS]; · iexact HS
      isplitl [HQ]; · iexact HQ
      iintro ⟨H0, H1, H2, H3, H4, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand
end
-- ==== Proof.DataK.lean ====
/-
  The four regions' proof data, bundled for the run: the two statistics regions (pipelines 0 and 2), whose invariant
  carries the two scratch accumulators between grid points, and the two apply regions (pipelines 1 and 3).
-/
import proofs.«143642_j88098369176165_1_alg».proof.Proof.RunK
import proofs.«143642_j88098369176165_1_alg».proof.Proof.ApplyK
import proofs.«143642_j88098369176165_1_alg».proof.Proof.StatsK

noncomputable section

namespace Cert.Kernel.Hand

open Cert.Kernel Cert.Kernel.Gen Cert.Kernel.GenP
open Idealize.ShloMosaic Idealize.ShloMosaic.TcCoe Idealize.SL Idealize.SL.Sem
open Idealize.ShloMosaic.Pipeline (Dat)

variable {F : FTy → Type} [FloatOps F]

/-- Pipeline 0: the first layer's statistics. -/
abbrev D0 : RegionData F cfg0 :=
  ⟨fun V c => dat0 V c, fun V c w => A_eq0 V c w, fun V c => body_obligation0 V c, fun _ _ _ => rfl, fun _ _ _ => rfl,
    fun _ _ _ => rfl, fun V c => Phi0_first V c, fun V c => Phi0_last V c⟩
/-- Pipeline 1: the first layer applied. -/
abbrev D1 : RegionData F cfg1 :=
  ⟨fun V c => dat1 V c, fun V c w => A_eq1 V c w, fun V c => body_obligation1 V c, fun _ _ _ => rfl, fun _ _ _ => rfl,
    fun _ _ _ => rfl, fun _ _ => rfl, fun _ _ => .rfl⟩
/-- Pipeline 2: the second layer's statistics. -/
abbrev D2 : RegionData F cfg2 :=
  ⟨fun V c => dat2 V c, fun V c w => A_eq2 V c w, fun V c => body_obligation2 V c, fun _ _ _ => rfl, fun _ _ _ => rfl,
    fun _ _ _ => rfl, fun V c => Phi2_first V c, fun V c => Phi2_last V c⟩
/-- Pipeline 3: the second layer applied. -/
abbrev D3 : RegionData F cfg3 :=
  ⟨fun V c => dat3 V c, fun V c w => A_eq3 V c w, fun V c => body_obligation3 V c, fun _ _ _ => rfl, fun _ _ _ => rfl,
    fun _ _ _ => rfl, fun _ _ => rfl, fun _ _ => .rfl⟩

end Cert.Kernel.Hand

end
-- ==== Proof.RunKI.lean ====
import proofs.«143642_j88098369176165_1_alg».proof.Proof.LaunchKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main: four kernel regions among four stretches of host operations

@main is eight segments in order: a stretch of host operations, then a kernel region, four times over. This
module composes them. It is written over the regions' proof data as PARAMETERS (`RegionData`): for each
region, at any contents `V` of the core's buffers when the region is entered, the proof data, the fact that
their entry arrays are read off `V`, the body obligation, and that the body owes nothing, records no wait of
its own, holds every array at the full share, and keeps the class invariant `ΦA` (the generator register and
the scoped rest).

From these: the buffer contents at each of the nine segment boundaries (a fold from the launch memory: a
stretch's `StableHlo.after`, a region's arrays at what its write-backs leave), the proof-data family, each
region as a segment over the thread state "every unscoped buffer at the boundary's contents, the generator
register at some state, nothing owed", and the launch: every unscoped buffer ends at the last boundary's
contents. The arguments are then read back through the fold to the launch memory. -/

-- membership in a rectangle of production extents: the elaborator's structural look recurses once per
-- coordinate of the long axes
set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

/-- The TensorCores' buffer contents at a segment boundary, read at the TensorCore's references: what a
    region's proof data are stated at. -/
abbrev VTy (F : FTy → Type) : Type := (c : Dev nD) → (b : Ref sig .tc) → Buf (Elt F) ((c : Thread nD τ).loc b)

/-- What the run takes of one kernel region (pipeline configuration `cfg`), at any entry contents `V`:
    the proof data on each core; their entry arrays are `V`'s; the body obligation; the body owes nothing at
    any point and bounds the recorded waits by nothing; every array is held at the full share; the invariant
    before the first point is the class invariant `ΦA`, and the invariant after the last point gives it back. -/
structure RegionData (F : FTy → Type) [FloatOps F] (cfg : Pipeline.Cfg sig Λ₀) where
  dat : VTy F → (c : Dev nD) → Dat τ (Elt F) Unit ℕ (UR sig nD τ) ℕ cfg c
  hA : ∀ V c (w : Fin cfg.W), (dat V c).A w = V c (Pipeline.arrRef cfg.spec w)
  hbody : ∀ V c, Pipeline.BodyObligation (dat V c) (defs₀ (F := F)) Variants.none () Set.univ
  howed : ∀ V c t, (dat V c).owed t = 0
  hrec : ∀ V c t, (dat V c).recorded t = Set.univ
  hq : ∀ V c w, (dat V c).q w = fullShare
  hΦin : ∀ V c, (dat V c).Φ 0 = Pipeline.ΦA cfg.spec c
  hΦout : ∀ V c, (dat V c).Φ (Fin.last cfg.N) ⊢ (Pipeline.ΦA cfg.spec c : sProp (MT nD τ sig Unit (Elt F) ℕ (UR sig nD τ) ℕ))

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (D0 : RegionData F cfg0) (D1 : RegionData F cfg1) (D2 : RegionData F cfg2) (D3 : RegionData F cfg3)

/-! ## What the host stretches write, and that they allocate nothing -/

/-- No operation of `hostOps0` allocates a buffer. -/
theorem hostOps0_fresh : (hostOps0 : List (HloOp τ sig (Elt F))).Forall fun op => op.fresh = ∅ := by
  simp only [List.Forall]; repeat' constructor
/-- The references `hostOps0`'s operations write: each operation's one result. -/
abbrev hostOps0_W : List (Ref sig .tc) := [main_c, main_v0, main_v1, main_c_0, main_v2, main_v3, main_v4, main_v5, main_v6, main_cst, main_v7, main_v8, main_v9, main_v10, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write: each operation's one result. -/
abbrev hostOps1_W : List (Ref sig .tc) := [main_cst_1, main_v18, main_v19, main_cst_2, main_v20, main_v21, main_v22, main_v23]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write: each operation's one result. -/
abbrev hostOps2_W : List (Ref sig .tc) := [main_c_3, main_v25, main_v26, main_c_4, main_v27, main_v28, main_v29, main_v30, main_v31, main_cst_5, main_v32, main_v33, main_v34, main_v35, main_v36, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write: each operation's one result. -/
abbrev hostOps3_W : List (Ref sig .tc) := [main_cst_6, main_v43, main_v44, main_cst_7, main_v45, main_v46, main_v47, main_v48]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : VTy F := fun c b => W1 m ρ c b
/-- A reference `hostOps0` does not write holds after the stretch what it held before. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (D0.dat (V1 m ρ) c).arrAt w cfg0.N
theorem W2_arr (c : Dev nD) (w : Fin cfg0.W) :
    W2 m ρ D0 c (Proc.devRef .tc (Pipeline.arrRef spec0 w)) = (D0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ D0 c (Proc.devRef .tc b) = W1 m ρ c (Proc.devRef .tc b) := by
  unfold W2; exact Pipeline.withArrays_of_ne spec0 c _ _ b hb
/-- The same read at the TensorCore's references (region 0's exit contents). -/
abbrev V2 : VTy F := fun c b => W2 m ρ D0 c b
/-- At region 0's exit each of its arrays holds what the pipeline leaves (`hF0`) and every other buffer what it
    held at entry (`hrest0`). -/
theorem hF0 (c : Dev nD) (w : Fin cfg0.W) : (D0.dat (V1 m ρ) c).arrAt w cfg0.N = V2 m ρ D0 c (Pipeline.arrRef spec0 w) :=
  (W2_arr m ρ D0 c w).symm
theorem hrest0 (c : Dev nD) : ∀ b, b ∉ Finset.univ.image (Pipeline.arrRef spec0) → V2 m ρ D0 c b = V1 m ρ c b :=
  fun b hb => W2_of_ne m ρ D0 c b fun w e => hb (Finset.mem_image.mpr ⟨w, Finset.mem_univ _, e⟩)

/-- After `hostOps1` (region 1's entry). -/
abbrev W3 : Dev nD → Valuation τ sig (Elt F) := fun c => StableHlo.after hostOps1 (W2 m ρ D0 c)
/-- The same read at the TensorCore's references (what region 1's proof data take). -/
abbrev V3 : VTy F := fun c b => W3 m ρ D0 c b
/-- A reference `hostOps1` does not write holds after the stretch what it held before. -/
theorem W3_keep (c : Dev nD) (r : Ref sig .tc) (h : r ∉ hostOps1_W) :
    W3 m ρ D0 c (Proc.devRef .tc r) = W2 m ρ D0 c (Proc.devRef .tc r) :=
  StableHlo.after_of_writes_sub hostOps1 _ hostOps1_writes h
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ D0 c) fun w => (D1.dat (V3 m ρ D0) c).arrAt w cfg1.N
theorem W4_arr (c : Dev nD) (w : Fin cfg1.W) :
    W4 m ρ D0 D1 c (Proc.devRef .tc (Pipeline.arrRef spec1 w)) = (D1.dat (V3 m ρ D0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ D0 D1 c (Proc.devRef .tc b) = W3 m ρ D0 c (Proc.devRef .tc b) := by
  unfold W4; exact Pipeline.withArrays_of_ne spec1 c _ _ b hb
/-- The same read at the TensorCore's references (region 1's exit contents). -/
abbrev V4 : VTy F := fun c b => W4 m ρ D0 D1 c b
/-- At region 1's exit each of its arrays holds what the pipeline leaves (`hF1`) and every other buffer what it
    held at entry (`hrest1`). -/
theorem hF1 (c : Dev nD) (w : Fin cfg1.W) : (D1.dat (V3 m ρ D0) c).arrAt w cfg1.N = V4 m ρ D0 D1 c (Pipeline.arrRef spec1 w) :=
  (W4_arr m ρ D0 D1 c w).symm
theorem hrest1 (c : Dev nD) : ∀ b, b ∉ Finset.univ.image (Pipeline.arrRef spec1) → V4 m ρ D0 D1 c b = V3 m ρ D0 c b :=
  fun b hb => W4_of_ne m ρ D0 D1 c b fun w e => hb (Finset.mem_image.mpr ⟨w, Finset.mem_univ _, e⟩)

/-- After `hostOps2` (region 2's entry). -/
abbrev W5 : Dev nD → Valuation τ sig (Elt F) := fun c => StableHlo.after hostOps2 (W4 m ρ D0 D1 c)
/-- The same read at the TensorCore's references (what region 2's proof data take). -/
abbrev V5 : VTy F := fun c b => W5 m ρ D0 D1 c b
/-- A reference `hostOps2` does not write holds after the stretch what it held before. -/
theorem W5_keep (c : Dev nD) (r : Ref sig .tc) (h : r ∉ hostOps2_W) :
    W5 m ρ D0 D1 c (Proc.devRef .tc r) = W4 m ρ D0 D1 c (Proc.devRef .tc r) :=
  StableHlo.after_of_writes_sub hostOps2 _ hostOps2_writes h
/-- At region 2's exit: its arrays at what the pipeline leaves (the inputs as entered, each output's write-backs
    folded: `Dat.arrAt … N`), every other buffer as entered. -/
def W6 (c : Dev nD) : Valuation τ sig (Elt F) :=
  Pipeline.withArrays spec2 c (W5 m ρ D0 D1 c) fun w => (D2.dat (V5 m ρ D0 D1) c).arrAt w cfg2.N
theorem W6_arr (c : Dev nD) (w : Fin cfg2.W) :
    W6 m ρ D0 D1 D2 c (Proc.devRef .tc (Pipeline.arrRef spec2 w)) = (D2.dat (V5 m ρ D0 D1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ D0 D1 D2 c (Proc.devRef .tc b) = W5 m ρ D0 D1 c (Proc.devRef .tc b) := by
  unfold W6; exact Pipeline.withArrays_of_ne spec2 c _ _ b hb
/-- The same read at the TensorCore's references (region 2's exit contents). -/
abbrev V6 : VTy F := fun c b => W6 m ρ D0 D1 D2 c b
/-- At region 2's exit each of its arrays holds what the pipeline leaves (`hF2`) and every other buffer what it
    held at entry (`hrest2`). -/
theorem hF2 (c : Dev nD) (w : Fin cfg2.W) : (D2.dat (V5 m ρ D0 D1) c).arrAt w cfg2.N = V6 m ρ D0 D1 D2 c (Pipeline.arrRef spec2 w) :=
  (W6_arr m ρ D0 D1 D2 c w).symm
theorem hrest2 (c : Dev nD) : ∀ b, b ∉ Finset.univ.image (Pipeline.arrRef spec2) → V6 m ρ D0 D1 D2 c b = V5 m ρ D0 D1 c b :=
  fun b hb => W6_of_ne m ρ D0 D1 D2 c b fun w e => hb (Finset.mem_image.mpr ⟨w, Finset.mem_univ _, e⟩)

/-- After `hostOps3` (region 3's entry). -/
abbrev W7 : Dev nD → Valuation τ sig (Elt F) := fun c => StableHlo.after hostOps3 (W6 m ρ D0 D1 D2 c)
/-- The same read at the TensorCore's references (what region 3's proof data take). -/
abbrev V7 : VTy F := fun c b => W7 m ρ D0 D1 D2 c b
/-- A reference `hostOps3` does not write holds after the stretch what it held before. -/
theorem W7_keep (c : Dev nD) (r : Ref sig .tc) (h : r ∉ hostOps3_W) :
    W7 m ρ D0 D1 D2 c (Proc.devRef .tc r) = W6 m ρ D0 D1 D2 c (Proc.devRef .tc r) :=
  StableHlo.after_of_writes_sub hostOps3 _ hostOps3_writes h
/-- At region 3's exit: its arrays at what the pipeline leaves (the inputs as entered, each output's write-backs
    folded: `Dat.arrAt … N`), every other buffer as entered. -/
def W8 (c : Dev nD) : Valuation τ sig (Elt F) :=
  Pipeline.withArrays spec3 c (W7 m ρ D0 D1 D2 c) fun w => (D3.dat (V7 m ρ D0 D1 D2) c).arrAt w cfg3.N
theorem W8_arr (c : Dev nD) (w : Fin cfg3.W) :
    W8 m ρ D0 D1 D2 D3 c (Proc.devRef .tc (Pipeline.arrRef spec3 w)) = (D3.dat (V7 m ρ D0 D1 D2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ D0 D1 D2 D3 c (Proc.devRef .tc b) = W7 m ρ D0 D1 D2 c (Proc.devRef .tc b) := by
  unfold W8; exact Pipeline.withArrays_of_ne spec3 c _ _ b hb
/-- The same read at the TensorCore's references (region 3's exit contents). -/
abbrev V8 : VTy F := fun c b => W8 m ρ D0 D1 D2 D3 c b
/-- At region 3's exit each of its arrays holds what the pipeline leaves (`hF3`) and every other buffer what it
    held at entry (`hrest3`). -/
theorem hF3 (c : Dev nD) (w : Fin cfg3.W) : (D3.dat (V7 m ρ D0 D1 D2) c).arrAt w cfg3.N = V8 m ρ D0 D1 D2 D3 c (Pipeline.arrRef spec3 w) :=
  (W8_arr m ρ D0 D1 D2 D3 c w).symm
theorem hrest3 (c : Dev nD) : ∀ b, b ∉ Finset.univ.image (Pipeline.arrRef spec3) → V8 m ρ D0 D1 D2 D3 c b = V7 m ρ D0 D1 D2 c b :=
  fun b hb => W8_of_ne m ρ D0 D1 D2 D3 c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the
    configuration pinned at a numeral reduces to the printed configuration. -/
def pdats : (p : Fin 4) → (c : Dev nD) → Dat τ (Elt F) Unit ℕ (UR sig nD τ) ℕ (Pipeline.pin (pcfgs (F := F)) adm p) c
  | ⟨0, _⟩ => fun c => D0.dat (V1 m ρ) c
  | ⟨1, _⟩ => fun c => D1.dat (V3 m ρ D0) c
  | ⟨2, _⟩ => fun c => D2.dat (V5 m ρ D0 D1) c
  | ⟨3, _⟩ => fun c => D3.dat (V7 m ρ D0 D1 D2) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tₙ (c : Dev nD) : sProp 𝕄 := iprop(StableHlo.held (c : Thread nD τ) (Pipeline.ucRefs τ sig) (W8 m ρ D0 D1 D2 D3 c) ∗ ∃ r, prngReg c r)

/-! ## The regions as segments -/

-- `iapply` of a library lemma stated over the pinned configuration unifies with it only when unification may
-- unfold plain definitions in a metavariable's type
set_option backward.isDefEq.respectTransparency.types false in
/-- REGION 0 over the thread state: entered from every unscoped buffer at `W1`, left at `W2`. Its arrays
    are split out of the unscoped buffers and put back at the exit contents; the generator register goes into the
    class invariant `ΦA` and comes out; nothing is owed; the kernel has no semaphore of its own. -/
def reg0 : Pipeline.RegionSeg (pcfgs (F := F)) adm (pdats m ρ D0 D1 D2 D3) () defs₀ 𝒱₀ L lv 0 where
  win := launch0.win.to₀
  block_pos := launch0.block_pos
  stage_whole := launch0.stage_whole
  K := PEmpty
  osem k := k.elim
  ho := Pipeline.OwnSemFacts.none _
  hbody c := (D0.hbody (V1 m ρ) c).loose
  hwaits := Pipeline.hwaits_of_owed_zero _ _ _ _ L lv 0 fun c t => D0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ D0 c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ D0 D1 D2 D3) launch0.win launch0.arr_whole c
      ((pdats m ρ D0 D1 D2 D3 0 c).share_full fun w => D0.hq (V1 m ρ) c w) (V1 m ρ c) fun w => D0.hA (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 0 c).owed 0 = 0 from D0.howed (V1 m ρ) c 0]
      icases HO with ⟨%W, HO⟩; iexists W; isplitr
      · ipureintro
        exact fun x _ => Or.inl (show x ∈ (D0.dat (V1 m ρ) c).recorded 0 from by rw [D0.hrec]; trivial)
      iexact HO
    isplitl [Hp]; · iexact Hp
    iexact Hrest
  hin c := by
    rw [show (pdats m ρ D0 D1 D2 D3 0 c).Φ 0 = Pipeline.ΦA spec0 c from D0.hΦin (V1 m ρ) c]; unfold Pipeline.ΦA
    iintro ⟨Hp, -, Hr⟩
    isplitl [Hr]; · iexact Hr
    iexact Hp
  hout c := by
    rw [Pipeline.ownSems0_none]
    refine (show (pdats m ρ D0 D1 D2 D3 0 c).Φ (Fin.last _) ⊢ (Pipeline.ΦA spec0 c : sProp 𝕄) from D0.hΦout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ D0 D1 D2 D3) ((pdats m ρ D0 D1 D2 D3 0 c).share_full fun w => D0.hq (V1 m ρ) c w)
      (V1 m ρ c) (V2 m ρ D0 c) ((pdats m ρ D0 D1 D2 D3 0 c).arrAt · cfg0.N) (hF0 m ρ D0 c) (hrest0 m ρ D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 D3 0 c).owed (Fin.last (Pipeline.pin (pcfgs (F := F)) adm 0).N) = 0 from D0.howed (V1 m ρ) c _]
    icases HO with ⟨%W, -, HO⟩; iexists W; iexact HO

-- `iapply` of a library lemma stated over the pinned configuration unifies with it only when unification may
-- unfold plain definitions in a metavariable's type
set_option backward.isDefEq.respectTransparency.types false in
/-- REGION 1 over the thread state: entered from every unscoped buffer at `W3`, left at `W4`. Its arrays
    are split out of the unscoped buffers and put back at the exit contents; the generator register goes into the
    class invariant `ΦA` and comes out; nothing is owed; the kernel has no semaphore of its own. -/
def reg1 : Pipeline.RegionSeg (pcfgs (F := F)) adm (pdats m ρ D0 D1 D2 D3) () defs₀ 𝒱₀ L lv 1 where
  win := launch1.win.to₀
  block_pos := launch1.block_pos
  stage_whole := launch1.stage_whole
  K := PEmpty
  osem k := k.elim
  ho := Pipeline.OwnSemFacts.none _
  hbody c := (D1.hbody (V3 m ρ D0) c).loose
  hwaits := Pipeline.hwaits_of_owed_zero _ _ _ _ L lv 1 fun c t => D1.howed (V3 m ρ D0) c t
  pre c := iprop(StableHlo.held (c : Thread nD τ) (Pipeline.ucRefs τ sig) (W3 m ρ D0 c) ∗ R c)
  post c := iprop(StableHlo.held (c : Thread nD τ) (Pipeline.ucRefs τ sig) (W4 m ρ D0 D1 c) ∗ R c)
  X c := iprop(∃ r, prngReg c r)
  Y c := iprop(∃ r, prngReg c r)
  Z c := Pipeline.unscopedRest (Ix := Unit) (Name := ℕ) (U := UR sig nD τ) (Lvl := ℕ) spec1 c (V3 m ρ D0 c)
  hentry c := by
    rw [Pipeline.ownSems0_none]
    have hsplit := Pipeline.arrays_of_unscopedBufs (p := 1) (pcfgs (F := F)) adm (pdats m ρ D0 D1 D2 D3) launch1.win launch1.arr_whole c
      ((pdats m ρ D0 D1 D2 D3 1 c).share_full fun w => D1.hq (V3 m ρ D0) c w) (V3 m ρ D0 c) fun w => D1.hA (V3 m ρ D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 1 c).owed 0 = 0 from D1.howed (V3 m ρ D0) c 0]
      icases HO with ⟨%W, HO⟩; iexists W; isplitr
      · ipureintro
        exact fun x _ => Or.inl (show x ∈ (D1.dat (V3 m ρ D0) c).recorded 0 from by rw [D1.hrec]; trivial)
      iexact HO
    isplitl [Hp]; · iexact Hp
    iexact Hrest
  hin c := by
    rw [show (pdats m ρ D0 D1 D2 D3 1 c).Φ 0 = Pipeline.ΦA spec1 c from D1.hΦin (V3 m ρ D0) c]; unfold Pipeline.ΦA
    iintro ⟨Hp, -, Hr⟩
    isplitl [Hr]; · iexact Hr
    iexact Hp
  hout c := by
    rw [Pipeline.ownSems0_none]
    refine (show (pdats m ρ D0 D1 D2 D3 1 c).Φ (Fin.last _) ⊢ (Pipeline.ΦA spec1 c : sProp 𝕄) from D1.hΦout (V3 m ρ D0) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ D0 D1 D2 D3) ((pdats m ρ D0 D1 D2 D3 1 c).share_full fun w => D1.hq (V3 m ρ D0) c w)
      (V3 m ρ D0 c) (V4 m ρ D0 D1 c) ((pdats m ρ D0 D1 D2 D3 1 c).arrAt · cfg1.N) (hF1 m ρ D0 D1 c) (hrest1 m ρ D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 D3 1 c).owed (Fin.last (Pipeline.pin (pcfgs (F := F)) adm 1).N) = 0 from D1.howed (V3 m ρ D0) c _]
    icases HO with ⟨%W, -, HO⟩; iexists W; iexact HO

-- `iapply` of a library lemma stated over the pinned configuration unifies with it only when unification may
-- unfold plain definitions in a metavariable's type
set_option backward.isDefEq.respectTransparency.types false in
/-- REGION 2 over the thread state: entered from every unscoped buffer at `W5`, left at `W6`. Its arrays
    are split out of the unscoped buffers and put back at the exit contents; the generator register goes into the
    class invariant `ΦA` and comes out; nothing is owed; the kernel has no semaphore of its own. -/
def reg2 : Pipeline.RegionSeg (pcfgs (F := F)) adm (pdats m ρ D0 D1 D2 D3) () defs₀ 𝒱₀ L lv 2 where
  win := launch2.win.to₀
  block_pos := launch2.block_pos
  stage_whole := launch2.stage_whole
  K := PEmpty
  osem k := k.elim
  ho := Pipeline.OwnSemFacts.none _
  hbody c := (D2.hbody (V5 m ρ D0 D1) c).loose
  hwaits := Pipeline.hwaits_of_owed_zero _ _ _ _ L lv 2 fun c t => D2.howed (V5 m ρ D0 D1) c t
  pre c := iprop(StableHlo.held (c : Thread nD τ) (Pipeline.ucRefs τ sig) (W5 m ρ D0 D1 c) ∗ R c)
  post c := iprop(StableHlo.held (c : Thread nD τ) (Pipeline.ucRefs τ sig) (W6 m ρ D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c (V5 m ρ D0 D1 c)
  hentry c := by
    rw [Pipeline.ownSems0_none]
    have hsplit := Pipeline.arrays_of_unscopedBufs (p := 2) (pcfgs (F := F)) adm (pdats m ρ D0 D1 D2 D3) launch2.win launch2.arr_whole c
      ((pdats m ρ D0 D1 D2 D3 2 c).share_full fun w => D2.hq (V5 m ρ D0 D1) c w) (V5 m ρ D0 D1 c) fun w => D2.hA (V5 m ρ D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 2 c).owed 0 = 0 from D2.howed (V5 m ρ D0 D1) c 0]
      icases HO with ⟨%W, HO⟩; iexists W; isplitr
      · ipureintro
        exact fun x _ => Or.inl (show x ∈ (D2.dat (V5 m ρ D0 D1) c).recorded 0 from by rw [D2.hrec]; trivial)
      iexact HO
    isplitl [Hp]; · iexact Hp
    iexact Hrest
  hin c := by
    rw [show (pdats m ρ D0 D1 D2 D3 2 c).Φ 0 = Pipeline.ΦA spec2 c from D2.hΦin (V5 m ρ D0 D1) c]; unfold Pipeline.ΦA
    iintro ⟨Hp, -, Hr⟩
    isplitl [Hr]; · iexact Hr
    iexact Hp
  hout c := by
    rw [Pipeline.ownSems0_none]
    refine (show (pdats m ρ D0 D1 D2 D3 2 c).Φ (Fin.last _) ⊢ (Pipeline.ΦA spec2 c : sProp 𝕄) from D2.hΦout (V5 m ρ D0 D1) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ D0 D1 D2 D3) ((pdats m ρ D0 D1 D2 D3 2 c).share_full fun w => D2.hq (V5 m ρ D0 D1) c w)
      (V5 m ρ D0 D1 c) (V6 m ρ D0 D1 D2 c) ((pdats m ρ D0 D1 D2 D3 2 c).arrAt · cfg2.N) (hF2 m ρ D0 D1 D2 c) (hrest2 m ρ D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ D0 D1 D2 D3 2 c).owed (Fin.last (Pipeline.pin (pcfgs (F := F)) adm 2).N) = 0 from D2.howed (V5 m ρ D0 D1) c _]
    icases HO with ⟨%W, -, HO⟩; iexists W; iexact HO

-- `iapply` of a library lemma stated over the pinned configuration unifies with it only when unification may
-- unfold plain definitions in a metavariable's type
set_option backward.isDefEq.respectTransparency.types false in
/-- REGION 3 over the thread state: entered from every unscoped buffer at `W7`, left at `W8`. Its arrays
    are split out of the unscoped buffers and put back at the exit contents; the generator register goes into the
    class invariant `ΦA` and comes out; nothing is owed; the kernel has no semaphore of its own. -/
def reg3 : Pipeline.RegionSeg (pcfgs (F := F)) adm (pdats m ρ D0 D1 D2 D3) () defs₀ 𝒱₀ L lv 3 where
  win := launch3.win.to₀
  block_pos := launch3.block_pos
  stage_whole := launch3.stage_whole
  K := PEmpty
  osem k := k.elim
  ho := Pipeline.OwnSemFacts.none _
  hbody c := (D3.hbody (V7 m ρ D0 D1 D2) c).loose
  hwaits := Pipeline.hwaits_of_owed_zero _ _ _ _ L lv 3 fun c t => D3.howed (V7 m ρ D0 D1 D2) c t
  pre c := iprop(StableHlo.held (c : Thread nD τ) (Pipeline.ucRefs τ sig) (W7 m ρ D0 D1 D2 c) ∗ R c)
  post c := iprop(Tₙ m ρ D0 D1 D2 D3 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ D0 D1 D2 c)
  hentry c := by
    rw [Pipeline.ownSems0_none]
    have hsplit := Pipeline.arrays_of_unscopedBufs (p := 3) (pcfgs (F := F)) adm (pdats m ρ D0 D1 D2 D3) launch3.win launch3.arr_whole c
      ((pdats m ρ D0 D1 D2 D3 3 c).share_full fun w => D3.hq (V7 m ρ D0 D1 D2) c w) (V7 m ρ D0 D1 D2 c) fun w => D3.hA (V7 m ρ D0 D1 D2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ D0 D1 D2 D3 3 c).owed 0 = 0 from D3.howed (V7 m ρ D0 D1 D2) c 0]
      icases HO with ⟨%W, HO⟩; iexists W; isplitr
      · ipureintro
        exact fun x _ => Or.inl (show x ∈ (D3.dat (V7 m ρ D0 D1 D2) c).recorded 0 from by rw [D3.hrec]; trivial)
      iexact HO
    isplitl [Hp]; · iexact Hp
    iexact Hrest
  hin c := by
    rw [show (pdats m ρ D0 D1 D2 D3 3 c).Φ 0 = Pipeline.ΦA spec3 c from D3.hΦin (V7 m ρ D0 D1 D2) c]; unfold Pipeline.ΦA
    iintro ⟨Hp, -, Hr⟩
    isplitl [Hr]; · iexact Hr
    iexact Hp
  hout c := by
    rw [Pipeline.ownSems0_none]
    refine (show (pdats m ρ D0 D1 D2 D3 3 c).Φ (Fin.last _) ⊢ (Pipeline.ΦA spec3 c : sProp 𝕄) from D3.hΦout (V7 m ρ D0 D1 D2) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ D0 D1 D2 D3) ((pdats m ρ D0 D1 D2 D3 3 c).share_full fun w => D3.hq (V7 m ρ D0 D1 D2) c w)
      (V7 m ρ D0 D1 D2 c) (V8 m ρ D0 D1 D2 D3 c) ((pdats m ρ D0 D1 D2 D3 3 c).arrAt · cfg3.N) (hF3 m ρ D0 D1 D2 D3 c) (hrest3 m ρ D0 D1 D2 D3 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ D0 D1 D2 D3 3 c).owed (Fin.last (Pipeline.pin (pcfgs (F := F)) adm 3).N) = 0 from D3.howed (V7 m ρ D0 D1 D2) c _]
    icases HO with ⟨%W, -, HO⟩; iexists W; iexact HO

/-! ## What a region leaves unchanged, and its outputs by name

A region's input windows read their arrays and never write them (`Dat.arrAt_in`), and a buffer no window stages
bypasses the region: after region K every buffer but its output arrays holds what it held at entry. -/

theorem W2_keep (c : Dev nD) (b : Ref sig .tc) (hb : b ≠ main_v17_0 ∧ b ≠ main_v17_1) :
    W2 m ρ D0 c (Proc.devRef .tc b) = W1 m ρ c (Proc.devRef .tc b) := by
  by_cases h : ∃ w, Pipeline.arrRef spec0 w = b
  · obtain ⟨w, rfl⟩ := h
    have key : ∀ w : Fin cfg0.W, (Pipeline.arrRef spec0 w ≠ main_v17_0 ∧ Pipeline.arrRef spec0 w ≠ main_v17_1) → (cfg0.win w).isOut = false := by decide
    exact (W2_arr m ρ D0 c w).trans (((D0.dat (V1 m ρ) c).arrAt_in w (key w hb) _).trans (D0.hA (V1 m ρ) c w))
  · exact W2_of_ne m ρ D0 c b fun w e => h ⟨w, e⟩
/-- Region 0's output `main_v17_0` (window 5) ends at what the pipeline's write-backs leave in it. -/
theorem W2_main_v17_0 (c : Dev nD) :
    W2 m ρ D0 c (Proc.devRef .tc main_v17_0) = (D0.dat (V1 m ρ) c).arrAt 5 cfg0.N :=
  W2_arr m ρ D0 c 5
/-- Region 0's output `main_v17_1` (window 6) ends at what the pipeline's write-backs leave in it. -/
theorem W2_main_v17_1 (c : Dev nD) :
    W2 m ρ D0 c (Proc.devRef .tc main_v17_1) = (D0.dat (V1 m ρ) c).arrAt 6 cfg0.N :=
  W2_arr m ρ D0 c 6

theorem W4_keep (c : Dev nD) (b : Ref sig .tc) (hb : b ≠ main_v24) :
    W4 m ρ D0 D1 c (Proc.devRef .tc b) = W3 m ρ D0 c (Proc.devRef .tc b) := by
  by_cases h : ∃ w, Pipeline.arrRef spec1 w = b
  · obtain ⟨w, rfl⟩ := h
    have key : ∀ w : Fin cfg1.W, (Pipeline.arrRef spec1 w ≠ main_v24) → (cfg1.win w).isOut = false := by decide
    exact (W4_arr m ρ D0 D1 c w).trans (((D1.dat (V3 m ρ D0) c).arrAt_in w (key w hb) _).trans (D1.hA (V3 m ρ D0) c w))
  · exact W4_of_ne m ρ D0 D1 c b fun w e => h ⟨w, e⟩
/-- Region 1's output `main_v24` (window 11) ends at what the pipeline's write-backs leave in it. -/
theorem W4_main_v24 (c : Dev nD) :
    W4 m ρ D0 D1 c (Proc.devRef .tc main_v24) = (D1.dat (V3 m ρ D0) c).arrAt 11 cfg1.N :=
  W4_arr m ρ D0 D1 c 11

theorem W6_keep (c : Dev nD) (b : Ref sig .tc) (hb : b ≠ main_v42_0 ∧ b ≠ main_v42_1) :
    W6 m ρ D0 D1 D2 c (Proc.devRef .tc b) = W5 m ρ D0 D1 c (Proc.devRef .tc b) := by
  by_cases h : ∃ w, Pipeline.arrRef spec2 w = b
  · obtain ⟨w, rfl⟩ := h
    have key : ∀ w : Fin cfg2.W, (Pipeline.arrRef spec2 w ≠ main_v42_0 ∧ Pipeline.arrRef spec2 w ≠ main_v42_1) → (cfg2.win w).isOut = false := by decide
    exact (W6_arr m ρ D0 D1 D2 c w).trans (((D2.dat (V5 m ρ D0 D1) c).arrAt_in w (key w hb) _).trans (D2.hA (V5 m ρ D0 D1) c w))
  · exact W6_of_ne m ρ D0 D1 D2 c b fun w e => h ⟨w, e⟩
/-- Region 2's output `main_v42_0` (window 5) ends at what the pipeline's write-backs leave in it. -/
theorem W6_main_v42_0 (c : Dev nD) :
    W6 m ρ D0 D1 D2 c (Proc.devRef .tc main_v42_0) = (D2.dat (V5 m ρ D0 D1) c).arrAt 5 cfg2.N :=
  W6_arr m ρ D0 D1 D2 c 5
/-- Region 2's output `main_v42_1` (window 6) ends at what the pipeline's write-backs leave in it. -/
theorem W6_main_v42_1 (c : Dev nD) :
    W6 m ρ D0 D1 D2 c (Proc.devRef .tc main_v42_1) = (D2.dat (V5 m ρ D0 D1) c).arrAt 6 cfg2.N :=
  W6_arr m ρ D0 D1 D2 c 6

theorem W8_keep (c : Dev nD) (b : Ref sig .tc) (hb : b ≠ main_v49) :
    W8 m ρ D0 D1 D2 D3 c (Proc.devRef .tc b) = W7 m ρ D0 D1 D2 c (Proc.devRef .tc b) := by
  by_cases h : ∃ w, Pipeline.arrRef spec3 w = b
  · obtain ⟨w, rfl⟩ := h
    have key : ∀ w : Fin cfg3.W, (Pipeline.arrRef spec3 w ≠ main_v49) → (cfg3.win w).isOut = false := by decide
    exact (W8_arr m ρ D0 D1 D2 D3 c w).trans (((D3.dat (V7 m ρ D0 D1 D2) c).arrAt_in w (key w hb) _).trans (D3.hA (V7 m ρ D0 D1 D2) c w))
  · exact W8_of_ne m ρ D0 D1 D2 D3 c b fun w e => h ⟨w, e⟩
/-- Region 3's output `main_v49` (window 11) ends at what the pipeline's write-backs leave in it. -/
theorem W8_main_v49 (c : Dev nD) :
    W8 m ρ D0 D1 D2 D3 c (Proc.devRef .tc main_v49) = (D3.dat (V7 m ρ D0 D1 D2) c).arrAt 11 cfg3.N :=
  W8_arr m ρ D0 D1 D2 D3 c 11

/-! ### The arguments end as launched: no host operation writes one and no region has one as an output, so the
    fold at an argument's buffer walks back to the launch memory -/

theorem W8_main_arg0 (c : Dev nD) : W8 m ρ D0 D1 D2 D3 c (Proc.devRef .tc main_arg0) = m ((c : Thread nD τ).loc main_arg0) :=
  (W8_keep m ρ D0 D1 D2 D3 c main_arg0 (by decide)).trans <| (W7_keep m ρ D0 D1 D2 c main_arg0 (by decide)).trans <|
  (W6_keep m ρ D0 D1 D2 c main_arg0 (by decide)).trans <| (W5_keep m ρ D0 D1 c main_arg0 (by decide)).trans <|
  (W4_keep m ρ D0 D1 c main_arg0 (by decide)).trans <| (W3_keep m ρ D0 c main_arg0 (by decide)).trans <|
  (W2_keep m ρ D0 c main_arg0 (by decide)).trans <| (W1_keep m ρ c main_arg0 (by decide)).trans rfl
theorem W8_main_arg1 (c : Dev nD) : W8 m ρ D0 D1 D2 D3 c (Proc.devRef .tc main_arg1) = m ((c : Thread nD τ).loc main_arg1) :=
  (W8_keep m ρ D0 D1 D2 D3 c main_arg1 (by decide)).trans <| (W7_keep m ρ D0 D1 D2 c main_arg1 (by decide)).trans <|
  (W6_keep m ρ D0 D1 D2 c main_arg1 (by decide)).trans <| (W5_keep m ρ D0 D1 c main_arg1 (by decide)).trans <|
  (W4_keep m ρ D0 D1 c main_arg1 (by decide)).trans <| (W3_keep m ρ D0 c main_arg1 (by decide)).trans <|
  (W2_keep m ρ D0 c main_arg1 (by decide)).trans <| (W1_keep m ρ c main_arg1 (by decide)).trans rfl
theorem W8_main_arg2 (c : Dev nD) : W8 m ρ D0 D1 D2 D3 c (Proc.devRef .tc main_arg2) = m ((c : Thread nD τ).loc main_arg2) :=
  (W8_keep m ρ D0 D1 D2 D3 c main_arg2 (by decide)).trans <| (W7_keep m ρ D0 D1 D2 c main_arg2 (by decide)).trans <|
  (W6_keep m ρ D0 D1 D2 c main_arg2 (by decide)).trans <| (W5_keep m ρ D0 D1 c main_arg2 (by decide)).trans <|
  (W4_keep m ρ D0 D1 c main_arg2 (by decide)).trans <| (W3_keep m ρ D0 c main_arg2 (by decide)).trans <|
  (W2_keep m ρ D0 c main_arg2 (by decide)).trans <| (W1_keep m ρ c main_arg2 (by decide)).trans rfl
theorem W8_main_arg3 (c : Dev nD) : W8 m ρ D0 D1 D2 D3 c (Proc.devRef .tc main_arg3) = m ((c : Thread nD τ).loc main_arg3) :=
  (W8_keep m ρ D0 D1 D2 D3 c main_arg3 (by decide)).trans <| (W7_keep m ρ D0 D1 D2 c main_arg3 (by decide)).trans <|
  (W6_keep m ρ D0 D1 D2 c main_arg3 (by decide)).trans <| (W5_keep m ρ D0 D1 c main_arg3 (by decide)).trans <|
  (W4_keep m ρ D0 D1 c main_arg3 (by decide)).trans <| (W3_keep m ρ D0 c main_arg3 (by decide)).trans <|
  (W2_keep m ρ D0 c main_arg3 (by decide)).trans <| (W1_keep m ρ c main_arg3 (by decide)).trans rfl
theorem W8_main_arg4 (c : Dev nD) : W8 m ρ D0 D1 D2 D3 c (Proc.devRef .tc main_arg4) = m ((c : Thread nD τ).loc main_arg4) :=
  (W8_keep m ρ D0 D1 D2 D3 c main_arg4 (by decide)).trans <| (W7_keep m ρ D0 D1 D2 c main_arg4 (by decide)).trans <|
  (W6_keep m ρ D0 D1 D2 c main_arg4 (by decide)).trans <| (W5_keep m ρ D0 D1 c main_arg4 (by decide)).trans <|
  (W4_keep m ρ D0 D1 c main_arg4 (by decide)).trans <| (W3_keep m ρ D0 c main_arg4 (by decide)).trans <|
  (W2_keep m ρ D0 c main_arg4 (by decide)).trans <| (W1_keep m ρ c main_arg4 (by decide)).trans rfl
theorem W8_main_arg5 (c : Dev nD) : W8 m ρ D0 D1 D2 D3 c (Proc.devRef .tc main_arg5) = m ((c : Thread nD τ).loc main_arg5) :=
  (W8_keep m ρ D0 D1 D2 D3 c main_arg5 (by decide)).trans <| (W7_keep m ρ D0 D1 D2 c main_arg5 (by decide)).trans <|
  (W6_keep m ρ D0 D1 D2 c main_arg5 (by decide)).trans <| (W5_keep m ρ D0 D1 c main_arg5 (by decide)).trans <|
  (W4_keep m ρ D0 D1 c main_arg5 (by decide)).trans <| (W3_keep m ρ D0 c main_arg5 (by decide)).trans <|
  (W2_keep m ρ D0 c main_arg5 (by decide)).trans <| (W1_keep m ρ c main_arg5 (by decide)).trans rfl
theorem W8_main_arg6 (c : Dev nD) : W8 m ρ D0 D1 D2 D3 c (Proc.devRef .tc main_arg6) = m ((c : Thread nD τ).loc main_arg6) :=
  (W8_keep m ρ D0 D1 D2 D3 c main_arg6 (by decide)).trans <| (W7_keep m ρ D0 D1 D2 c main_arg6 (by decide)).trans <|
  (W6_keep m ρ D0 D1 D2 c main_arg6 (by decide)).trans <| (W5_keep m ρ D0 D1 c main_arg6 (by decide)).trans <|
  (W4_keep m ρ D0 D1 c main_arg6 (by decide)).trans <| (W3_keep m ρ D0 c main_arg6 (by decide)).trans <|
  (W2_keep m ρ D0 c main_arg6 (by decide)).trans <| (W1_keep m ρ c main_arg6 (by decide)).trans rfl
theorem W8_main_arg7 (c : Dev nD) : W8 m ρ D0 D1 D2 D3 c (Proc.devRef .tc main_arg7) = m ((c : Thread nD τ).loc main_arg7) :=
  (W8_keep m ρ D0 D1 D2 D3 c main_arg7 (by decide)).trans <| (W7_keep m ρ D0 D1 D2 c main_arg7 (by decide)).trans <|
  (W6_keep m ρ D0 D1 D2 c main_arg7 (by decide)).trans <| (W5_keep m ρ D0 D1 c main_arg7 (by decide)).trans <|
  (W4_keep m ρ D0 D1 c main_arg7 (by decide)).trans <| (W3_keep m ρ D0 c main_arg7 (by decide)).trans <|
  (W2_keep m ρ D0 c main_arg7 (by decide)).trans <| (W1_keep m ρ c main_arg7 (by decide)).trans rfl
theorem W8_main_arg8 (c : Dev nD) : W8 m ρ D0 D1 D2 D3 c (Proc.devRef .tc main_arg8) = m ((c : Thread nD τ).loc main_arg8) :=
  (W8_keep m ρ D0 D1 D2 D3 c main_arg8 (by decide)).trans <| (W7_keep m ρ D0 D1 D2 c main_arg8 (by decide)).trans <|
  (W6_keep m ρ D0 D1 D2 c main_arg8 (by decide)).trans <| (W5_keep m ρ D0 D1 c main_arg8 (by decide)).trans <|
  (W4_keep m ρ D0 D1 c main_arg8 (by decide)).trans <| (W3_keep m ρ D0 c main_arg8 (by decide)).trans <|
  (W2_keep m ρ D0 c main_arg8 (by decide)).trans <| (W1_keep m ρ c main_arg8 (by decide)).trans rfl
theorem W8_main_arg9 (c : Dev nD) : W8 m ρ D0 D1 D2 D3 c (Proc.devRef .tc main_arg9) = m ((c : Thread nD τ).loc main_arg9) :=
  (W8_keep m ρ D0 D1 D2 D3 c main_arg9 (by decide)).trans <| (W7_keep m ρ D0 D1 D2 c main_arg9 (by decide)).trans <|
  (W6_keep m ρ D0 D1 D2 c main_arg9 (by decide)).trans <| (W5_keep m ρ D0 D1 c main_arg9 (by decide)).trans <|
  (W4_keep m ρ D0 D1 c main_arg9 (by decide)).trans <| (W3_keep m ρ D0 c main_arg9 (by decide)).trans <|
  (W2_keep m ρ D0 c main_arg9 (by decide)).trans <| (W1_keep m ρ c main_arg9 (by decide)).trans rfl
theorem W8_main_arg10 (c : Dev nD) : W8 m ρ D0 D1 D2 D3 c (Proc.devRef .tc main_arg10) = m ((c : Thread nD τ).loc main_arg10) :=
  (W8_keep m ρ D0 D1 D2 D3 c main_arg10 (by decide)).trans <| (W7_keep m ρ D0 D1 D2 c main_arg10 (by decide)).trans <|
  (W6_keep m ρ D0 D1 D2 c main_arg10 (by decide)).trans <| (W5_keep m ρ D0 D1 c main_arg10 (by decide)).trans <|
  (W4_keep m ρ D0 D1 c main_arg10 (by decide)).trans <| (W3_keep m ρ D0 c main_arg10 (by decide)).trans <|
  (W2_keep m ρ D0 c main_arg10 (by decide)).trans <| (W1_keep m ρ c main_arg10 (by decide)).trans rfl
theorem W8_main_arg11 (c : Dev nD) : W8 m ρ D0 D1 D2 D3 c (Proc.devRef .tc main_arg11) = m ((c : Thread nD τ).loc main_arg11) :=
  (W8_keep m ρ D0 D1 D2 D3 c main_arg11 (by decide)).trans <| (W7_keep m ρ D0 D1 D2 c main_arg11 (by decide)).trans <|
  (W6_keep m ρ D0 D1 D2 c main_arg11 (by decide)).trans <| (W5_keep m ρ D0 D1 c main_arg11 (by decide)).trans <|
  (W4_keep m ρ D0 D1 c main_arg11 (by decide)).trans <| (W3_keep m ρ D0 c main_arg11 (by decide)).trans <|
  (W2_keep m ρ D0 c main_arg11 (by decide)).trans <| (W1_keep m ρ c main_arg11 (by decide)).trans rfl
theorem W8_main_arg12 (c : Dev nD) : W8 m ρ D0 D1 D2 D3 c (Proc.devRef .tc main_arg12) = m ((c : Thread nD τ).loc main_arg12) :=
  (W8_keep m ρ D0 D1 D2 D3 c main_arg12 (by decide)).trans <| (W7_keep m ρ D0 D1 D2 c main_arg12 (by decide)).trans <|
  (W6_keep m ρ D0 D1 D2 c main_arg12 (by decide)).trans <| (W5_keep m ρ D0 D1 c main_arg12 (by decide)).trans <|
  (W4_keep m ρ D0 D1 c main_arg12 (by decide)).trans <| (W3_keep m ρ D0 c main_arg12 (by decide)).trans <|
  (W2_keep m ρ D0 c main_arg12 (by decide)).trans <| (W1_keep m ρ c main_arg12 (by decide)).trans rfl
theorem W8_main_arg13 (c : Dev nD) : W8 m ρ D0 D1 D2 D3 c (Proc.devRef .tc main_arg13) = m ((c : Thread nD τ).loc main_arg13) :=
  (W8_keep m ρ D0 D1 D2 D3 c main_arg13 (by decide)).trans <| (W7_keep m ρ D0 D1 D2 c main_arg13 (by decide)).trans <|
  (W6_keep m ρ D0 D1 D2 c main_arg13 (by decide)).trans <| (W5_keep m ρ D0 D1 c main_arg13 (by decide)).trans <|
  (W4_keep m ρ D0 D1 c main_arg13 (by decide)).trans <| (W3_keep m ρ D0 c main_arg13 (by decide)).trans <|
  (W2_keep m ρ D0 c main_arg13 (by decide)).trans <| (W1_keep m ρ c main_arg13 (by decide)).trans rfl
theorem W8_main_arg14 (c : Dev nD) : W8 m ρ D0 D1 D2 D3 c (Proc.devRef .tc main_arg14) = m ((c : Thread nD τ).loc main_arg14) :=
  (W8_keep m ρ D0 D1 D2 D3 c main_arg14 (by decide)).trans <| (W7_keep m ρ D0 D1 D2 c main_arg14 (by decide)).trans <|
  (W6_keep m ρ D0 D1 D2 c main_arg14 (by decide)).trans <| (W5_keep m ρ D0 D1 c main_arg14 (by decide)).trans <|
  (W4_keep m ρ D0 D1 c main_arg14 (by decide)).trans <| (W3_keep m ρ D0 c main_arg14 (by decide)).trans <|
  (W2_keep m ρ D0 c main_arg14 (by decide)).trans <| (W1_keep m ρ c main_arg14 (by decide)).trans rfl
theorem W8_main_arg15 (c : Dev nD) : W8 m ρ D0 D1 D2 D3 c (Proc.devRef .tc main_arg15) = m ((c : Thread nD τ).loc main_arg15) :=
  (W8_keep m ρ D0 D1 D2 D3 c main_arg15 (by decide)).trans <| (W7_keep m ρ D0 D1 D2 c main_arg15 (by decide)).trans <|
  (W6_keep m ρ D0 D1 D2 c main_arg15 (by decide)).trans <| (W5_keep m ρ D0 D1 c main_arg15 (by decide)).trans <|
  (W4_keep m ρ D0 D1 c main_arg15 (by decide)).trans <| (W3_keep m ρ D0 c main_arg15 (by decide)).trans <|
  (W2_keep m ρ D0 c main_arg15 (by decide)).trans <| (W1_keep m ρ c main_arg15 (by decide)).trans rfl
theorem W8_main_arg16 (c : Dev nD) : W8 m ρ D0 D1 D2 D3 c (Proc.devRef .tc main_arg16) = m ((c : Thread nD τ).loc main_arg16) :=
  (W8_keep m ρ D0 D1 D2 D3 c main_arg16 (by decide)).trans <| (W7_keep m ρ D0 D1 D2 c main_arg16 (by decide)).trans <|
  (W6_keep m ρ D0 D1 D2 c main_arg16 (by decide)).trans <| (W5_keep m ρ D0 D1 c main_arg16 (by decide)).trans <|
  (W4_keep m ρ D0 D1 c main_arg16 (by decide)).trans <| (W3_keep m ρ D0 c main_arg16 (by decide)).trans <|
  (W2_keep m ρ D0 c main_arg16 (by decide)).trans <| (W1_keep m ρ c main_arg16 (by decide)).trans rfl

/-! ## @main as segments, and the launch -/

/-- @main's 8 segments in order: a host segment per stretch from its boundary's contents, a region per kernel call. -/
abbrev segs : List (Pipeline.Seg (pcfgs (F := F)) adm (pdats m ρ D0 D1 D2 D3) () defs₀ 𝒱₀ L lv) :=
  [ .host (hseg hostOps0 hostOps0_sub hostOps0_fresh (W0 m ρ)),
    .region (reg0 m ρ D0 D1 D2 D3),
    .host (hseg hostOps1 hostOps1_sub hostOps1_fresh (W2 m ρ D0)),
    .region (reg1 m ρ D0 D1 D2 D3),
    .host (hseg hostOps2 hostOps2_sub hostOps2_fresh (W4 m ρ D0 D1)),
    .region (reg2 m ρ D0 D1 D2 D3),
    .host (hseg hostOps3 hostOps3_sub hostOps3_fresh (W6 m ρ D0 D1 D2)),
    .region (reg3 m ρ D0 D1 D2 D3) ]
/-- @main IS the run of the segments: @main is the chain of its stretches and calls, and each host segment's
    program is its stretch run in order. -/
theorem main_run (c : Dev nD) : main (F := F) c = Pipeline.Seg.run (segs m ρ D0 D1 D2 D3) :=
  main_segs adm (pdats m ρ D0 D1 D2 D3) () 𝒱₀ L lv _ _ _ _ (reg0 m ρ D0 D1 D2 D3) (reg1 m ρ D0 D1 D2 D3) (reg2 m ρ D0 D1 D2 D3) (reg3 m ρ D0 D1 D2 D3) rfl rfl rfl rfl c

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state every unscoped buffer holds the last
    boundary's contents `W8`: the launch over the segments, the last thread state read against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ D0 D1 D2 D3 c b) :=
  Pipeline.θ_run_regions_kit (pcfgs (F := F)) adm (pdats m ρ D0 D1 D2 D3) () cellOf_inj emb₁ defs₀ 𝒱₀ L lv m ρ main (segs m ρ D0 D1 D2 D3)
    (fun c Q => by rw [main_run m ρ D0 D1 D2 D3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ D0 D1 D2 D3)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ D0 D1 D2 D3 c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ D0 D1 D2 D3 c) s')
      isplitl [Hh] <;> iassumption)
    (hQ := fun _ h => h)

include D0 D1 D2 D3 in
/-- THE FRAME: every argument array ends holding its launch contents — each argument's buffer is unscoped, so it
    ends at the last boundary's contents, which for an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W8_main_arg0 m ρ D0 D1 D2 D3 c),
      (h c _ (mem_uc main_arg1 (by decide))).trans (W8_main_arg1 m ρ D0 D1 D2 D3 c),
      (h c _ (mem_uc main_arg2 (by decide))).trans (W8_main_arg2 m ρ D0 D1 D2 D3 c),
      (h c _ (mem_uc main_arg3 (by decide))).trans (W8_main_arg3 m ρ D0 D1 D2 D3 c),
      (h c _ (mem_uc main_arg4 (by decide))).trans (W8_main_arg4 m ρ D0 D1 D2 D3 c),
      (h c _ (mem_uc main_arg5 (by decide))).trans (W8_main_arg5 m ρ D0 D1 D2 D3 c),
      (h c _ (mem_uc main_arg6 (by decide))).trans (W8_main_arg6 m ρ D0 D1 D2 D3 c),
      (h c _ (mem_uc main_arg7 (by decide))).trans (W8_main_arg7 m ρ D0 D1 D2 D3 c),
      (h c _ (mem_uc main_arg8 (by decide))).trans (W8_main_arg8 m ρ D0 D1 D2 D3 c),
      (h c _ (mem_uc main_arg9 (by decide))).trans (W8_main_arg9 m ρ D0 D1 D2 D3 c),
      (h c _ (mem_uc main_arg10 (by decide))).trans (W8_main_arg10 m ρ D0 D1 D2 D3 c),
      (h c _ (mem_uc main_arg11 (by decide))).trans (W8_main_arg11 m ρ D0 D1 D2 D3 c),
      (h c _ (mem_uc main_arg12 (by decide))).trans (W8_main_arg12 m ρ D0 D1 D2 D3 c),
      (h c _ (mem_uc main_arg13 (by decide))).trans (W8_main_arg13 m ρ D0 D1 D2 D3 c),
      (h c _ (mem_uc main_arg14 (by decide))).trans (W8_main_arg14 m ρ D0 D1 D2 D3 c),
      (h c _ (mem_uc main_arg15 (by decide))).trans (W8_main_arg15 m ρ D0 D1 D2 D3 c),
      (h c _ (mem_uc main_arg16 (by decide))).trans (W8_main_arg16 m ρ D0 D1 D2 D3 c)⟩) (run m ρ D0 D1 D2 D3)

/-- info: 'Cert.KernelIdeal.Hand.run' depends on axioms: [propext, Classical.choice, Quot.sound] -/
#guard_msgs in #print axioms run
/-- info: 'Cert.KernelIdeal.Hand.frame' depends on axioms: [propext, Classical.choice, Quot.sound] -/
#guard_msgs in #print axioms frame

end Cert.KernelIdeal.Hand

end
-- ==== Proof.ApplyKI.lean ====
/- The APPLY regions of the two-layer graph network (pipelines 1 and 3), their class-A frame half, at any float
   model `F` and at a PARAMETER `V` (the TensorCore's buffer contents when the region is entered): each window's
   block at a grid point, what the body leaves in the output window's staging buffer (one whole-buffer store, so the
   stored payload itself), the body's triple by symbolic execution of its skeleton, the pipeline's proof data and
   the body obligation at every point. -/
import proofs.«143642_j88098369176165_1_alg».proof.Proof.LaunchKI
import proofs.«143642_j88098369176165_1_alg».proof.Proof.Gen.KernelIdeal.Skeleton
import proofs.«143642_j88098369176165_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 x 128 extents recurses once per coordinate of the long axis
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter both regions' halves are stated at
variable (V : (c : Dev nD) → (b : Ref sig .tc) → Buf (Elt F) ((c : Thread nD τ).loc b))

/-! # The apply region of pipeline 1 (`cc1__apply_kernel`), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof
    data whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not, for any proof
    data whose array is `V`'s and whose body leaves the block in place: unfetched, the block index has not moved. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current staging buffer holds its block at every point, fetched there or not, for any proof
    data whose array is `V`'s and whose body leaves the block in place: unfetched, the block index has not moved. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The whole 4000 x 128 output staging buffer as one rectangle: the body's single store goes through it. -/
abbrev rOut1 : Rect S4000x128 := (Rect.unit (s := S4000x128) ![0, 0] S4000x128.size inb_S4000x128_S4000x128_0_0)

/-- Window 11's staging buffer after the body, from the eleven input blocks: its one store as a single piece,
    whose payload is the second linear layer's value over the first part's (the skeleton's payloads). -/
def out1_11 (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) : Vec F S4000x128 .f32 :=
  View.canon [⟨rOut1, k1_pay1 (k1_pay2 (View.ld x2 (Rect.unit (s := S1x1) ![0, 0] S1x1.size inb_S1x1_S1x1_0_0)) (View.ld x0 (Rect.unit (s := S4000x128) ![0, 0] S4000x128.size inb_S4000x128_S4000x128_0_0)) (View.ld x1 (Rect.unit (s := S4000x128) ![0, 0] S4000x128.size inb_S4000x128_S4000x128_0_0)) (View.ld x3 (Rect.unit (s := S128x128) ![0, 0] S128x128.size inb_S128x128_S128x128_0_0)) (View.ld x4 (Rect.unit (s := S1x128) ![0, 0] S1x128.size inb_S1x128_S1x128_0_0)) (View.ld x6 (Rect.unit (s := S1x128) ![0, 0] S1x128.size inb_S1x128_S1x128_0_0)) (View.ld x5 (Rect.unit (s := S1x128) ![0, 0] S1x128.size inb_S1x128_S1x128_0_0)) (View.ld x7 (Rect.unit (s := S1x128) ![0, 0] S1x128.size inb_S1x128_S1x128_0_0)) (View.ld x8 (Rect.unit (s := S1x128) ![0, 0] S1x128.size inb_S1x128_S1x128_0_0))) (Scalar.ofBits .f32 0x00000000#32) (View.ld x9 (Rect.unit (s := S128x128) ![0, 0] S128x128.size inb_S128x128_S128x128_0_0)) (View.ld x10 (Rect.unit (s := S1x128) ![0, 0] S1x128.size inb_S1x128_S1x128_0_0))⟩]

/-- The one store's rectangle is the whole buffer, so it covers it. -/
theorem cover1_11 (p0 : Vec F S4000x128 .f32) (y : S4000x128.Idx) :
    ∃ pc ∈ ([⟨rOut1, p0⟩] : List (View.Piece (Elt F) S4000x128 .f32)), y ∈ pc.1.set :=
  View.cover_of_tiled [⟨rOut1, p0⟩] S4000x128.size (by rfl) y

/-! ## The body's triple -/

set_option maxHeartbeats 1000000 in
/-- The kernel body on whole staging memrefs, the eleven inputs' at read contents `xW` and the output's at anything,
    runs to the continuation holding the inputs' as they were and the output's at `out1_11` of the inputs: the printed
    functions are their skeletons, which symbolic execution runs through the first part's call. -/
theorem sound_kernel1 (c : Dev nD) (E : Set ℕ) (i : grid1.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4000x128 .f32) (harg12 : arg12.IsWhole)
    (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10)) -∗ K ⟨⟩))
      ⊢ wp frame (wpE (defs₀ (F := F)) Variants.none c none) E (cc1__apply_kernel i arg1 harg1 arg2 harg2 arg3 harg3 arg4 harg4 arg5 harg5 arg6 harg6 arg7 harg7 arg8 harg8 arg9 harg9 arg10 harg10 arg11 harg11 arg12 harg12) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-! ## The pipeline's proof data -/

/-- The proof data of pipeline 1 on core `c`: the arrays as the region finds them (`V`); after the body at point
    `t` each input's buffer at its block and the output's at `out1_11` of the input blocks; the class's invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
/-- The body at any point: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # The apply region of pipeline 3 (`cc3__apply_kernel`), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof
    data whose array is `V`'s and whose body leaves the block in place: unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof
    data whose array is `V`'s and whose body leaves the block in place: unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not, for any proof
    data whose array is `V`'s and whose body leaves the block in place: unfetched, the block index has not moved. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not, for any proof
    data whose array is `V`'s and whose body leaves the block in place: unfetched, the block index has not moved. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The whole 4000 x 128 output staging buffer as one rectangle: the body's single store goes through it. -/
abbrev rOut3 : Rect S4000x128 := (Rect.unit (s := S4000x128) ![0, 0] S4000x128.size inb_S4000x128_S4000x128_0_0)

/-- Window 11's staging buffer after the body, from the eleven input blocks: its one store as a single piece,
    whose payload is the second linear layer's value over the first part's (the skeleton's payloads). -/
def out3_11 (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) : Vec F S4000x128 .f32 :=
  View.canon [⟨rOut3, k3_pay1 (k3_pay2 (View.ld x2 (Rect.unit (s := S1x1) ![0, 0] S1x1.size inb_S1x1_S1x1_0_0)) (View.ld x0 (Rect.unit (s := S4000x128) ![0, 0] S4000x128.size inb_S4000x128_S4000x128_0_0)) (View.ld x1 (Rect.unit (s := S4000x128) ![0, 0] S4000x128.size inb_S4000x128_S4000x128_0_0)) (View.ld x3 (Rect.unit (s := S128x128) ![0, 0] S128x128.size inb_S128x128_S128x128_0_0)) (View.ld x4 (Rect.unit (s := S1x128) ![0, 0] S1x128.size inb_S1x128_S1x128_0_0)) (View.ld x6 (Rect.unit (s := S1x128) ![0, 0] S1x128.size inb_S1x128_S1x128_0_0)) (View.ld x5 (Rect.unit (s := S1x128) ![0, 0] S1x128.size inb_S1x128_S1x128_0_0)) (View.ld x7 (Rect.unit (s := S1x128) ![0, 0] S1x128.size inb_S1x128_S1x128_0_0)) (View.ld x8 (Rect.unit (s := S1x128) ![0, 0] S1x128.size inb_S1x128_S1x128_0_0))) (View.ld x9 (Rect.unit (s := S128x128) ![0, 0] S128x128.size inb_S128x128_S128x128_0_0)) (View.ld x10 (Rect.unit (s := S1x128) ![0, 0] S1x128.size inb_S1x128_S1x128_0_0))⟩]

/-- The one store's rectangle is the whole buffer, so it covers it. -/
theorem cover3_11 (p0 : Vec F S4000x128 .f32) (y : S4000x128.Idx) :
    ∃ pc ∈ ([⟨rOut3, p0⟩] : List (View.Piece (Elt F) S4000x128 .f32)), y ∈ pc.1.set :=
  View.cover_of_tiled [⟨rOut3, p0⟩] S4000x128.size (by rfl) y

/-! ## The body's triple -/

set_option maxHeartbeats 1000000 in
/-- The kernel body on whole staging memrefs, the eleven inputs' at read contents `xW` and the output's at anything,
    runs to the continuation holding the inputs' as they were and the output's at `out3_11` of the inputs: the printed
    functions are their skeletons, which symbolic execution runs through the first part's call. -/
theorem sound_kernel3 (c : Dev nD) (E : Set ℕ) (i : grid3.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S4000x128 .f32) (harg12 : arg12.IsWhole)
    (x0 : Vec F S4000x128 .f32) (x1 : Vec F S4000x128 .f32) (x2 : Vec F S1x1 .f32) (x3 : Vec F S128x128 .bf16) (x4 : Vec F S1x128 .f32) (x5 : Vec F S1x128 .f32) (x6 : Vec F S1x128 .f32) (x7 : Vec F S1x128 .f32) (x8 : Vec F S1x128 .f32) (x9 : Vec F S128x128 .bf16) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__apply_kernel i arg1 harg1 arg2 harg2 arg3 harg3 arg4 harg4 arg5 harg5 arg6 harg6 arg7 harg7 arg8 harg8 arg9 harg9 arg10 harg10 arg11 harg11 arg12 harg12) K := by
  simp only [cc3__apply_kernel_eq_skeleton]; unfold cc3__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data of pipeline 3 on core `c`: the arrays as the region finds them (`V`); after the body at point
    `t` each input's buffer at its block and the output's at `out3_11` of the input blocks; the class's invariant
    (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

set_option maxHeartbeats 1000000 in
/-- The body at any point: the inputs' memrefs hold their blocks, so the kernel's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.StatsBodyKI.lean ====
/- The statistics kernels' bodies (pipelines 0 and 2), at any float values: the two branch conditions of the body
   (the first grid point resets the two scratch accumulators, the last copies them into the two outputs' buffers), one
   step of the running column sums and of the running column sums of squares, and the body's triple in each of the
   three control cases: a middle point, the first point, the last point. -/
import proofs.«143642_j88098369176165_1_alg».proof.Proof.LaunchKI
import proofs.«143642_j88098369176165_1_alg».proof.Proof.Gen.KernelIdeal.Skeleton
import proofs.«143642_j88098369176165_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses -/

theorem off2_zero : (![0, 0] : Fin 2 → ℕ) = fun _ => 0 := by
  funext a; fin_cases a <;> rfl

theorem rd_S1x1 {κ : Kind} {sp : Space} {e : EltTy} (v : View sig κ sp S1x1 e) (f : v.ty.Contents (Elt F)) :
    View.readAt (Elt F) v (Rect.unit (s := S1x1) ![0, 0] S1x1.size inb_S1x1_S1x1_0_0).toLoadRect f = v.read (Elt F) f := by
  rw [View.readAt_eq_ld, View.ld_unit_zero off2_zero]

theorem rd_S4000x128 {κ : Kind} {sp : Space} {e : EltTy} (v : View sig κ sp S4000x128 e) (f : v.ty.Contents (Elt F)) :
    View.readAt (Elt F) v (Rect.unit (s := S4000x128) ![0, 0] S4000x128.size inb_S4000x128_S4000x128_0_0).toLoadRect f = v.read (Elt F) f := by
  rw [View.readAt_eq_ld, View.ld_unit_zero off2_zero]

theorem rd_S128x128 {κ : Kind} {sp : Space} {e : EltTy} (v : View sig κ sp S128x128 e) (f : v.ty.Contents (Elt F)) :
    View.readAt (Elt F) v (Rect.unit (s := S128x128) ![0, 0] S128x128.size inb_S128x128_S128x128_0_0).toLoadRect f = v.read (Elt F) f := by
  rw [View.readAt_eq_ld, View.ld_unit_zero off2_zero]

theorem rd_S1x128 {κ : Kind} {sp : Space} {e : EltTy} (v : View sig κ sp S1x128 e) (f : v.ty.Contents (Elt F)) :
    View.readAt (Elt F) v (Rect.unit (s := S1x128) ![0, 0] S1x128.size inb_S1x128_S1x128_0_0).toLoadRect f = v.read (Elt F) f := by
  rw [View.readAt_eq_ld, View.ld_unit_zero off2_zero]

theorem rc_S1x128 {κ : Kind} {sp : Space} {e : EltTy} (v : View sig κ sp S1x128 e) (w : S1x128.Idx → Elt F e) :
    v.readCov [(⟨Rect.unit (s := S1x128) ![0, 0] S1x128.size inb_S1x128_S1x128_0_0, w⟩ : View.Piece (Elt F) S1x128 e)]
      (Rect.unit (s := S1x128) ![0, 0] S1x128.size inb_S1x128_S1x128_0_0).toLoadRect = w :=
  View.readCov_unit_zero v off2_zero inb_S1x128_S1x128_0_0 w

theorem rw_S1x128 {κ : Kind} {sp : Space} {e : EltTy} (v : View sig κ sp S1x128 e) (f : v.ty.Contents (Elt F)) (w : S1x128.Idx → Elt F e)
    (L : List (View.Piece (Elt F) S1x128 e)) :
    v.read (Elt F) (v.writes (Elt F) f ((⟨Rect.unit (s := S1x128) ![0, 0] S1x128.size inb_S1x128_S1x128_0_0, w⟩ : View.Piece (Elt F) S1x128 e) :: L)) = w := by
  have hcov : ∀ y : S1x128.Idx, ∃ p ∈ ((⟨Rect.unit (s := S1x128) ![0, 0] S1x128.size inb_S1x128_S1x128_0_0, w⟩ : View.Piece (Elt F) S1x128 e) :: L), y ∈ p.1.set :=
    fun y => ⟨_, List.mem_cons_self, View.mem_set_unit_zero off2_zero inb_S1x128_S1x128_0_0 y⟩
  rw [View.read_writes_eq_canon v f _ hcov]
  exact View.canon_cons_unit_zero off2_zero inb_S1x128_S1x128_0_0 w L

/-! ## Pipeline 0: the body's branch conditions -/

/-- The condition of the body's first `scf.if`: the grid coordinate is 0. -/
abbrev cond0_0 (i : grid0.Coords) : Prop := (Scalar.cmpi .ne (Scalar.extui (Scalar.cmpi .eq (BitVec.ofNat 32 (i 0).val) 0#32)) 0#32) = 1#1
/-- The condition of the body's last `scf.if`: the grid coordinate is 24. -/
abbrev cond0_2 (i : grid0.Coords) : Prop := k0_cond2 i = 1#1

/-- The first holds at point 0 only, the last at point 24 only: decided over the 25 grid points. -/
theorem hcond0_0 : ∀ t : Fin cfg0.N, cond0_0 (grid0.coords t) ↔ t.val = 0 :=
  (by decide +kernel : ∀ t : Fin grid0.N, cond0_0 (grid0.coords t) ↔ t.val = 0)
theorem hcond0_2 : ∀ t : Fin cfg0.N, cond0_2 (grid0.coords t) ↔ t.val = 24 :=
  (by decide +kernel : ∀ t : Fin grid0.N, cond0_2 (grid0.coords t) ↔ t.val = 24)

/-! ## Pipeline 0: one step of the two running sums -/

/-- The column-sum accumulator after a point: what it held plus the column sums of the block's h1. -/
def stepS0 (eps : Vec F S1x1 .f32) (x agg : Vec F S4000x128 .f32) (wa : Vec F S128x128 .bf16) (ba prev : Vec F S1x128 .f32) :
    Vec F S1x128 .f32 := k0_pay5 eps x agg wa ba prev
/-- The accumulator of squares after a point: what it held plus the column sums of the block's h1 squared. -/
def stepQ0 (eps : Vec F S1x1 .f32) (x agg : Vec F S4000x128 .f32) (wa : Vec F S128x128 .bf16) (ba prev : Vec F S1x128 .f32) :
    Vec F S1x128 .f32 := k0_pay1 (k0_pay6 eps x agg wa ba prev)
/-- What the first point resets the two accumulators to. -/
def zeroS0 : Vec F S1x128 .f32 := k0_pay2
def zeroQ0 : Vec F S1x128 .f32 := k0_pay3

/-! ## Pipeline 0: the body's triple, one per control case -/

set_option maxHeartbeats 1000000 in
/-- A point that is neither the first nor the last: both accumulators advance one step, the outputs' buffers are not touched. -/
theorem kernel_mid0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond0_0 i) (hc2 : ¬ cond0_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS0 eps x agg wa ba s) ∗ owns (c : Thread nD τ) arg9 fullShare (stepQ0 eps x agg wa ba q))
            -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  unfold owns stepS0 stepQ0
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf1 hf2 hf3 hf4 hf5 hf8 hf9
  sl_exec (disch := first | exact hc0 | exact hc2)
  unfold kernel_mid0.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The first point: both accumulators are reset, then advance one step from the reset value. -/
theorem kernel_first0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : cond0_0 i) (hc2 : ¬ cond0_2 i)
    (eps : Vec F S1x1 .f32) (x agg : Vec F S4000x128 .f32) (wa : Vec F S128x128 .bf16) (ba : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg8 fullShare d) ∗ (∃ d, owns (c : Thread nD τ) arg9 fullShare d)
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS0 eps x agg wa ba zeroS0) ∗ owns (c : Thread nD τ) arg9 fullShare (stepQ0 eps x agg wa ba zeroQ0))
            -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  unfold owns stepS0 stepQ0 zeroS0 zeroQ0
  iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf1 hf2 hf3 hf4 hf5
  sl_exec (disch := first | exact hc0 | exact hc2)
  unfold kernel_first0.sl.v21 kernel_first0.sl.H8_1 kernel_first0.sl.H9_1 kernel_first0.sl.r
  unfold kernel_first0.sl.v28
  unfold kernel_first0.sl.H9_1
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The last point: both accumulators advance one step and are then copied whole into the two outputs' buffers. -/
theorem kernel_last0 (c : Dev nD) (E : Set ℕ) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond0_0 i) (hc2 : cond0_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg6 fullShare (stepS0 eps x agg wa ba s) ∗ owns (c : Thread nD τ) arg7 fullShare (stepQ0 eps x agg wa ba q)
            ∗ owns (c : Thread nD τ) arg8 fullShare (stepS0 eps x agg wa ba s) ∗ owns (c : Thread nD τ) arg9 fullShare (stepQ0 eps x agg wa ba q))
            -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9) K := by
  simp only [cc0__stats_kernel_eq_skeleton]; unfold cc0__stats_kernel_skel
  unfold owns stepS0 stepQ0
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf1 hf2 hf3 hf4 hf5 hf8 hf9
  sl_exec (disch := first | exact hc0 | exact hc2)
  unfold kernel_last0.sl.v39 kernel_last0.sl.v41 kernel_last0.sl.H8_1 kernel_last0.sl.H9_1
  unfold kernel_last0.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H7]
  · iexists _; isplitr
    swap; · iexact H7
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

/-! ## Pipeline 2: the body's branch conditions -/

/-- The condition of the body's first `scf.if`: the grid coordinate is 0. -/
abbrev cond2_0 (i : grid2.Coords) : Prop := (Scalar.cmpi .ne (Scalar.extui (Scalar.cmpi .eq (BitVec.ofNat 32 (i 0).val) 0#32)) 0#32) = 1#1
/-- The condition of the body's last `scf.if`: the grid coordinate is 24. -/
abbrev cond2_2 (i : grid2.Coords) : Prop := k2_cond2 i = 1#1

/-- The first holds at point 0 only, the last at point 24 only: decided over the 25 grid points. -/
theorem hcond2_0 : ∀ t : Fin cfg2.N, cond2_0 (grid2.coords t) ↔ t.val = 0 :=
  (by decide +kernel : ∀ t : Fin grid2.N, cond2_0 (grid2.coords t) ↔ t.val = 0)
theorem hcond2_2 : ∀ t : Fin cfg2.N, cond2_2 (grid2.coords t) ↔ t.val = 24 :=
  (by decide +kernel : ∀ t : Fin grid2.N, cond2_2 (grid2.coords t) ↔ t.val = 24)

/-! ## Pipeline 2: one step of the two running sums -/

/-- The column-sum accumulator after a point: what it held plus the column sums of the block's h1. -/
def stepS2 (eps : Vec F S1x1 .f32) (x agg : Vec F S4000x128 .f32) (wa : Vec F S128x128 .bf16) (ba prev : Vec F S1x128 .f32) :
    Vec F S1x128 .f32 := k2_pay5 eps x agg wa ba prev
/-- The accumulator of squares after a point: what it held plus the column sums of the block's h1 squared. -/
def stepQ2 (eps : Vec F S1x1 .f32) (x agg : Vec F S4000x128 .f32) (wa : Vec F S128x128 .bf16) (ba prev : Vec F S1x128 .f32) :
    Vec F S1x128 .f32 := k2_pay1 (k2_pay6 eps x agg wa ba prev)
/-- What the first point resets the two accumulators to. -/
def zeroS2 : Vec F S1x128 .f32 := k2_pay2
def zeroQ2 : Vec F S1x128 .f32 := k2_pay3

/-! ## Pipeline 2: the body's triple, one per control case -/

set_option maxHeartbeats 1000000 in
/-- A point that is neither the first nor the last: both accumulators advance one step, the outputs' buffers are not touched. -/
theorem kernel_mid2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond2_0 i) (hc2 : ¬ cond2_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS2 eps x agg wa ba s) ∗ owns (c : Thread nD τ) arg9 fullShare (stepQ2 eps x agg wa ba q))
            -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  unfold owns stepS2 stepQ2
  iintro ⟨⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf1 hf2 hf3 hf4 hf5 hf8 hf9
  sl_exec (disch := first | exact hc0 | exact hc2)
  unfold kernel_mid2.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The first point: both accumulators are reset, then advance one step from the reset value. -/
theorem kernel_first2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : cond2_0 i) (hc2 : ¬ cond2_2 i)
    (eps : Vec F S1x1 .f32) (x agg : Vec F S4000x128 .f32) (wa : Vec F S128x128 .bf16) (ba : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg8 fullShare d) ∗ (∃ d, owns (c : Thread nD τ) arg9 fullShare d)
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg8 fullShare (stepS2 eps x agg wa ba zeroS2) ∗ owns (c : Thread nD τ) arg9 fullShare (stepQ2 eps x agg wa ba zeroQ2))
            -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  unfold owns stepS2 stepQ2 zeroS2 zeroQ2
  iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf1 hf2 hf3 hf4 hf5
  sl_exec (disch := first | exact hc0 | exact hc2)
  unfold kernel_first2.sl.v22 kernel_first2.sl.H8_1 kernel_first2.sl.H9_1 kernel_first2.sl.r
  unfold kernel_first2.sl.v29
  unfold kernel_first2.sl.H9_1
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

set_option maxHeartbeats 1000000 in
/-- The last point: both accumulators advance one step and are then copied whole into the two outputs' buffers. -/
theorem kernel_last2 (c : Dev nD) (E : Set ℕ) (i : grid2.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole)
    (hc0 : ¬ cond2_0 i) (hc2 : cond2_2 i)
    (eps : Vec F S1x1 .f32) (x agg : Vec F S4000x128 .f32) (wa : Vec F S128x128 .bf16) (ba s q : Vec F S1x128 .f32)
    (K : PUnit → sProp 𝕄) :
    iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
        ∗ (∃ d, owns (c : Thread nD τ) arg6 fullShare d) ∗ (∃ d, owns (c : Thread nD τ) arg7 fullShare d)
        ∗ owns (c : Thread nD τ) arg8 fullShare s ∗ owns (c : Thread nD τ) arg9 fullShare q
        ∗ (iprop(owns (c : Thread nD τ) arg1 fullShare x ∗ owns (c : Thread nD τ) arg2 fullShare agg ∗ owns (c : Thread nD τ) arg3 fullShare eps ∗ owns (c : Thread nD τ) arg4 fullShare wa ∗ owns (c : Thread nD τ) arg5 fullShare ba
            ∗ owns (c : Thread nD τ) arg6 fullShare (stepS2 eps x agg wa ba s) ∗ owns (c : Thread nD τ) arg7 fullShare (stepQ2 eps x agg wa ba q)
            ∗ owns (c : Thread nD τ) arg8 fullShare (stepS2 eps x agg wa ba s) ∗ owns (c : Thread nD τ) arg9 fullShare (stepQ2 eps x agg wa ba q))
            -∗ K ⟨⟩))
      ⊢ wp frame (wpE (defs₀ (F := F)) Variants.none c none) E (cc2__stats_kernel i arg1 harg1 arg2 harg2 arg3 harg3 arg4 harg4 arg5 harg5 arg6 harg6 arg7 harg7 arg8 harg8 arg9 harg9) K := by
  simp only [cc2__stats_kernel_eq_skeleton]; unfold cc2__stats_kernel_skel
  unfold owns stepS2 stepQ2
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  subst hf1 hf2 hf3 hf4 hf5 hf8 hf9
  sl_exec (disch := first | exact hc0 | exact hc2)
  unfold kernel_last2.sl.v40 kernel_last2.sl.v42 kernel_last2.sl.H8_1 kernel_last2.sl.H9_1
  unfold kernel_last2.sl.r
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr
    swap; · iexact H6
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H7]
  · iexists _; isplitr
    swap; · iexact H7
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  isplitl [H8]
  · iexists _; isplitr
    swap; · iexact H8
    ipureintro
    refine (rw_S1x128 (F := F) _ _ _ _).trans ?_
    repeat (first | rw [rd_S1x1 (F := F)] | rw [rd_S4000x128 (F := F)] | rw [rd_S128x128 (F := F)] | rw [rd_S1x128 (F := F)] | rw [rc_S1x128 (F := F)])
  iexists _; isplitr
  swap; · iexact H9
  ipureintro
  refine (rw_S1x128 (F := F) _ _ _ _).trans ?_
  repeat (first | rw [rd_S1x1 (F := F)] | rw [rd_S4000x128 (F := F)] | rw [rd_S128x128 (F := F)] | rw [rd_S1x128 (F := F)] | rw [rc_S1x128 (F := F)])

end Cert.KernelIdeal.Hand
end
-- ==== Proof.StatsKI.lean ====
/- The statistics regions (pipelines 0 and 2) at a PARAMETER `V` (the TensorCore's buffer contents when the region
   is entered): each window's block at a grid point, what the two scratch accumulators hold after each point (the
   running column sums and sums of squares), the region invariant that carries the accumulators from point to
   point, the pipeline's proof data, the points at which the output windows are idle, and the body obligation at
   every point. -/
import proofs.«143642_j88098369176165_1_alg».proof.Proof.StatsBodyKI

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! # Pipeline 0 at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The inputs' buffers hold their blocks at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The running sums -/

/-- One step of the column-sum accumulator at point `t`, over what it held. -/
def stepSAt0 (c : Dev nD) (t : Fin cfg0.N) (prev : Vec F S1x128 .f32) : Vec F S1x128 .f32 :=
  stepS0 (iblk0 V c 2 t) (iblk0 V c 0 t) (iblk0 V c 1 t) (iblk0 V c 3 t) (iblk0 V c 4 t) prev
/-- One step of the accumulator of squares at point `t`, over what it held. -/
def stepQAt0 (c : Dev nD) (t : Fin cfg0.N) (prev : Vec F S1x128 .f32) : Vec F S1x128 .f32 :=
  stepQ0 (iblk0 V c 2 t) (iblk0 V c 0 t) (iblk0 V c 1 t) (iblk0 V c 3 t) (iblk0 V c 4 t) prev

/-- What the column-sum accumulator holds after point `n`: reset at point 0, one step per point. -/
def runS0 (c : Dev nD) : ℕ → Vec F S1x128 .f32
  | 0 => if h : 0 < cfg0.N then stepSAt0 V c ⟨0, h⟩ zeroS0 else zeroS0
  | n + 1 => if h : n + 1 < cfg0.N then stepSAt0 V c ⟨n + 1, h⟩ (runS0 c n) else runS0 c n
/-- What the accumulator of squares holds after point `n`. -/
def runQ0 (c : Dev nD) : ℕ → Vec F S1x128 .f32
  | 0 => if h : 0 < cfg0.N then stepQAt0 V c ⟨0, h⟩ zeroQ0 else zeroQ0
  | n + 1 => if h : n + 1 < cfg0.N then stepQAt0 V c ⟨n + 1, h⟩ (runQ0 c n) else runQ0 c n

theorem runS0_first (c : Dev nD) (t : Fin cfg0.N) (h : t.val = 0) : runS0 V c t.val = stepSAt0 V c t zeroS0 := by
  obtain ⟨n, hn⟩ := t; dsimp only at h; subst h; exact dif_pos hn
theorem runQ0_first (c : Dev nD) (t : Fin cfg0.N) (h : t.val = 0) : runQ0 V c t.val = stepQAt0 V c t zeroQ0 := by
  obtain ⟨n, hn⟩ := t; dsimp only at h; subst h; exact dif_pos hn
theorem runS0_pos (c : Dev nD) (t : Fin cfg0.N) (h : t.val ≠ 0) : runS0 V c t.val = stepSAt0 V c t (runS0 V c (t.val - 1)) := by
  obtain ⟨n, hn⟩ := t
  cases n with
  | zero => exact absurd rfl h
  | succ n => exact dif_pos hn
theorem runQ0_pos (c : Dev nD) (t : Fin cfg0.N) (h : t.val ≠ 0) : runQ0 V c t.val = stepQAt0 V c t (runQ0 V c (t.val - 1)) := by
  obtain ⟨n, hn⟩ := t
  cases n with
  | zero => exact absurd rfl h
  | succ n => exact dif_pos hn

/-! ## The region invariant: the scratch accumulators at the running sums -/

/-- Before the first point the class's invariant (every scoped buffer at anything, the generator register at some state);
    before point `n + 1` the two accumulators owned whole at the running sums after point `n`, the other scoped buffers
    and the generator register as before. -/
def PhiS0 (c : Dev nD) : ℕ → sProp 𝕄
  | 0 => Pipeline.ΦA spec0 c
  | n + 1 => iprop((owns (c : Thread nD τ) (Memref.whole cc0_scratch0 : Memref sig .tc .vmem S1x128 .f32) fullShare (runS0 V c n) ∗ owns (c : Thread nD τ) (Memref.whole cc0_scratch1 : Memref sig .tc .vmem S1x128 .f32) fullShare (runQ0 V c n))
      ∗ Pipeline.scopedRestBut (Ix := Unit) (Name := ℕ) (U := UR sig nD τ) (Lvl := ℕ) (Val := Elt F) spec0 c [cc0_scratch0, cc0_scratch1] ∗ (∃ r, prngReg c r))

theorem PhiS0_zero (c : Dev nD) (n : ℕ) (hz : n = 0) : PhiS0 V c n = Pipeline.ΦA spec0 c := by
  subst hz; rfl

theorem PhiS0_succ (c : Dev nD) (n : ℕ) :
    PhiS0 V c (n + 1) = iprop((owns (c : Thread nD τ) (Memref.whole cc0_scratch0 : Memref sig .tc .vmem S1x128 .f32) fullShare (runS0 V c n) ∗ owns (c : Thread nD τ) (Memref.whole cc0_scratch1 : Memref sig .tc .vmem S1x128 .f32) fullShare (runQ0 V c n))
      ∗ Pipeline.scopedRestBut (Ix := Unit) (Name := ℕ) (U := UR sig nD τ) (Lvl := ℕ) (Val := Elt F) spec0 c [cc0_scratch0, cc0_scratch1] ∗ (∃ r, prngReg c r)) := rfl

theorem PhiS0_pos (c : Dev nD) (n : ℕ) (hz : n ≠ 0) :
    PhiS0 V c n = iprop((owns (c : Thread nD τ) (Memref.whole cc0_scratch0 : Memref sig .tc .vmem S1x128 .f32) fullShare (runS0 V c (n - 1)) ∗ owns (c : Thread nD τ) (Memref.whole cc0_scratch1 : Memref sig .tc .vmem S1x128 .f32) fullShare (runQ0 V c (n - 1)))
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

/-- The class's invariant with the two accumulators taken out of the scoped rest, each owned whole at some contents. -/
theorem PhiA0_eq (c : Dev nD) :
    (Pipeline.ΦA spec0 c : sProp 𝕄)
      = iprop((((∃ d, owns (c : Thread nD τ) (Memref.whole cc0_scratch0 : Memref sig .tc .vmem S1x128 .f32) fullShare d) ∗ (∃ d, owns (c : Thread nD τ) (Memref.whole cc0_scratch1 : Memref sig .tc .vmem S1x128 .f32) fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [owns_whole]; try rfl

/-! ## The proof data -/

/-- The proof data of pipeline 0 on core `c`: the arrays as the region finds them; after the body each input's buffer at
    its block, the two outputs' at the running sums (stored only at the last point, where alone they are read);
    the invariant carries the accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => runS0 V c t.val
    | ⟨6, _⟩ => runQ0 V c t.val
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = runS0 V c t.val := by dsimp only [dat0]
theorem after0_6 (c : Dev nD) (t : Fin cfg0.N) : (dat0 V c).after 6 t = runQ0 V c t.val := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi0_castSucc (c : Dev nD) (t : Fin cfg0.N) : (dat0 V c).Φ t.castSucc = PhiS0 V c t.val := by
  dsimp only [dat0]; simp only [Fin.coe_castSucc]
theorem Phi0_succ (c : Dev nD) (t : Fin cfg0.N) : (dat0 V c).Φ t.succ = PhiS0 V c (t.val + 1) := by
  dsimp only [dat0]; simp only [Fin.val_succ]

theorem Phi0_first (c : Dev nD) : (dat0 V c).Φ 0 = Pipeline.ΦA spec0 c := rfl

theorem Phi0_last (c : Dev nD) : (dat0 V c).Φ (Fin.last cfg0.N) ⊢ (Pipeline.ΦA spec0 c : sProp 𝕄) := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨⟨HS, HQ⟩, Hr, Hg⟩
  isplitl [HS HQ Hr]
  · isplitl [HS HQ]
    · isplitl [HS]
      · iexists _; iexact HS
      iexists _; iexact HQ
    iexact Hr
  iexact Hg

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬cond0_2 (grid0.coords t) → cfg0.idle 5 (grid0.coords t) = true := by decide +kernel
theorem idleAt0_6 : ∀ t : Fin cfg0.N, ¬cond0_2 (grid0.coords t) → cfg0.idle 6 (grid0.coords t) = true := by decide +kernel
theorem noFlush0_5 : ∀ t : Fin cfg0.N, ¬cond0_2 (grid0.coords t) → (cfg0.win 5).flush t = false := by decide +kernel
theorem noFlush0_6 : ∀ t : Fin cfg0.N, ¬cond0_2 (grid0.coords t) → (cfg0.win 6).flush t = false := by decide +kernel
theorem liveAt0_5 : ∀ t : Fin cfg0.N, cond0_2 (grid0.coords t) → cfg0.idle 5 (grid0.coords t) = false := by decide +kernel
theorem liveAt0_6 : ∀ t : Fin cfg0.N, cond0_2 (grid0.coords t) → cfg0.idle 6 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [Phi0_succ, PhiS0_succ, Phi0_castSucc]
  have hN : t.val < 25 := lt_of_lt_of_eq t.isLt (show cfg0.N = 25 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  by_cases h0 : t.val = 0
  · have hc0 : cond0_0 (grid0.coords t) := (hcond0_0 t).mpr h0
    have hc2 : ¬cond0_2 (grid0.coords t) := fun h => by have := (hcond0_2 t).mp h; omega
    rw [Dat.leavesExact_idle (dat0 V c) 5 t (idleAt0_5 t hc2) (noFlush0_5 t hc2),
      Dat.leavesExact_idle (dat0 V c) 6 t (idleAt0_6 t hc2) (noFlush0_6 t hc2)]
    rw [runS0_first V c t h0, runQ0_first V c t h0, PhiS0_zero V c _ h0, PhiA0_eq]
    unfold stepSAt0 stepQAt0
    iintro ⟨⟨⟨⟨HS, HQ⟩, Hr⟩, Hg⟩, Ho, ⟨%d0, H0⟩, ⟨%d1, H1⟩, ⟨%d2, H2⟩, ⟨%d3, H3⟩, ⟨%d4, H4⟩, H5, H6⟩
    iapply (kernel_first0 c Set.univ (grid0.coords t) _ _ _ _ _ _ _ _ _ _ _ _ _ _ _ _ _ _ hc0 hc2 _ _ _ _ _ _)
    isplitl [H0]; · iexact H0
    isplitl [H1]; · iexact H1
    isplitl [H2]; · iexact H2
    isplitl [H3]; · iexact H3
    isplitl [H4]; · iexact H4
    isplitl [HS]; · iexact HS
    isplitl [HQ]; · iexact HQ
    iintro ⟨H0, H1, H2, H3, H4, HS, HQ⟩
    isplitl [HS HQ Hr Hg]
    · isplitl [HS HQ]
      · isplitl [HS]; · iexact HS
        iexact HQ
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond0_0 (grid0.coords t) := fun h => h0 ((hcond0_0 t).mp h)
    by_cases h2 : t.val = 24
    · have hc2 : cond0_2 (grid0.coords t) := (hcond0_2 t).mpr h2
      rw [show (dat0 V c).leavesExact 5 t = owns (c : Thread nD τ) (st0_5 t) fullShare ((dat0 V c).after 5 t) from by
        unfold Dat.leavesExact; rw [liveAt0_5 t hc2], after0_5]
      rw [show (dat0 V c).leavesExact 6 t = owns (c : Thread nD τ) (st0_6 t) fullShare ((dat0 V c).after 6 t) from by
        unfold Dat.leavesExact; rw [liveAt0_6 t hc2], after0_6]
      rw [runS0_pos V c t h0, runQ0_pos V c t h0, PhiS0_pos V c _ h0]
      unfold stepSAt0 stepQAt0
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_last0 c Set.univ (grid0.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HQ]; · iexact HQ
      iintro ⟨H0, H1, H2, H3, H4, H5, H6, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond0_2 (grid0.coords t) := fun h => h2 ((hcond0_2 t).mp h)
      rw [Dat.leavesExact_idle (dat0 V c) 5 t (idleAt0_5 t hc2) (noFlush0_5 t hc2),
        Dat.leavesExact_idle (dat0 V c) 6 t (idleAt0_6 t hc2) (noFlush0_6 t hc2)]
      rw [runS0_pos V c t h0, runQ0_pos V c t h0, PhiS0_pos V c _ h0]
      unfold stepSAt0 stepQAt0
      iintro ⟨⟨⟨HS, HQ⟩, Hr, Hg⟩, Ho, ⟨%d0, H0⟩, ⟨%d1, H1⟩, ⟨%d2, H2⟩, ⟨%d3, H3⟩, ⟨%d4, H4⟩, H5, H6⟩
      iapply (kernel_mid0 c Set.univ (grid0.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [HS]; · iexact HS
      isplitl [HQ]; · iexact HQ
      iintro ⟨H0, H1, H2, H3, H4, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Pipeline 2 at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The inputs' buffers hold their blocks at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The running sums -/

/-- One step of the column-sum accumulator at point `t`, over what it held. -/
def stepSAt2 (c : Dev nD) (t : Fin cfg2.N) (prev : Vec F S1x128 .f32) : Vec F S1x128 .f32 :=
  stepS2 (iblk2 V c 2 t) (iblk2 V c 0 t) (iblk2 V c 1 t) (iblk2 V c 3 t) (iblk2 V c 4 t) prev
/-- One step of the accumulator of squares at point `t`, over what it held. -/
def stepQAt2 (c : Dev nD) (t : Fin cfg2.N) (prev : Vec F S1x128 .f32) : Vec F S1x128 .f32 :=
  stepQ2 (iblk2 V c 2 t) (iblk2 V c 0 t) (iblk2 V c 1 t) (iblk2 V c 3 t) (iblk2 V c 4 t) prev

/-- What the column-sum accumulator holds after point `n`: reset at point 0, one step per point. -/
def runS2 (c : Dev nD) : ℕ → Vec F S1x128 .f32
  | 0 => if h : 0 < cfg2.N then stepSAt2 V c ⟨0, h⟩ zeroS2 else zeroS2
  | n + 1 => if h : n + 1 < cfg2.N then stepSAt2 V c ⟨n + 1, h⟩ (runS2 c n) else runS2 c n
/-- What the accumulator of squares holds after point `n`. -/
def runQ2 (c : Dev nD) : ℕ → Vec F S1x128 .f32
  | 0 => if h : 0 < cfg2.N then stepQAt2 V c ⟨0, h⟩ zeroQ2 else zeroQ2
  | n + 1 => if h : n + 1 < cfg2.N then stepQAt2 V c ⟨n + 1, h⟩ (runQ2 c n) else runQ2 c n

theorem runS2_first (c : Dev nD) (t : Fin cfg2.N) (h : t.val = 0) : runS2 V c t.val = stepSAt2 V c t zeroS2 := by
  obtain ⟨n, hn⟩ := t; dsimp only at h; subst h; exact dif_pos hn
theorem runQ2_first (c : Dev nD) (t : Fin cfg2.N) (h : t.val = 0) : runQ2 V c t.val = stepQAt2 V c t zeroQ2 := by
  obtain ⟨n, hn⟩ := t; dsimp only at h; subst h; exact dif_pos hn
theorem runS2_pos (c : Dev nD) (t : Fin cfg2.N) (h : t.val ≠ 0) : runS2 V c t.val = stepSAt2 V c t (runS2 V c (t.val - 1)) := by
  obtain ⟨n, hn⟩ := t
  cases n with
  | zero => exact absurd rfl h
  | succ n => exact dif_pos hn
theorem runQ2_pos (c : Dev nD) (t : Fin cfg2.N) (h : t.val ≠ 0) : runQ2 V c t.val = stepQAt2 V c t (runQ2 V c (t.val - 1)) := by
  obtain ⟨n, hn⟩ := t
  cases n with
  | zero => exact absurd rfl h
  | succ n => exact dif_pos hn

/-! ## The region invariant: the scratch accumulators at the running sums -/

/-- Before the first point the class's invariant (every scoped buffer at anything, the generator register at some state);
    before point `n + 1` the two accumulators owned whole at the running sums after point `n`, the other scoped buffers
    and the generator register as before. -/
def PhiS2 (c : Dev nD) : ℕ → sProp 𝕄
  | 0 => Pipeline.ΦA spec2 c
  | n + 1 => iprop((owns (c : Thread nD τ) (Memref.whole cc2_scratch0 : Memref sig .tc .vmem S1x128 .f32) fullShare (runS2 V c n) ∗ owns (c : Thread nD τ) (Memref.whole cc2_scratch1 : Memref sig .tc .vmem S1x128 .f32) fullShare (runQ2 V c n))
      ∗ Pipeline.scopedRestBut (Ix := Unit) (Name := ℕ) (U := UR sig nD τ) (Lvl := ℕ) (Val := Elt F) spec2 c [cc2_scratch0, cc2_scratch1] ∗ (∃ r, prngReg c r))

theorem PhiS2_zero (c : Dev nD) (n : ℕ) (hz : n = 0) : PhiS2 V c n = Pipeline.ΦA spec2 c := by
  subst hz; rfl

theorem PhiS2_succ (c : Dev nD) (n : ℕ) :
    PhiS2 V c (n + 1) = iprop((owns (c : Thread nD τ) (Memref.whole cc2_scratch0 : Memref sig .tc .vmem S1x128 .f32) fullShare (runS2 V c n) ∗ owns (c : Thread nD τ) (Memref.whole cc2_scratch1 : Memref sig .tc .vmem S1x128 .f32) fullShare (runQ2 V c n))
      ∗ Pipeline.scopedRestBut (Ix := Unit) (Name := ℕ) (U := UR sig nD τ) (Lvl := ℕ) (Val := Elt F) spec2 c [cc2_scratch0, cc2_scratch1] ∗ (∃ r, prngReg c r)) := rfl

theorem PhiS2_pos (c : Dev nD) (n : ℕ) (hz : n ≠ 0) :
    PhiS2 V c n = iprop((owns (c : Thread nD τ) (Memref.whole cc2_scratch0 : Memref sig .tc .vmem S1x128 .f32) fullShare (runS2 V c (n - 1)) ∗ owns (c : Thread nD τ) (Memref.whole cc2_scratch1 : Memref sig .tc .vmem S1x128 .f32) fullShare (runQ2 V c (n - 1)))
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The class's invariant with the two accumulators taken out of the scoped rest, each owned whole at some contents. -/
theorem PhiA2_eq (c : Dev nD) :
    (Pipeline.ΦA spec2 c : sProp 𝕄)
      = iprop((((∃ d, owns (c : Thread nD τ) (Memref.whole cc2_scratch0 : Memref sig .tc .vmem S1x128 .f32) fullShare d) ∗ (∃ d, owns (c : Thread nD τ) (Memref.whole cc2_scratch1 : Memref sig .tc .vmem S1x128 .f32) fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [owns_whole]; try rfl

/-! ## The proof data -/

/-- The proof data of pipeline 2 on core `c`: the arrays as the region finds them; after the body each input's buffer at
    its block, the two outputs' at the running sums (stored only at the last point, where alone they are read);
    the invariant carries the accumulators; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => runS2 V c t.val
    | ⟨6, _⟩ => runQ2 V c t.val
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = runS2 V c t.val := by dsimp only [dat2]
theorem after2_6 (c : Dev nD) (t : Fin cfg2.N) : (dat2 V c).after 6 t = runQ2 V c t.val := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

theorem Phi2_castSucc (c : Dev nD) (t : Fin cfg2.N) : (dat2 V c).Φ t.castSucc = PhiS2 V c t.val := by
  dsimp only [dat2]; simp only [Fin.coe_castSucc]
theorem Phi2_succ (c : Dev nD) (t : Fin cfg2.N) : (dat2 V c).Φ t.succ = PhiS2 V c (t.val + 1) := by
  dsimp only [dat2]; simp only [Fin.val_succ]

theorem Phi2_first (c : Dev nD) : (dat2 V c).Φ 0 = Pipeline.ΦA spec2 c := rfl

theorem Phi2_last (c : Dev nD) : (dat2 V c).Φ (Fin.last cfg2.N) ⊢ (Pipeline.ΦA spec2 c : sProp 𝕄) := by
  rw [show (dat2 V c).Φ (Fin.last cfg2.N) = PhiS2 V c (Fin.last cfg2.N).val from rfl,
    PhiS2_pos V c _ (by rw [Fin.val_last]; have : cfg2.N = 25 := N_2; omega), PhiA2_eq]
  iintro ⟨⟨HS, HQ⟩, Hr, Hg⟩
  isplitl [HS HQ Hr]
  · isplitl [HS HQ]
    · isplitl [HS]
      · iexists _; iexact HS
      iexists _; iexact HQ
    iexact Hr
  iexact Hg

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_2 (grid2.coords t) → cfg2.idle 5 (grid2.coords t) = true := by decide +kernel
theorem idleAt2_6 : ∀ t : Fin cfg2.N, ¬cond2_2 (grid2.coords t) → cfg2.idle 6 (grid2.coords t) = true := by decide +kernel
theorem noFlush2_5 : ∀ t : Fin cfg2.N, ¬cond2_2 (grid2.coords t) → (cfg2.win 5).flush t = false := by decide +kernel
theorem noFlush2_6 : ∀ t : Fin cfg2.N, ¬cond2_2 (grid2.coords t) → (cfg2.win 6).flush t = false := by decide +kernel
theorem liveAt2_5 : ∀ t : Fin cfg2.N, cond2_2 (grid2.coords t) → cfg2.idle 5 (grid2.coords t) = false := by decide +kernel
theorem liveAt2_6 : ∀ t : Fin cfg2.N, cond2_2 (grid2.coords t) → cfg2.idle 6 (grid2.coords t) = false := by decide +kernel

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [Phi2_succ, PhiS2_succ, Phi2_castSucc]
  have hN : t.val < 25 := lt_of_lt_of_eq t.isLt (show cfg2.N = 25 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  by_cases h0 : t.val = 0
  · have hc0 : cond2_0 (grid2.coords t) := (hcond2_0 t).mpr h0
    have hc2 : ¬cond2_2 (grid2.coords t) := fun h => by have := (hcond2_2 t).mp h; omega
    rw [Dat.leavesExact_idle (dat2 V c) 5 t (idleAt2_5 t hc2) (noFlush2_5 t hc2),
      Dat.leavesExact_idle (dat2 V c) 6 t (idleAt2_6 t hc2) (noFlush2_6 t hc2)]
    rw [runS2_first V c t h0, runQ2_first V c t h0, PhiS2_zero V c _ h0, PhiA2_eq]
    unfold stepSAt2 stepQAt2
    iintro ⟨⟨⟨⟨HS, HQ⟩, Hr⟩, Hg⟩, Ho, ⟨%d0, H0⟩, ⟨%d1, H1⟩, ⟨%d2, H2⟩, ⟨%d3, H3⟩, ⟨%d4, H4⟩, H5, H6⟩
    iapply (kernel_first2 c Set.univ (grid2.coords t) _ _ _ _ _ _ _ _ _ _ _ _ _ _ _ _ _ _ hc0 hc2 _ _ _ _ _ _)
    isplitl [H0]; · iexact H0
    isplitl [H1]; · iexact H1
    isplitl [H2]; · iexact H2
    isplitl [H3]; · iexact H3
    isplitl [H4]; · iexact H4
    isplitl [HS]; · iexact HS
    isplitl [HQ]; · iexact HQ
    iintro ⟨H0, H1, H2, H3, H4, HS, HQ⟩
    isplitl [HS HQ Hr Hg]
    · isplitl [HS HQ]
      · isplitl [HS]; · iexact HS
        iexact HQ
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬cond2_0 (grid2.coords t) := fun h => h0 ((hcond2_0 t).mp h)
    by_cases h2 : t.val = 24
    · have hc2 : cond2_2 (grid2.coords t) := (hcond2_2 t).mpr h2
      rw [show (dat2 V c).leavesExact 5 t = owns (c : Thread nD τ) (st2_5 t) fullShare ((dat2 V c).after 5 t) from by
        unfold Dat.leavesExact; rw [liveAt2_5 t hc2], after2_5]
      rw [show (dat2 V c).leavesExact 6 t = owns (c : Thread nD τ) (st2_6 t) fullShare ((dat2 V c).after 6 t) from by
        unfold Dat.leavesExact; rw [liveAt2_6 t hc2], after2_6]
      rw [runS2_pos V c t h0, runQ2_pos V c t h0, PhiS2_pos V c _ h0]
      unfold stepSAt2 stepQAt2
      iintro ⟨⟨⟨HS, HQ⟩, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_last2 c Set.univ (grid2.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      isplitl [HQ]; · iexact HQ
      iintro ⟨H0, H1, H2, H3, H4, H5, H6, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬cond2_2 (grid2.coords t) := fun h => h2 ((hcond2_2 t).mp h)
      rw [Dat.leavesExact_idle (dat2 V c) 5 t (idleAt2_5 t hc2) (noFlush2_5 t hc2),
        Dat.leavesExact_idle (dat2 V c) 6 t (idleAt2_6 t hc2) (noFlush2_6 t hc2)]
      rw [runS2_pos V c t h0, runQ2_pos V c t h0, PhiS2_pos V c _ h0]
      unfold stepSAt2 stepQAt2
      iintro ⟨⟨⟨HS, HQ⟩, Hr, Hg⟩, Ho, ⟨%d0, H0⟩, ⟨%d1, H1⟩, ⟨%d2, H2⟩, ⟨%d3, H3⟩, ⟨%d4, H4⟩, H5, H6⟩
      iapply (kernel_mid2 c Set.univ (grid2.coords t) _ _ _ _ _ _ _ _ _ _ _ _ _ _ _ _ _ _ hc0 hc2 _ _ _ _ _ _ _ _)
      isplitl [H0]; · iexact H0
      isplitl [H1]; · iexact H1
      isplitl [H2]; · iexact H2
      isplitl [H3]; · iexact H3
      isplitl [H4]; · iexact H4
      isplitl [HS]; · iexact HS
      isplitl [HQ]; · iexact HQ
      iintro ⟨H0, H1, H2, H3, H4, HS, HQ⟩
      isplitl [HS HQ Hr Hg]
      · isplitl [HS HQ]
        · isplitl [HS]; · iexact HS
          iexact HQ
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand
end
-- ==== Proof.DataKI.lean ====
/-
  The four regions' proof data, bundled for the run: the two statistics regions (pipelines 0 and 2), whose invariant
  carries the two scratch accumulators between grid points, and the two apply regions (pipelines 1 and 3).
-/
import proofs.«143642_j88098369176165_1_alg».proof.Proof.RunKI
import proofs.«143642_j88098369176165_1_alg».proof.Proof.ApplyKI
import proofs.«143642_j88098369176165_1_alg».proof.Proof.StatsKI

noncomputable section

namespace Cert.KernelIdeal.Hand

open Cert.KernelIdeal Cert.KernelIdeal.Gen Cert.KernelIdeal.GenP
open Idealize.ShloMosaic Idealize.ShloMosaic.TcCoe Idealize.SL Idealize.SL.Sem
open Idealize.ShloMosaic.Pipeline (Dat)

variable {F : FTy → Type} [FloatOps F]

/-- Pipeline 0: the first layer's statistics. -/
abbrev D0 : RegionData F cfg0 :=
  ⟨fun V c => dat0 V c, fun V c w => A_eq0 V c w, fun V c => body_obligation0 V c, fun _ _ _ => rfl, fun _ _ _ => rfl,
    fun _ _ _ => rfl, fun V c => Phi0_first V c, fun V c => Phi0_last V c⟩
/-- Pipeline 1: the first layer applied. -/
abbrev D1 : RegionData F cfg1 :=
  ⟨fun V c => dat1 V c, fun V c w => A_eq1 V c w, fun V c => body_obligation1 V c, fun _ _ _ => rfl, fun _ _ _ => rfl,
    fun _ _ _ => rfl, fun _ _ => rfl, fun _ _ => .rfl⟩
/-- Pipeline 2: the second layer's statistics. -/
abbrev D2 : RegionData F cfg2 :=
  ⟨fun V c => dat2 V c, fun V c w => A_eq2 V c w, fun V c => body_obligation2 V c, fun _ _ _ => rfl, fun _ _ _ => rfl,
    fun _ _ _ => rfl, fun V c => Phi2_first V c, fun V c => Phi2_last V c⟩
/-- Pipeline 3: the second layer applied. -/
abbrev D3 : RegionData F cfg3 :=
  ⟨fun V c => dat3 V c, fun V c w => A_eq3 V c w, fun V c => body_obligation3 V c, fun _ _ _ => rfl, fun _ _ _ => rfl,
    fun _ _ _ => rfl, fun _ _ => rfl, fun _ _ => .rfl⟩

end Cert.KernelIdeal.Hand

end
-- ==== Proof.Spec.lean ====
/-
  The mathematics of the two programs, stated once over coordinates, with no program imported.

  A two-layer GIN network on 100000 nodes with 128 features. For a node-feature matrix x and the edge
  aggregate agg (the sum over incoming edges of the source rows, the same host computation in both
  programs, kept abstract here as a function A of x), one layer is
     combine : (1 + eps) * x + agg
     h1      : combine * Wa + ba                         (a 128-term dot product per entry)
     mean, var of h1 over the 100000 rows, per column
     h1n     : ((h1 - mean) * rsqrt (var + epsBN)) * g + bt,   then max with 0
     h2      : h1n * Wb + bb
  The kernel takes mean and var from running sums over 25 blocks of 4000 rows: mean = S/n,
  var = Q/n - mean * mean with S the column sum of h1 and Q of h1 squared. The reference takes
  mean = (sum h1)/n and var = (sum (h1 - mean)^2)/n. On real entries the two agree (Algebra).
  Literals are kept as their binary words.
-/
import Idealize.ShloMosaic.PureOps.Ideal
import Idealize.ShloMosaic.PureOps.Ideal.Laws
import Idealize.ShloMosaic.Lib.ValueIdx

noncomputable section

namespace Cert.Gin

open Idealize.ShloMosaic

/-- A node-feature matrix: 100000 rows, 128 columns. -/
abbrev RM : Type := Fin 100000 → Fin 128 → EReal
/-- A weight matrix. -/
abbrev WM : Type := Fin 128 → Fin 128 → EReal
/-- A per-column vector. -/
abbrev CV : Type := Fin 128 → EReal

/-- The literal 1.0. -/
def cOne : EReal := Ideal.ofBits .f32 0x3F800000#32
/-- The literal 100000.0 (the number of rows, as both programs divide by it). -/
def cN : EReal := Ideal.ofBits .f32 0x47C35000#32
/-- The batch-norm epsilon as both programs spell it. -/
def cEps : EReal := Ideal.ofBits .f32 0x3727C5AC#32
/-- The literal 0.0. -/
def cZero : EReal := Ideal.ofBits .f32 0x00000000#32

/-- Every entry is a real number. -/
def IsRealM (h : RM) : Prop := ∀ r k, ∃ v : ℝ, h r k = (v : EReal)
def IsRealW (W : WM) : Prop := ∀ k j, ∃ v : ℝ, W k j = (v : EReal)
def IsRealV (b : CV) : Prop := ∀ j, ∃ v : ℝ, b j = (v : EReal)

/-- (1 + eps) * x + agg. -/
def combine (eps : EReal) (x agg : RM) : RM := fun r k => (cOne + eps) * x r k + agg r k

/-- h * W + b. -/
def lin (W : WM) (b : CV) (h : RM) : RM := fun r j => (∑ k : Fin 128, h r k * W k j) + b j

/-- Row number q of block t (25 blocks of 4000 rows). -/
def rowOf (t : Fin 25) (q : Fin 4000) : Fin 100000 := ⟨4000 * t.val + q.val, by omega⟩

/-- The column sums of block t. -/
def blockSum (h : RM) (t : Fin 25) : CV := fun j => ∑ q : Fin 4000, h (rowOf t q) j

/-- The kernel's running column sums after grid points 0 .. n: zero plus block 0, then one block added per point. -/
def runSum (h : RM) : ℕ → CV
  | 0 => fun j => cZero + blockSum h 0 j
  | n + 1 => fun j => runSum h n j + (if hn : n + 1 < 25 then blockSum h ⟨n + 1, hn⟩ j else 0)

/-- The entrywise square. -/
def sq (h : RM) : RM := fun r k => h r k * h r k

/-- The kernel's statistics: mean = S / n, var = Q / n - mean * mean. -/
def kMean (h : RM) : CV := fun j => Ideal.div (runSum h 24 j) cN
def kVar (h : RM) : CV := fun j => Ideal.div (runSum (sq h) 24 j) cN - kMean h j * kMean h j

/-- The reference's statistics: mean = (0 + sum over rows) / n, var = (0 + sum of squared deviations) / n. -/
def rMean (h : RM) : CV := fun j => Ideal.div (cZero + ∑ r : Fin 100000, h r j) cN
def rVar (h : RM) : CV :=
  fun j => Ideal.div (cZero + ∑ r : Fin 100000, (h r j - rMean h j) * (h r j - rMean h j)) cN

/-- Batch normalisation with the given statistics, then max with 0. -/
def bnRelu (mean var g bt : CV) (h : RM) : RM :=
  fun r k => max (((h r k - mean k) * Ideal.rsqrt (var k + cEps)) * g k + bt k) cZero

/-- Max with 0, entrywise. -/
def relu (h : RM) : RM := fun r k => max (h r k) cZero

/-- One layer, given how the statistics of h1 are taken. -/
def layerWith (mean var : RM → CV) (eps : EReal) (Wa : WM) (ba g bt : CV) (Wb : WM) (bb : CV) (x agg : RM) : RM :=
  lin Wb bb (bnRelu (mean (lin Wa ba (combine eps x agg))) (var (lin Wa ba (combine eps x agg))) g bt
    (lin Wa ba (combine eps x agg)))

/-- The kernel's layer and the reference's layer. -/
def kLayer := layerWith kMean kVar
def rLayer := layerWith rMean rVar

/-- The whole network, given the (shared) aggregation A and the layer: relu after the first layer only. -/
def netWith (layer : EReal → WM → CV → CV → CV → WM → CV → RM → RM → RM) (A : RM → RM)
    (x : RM) (eps1 : EReal) (W1a : WM) (b1a g1 bt1 : CV) (W1b : WM) (b1b : CV)
    (eps2 : EReal) (W2a : WM) (b2a g2 bt2 : CV) (W2b : WM) (b2b : CV) : RM :=
  layer eps2 W2a b2a g2 bt2 W2b b2b (relu (layer eps1 W1a b1a g1 bt1 W1b b1b x (A x)))
    (A (relu (layer eps1 W1a b1a g1 bt1 W1b b1b x (A x))))

/-! ## Arrays read as matrices and vectors -/

open Idealize.ShloMosaic.ValueIdx in
/-- A [100000,128] array read entry by entry. -/
def toRM (v : (⟨2, ![100000, 128]⟩ : Shape).Idx → EReal) : RM := fun r k => v (ix2 r k)
open Idealize.ShloMosaic.ValueIdx in
/-- A [128,128] array read entry by entry. -/
def toWM (v : (⟨2, ![128, 128]⟩ : Shape).Idx → EReal) : WM := fun k j => v (ix2 k j)
open Idealize.ShloMosaic.ValueIdx in
/-- A [128] array read entry by entry. -/
def toCV (v : (⟨1, ![128]⟩ : Shape).Idx → EReal) : CV := fun j => v (ix1 j)
open Idealize.ShloMosaic.ValueIdx in
/-- A [1,128] array (a row) read entry by entry. -/
def toCVrow (v : (⟨2, ![1, 128]⟩ : Shape).Idx → EReal) : CV := fun j => v (ix2 0 j)
open Idealize.ShloMosaic.ValueIdx in
/-- The one entry of a [1,1] array. -/
def toS11 (v : (⟨2, ![1, 1]⟩ : Shape).Idx → EReal) : EReal := v (ix2 0 0)
open Idealize.ShloMosaic.ValueIdx in
/-- The one entry of a rank-0 array. -/
def toS0 (v : (⟨0, ![]⟩ : Shape).Idx → EReal) : EReal := v ix0
/-- A matrix written back as a [100000,128] array. -/
def ofRM (h : RM) : (⟨2, ![100000, 128]⟩ : Shape).Idx → EReal := fun i => h (i 0) (i 1)

end Cert.Gin

end
-- ==== Proof.HostValueKI.lean ====
/-
  The kernel program's four stretches of host operations, read at exact arithmetic in the terms of the specification.

  Between its four kernel regions the program runs host operations: before the first and the third region it forms the
  edge aggregate (the source indices normalised, the source rows gathered and added into a zero array at the
  destination rows), reshapes the scalar and the per-column vectors to 1 x 1 and 1 x 128 arrays, and converts the two
  weight matrices to a narrower float format, which at exact arithmetic changes nothing; before the second and the fourth
  region it divides the two rows of running sums by the literal 100000 and subtracts the squared mean from the mean of
  squares. Each result buffer is read here, from ARBITRARY contents before the stretch, as the corresponding matrix,
  vector or scalar; a reference a stretch does not write keeps its contents.
-/
import proofs.«143642_j88098369176165_1_alg».proof.Proof.LaunchKI
import proofs.«143642_j88098369176165_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

set_option maxRecDepth 1036

noncomputable section

namespace Cert.KernelIdeal.Hand

open Cert.KernelIdeal Cert.KernelIdeal.Gen Cert.KernelIdeal.GenP Cert.Gin
open Idealize.ShloMosaic Idealize.ShloMosaic.ValueIdx

/-! ## Coordinates: the buffers' contents as the matrices and vectors of the specification (its toRM, ofRM, toCV ...) -/

/-- Reading a matrix as an array and back gives the array. -/
theorem ofRM_toRM (x : S100000x128.Idx → EReal) : ofRM (toRM x) = x := by
  funext i
  exact congrArg x (eq_ix2 i).symm
/-- Reading an array as a matrix and back gives the matrix. -/
theorem toRM_ofRM (h : RM) : toRM (ofRM h) = h := rfl

/-- A 128 array reshaped to 1 x 128 has the same entries. -/
theorem toCVrow_reshape (x : S128.Idx → EReal) : toCVrow (shapeCast S1x128 x shapeCasts_S128_S1x128) = toCV x := by
  funext j
  exact shapeCast_a_1a_apply x shapeCasts_S128_S1x128 0 j

/-- A rank-0 array reshaped to 1 x 1 has the same entry. -/
theorem toS11_reshape (x : S_.Idx → EReal) : toS11 (shapeCast S1x1 x shapeCasts_S_S1x1) = toS0 x := by
  refine shapeCast_apply x shapeCasts_S_S1x1 _ ix0 ?_
  rw [Shape.rowMajor_val_two]
  have h0 : (S_.rowMajor ix0).val < 1 := (S_.rowMajor ix0).isLt
  show (S_.rowMajor ix0).val = 0 * 1 + 0
  omega

/-! ## The aggregation: gather the source rows, add them up at the destination rows -/

/-- The edge aggregate as the operations compose it: the source indices normalised (a negative index counts from the
    end), the source rows gathered, and added into the zero array at the destination rows. -/
def aggTerm (src dst : (⟨S1600000, .i32⟩ : BufTy).Contents (Elt Ideal)) (x : S100000x128.Idx → EReal) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The same on matrices. -/
def aggMK (src dst : (⟨S1600000, .i32⟩ : BufTy).Contents (Elt Ideal)) : RM → RM :=
  fun h => toRM (aggTerm src dst (ofRM h))

/-! ## The four stretches of host operations, from arbitrary contents -/

abbrev H0 (W : Valuation τ sig (Elt Ideal)) : Valuation τ sig (Elt Ideal) := StableHlo.after (hostOps0 (F := Ideal)) W
abbrev H1 (W : Valuation τ sig (Elt Ideal)) : Valuation τ sig (Elt Ideal) := StableHlo.after (hostOps1 (F := Ideal)) W
abbrev H2 (W : Valuation τ sig (Elt Ideal)) : Valuation τ sig (Elt Ideal) := StableHlo.after (hostOps2 (F := Ideal)) W
abbrev H3 (W : Valuation τ sig (Elt Ideal)) : Valuation τ sig (Elt Ideal) := StableHlo.after (hostOps3 (F := Ideal)) W

namespace HV
/-- The references stretch 0 writes. -/
abbrev hostOps0_W : List (Ref sig .tc) := [main_c, main_v0, main_v1, main_c_0, main_v2, main_v3, main_v4, main_v5, main_v6, main_cst, main_v7, main_v8, main_v9, main_v10, main_v11, main_v12, main_v13, main_v14, main_v15, main_v16]
theorem hostOps0_writes : (hostOps0 (F := Ideal)).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
end HV
/-- A reference stretch 0 does not write keeps its contents. -/
theorem H0_of (W : Valuation τ sig (Elt Ideal)) (b : Ref sig .tc) (hb : b ∉ HV.hostOps0_W) :
    H0 W (Proc.devRef .tc b) = W (Proc.devRef .tc b) :=
  StableHlo.after_of_writes_sub _ W HV.hostOps0_writes hb

theorem H0_v9 (W : Valuation τ sig (Elt Ideal)) :
    toRM (H0 W (Proc.devRef .tc main_v9))
      = aggMK (W (Proc.devRef .tc main_arg1)) (W (Proc.devRef .tc main_arg2)) (toRM (W (Proc.devRef .tc main_arg0))) := by
  have e : (H0 W (Proc.devRef .tc main_v9) : S100000x128.Idx → EReal)
      = aggTerm (W (Proc.devRef .tc main_arg1)) (W (Proc.devRef .tc main_arg2)) (W (Proc.devRef .tc main_arg0)) := by
    dsimp only [H0, hostOps0]; after_results; all_goals rfl
  unfold aggMK; rw [ofRM_toRM, e]

theorem H0_v10 (W : Valuation τ sig (Elt Ideal)) :
    toS11 (H0 W (Proc.devRef .tc main_v10)) = toS0 (W (Proc.devRef .tc main_arg3)) := by
  have e : (H0 W (Proc.devRef .tc main_v10) : S1x1.Idx → EReal)
      = shapeCast S1x1 (W (Proc.devRef .tc main_arg3)) shapeCasts_S_S1x1 := by
    dsimp only [H0, hostOps0]; after_results; all_goals rfl
  rw [e]; exact toS11_reshape _

theorem H0_v11 (W : Valuation τ sig (Elt Ideal)) :
    toCVrow (H0 W (Proc.devRef .tc main_v11)) = toCV (W (Proc.devRef .tc main_arg5)) := by
  have e : (H0 W (Proc.devRef .tc main_v11) : S1x128.Idx → EReal)
      = shapeCast S1x128 (W (Proc.devRef .tc main_arg5)) shapeCasts_S128_S1x128 := by
    dsimp only [H0, hostOps0]; after_results; all_goals rfl
  rw [e]; exact toCVrow_reshape _

theorem H0_v12 (W : Valuation τ sig (Elt Ideal)) :
    toCVrow (H0 W (Proc.devRef .tc main_v12)) = toCV (W (Proc.devRef .tc main_arg9)) := by
  have e : (H0 W (Proc.devRef .tc main_v12) : S1x128.Idx → EReal)
      = shapeCast S1x128 (W (Proc.devRef .tc main_arg9)) shapeCasts_S128_S1x128 := by
    dsimp only [H0, hostOps0]; after_results; all_goals rfl
  rw [e]; exact toCVrow_reshape _

theorem H0_v13 (W : Valuation τ sig (Elt Ideal)) :
    toCVrow (H0 W (Proc.devRef .tc main_v13)) = toCV (W (Proc.devRef .tc main_arg6)) := by
  have e : (H0 W (Proc.devRef .tc main_v13) : S1x128.Idx → EReal)
      = shapeCast S1x128 (W (Proc.devRef .tc main_arg6)) shapeCasts_S128_S1x128 := by
    dsimp only [H0, hostOps0]; after_results; all_goals rfl
  rw [e]; exact toCVrow_reshape _

theorem H0_v14 (W : Valuation τ sig (Elt Ideal)) :
    toCVrow (H0 W (Proc.devRef .tc main_v14)) = toCV (W (Proc.devRef .tc main_arg7)) := by
  have e : (H0 W (Proc.devRef .tc main_v14) : S1x128.Idx → EReal)
      = shapeCast S1x128 (W (Proc.devRef .tc main_arg7)) shapeCasts_S128_S1x128 := by
    dsimp only [H0, hostOps0]; after_results; all_goals rfl
  rw [e]; exact toCVrow_reshape _

theorem H0_v15 (W : Valuation τ sig (Elt Ideal)) :
    toWM (H0 W (Proc.devRef .tc main_v15)) = toWM (W (Proc.devRef .tc main_arg4)) := by
  have e : (H0 W (Proc.devRef .tc main_v15) : S128x128.Idx → EReal)
      = truncf (F := Ideal) .bf16 (W (Proc.devRef .tc main_arg4)) bitsLt_bf16_f32 := by
    dsimp only [H0, hostOps0]; after_results; all_goals rfl
  rw [e]; rfl

theorem H0_v16 (W : Valuation τ sig (Elt Ideal)) :
    toWM (H0 W (Proc.devRef .tc main_v16)) = toWM (W (Proc.devRef .tc main_arg8)) := by
  have e : (H0 W (Proc.devRef .tc main_v16) : S128x128.Idx → EReal)
      = truncf (F := Ideal) .bf16 (W (Proc.devRef .tc main_arg8)) bitsLt_bf16_f32 := by
    dsimp only [H0, hostOps0]; after_results; all_goals rfl
  rw [e]; rfl

/-- The node features are not written by stretch 0. -/
theorem H0_arg0 (W : Valuation τ sig (Elt Ideal)) : H0 W (Proc.devRef .tc main_arg0) = W (Proc.devRef .tc main_arg0) :=
  H0_of W main_arg0 (by decide)

namespace HV
/-- The references stretch 1 writes. -/
abbrev hostOps1_W : List (Ref sig .tc) := [main_cst_1, main_v18, main_v19, main_cst_2, main_v20, main_v21, main_v22, main_v23]
theorem hostOps1_writes : (hostOps1 (F := Ideal)).Forall fun op => op.writes ⊆ (hostOps1_W.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
end HV
/-- A reference stretch 1 does not write keeps its contents. -/
theorem H1_of (W : Valuation τ sig (Elt Ideal)) (b : Ref sig .tc) (hb : b ∉ HV.hostOps1_W) :
    H1 W (Proc.devRef .tc b) = W (Proc.devRef .tc b) :=
  StableHlo.after_of_writes_sub _ W HV.hostOps1_writes hb

theorem H1_v19 (W : Valuation τ sig (Elt Ideal)) (j : Fin 128) :
    toCVrow (H1 W (Proc.devRef .tc main_v19)) j = Ideal.div (toCVrow (W (Proc.devRef .tc main_v17_0)) j) cN := by
  have e : (H1 W (Proc.devRef .tc main_v19) : S1x128.Idx → EReal)
      = Host.divf (W (Proc.devRef .tc main_v17_0)) (broadcastInDim S1x128 ![] bcast_S_S1x128 (constant (F := Ideal) S_ .f32 0x47C35000#32)) := by
    dsimp only [H1, hostOps1]; after_results; all_goals rfl
  unfold toCVrow; rw [e]; rfl

theorem H1_v23 (W : Valuation τ sig (Elt Ideal)) (j : Fin 128) :
    toCVrow (H1 W (Proc.devRef .tc main_v23)) j
      = Ideal.div (toCVrow (W (Proc.devRef .tc main_v17_1)) j) cN
        - Ideal.div (toCVrow (W (Proc.devRef .tc main_v17_0)) j) cN * Ideal.div (toCVrow (W (Proc.devRef .tc main_v17_0)) j) cN := by
  have e : (H1 W (Proc.devRef .tc main_v23) : S1x128.Idx → EReal)
      = subf (Host.divf (W (Proc.devRef .tc main_v17_1)) (broadcastInDim S1x128 ![] bcast_S_S1x128 (constant (F := Ideal) S_ .f32 0x47C35000#32)))
          (mulf (Host.divf (W (Proc.devRef .tc main_v17_0)) (broadcastInDim S1x128 ![] bcast_S_S1x128 (constant (F := Ideal) S_ .f32 0x47C35000#32)))
                (Host.divf (W (Proc.devRef .tc main_v17_0)) (broadcastInDim S1x128 ![] bcast_S_S1x128 (constant (F := Ideal) S_ .f32 0x47C35000#32)))) := by
    dsimp only [H1, hostOps1]; after_results; all_goals rfl
  unfold toCVrow; rw [e]; rfl

namespace HV
/-- The references stretch 2 writes. -/
abbrev hostOps2_W : List (Ref sig .tc) := [main_c_3, main_v25, main_v26, main_c_4, main_v27, main_v28, main_v29, main_v30, main_v31, main_cst_5, main_v32, main_v33, main_v34, main_v35, main_v36, main_v37, main_v38, main_v39, main_v40, main_v41]
theorem hostOps2_writes : (hostOps2 (F := Ideal)).Forall fun op => op.writes ⊆ (hostOps2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
end HV
/-- A reference stretch 2 does not write keeps its contents. -/
theorem H2_of (W : Valuation τ sig (Elt Ideal)) (b : Ref sig .tc) (hb : b ∉ HV.hostOps2_W) :
    H2 W (Proc.devRef .tc b) = W (Proc.devRef .tc b) :=
  StableHlo.after_of_writes_sub _ W HV.hostOps2_writes hb

theorem H2_v34 (W : Valuation τ sig (Elt Ideal)) :
    toRM (H2 W (Proc.devRef .tc main_v34))
      = aggMK (W (Proc.devRef .tc main_arg1)) (W (Proc.devRef .tc main_arg2)) (toRM (W (Proc.devRef .tc main_v24))) := by
  have e : (H2 W (Proc.devRef .tc main_v34) : S100000x128.Idx → EReal)
      = aggTerm (W (Proc.devRef .tc main_arg1)) (W (Proc.devRef .tc main_arg2)) (W (Proc.devRef .tc main_v24)) := by
    dsimp only [H2, hostOps2]; after_results; all_goals rfl
  unfold aggMK; rw [ofRM_toRM, e]

theorem H2_v35 (W : Valuation τ sig (Elt Ideal)) :
    toS11 (H2 W (Proc.devRef .tc main_v35)) = toS0 (W (Proc.devRef .tc main_arg10)) := by
  have e : (H2 W (Proc.devRef .tc main_v35) : S1x1.Idx → EReal)
      = shapeCast S1x1 (W (Proc.devRef .tc main_arg10)) shapeCasts_S_S1x1 := by
    dsimp only [H2, hostOps2]; after_results; all_goals rfl
  rw [e]; exact toS11_reshape _

theorem H2_v36 (W : Valuation τ sig (Elt Ideal)) :
    toCVrow (H2 W (Proc.devRef .tc main_v36)) = toCV (W (Proc.devRef .tc main_arg12)) := by
  have e : (H2 W (Proc.devRef .tc main_v36) : S1x128.Idx → EReal)
      = shapeCast S1x128 (W (Proc.devRef .tc main_arg12)) shapeCasts_S128_S1x128 := by
    dsimp only [H2, hostOps2]; after_results; all_goals rfl
  rw [e]; exact toCVrow_reshape _

theorem H2_v37 (W : Valuation τ sig (Elt Ideal)) :
    toCVrow (H2 W (Proc.devRef .tc main_v37)) = toCV (W (Proc.devRef .tc main_arg16)) := by
  have e : (H2 W (Proc.devRef .tc main_v37) : S1x128.Idx → EReal)
      = shapeCast S1x128 (W (Proc.devRef .tc main_arg16)) shapeCasts_S128_S1x128 := by
    dsimp only [H2, hostOps2]; after_results; all_goals rfl
  rw [e]; exact toCVrow_reshape _

theorem H2_v38 (W : Valuation τ sig (Elt Ideal)) :
    toCVrow (H2 W (Proc.devRef .tc main_v38)) = toCV (W (Proc.devRef .tc main_arg13)) := by
  have e : (H2 W (Proc.devRef .tc main_v38) : S1x128.Idx → EReal)
      = shapeCast S1x128 (W (Proc.devRef .tc main_arg13)) shapeCasts_S128_S1x128 := by
    dsimp only [H2, hostOps2]; after_results; all_goals rfl
  rw [e]; exact toCVrow_reshape _

theorem H2_v39 (W : Valuation τ sig (Elt Ideal)) :
    toCVrow (H2 W (Proc.devRef .tc main_v39)) = toCV (W (Proc.devRef .tc main_arg14)) := by
  have e : (H2 W (Proc.devRef .tc main_v39) : S1x128.Idx → EReal)
      = shapeCast S1x128 (W (Proc.devRef .tc main_arg14)) shapeCasts_S128_S1x128 := by
    dsimp only [H2, hostOps2]; after_results; all_goals rfl
  rw [e]; exact toCVrow_reshape _

theorem H2_v40 (W : Valuation τ sig (Elt Ideal)) :
    toWM (H2 W (Proc.devRef .tc main_v40)) = toWM (W (Proc.devRef .tc main_arg11)) := by
  have e : (H2 W (Proc.devRef .tc main_v40) : S128x128.Idx → EReal)
      = truncf (F := Ideal) .bf16 (W (Proc.devRef .tc main_arg11)) bitsLt_bf16_f32 := by
    dsimp only [H2, hostOps2]; after_results; all_goals rfl
  rw [e]; rfl

theorem H2_v41 (W : Valuation τ sig (Elt Ideal)) :
    toWM (H2 W (Proc.devRef .tc main_v41)) = toWM (W (Proc.devRef .tc main_arg15)) := by
  have e : (H2 W (Proc.devRef .tc main_v41) : S128x128.Idx → EReal)
      = truncf (F := Ideal) .bf16 (W (Proc.devRef .tc main_arg15)) bitsLt_bf16_f32 := by
    dsimp only [H2, hostOps2]; after_results; all_goals rfl
  rw [e]; rfl

/-- The first layer's output is not written by stretch 2. -/
theorem H2_v24 (W : Valuation τ sig (Elt Ideal)) : H2 W (Proc.devRef .tc main_v24) = W (Proc.devRef .tc main_v24) :=
  H2_of W main_v24 (by decide)

namespace HV
/-- The references stretch 3 writes. -/
abbrev hostOps3_W : List (Ref sig .tc) := [main_cst_6, main_v43, main_v44, main_cst_7, main_v45, main_v46, main_v47, main_v48]
theorem hostOps3_writes : (hostOps3 (F := Ideal)).Forall fun op => op.writes ⊆ (hostOps3_W.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
end HV
/-- A reference stretch 3 does not write keeps its contents. -/
theorem H3_of (W : Valuation τ sig (Elt Ideal)) (b : Ref sig .tc) (hb : b ∉ HV.hostOps3_W) :
    H3 W (Proc.devRef .tc b) = W (Proc.devRef .tc b) :=
  StableHlo.after_of_writes_sub _ W HV.hostOps3_writes hb

theorem H3_v44 (W : Valuation τ sig (Elt Ideal)) (j : Fin 128) :
    toCVrow (H3 W (Proc.devRef .tc main_v44)) j = Ideal.div (toCVrow (W (Proc.devRef .tc main_v42_0)) j) cN := by
  have e : (H3 W (Proc.devRef .tc main_v44) : S1x128.Idx → EReal)
      = Host.divf (W (Proc.devRef .tc main_v42_0)) (broadcastInDim S1x128 ![] bcast_S_S1x128 (constant (F := Ideal) S_ .f32 0x47C35000#32)) := by
    dsimp only [H3, hostOps3]; after_results; all_goals rfl
  unfold toCVrow; rw [e]; rfl

theorem H3_v48 (W : Valuation τ sig (Elt Ideal)) (j : Fin 128) :
    toCVrow (H3 W (Proc.devRef .tc main_v48)) j
      = Ideal.div (toCVrow (W (Proc.devRef .tc main_v42_1)) j) cN
        - Ideal.div (toCVrow (W (Proc.devRef .tc main_v42_0)) j) cN * Ideal.div (toCVrow (W (Proc.devRef .tc main_v42_0)) j) cN := by
  have e : (H3 W (Proc.devRef .tc main_v48) : S1x128.Idx → EReal)
      = subf (Host.divf (W (Proc.devRef .tc main_v42_1)) (broadcastInDim S1x128 ![] bcast_S_S1x128 (constant (F := Ideal) S_ .f32 0x47C35000#32)))
          (mulf (Host.divf (W (Proc.devRef .tc main_v42_0)) (broadcastInDim S1x128 ![] bcast_S_S1x128 (constant (F := Ideal) S_ .f32 0x47C35000#32)))
                (Host.divf (W (Proc.devRef .tc main_v42_0)) (broadcastInDim S1x128 ![] bcast_S_S1x128 (constant (F := Ideal) S_ .f32 0x47C35000#32)))) := by
    dsimp only [H3, hostOps3]; after_results; all_goals rfl
  unfold toCVrow; rw [e]; rfl

end Cert.KernelIdeal.Hand

end
-- ==== Proof.RefRunDefs.lean ====
/- The reference program's two-layer graph network as pure functions of its arguments' contents,
   stage by stage: each definition below is the composed term of the printed operations of that stage, with the
   printed literal words kept. They are stated for any float values `F`. -/
import proofs.«143642_j88098369176165_1_alg».proof.ReferenceIdeal

noncomputable section

namespace Cert.ReferenceIdeal.RefRun

open Cert.ReferenceIdeal Idealize.ShloMosaic Idealize.SL.Sem
open Facts₀ Facts

variable {F : FTy → Type} [FloatOps F] [Facts]

/-- A source index made non-negative: an index below zero is read from the end (the row count 100000 is added),
    as a column of one-entry index vectors. -/
def normIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of `x` at the edges' source nodes: one row per edge. -/
def gatherOf (x : (⟨S100000x128, .f32⟩ : BufTy).Contents (Elt F)) (src : (⟨S1600000, .i32⟩ : BufTy).Contents (Elt F)) : (⟨S1600000x128, .f32⟩ : BufTy).Contents (Elt F) :=
  Host.gather gather_S100000x128_S1600000x1_S1600000x128_1_0_n_n_0_1_1128 x (normIdx src)

/-- The per-edge rows `u` summed into zeros at the edges' destination nodes. -/
def scatterOf (dst : (⟨S1600000, .i32⟩ : BufTy).Contents (Elt F)) (u : (⟨S1600000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) u

/-- Neighbour aggregation: for each node the sum of its in-neighbours' rows. -/
def aggOf (x : (⟨S100000x128, .f32⟩ : BufTy).Contents (Elt F)) (src dst : (⟨S1600000, .i32⟩ : BufTy).Contents (Elt F)) : (⟨S100000x128, .f32⟩ : BufTy).Contents (Elt F) :=
  scatterOf dst (gatherOf x src)

/-- `(1 + eps) * x + agg`. -/
def combineOf (eps : (⟨S_, .f32⟩ : BufTy).Contents (Elt F)) (x agg : (⟨S100000x128, .f32⟩ : BufTy).Contents (Elt F)) : (⟨S100000x128, .f32⟩ : BufTy).Contents (Elt F) :=
  addf (mulf (broadcastInDim S100000x128 ![] bcast_S_S100000x128 (addf (constant S_ .f32 0x3F800000#32) eps)) x) agg

/-- A vector of 128 columns repeated down the 100000 rows. -/
def rowBcast (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- The linear map `h · w + b`. -/
def lin (w : (⟨S128x128, .f32⟩ : BufTy).Contents (Elt F)) (b : (⟨S128, .f32⟩ : BufTy).Contents (Elt F)) (h : (⟨S100000x128, .f32⟩ : BufTy).Contents (Elt F)) : (⟨S100000x128, .f32⟩ : BufTy).Contents (Elt F) :=
  addf (Host.dotGeneral dot_S100000x128_S128x128_S100000x128_1_0_0_1_n_n none h w) (rowBcast b)

/-- The column sums of `h`. -/
def colSum (h : (⟨S100000x128, .f32⟩ : BufTy).Contents (Elt F)) : (⟨S128, .f32⟩ : BufTy).Contents (Elt F) :=
  Host.reduceAdd h (constant S_ .f32 0x00000000#32) reducesTo_S100000x128_S128_d0 h_S_

/-- The column means of `h`: the column sums over the row count 100000. -/
def colMean (h : (⟨S100000x128, .f32⟩ : BufTy).Contents (Elt F)) : (⟨S128, .f32⟩ : BufTy).Contents (Elt F) :=
  Host.divf (colSum h) (broadcastInDim S128 ![] bcast_S_S128 (constant S_ .f32 0x47C35000#32))

/-- `h` minus its column means, the means taken as the variance computes them (a one-row matrix divided by the
    row count, then repeated down the rows). -/
def centered (h : (⟨S100000x128, .f32⟩ : BufTy).Contents (Elt F)) : (⟨S100000x128, .f32⟩ : BufTy).Contents (Elt F) :=
  subf h (broadcastInDim S100000x128 ![0, 1] bcast_S1x128_S100000x128_0_1
    (Host.divf (broadcastInDim S1x128 ![1] bcast_S128_S1x128_1 (colSum h))
      (broadcastInDim S1x128 ![] bcast_S_S1x128 (constant S_ .f32 0x47C35000#32))))

/-- The variance's divisor: the row count minus the degrees-of-freedom correction, which is zero. -/
def varDenom : (⟨S_, .f32⟩ : BufTy).Contents (Elt F) :=
  subf (constant S_ .f32 0x47C35000#32) (sitofp .f32 (constantI S_ 32 0#32))

/-- The column variances of `h`: the column sums of the squared centred entries over the divisor, where the
    divisor is positive, and the quiet not-a-number word elsewhere. -/
def colVar (h : (⟨S100000x128, .f32⟩ : BufTy).Contents (Elt F)) : (⟨S128, .f32⟩ : BufTy).Contents (Elt F) :=
  select (broadcastInDim S128 ![] bcast_S_S128 (cmpf .ogt (varDenom (F := F)) (constant S_ .f32 0x00000000#32)))
    (Host.divf (colSum (mulf (centered h) (centered h))) (broadcastInDim S128 ![] bcast_S_S128 (varDenom (F := F))))
    (broadcastInDim S128 ![] bcast_S_S128 (constant S_ .f32 0x7FC00000#32))

/-- The rectifier: the entrywise maximum with zero. -/
def relu1 (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- Batch normalisation: `(h - mean) * rsqrt(var + 1e-5) * g + bt`, columnwise. -/
def bnOf (mean var g bt : (⟨S128, .f32⟩ : BufTy).Contents (Elt F)) (h : (⟨S100000x128, .f32⟩ : BufTy).Contents (Elt F)) : (⟨S100000x128, .f32⟩ : BufTy).Contents (Elt F) :=
  addf (mulf (mulf (subf h (rowBcast mean))
      (rowBcast (Host.rsqrt (addf var (broadcastInDim S128 ![] bcast_S_S128 (constant S_ .f32 0x3727C5AC#32))))))
    (rowBcast g)) (rowBcast bt)

/-- Batch normalisation followed by the rectifier. -/
def bnRelu (mean var g bt : (⟨S128, .f32⟩ : BufTy).Contents (Elt F)) (h : (⟨S100000x128, .f32⟩ : BufTy).Contents (Elt F)) : (⟨S100000x128, .f32⟩ : BufTy).Contents (Elt F) :=
  relu1 (bnOf mean var g bt h)

/-- The first half of a layer: aggregate, combine with the node's own row, first linear map. -/
def preLin (x : (⟨S100000x128, .f32⟩ : BufTy).Contents (Elt F)) (src dst : (⟨S1600000, .i32⟩ : BufTy).Contents (Elt F)) (eps : (⟨S_, .f32⟩ : BufTy).Contents (Elt F))
    (wa : (⟨S128x128, .f32⟩ : BufTy).Contents (Elt F)) (ba : (⟨S128, .f32⟩ : BufTy).Contents (Elt F)) : (⟨S100000x128, .f32⟩ : BufTy).Contents (Elt F) :=
  lin wa ba (combineOf eps x (aggOf x src dst))

/-- The second half of a layer: normalise by the batch statistics of `h`, rectify, second linear map. -/
def postLin (h : (⟨S100000x128, .f32⟩ : BufTy).Contents (Elt F)) (g bt : (⟨S128, .f32⟩ : BufTy).Contents (Elt F)) (wb : (⟨S128x128, .f32⟩ : BufTy).Contents (Elt F)) (bb : (⟨S128, .f32⟩ : BufTy).Contents (Elt F)) :
    (⟨S100000x128, .f32⟩ : BufTy).Contents (Elt F) :=
  lin wb bb (bnRelu (colMean h) (colVar h) g bt h)

/-- One layer of the reference, without the rectifier that follows the first layer. -/
def refLayer (x : (⟨S100000x128, .f32⟩ : BufTy).Contents (Elt F)) (src dst : (⟨S1600000, .i32⟩ : BufTy).Contents (Elt F)) (eps : (⟨S_, .f32⟩ : BufTy).Contents (Elt F))
    (wa : (⟨S128x128, .f32⟩ : BufTy).Contents (Elt F)) (ba g bt : (⟨S128, .f32⟩ : BufTy).Contents (Elt F)) (wb : (⟨S128x128, .f32⟩ : BufTy).Contents (Elt F)) (bb : (⟨S128, .f32⟩ : BufTy).Contents (Elt F)) :
    (⟨S100000x128, .f32⟩ : BufTy).Contents (Elt F) :=
  postLin (preLin x src dst eps wa ba) g bt wb bb

/-- The reference's result: two layers, the rectifier between them. -/
def refOut (x : (⟨S100000x128, .f32⟩ : BufTy).Contents (Elt F)) (src dst : (⟨S1600000, .i32⟩ : BufTy).Contents (Elt F))
    (eps1 : (⟨S_, .f32⟩ : BufTy).Contents (Elt F)) (w1a : (⟨S128x128, .f32⟩ : BufTy).Contents (Elt F)) (b1a g1 bt1 : (⟨S128, .f32⟩ : BufTy).Contents (Elt F)) (w1b : (⟨S128x128, .f32⟩ : BufTy).Contents (Elt F)) (b1b : (⟨S128, .f32⟩ : BufTy).Contents (Elt F))
    (eps2 : (⟨S_, .f32⟩ : BufTy).Contents (Elt F)) (w2a : (⟨S128x128, .f32⟩ : BufTy).Contents (Elt F)) (b2a g2 bt2 : (⟨S128, .f32⟩ : BufTy).Contents (Elt F)) (w2b : (⟨S128x128, .f32⟩ : BufTy).Contents (Elt F)) (b2b : (⟨S128, .f32⟩ : BufTy).Contents (Elt F)) :
    (⟨S100000x128, .f32⟩ : BufTy).Contents (Elt F) :=
  refLayer (relu1 (refLayer x src dst eps1 w1a b1a g1 bt1 w1b b1b)) src dst eps2 w2a b2a g2 bt2 w2b b2b

end Cert.ReferenceIdeal.RefRun

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibBcastInDim.lean ====
/-
  `stablehlo.broadcast_in_dim` of small shapes, read at an index given by coordinates.

  A vector laid along the second axis of a one-row matrix, a one-row matrix repeated down the rows, a vector laid down
  the first axis of a one-column matrix, and a one-column matrix repeated across the columns: each entry of the result
  is the operand's entry at the coordinates the operand has.
-/
import Idealize.ShloMosaic.Lib.Pipeline.Value
import Idealize.ShloMosaic.Lib.ValueIdx

namespace Cert.BcastInDim

open Idealize.ShloMosaic Idealize.ShloMosaic.ValueIdx

variable {α : Type}

/-- A scalar repeated over any shape: every entry is the scalar. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector [b] as the one row of a [1, b] matrix: entry (u, q) is the vector's entry q. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix [1, b] repeated down a rows: entry (k, q) is the row's entry q. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (k : Fin a) (q : Fin b) :
    broadcastInDim ⟨2, ![a, b]⟩ ![0, 1] h x (ix2 k q) = x (ix2 (0 : Fin 1) q) := by
  refine broadcastInDim_apply _ h x (ix2 k q) (ix2 (0 : Fin 1) q) fun ax => ?_
  match ax with
  | ⟨0, _⟩ => rfl
  | ⟨1, _⟩ =>
    show q.val = if b = 1 then 0 else q.val
    split
    · have := q.isLt; omega
    · rfl

/-- A vector [a] as the one column of an [a, 1] matrix: entry (k, u) is the vector's entry k. -/
theorem vec_col_apply {a : ℕ} (x : (⟨1, ![a]⟩ : Shape).Idx → α)
    (h : (⟨1, ![a]⟩ : Shape).BroadcastsInDim ⟨2, ![a, 1]⟩ (![0] : Fin 1 → Fin 2)) (k : Fin a) (u : Fin 1) :
    broadcastInDim ⟨2, ![a, 1]⟩ ![0] h x (ix2 k u) = x (ix1 k) := by
  refine broadcastInDim_apply _ h x (ix2 k u) (ix1 k) fun ax => ?_
  match ax with
  | ⟨0, _⟩ =>
    show k.val = if a = 1 then 0 else k.val
    split
    · have := k.isLt; omega
    · rfl

/-- A one-column matrix [a, 1] repeated across b columns: entry (k, q) is the column's entry k. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (k : Fin a) (q : Fin b) :
    broadcastInDim ⟨2, ![a, b]⟩ ![0, 1] h x (ix2 k q) = x (ix2 k (0 : Fin 1)) := by
  refine broadcastInDim_apply _ h x (ix2 k q) (ix2 k (0 : Fin 1)) fun ax => ?_
  match ax with
  | ⟨0, _⟩ =>
    show k.val = if a = 1 then 0 else k.val
    split
    · have := k.isLt; omega
    · rfl
  | ⟨1, _⟩ => rfl

end Cert.BcastInDim
-- ==== Proof.LibBatchVariance.lean ====
/-
  The batch-variance law on the extended reals, and the facts about real-valued entries that feed it.

  For a column `h` of `n` REAL numbers (`n ≠ 0`), read in the extended reals, the mean of the squared deviations from
  the mean equals the mean of the squares minus the square of the mean. Every quantity is an extended real and the
  division by the real `n` is `Ideal.div`, which for a nonzero real divisor is the product with its reciprocal
  (`Ideal.div_coe`). With a column that has an infinite entry the law fails (a difference of infinities on one side
  only), hence the hypothesis that every entry is a real.

  The auxiliary facts say which entries are reals: a finite sum of coerced reals is the coerced sum; `Ideal.sign` of
  anything is one of -1, 0, 1; a value clipped between two reals is a real; a sum of products of reals plus a real is a
  real; and the float words for 16384, 1 and -1 denote those reals.
-/
import Idealize.ShloMosaic.PureOps.Ideal
import Idealize.ShloMosaic.PureOps.Ideal.Laws

noncomputable section

namespace Cert.BatchVariance

open Idealize.ShloMosaic

/-! ## Sums of reals in the extended reals -/

/-- A finite sum of coerced reals is the coerced sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The law -/

/-- Over the reals: with μ the mean, the mean of (h - μ)² is the mean of h² minus μ². -/
theorem real_law {n : ℕ} (hn : n ≠ 0) (h : Fin n → ℝ) :
    (∑ r, (h r - (∑ s, h s) * (1 / (n : ℝ))) * (h r - (∑ s, h s) * (1 / (n : ℝ)))) * (1 / (n : ℝ))
      = (∑ r, h r * h r) * (1 / (n : ℝ)) - (∑ s, h s) * (1 / (n : ℝ)) * ((∑ s, h s) * (1 / (n : ℝ))) := by
  have hn' : (n : ℝ) ≠ 0 := Nat.cast_ne_zero.mpr hn
  generalize hS : ∑ s, h s = S
  generalize hμ : S * (1 / (n : ℝ)) = μ
  have hSμ : S = n * μ := by rw [← hμ]; field_simp
  have e : ∑ r, (h r - μ) * (h r - μ) = (∑ r, h r * h r) - 2 * μ * S + n * (μ * μ) := by
    have hsq : ∀ r, (h r - μ) * (h r - μ) = h r * h r - 2 * μ * h r + μ * μ := fun r => by ring
    simp only [hsq, Finset.sum_add_distrib, Finset.sum_sub_distrib, ← Finset.mul_sum, hS, Finset.sum_const,
      Finset.card_univ, Fintype.card_fin, nsmul_eq_mul]
    ring
  rw [e, hSμ]
  field_simp
  ring

/-- Over the extended reals, for a column of reals: the mean of the squared deviations from the mean is the mean of
    the squares minus the square of the mean. -/
theorem variance_law {n : ℕ} (hn : n ≠ 0) (h : Fin n → ℝ) :
    Ideal.div (∑ r, ((h r : EReal) - Ideal.div (∑ s, (h s : EReal)) ((n : ℝ) : EReal))
        * ((h r : EReal) - Ideal.div (∑ s, (h s : EReal)) ((n : ℝ) : EReal))) ((n : ℝ) : EReal)
      = Ideal.div (∑ r, (h r : EReal) * (h r : EReal)) ((n : ℝ) : EReal)
        - Ideal.div (∑ s, (h s : EReal)) ((n : ℝ) : EReal) * Ideal.div (∑ s, (h s : EReal)) ((n : ℝ) : EReal) := by
  have hn' : (n : ℝ) ≠ 0 := Nat.cast_ne_zero.mpr hn
  simp only [Ideal.div_coe hn', coe_sum, ← EReal.coe_mul, ← EReal.coe_sub]
  exact congrArg _ (real_law hn h)

/-- The same for a column of extended reals every entry of which is a real. -/
theorem variance_law_of_real {n : ℕ} (hn : n ≠ 0) (h : Fin n → EReal) (hr : ∀ r, ∃ y : ℝ, h r = (y : EReal)) :
    Ideal.div (∑ r, (h r - Ideal.div (∑ s, h s) ((n : ℝ) : EReal)) * (h r - Ideal.div (∑ s, h s) ((n : ℝ) : EReal)))
        ((n : ℝ) : EReal)
      = Ideal.div (∑ r, h r * h r) ((n : ℝ) : EReal)
        - Ideal.div (∑ s, h s) ((n : ℝ) : EReal) * Ideal.div (∑ s, h s) ((n : ℝ) : EReal) := by
  choose y hy using hr
  obtain rfl : h = fun r => (y r : EReal) := funext hy
  exact variance_law hn y

/-! ## Which entries are reals -/

/-- `Ideal.sign` of any extended real is a real: -1, 0 or 1. -/
theorem sign_real (z : EReal) : ∃ y : ℝ, Ideal.sign z = (y : EReal) := by
  induction z using EReal.rec with
  | bot => exact ⟨-1, by simp⟩
  | top => exact ⟨1, by simp⟩
  | coe r => exact ⟨_, Ideal.sign_coe r⟩

/-- A value clipped between two reals is a real, whatever it was: it lies between them. -/
theorem clip_real {lo hi : ℝ} (hle : lo ≤ hi) (y : EReal) :
    ∃ z : ℝ, min (hi : EReal) (max (lo : EReal) y) = (z : EReal) := by
  refine ⟨(min (hi : EReal) (max (lo : EReal) y)).toReal, (EReal.coe_toReal ?_ ?_).symm⟩
  · exact ne_top_of_le_ne_top (EReal.coe_ne_top hi) (min_le_left _ _)
  · refine ne_bot_of_le_ne_bot (EReal.coe_ne_bot lo) (le_min ?_ (le_max_left _ _))
    exact_mod_cast hle

/-- A sum of products of reals, plus a real, is a real. -/
theorem sum_mul_add_real {K : ℕ} (a w : Fin K → EReal) (b : EReal) (ha : ∀ k, ∃ y : ℝ, a k = (y : EReal))
    (hw : ∀ k, ∃ y : ℝ, w k = (y : EReal)) (hb : ∃ y : ℝ, b = (y : EReal)) :
    ∃ y : ℝ, (∑ k, a k * w k) + b = (y : EReal) := by
  choose a' ha' using ha
  choose w' hw' using hw
  obtain ⟨b', rfl⟩ := hb
  refine ⟨(∑ k, a' k * w' k) + b', ?_⟩
  simp only [ha', hw', ← EReal.coe_mul, coe_sum, ← EReal.coe_add]

/-! ## The float words -/

/-- The word for the batch size denotes the real 16384. -/
theorem ofBits_batch : Ideal.ofBits .f32 0x46800000#32 = ((16384 : ℝ) : EReal) := by
  simp [Ideal.ofBits, Ideal.ieee, -EReal.coe_mul]; norm_num

/-- The word for the clip's upper bound denotes the real 1. -/
theorem ofBits_one : Ideal.ofBits .f32 0x3F800000#32 = ((1 : ℝ) : EReal) := by
  simp [Ideal.ofBits, Ideal.ieee, -EReal.coe_mul]; norm_num

/-- The word for the clip's lower bound denotes the real -1. -/
theorem ofBits_neg_one : Ideal.ofBits .f32 0xBF800000#32 = ((-1 : ℝ) : EReal) := by
  simp [Ideal.ofBits, Ideal.ieee, -EReal.coe_mul]; norm_num

end Cert.BatchVariance

end
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.AlgebraStats.lean ====
/-
  The literals as real numbers, and the agreement of the two ways of taking the batch statistics.

  The running sums over 25 blocks of 4000 rows add up, after the last block, to zero plus the sum over all
  100000 rows (a sum over 25 * 4000 consecutive indices taken block by block). Hence the two means are the same
  extended real, with no hypothesis. For a column of reals the mean of the squares minus the squared mean is the
  mean of the squared deviations (the batch-variance law), hence the two variances agree on real entries.
-/
import proofs.«143642_j88098369176165_1_alg».proof.Proof.Spec
import proofs.«143642_j88098369176165_1_alg».proof.Proof.LibBatchVariance
import proofs.«143642_j88098369176165_1_alg».proof.Proof.LibBlockedSum

noncomputable section

namespace Cert.Gin

open Idealize.ShloMosaic

/-! ## The literals -/

/-- The word 0x3F800000 denotes the real 1. -/
theorem cOne_eq : cOne = ((1 : ℝ) : EReal) := by
  simp [cOne, Ideal.ofBits, Ideal.ieee, -EReal.coe_mul]; norm_num

/-- The word 0x00000000 denotes 0. -/
theorem cZero_eq : cZero = 0 := by
  simp [cZero, Ideal.ofBits, Ideal.ieee]

/-- The word 0x47C35000 denotes the real 100000. -/
theorem cN_eq : cN = ((100000 : ℝ) : EReal) := by
  simp [cN, Ideal.ofBits, Ideal.ieee, -EReal.coe_mul]; norm_num

/-- The same with 100000 read as the cast of a natural number, the form the variance law takes. -/
theorem cN_eq_cast : cN = (((100000 : ℕ) : ℝ) : EReal) := by
  rw [cN_eq]; norm_num

/-- The word 0x3727C5AC (sign 0, exponent 0x6E, significand 0x27C5AC) denotes 10995116 * 2^(-40). -/
theorem cEps_eq : cEps = ((10995116 * (2 : ℝ) ^ (-40 : ℤ) : ℝ) : EReal) := by
  simp [cEps, Ideal.ofBits, Ideal.ieee, -EReal.coe_mul]

/-- The batch-norm epsilon is a positive real. -/
theorem cEps_pos : ∃ e : ℝ, 0 < e ∧ cEps = (e : EReal) :=
  ⟨_, by positivity, cEps_eq⟩

/-! ## The running sums -/

/-- The term added at grid point s: block s while s < 25, nothing afterwards. -/
def blockTerm (h : RM) (j : Fin 128) (s : ℕ) : EReal :=
  if hs : s < 25 then blockSum h ⟨s, hs⟩ j else 0

/-- After grid point n the running sum is zero plus the terms of points 0 .. n. -/
theorem runSum_eq_partial (h : RM) (j : Fin 128) (n : ℕ) :
    runSum h n j = cZero + ∑ s ∈ Finset.range (n + 1), blockTerm h j s := by
  induction n with
  | zero =>
    rw [Finset.sum_range_one]
    rfl
  | succ n ih =>
    have step : runSum h (n + 1) j = runSum h n j + blockTerm h j (n + 1) := rfl
    rw [step, ih, add_assoc, ← Finset.sum_range_succ (blockTerm h j) (n + 1)]

/-- After the last grid point the running sum is zero plus the sum over all 100000 rows. -/
theorem runSum_total (h : RM) (j : Fin 128) :
    runSum h 24 j = cZero + ∑ r : Fin 100000, h r j := by
  rw [runSum_eq_partial, Finset.sum_range (blockTerm h j)]
  have hb : ∀ t : Fin 25, blockTerm h j t.val = ∑ q : Fin 4000, h (rowOf t q) j := fun t => by
    unfold blockTerm
    rw [dif_pos t.isLt]
    rfl
  rw [Finset.sum_congr rfl fun t _ => hb t]
  exact congrArg (cZero + ·) (Cert.BlockedSum.sum_by_blocks (N := 25) (R := 4000) (fun r : Fin 100000 => h r j)).symm

/-! ## The statistics -/

/-- The two means are the same. -/
theorem kMean_eq (h : RM) : kMean h = rMean h := by
  funext j
  unfold kMean rMean
  rw [runSum_total]

/-- On real entries the two variances are the same. -/
theorem kVar_eq (h : RM) (hr : IsRealM h) : kVar h = rVar h := by
  funext j
  unfold kVar
  rw [kMean_eq]
  unfold rVar rMean
  rw [runSum_total]
  simp only [cZero_eq, zero_add, cN_eq_cast, sq]
  exact (Cert.BatchVariance.variance_law_of_real (n := 100000) (by norm_num) (fun r => h r j) (fun r => hr r j)).symm

/-- The kernel's statistics (running sums over the blocks; variance as mean of squares minus squared mean) and the
    reference's (whole-axis sums; variance as mean of squared deviations) agree on real entries. -/
theorem stats_eq (h : RM) (hr : IsRealM h) : kMean h = rMean h ∧ kVar h = rVar h :=
  ⟨kMean_eq h, kVar_eq h hr⟩

end Cert.Gin

end
-- ==== Proof.RefValueStages.lean ====
/-
  The reference program's stages read entry by entry at the exact values, and identified with the mathematics.

  Each stage of the reference's layer is a composition of elementwise operations, broadcasts, one matrix product and
  column sums. Read at an entry (p, q) of a [100000,128] array, or at an entry q of a [128] array:
    * a vector repeated down the rows reads the vector's entry q;
    * the matrix product reads the sum over k of h(p,k) * w(k,q);
    * a column sum reads zero plus the sum down the 100000 rows;
    * the variance's divisor, 100000.0 minus the integer 0 read as a float, is 100000.0, which is above zero, so the
      guarded selection returns the quotient;
    * the reciprocal square root, the maximum with zero and the arithmetic are the extended reals' own.
  So each stage is the function of the same name in the mathematics, applied to the arrays read as matrices and vectors,
  and one layer of the reference is the mathematics' layer with the reference's statistics.
-/
import proofs.«143642_j88098369176165_1_alg».proof.Proof.RefRunDefs
import proofs.«143642_j88098369176165_1_alg».proof.Proof.Spec
import proofs.«143642_j88098369176165_1_alg».proof.Proof.LibSageLayer
import proofs.«143642_j88098369176165_1_alg».proof.Proof.LibBcastInDim
import proofs.«143642_j88098369176165_1_alg».proof.Proof.AlgebraStats
import Idealize.ShloMosaic.Lib.IdealHost

noncomputable section

namespace Cert.ReferenceIdeal.RefValue

open Cert.ReferenceIdeal Idealize.ShloMosaic Idealize.ShloMosaic.ValueIdx
open Facts₀ Facts
open Cert.Gin (toRM toWM toCV toS0 ofRM RM WM CV cOne cN cEps cZero)

variable [Cert.ReferenceIdeal.Facts]

/-- The [100000,128] contents, the [128,128] contents, the [128] contents and the scalar contents at the exact values. -/
abbrev M : Type := (⟨S100000x128, .f32⟩ : BufTy).Contents (Elt Ideal)
abbrev W : Type := (⟨S128x128, .f32⟩ : BufTy).Contents (Elt Ideal)
abbrev V : Type := (⟨S128, .f32⟩ : BufTy).Contents (Elt Ideal)
abbrev S0 : Type := (⟨S_, .f32⟩ : BufTy).Contents (Elt Ideal)

/-- A vector repeated down the rows, read at an entry: the vector's entry at that column. -/
theorem rowBcast_apply (v : V) (p : Fin 100000) (q : Fin 128) :
    RefRun.rowBcast (F := Ideal) v (ix2 p q) = v (ix1 q) := by
  unfold RefRun.rowBcast
  rw [Cert.BcastInDim.row_mat_apply, Cert.BcastInDim.vec_row_apply]

/-- The linear map read at an entry. -/
theorem lin_apply (w : W) (b : V) (h : M) (p : Fin 100000) (q : Fin 128) :
    RefRun.lin (F := Ideal) w b h (ix2 p q) = (∑ k : Fin 128, h (ix2 p k) * w (ix2 k q)) + b (ix1 q) := by
  unfold RefRun.lin
  rw [addf_apply, rowBcast_apply]
  rw [Cert.SageLayer.dotGeneral_rows_cols (A := 100000) (K := 128) (B := 128)
    dot_S100000x128_S128x128_S100000x128_1_0_0_1_n_n rfl rfl (fun _ _ => rfl) (fun _ _ => rfl) (fun _ _ => rfl) (fun _ _ => rfl)]

theorem lin_eq (w : W) (b : V) (h : M) :
    toRM (RefRun.lin (F := Ideal) w b h) = Cert.Gin.lin (toWM w) (toCV b) (toRM h) := by
  funext p q
  exact lin_apply w b h p q

/-- The column sums read at an entry: zero plus the sum down the rows. -/
theorem colSum_apply (h : M) (q : Fin 128) :
    RefRun.colSum (F := Ideal) h (ix1 q) = cZero + ∑ r : Fin 100000, h (ix2 r q) := by
  unfold RefRun.colSum
  rw [hostReduceAdd_apply, Ideal.hostReduceAdd_single _ (by decide : S100000x128.Reduces [0] S128)]
  refine congrArg₂ (· + ·) rfl (Finset.sum_congr rfl fun k _ => congrArg h (funext fun a => Fin.ext ?_))
  match a with
  | ⟨0, _⟩ => rfl
  | ⟨1, _⟩ => rfl

/-- The column means read at an entry. -/
theorem colMean_apply (h : M) (q : Fin 128) :
    RefRun.colMean (F := Ideal) h (ix1 q) = Ideal.div (cZero + ∑ r : Fin 100000, h (ix2 r q)) cN := by
  unfold RefRun.colMean
  rw [hostDivf_apply, colSum_apply, Cert.BcastInDim.scalar_apply]
  rfl

theorem colMean_eq (h : M) : toCV (RefRun.colMean (F := Ideal) h) = Cert.Gin.rMean (toRM h) := by
  funext q
  exact colMean_apply h q

/-- The entries minus their column means, the means taken through a one-row matrix. -/
theorem centered_apply (h : M) (p : Fin 100000) (q : Fin 128) :
    RefRun.centered (F := Ideal) h (ix2 p q)
      = h (ix2 p q) - Ideal.div (cZero + ∑ r : Fin 100000, h (ix2 r q)) cN := by
  unfold RefRun.centered
  rw [subf_apply, Cert.BcastInDim.row_mat_apply, hostDivf_apply, Cert.BcastInDim.vec_row_apply, colSum_apply,
    Cert.BcastInDim.scalar_apply]
  rfl

/-- The variance's divisor: the row count minus the integer zero read as a float, which is the row count. -/
theorem varDenom_apply : RefRun.varDenom (F := Ideal) ix0 = cN := by
  unfold RefRun.varDenom
  rw [subf_apply, sitofp_apply]
  show cN - ((((0#32 : BitVec 32).toInt : ℝ)) : EReal) = cN
  simp

/-- The row count is above zero, so the guard on the divisor holds. -/
theorem guard_eq : FloatOps.cmpf (F := Ideal) (φ := .f32) .ogt cN (constant (F := Ideal) S_ .f32 0x00000000#32 ix0) = 1#1 := by
  show Ideal.cmp .ogt cN (Ideal.ofBits .f32 0x00000000#32) = 1#1
  rw [Ideal.ofBits_zero_f32, Cert.Gin.cN_eq]
  have hpos : (0 : EReal) < ((100000 : ℝ) : EReal) := by exact_mod_cast (by norm_num : (0 : ℝ) < 100000)
  simp [Ideal.cmp, hpos]

/-- The column variances read at an entry: the guard holds, so the quotient is selected. -/
theorem colVar_apply (h : M) (q : Fin 128) :
    RefRun.colVar (F := Ideal) h (ix1 q)
      = Ideal.div (cZero + ∑ r : Fin 100000,
          (h (ix2 r q) - Ideal.div (cZero + ∑ r : Fin 100000, h (ix2 r q)) cN)
            * (h (ix2 r q) - Ideal.div (cZero + ∑ r : Fin 100000, h (ix2 r q)) cN)) cN := by
  unfold RefRun.colVar
  rw [select_apply, Cert.BcastInDim.scalar_apply, cmpf_apply, varDenom_apply, guard_eq, select_one, hostDivf_apply,
    colSum_apply, Cert.BcastInDim.scalar_apply, varDenom_apply]
  simp only [mulf_apply, centered_apply]

theorem colVar_eq (h : M) : toCV (RefRun.colVar (F := Ideal) h) = Cert.Gin.rVar (toRM h) := by
  funext q
  exact colVar_apply h q

/-- The host's reciprocal square root at an entry. -/
theorem hostRsqrt_apply {s : Shape} (x : FVec Ideal s .f32) (i : s.Idx) : Host.rsqrt x i = Ideal.rsqrt (x i) := rfl

/-- The rectifier read at an entry. -/
theorem relu1_apply (h : M) (p : Fin 100000) (q : Fin 128) :
    RefRun.relu1 (F := Ideal) h (ix2 p q) = max (h (ix2 p q)) cZero := by
  unfold RefRun.relu1
  rw [maximumf_apply, Cert.BcastInDim.scalar_apply]
  rfl

theorem relu1_eq (h : M) : toRM (RefRun.relu1 (F := Ideal) h) = Cert.Gin.relu (toRM h) := by
  funext p q
  exact relu1_apply h p q

/-- Batch normalisation read at an entry. -/
theorem bnOf_apply (mean var g bt : V) (h : M) (p : Fin 100000) (q : Fin 128) :
    RefRun.bnOf (F := Ideal) mean var g bt h (ix2 p q)
      = ((h (ix2 p q) - mean (ix1 q)) * Ideal.rsqrt (var (ix1 q) + cEps)) * g (ix1 q) + bt (ix1 q) := by
  unfold RefRun.bnOf
  simp only [addf_apply, mulf_apply, subf_apply, rowBcast_apply, hostRsqrt_apply, Cert.BcastInDim.scalar_apply]
  rfl

theorem bnRelu_eq (mean var g bt : V) (h : M) :
    toRM (RefRun.bnRelu (F := Ideal) mean var g bt h)
      = Cert.Gin.bnRelu (toCV mean) (toCV var) (toCV g) (toCV bt) (toRM h) := by
  funext p q
  show RefRun.bnRelu (F := Ideal) mean var g bt h (ix2 p q) = _
  unfold RefRun.bnRelu
  rw [relu1_apply, bnOf_apply]
  rfl

/-- The combination with the node's own row read at an entry. -/
theorem combineOf_apply (eps : S0) (x agg : M) (p : Fin 100000) (q : Fin 128) :
    RefRun.combineOf (F := Ideal) eps x agg (ix2 p q) = (cOne + eps ix0) * x (ix2 p q) + agg (ix2 p q) := by
  unfold RefRun.combineOf
  rw [addf_apply, mulf_apply, Cert.BcastInDim.scalar_apply, addf_apply]
  rfl

theorem combineOf_eq (eps : S0) (x agg : M) :
    toRM (RefRun.combineOf (F := Ideal) eps x agg) = Cert.Gin.combine (toS0 eps) (toRM x) (toRM agg) := by
  funext p q
  exact combineOf_apply eps x agg p q

/-- One layer of the reference is the layer of the mathematics with the reference's statistics. -/
theorem refLayer_eq (x : M) (src dst : (⟨S1600000, .i32⟩ : BufTy).Contents (Elt Ideal)) (eps : S0) (wa : W) (ba g bt : V) (wb : W) (bb : V) :
    toRM (RefRun.refLayer (F := Ideal) x src dst eps wa ba g bt wb bb)
      = Cert.Gin.rLayer (toS0 eps) (toWM wa) (toCV ba) (toCV g) (toCV bt) (toWM wb) (toCV bb) (toRM x)
          (toRM (RefRun.aggOf (F := Ideal) x src dst)) := by
  unfold RefRun.refLayer RefRun.postLin RefRun.preLin
  rw [lin_eq, bnRelu_eq, colMean_eq, colVar_eq, lin_eq, combineOf_eq]
  rfl

end Cert.ReferenceIdeal.RefValue

end
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.RefValue.lean ====
/-
  The reference's whole result as the network of the mathematics, and the aggregation as a function of matrices.

  The neighbour aggregation gathers, for each of the 1600000 edges, the row of the node features at the edge's source
  (the row number read signed and clamped into range), and adds it into a zero array at the edge's destination row (the
  row number read signed; an edge whose destination is out of range is dropped). At the exact values the addition is the
  exact sum, so entry (n, c) of the aggregate is zero plus the sum, over the edges landing on row n, of the gathered entry
  in column c. As a function of the matrix alone it is `aggM`; a matrix of reals is sent to a matrix of reals, since every
  entry is zero plus a finite sum of reals.

  The reference's result is two layers with the rectifier between them, each layer taking the aggregate of its own
  input: with each layer identified (`refLayer_eq`) this is the mathematics' network with the reference's statistics.
-/
import proofs.«143642_j88098369176165_1_alg».proof.Proof.RefValueStages
import proofs.«143642_j88098369176165_1_alg».proof.Proof.LibRowGather
import proofs.«143642_j88098369176165_1_alg».proof.Proof.LibRowScatterAdd

noncomputable section

namespace Cert.ReferenceIdeal.RefValue

open Cert.ReferenceIdeal Idealize.ShloMosaic Idealize.ShloMosaic.ValueIdx
open Facts₀ Facts
open Cert.Gin (toRM toWM toCV toS0 ofRM RM WM CV cOne cN cEps cZero)

variable [Cert.ReferenceIdeal.Facts]

/-- The [1600000] contents of 32-bit integers: the edges' end points. -/
abbrev I : Type := (⟨S1600000, .i32⟩ : BufTy).Contents (Elt Ideal)

/-- A matrix read off an array and written back is the array. -/
theorem ofRM_toRM (x : M) : ofRM (toRM x) = x := by
  funext i
  exact congrArg x (eq_ix2 i).symm

/-- The neighbour aggregation as a function of matrices. -/
def aggM (src dst : I) : RM → RM := fun h => toRM (RefRun.aggOf (F := Ideal) (ofRM h) src dst)

theorem toRM_aggOf (x : M) (src dst : I) :
    toRM (RefRun.aggOf (F := Ideal) x src dst) = aggM src dst (toRM x) := by
  unfold aggM
  rw [ofRM_toRM]

/-- The reference's result is the network of the mathematics: two layers with the reference's statistics, the rectifier
    after the first, and the aggregation taken of each layer's input. -/
theorem refOut_eq (x : M) (src dst : I)
    (eps1 : S0) (w1a : W) (b1a g1 bt1 : V) (w1b : W) (b1b : V)
    (eps2 : S0) (w2a : W) (b2a g2 bt2 : V) (w2b : W) (b2b : V) :
    toRM (RefRun.refOut (F := Ideal) x src dst eps1 w1a b1a g1 bt1 w1b b1b eps2 w2a b2a g2 bt2 w2b b2b)
      = Cert.Gin.netWith Cert.Gin.rLayer (aggM src dst) (toRM x)
          (toS0 eps1) (toWM w1a) (toCV b1a) (toCV g1) (toCV bt1) (toWM w1b) (toCV b1b)
          (toS0 eps2) (toWM w2a) (toCV b2a) (toCV g2) (toCV bt2) (toWM w2b) (toCV b2b) := by
  unfold RefRun.refOut
  rw [refLayer_eq, toRM_aggOf, relu1_eq, refLayer_eq, toRM_aggOf]
  rfl

/-! ## The aggregation keeps entries real -/

/-- The printed gather record is the row gather's. -/
theorem gather_rec_eq : gather_S100000x128_S1600000x1_S1600000x128_1_0_n_n_0_1_1128
    = Cert.RowGather.dims 100000 1600000 128 gather_S100000x128_S1600000x1_S1600000x128_1_0_n_n_0_1_1128_wf := rfl

/-- The printed scatter record is the row scatter-add's. -/
theorem scatter_rec_eq : scatter_S100000x128_S1600000x1_S1600000x128_1_0_0_1
    = Cert.RowScatterAdd.dims 100000 1600000 128 scatter_S100000x128_S1600000x1_S1600000x128_1_0_0_1_wf := rfl

/-- The gathered rows read at an entry: the operand's entry at the row the edge's source names. -/
theorem gatherOf_apply (x : M) (src : I) (e : Fin 1600000) (c : Fin 128) :
    RefRun.gatherOf (F := Ideal) x src (ix2 e c)
      = x (ix2 (Cert.RowGather.row (N := 100000) (by norm_num) (RefRun.normIdx (F := Ideal) src) e) c) := by
  unfold RefRun.gatherOf
  rw [gather_rec_eq, Cert.RowGather.gather_apply]

/-- The aggregate read at an entry: zero plus the sum over the edges that land on the row of the gathered entry. -/
theorem aggOf_apply (x : M) (src dst : I) (n : Fin 100000) (c : Fin 128) :
    RefRun.aggOf (F := Ideal) x src dst (ix2 n c)
      = cZero + ∑ e : Fin 1600000,
          if Cert.RowScatterAdd.hits (broadcastInDim S1600000x1 ![0] bcast_S1600000_S1600000x1_0 dst) e n
          then x (ix2 (Cert.RowGather.row (N := 100000) (by norm_num) (RefRun.normIdx (F := Ideal) src) e) c) else 0 := by
  unfold RefRun.aggOf RefRun.scatterOf
  rw [scatter_rec_eq, Cert.RowScatterAdd.host_scatterAdd_apply, Cert.BcastInDim.scalar_apply]
  simp only [gatherOf_apply]
  rfl

/-- The aggregation of a matrix read at an entry. -/
theorem aggM_apply (src dst : I) (h : RM) (n : Fin 100000) (c : Fin 128) :
    aggM src dst h n c
      = cZero + ∑ e : Fin 1600000,
          if Cert.RowScatterAdd.hits (broadcastInDim S1600000x1 ![0] bcast_S1600000_S1600000x1_0 dst) e n
          then h (Cert.RowGather.row (N := 100000) (by norm_num) (RefRun.normIdx (F := Ideal) src) e) c else 0 :=
  aggOf_apply (ofRM h) src dst n c

/-- Zero plus a finite sum of reals is real, so the aggregate of a real matrix is real. -/
theorem aggM_real (src dst : I) (h : RM) (hr : Cert.Gin.IsRealM h) : Cert.Gin.IsRealM (aggM src dst h) := by
  intro n c
  choose f hf using hr
  rw [aggM_apply]
  refine ⟨∑ e : Fin 1600000,
    if Cert.RowScatterAdd.hits (broadcastInDim S1600000x1 ![0] bcast_S1600000_S1600000x1_0 dst) e n
    then f (Cert.RowGather.row (N := 100000) (by norm_num) (RefRun.normIdx (F := Ideal) src) e) c else 0, ?_⟩
  rw [Cert.Gin.cZero_eq, zero_add, ← Cert.BatchVariance.coe_sum]
  refine Finset.sum_congr rfl fun e _ => ?_
  split
  · exact hf _ _
  · exact EReal.coe_zero.symm

end Cert.ReferenceIdeal.RefValue

end
-- ==== Proof.EntryKI.lean ====
/-
  What each kernel region finds in its windows' arrays at its entry, in terms of the contents at launch and of the
  earlier regions' outputs.

  The program alternates four stretches of host operations with four kernel regions. A buffer that a stretch does not
  write and that is not an output of a region keeps its contents across it, so an argument of the program is, at every
  boundary, what it was at launch; a result of the first stretch (the aggregate, the reshaped scalar and vectors, the
  narrowed weights) is still what that stretch made of the launch contents when the second region starts, and likewise
  for the third stretch and the fourth region. The second and the fourth stretch divide the running sums the preceding
  region left by the row count and form the variance from them.

  The kernel program's aggregation and the reference's are the same composition of the same operations at the same
  dimension numbers, hence the same function of matrices.
-/
import proofs.«143642_j88098369176165_1_alg».proof.Proof.RunKI
import proofs.«143642_j88098369176165_1_alg».proof.Proof.HostValueKI
import proofs.«143642_j88098369176165_1_alg».proof.Proof.Spec
import proofs.«143642_j88098369176165_1_alg».proof.Proof.RefValue

noncomputable section

namespace Cert.KernelIdeal.Hand

open Cert.KernelIdeal Cert.KernelIdeal.Gen Cert.KernelIdeal.GenP Cert.Gin
open Idealize.ShloMosaic Idealize.ShloMosaic.ValueIdx

/-! ## Which buffer each window of each region reads or writes -/

theorem arr0_0 : Pipeline.arrRef spec0 0 = main_arg0 := rfl
theorem arr0_1 : Pipeline.arrRef spec0 1 = main_v9 := rfl
theorem arr0_2 : Pipeline.arrRef spec0 2 = main_v10 := rfl
theorem arr0_3 : Pipeline.arrRef spec0 3 = main_v15 := rfl
theorem arr0_4 : Pipeline.arrRef spec0 4 = main_v11 := rfl
theorem arr0_5 : Pipeline.arrRef spec0 5 = main_v17_0 := rfl
theorem arr0_6 : Pipeline.arrRef spec0 6 = main_v17_1 := rfl

theorem arr1_0 : Pipeline.arrRef spec1 0 = main_arg0 := rfl
theorem arr1_1 : Pipeline.arrRef spec1 1 = main_v9 := rfl
theorem arr1_2 : Pipeline.arrRef spec1 2 = main_v10 := rfl
theorem arr1_3 : Pipeline.arrRef spec1 3 = main_v15 := rfl
theorem arr1_4 : Pipeline.arrRef spec1 4 = main_v11 := rfl
theorem arr1_5 : Pipeline.arrRef spec1 5 = main_v19 := rfl
theorem arr1_6 : Pipeline.arrRef spec1 6 = main_v23 := rfl
theorem arr1_7 : Pipeline.arrRef spec1 7 = main_v13 := rfl
theorem arr1_8 : Pipeline.arrRef spec1 8 = main_v14 := rfl
theorem arr1_9 : Pipeline.arrRef spec1 9 = main_v16 := rfl
theorem arr1_10 : Pipeline.arrRef spec1 10 = main_v12 := rfl
theorem arr1_11 : Pipeline.arrRef spec1 11 = main_v24 := rfl

theorem arr2_0 : Pipeline.arrRef spec2 0 = main_v24 := rfl
theorem arr2_1 : Pipeline.arrRef spec2 1 = main_v34 := rfl
theorem arr2_2 : Pipeline.arrRef spec2 2 = main_v35 := rfl
theorem arr2_3 : Pipeline.arrRef spec2 3 = main_v40 := rfl
theorem arr2_4 : Pipeline.arrRef spec2 4 = main_v36 := rfl
theorem arr2_5 : Pipeline.arrRef spec2 5 = main_v42_0 := rfl
theorem arr2_6 : Pipeline.arrRef spec2 6 = main_v42_1 := rfl

theorem arr3_0 : Pipeline.arrRef spec3 0 = main_v24 := rfl
theorem arr3_1 : Pipeline.arrRef spec3 1 = main_v34 := rfl
theorem arr3_2 : Pipeline.arrRef spec3 2 = main_v35 := rfl
theorem arr3_3 : Pipeline.arrRef spec3 3 = main_v40 := rfl
theorem arr3_4 : Pipeline.arrRef spec3 4 = main_v36 := rfl
theorem arr3_5 : Pipeline.arrRef spec3 5 = main_v44 := rfl
theorem arr3_6 : Pipeline.arrRef spec3 6 = main_v48 := rfl
theorem arr3_7 : Pipeline.arrRef spec3 7 = main_v38 := rfl
theorem arr3_8 : Pipeline.arrRef spec3 8 = main_v39 := rfl
theorem arr3_9 : Pipeline.arrRef spec3 9 = main_v41 := rfl
theorem arr3_10 : Pipeline.arrRef spec3 10 = main_v37 := rfl
theorem arr3_11 : Pipeline.arrRef spec3 11 = main_v49 := rfl

/-! ## The kernel program's aggregation is the reference's -/

/-- The two programs compose the same gather and the same accumulating scatter, at dimension numbers with the same
    fields, on the same index arrays: one function of matrices. -/
theorem aggMK_eq [Cert.ReferenceIdeal.Facts] (src dst : (⟨S1600000, .i32⟩ : BufTy).Contents (Elt Ideal)) :
    aggMK src dst = Cert.ReferenceIdeal.RefValue.aggM src dst := by
  funext h
  unfold aggMK Cert.ReferenceIdeal.RefValue.aggM aggTerm Cert.ReferenceIdeal.RefRun.aggOf
    Cert.ReferenceIdeal.RefRun.scatterOf Cert.ReferenceIdeal.RefRun.gatherOf Cert.ReferenceIdeal.RefRun.normIdx
  rfl

/-! ## Walking a buffer back across stretches and regions -/

section Walk

variable (m : (ℓ : Loc nD τ sig) → Buf (Elt Ideal) ℓ) (ρ : Dev nD → PrngReg)
variable (D0 : RegionData Ideal cfg0) (D1 : RegionData Ideal cfg1) (D2 : RegionData Ideal cfg2) (D3 : RegionData Ideal cfg3)
variable (c : Dev nD)

/-- A buffer the first stretch does not write and the first region does not put out is, after that region, what it
    was at launch. -/
theorem W2_arg (r : Ref sig .tc) (h0 : r ∉ hostOps0_W) (h2 : r ≠ main_v17_0 ∧ r ≠ main_v17_1) :
    W2 m ρ D0 c (Proc.devRef .tc r) = W0 m ρ c (Proc.devRef .tc r) :=
  (W2_keep m ρ D0 c r h2).trans (W1_keep m ρ c r h0)

/-- The same after the second region. -/
theorem W4_arg (r : Ref sig .tc) (h0 : r ∉ hostOps0_W) (h2 : r ≠ main_v17_0 ∧ r ≠ main_v17_1)
    (h1 : r ∉ hostOps1_W) (h4 : r ≠ main_v24) :
    W4 m ρ D0 D1 c (Proc.devRef .tc r) = W0 m ρ c (Proc.devRef .tc r) :=
  (W4_keep m ρ D0 D1 c r h4).trans ((W3_keep m ρ D0 c r h1).trans (W2_arg m ρ D0 c r h0 h2))

/-- The same after the third region. -/
theorem W6_arg (r : Ref sig .tc) (h0 : r ∉ hostOps0_W) (h2 : r ≠ main_v17_0 ∧ r ≠ main_v17_1)
    (h1 : r ∉ hostOps1_W) (h4 : r ≠ main_v24) (h5 : r ∉ hostOps2_W) (h6 : r ≠ main_v42_0 ∧ r ≠ main_v42_1) :
    W6 m ρ D0 D1 D2 c (Proc.devRef .tc r) = W0 m ρ c (Proc.devRef .tc r) :=
  (W6_keep m ρ D0 D1 D2 c r h6).trans ((W5_keep m ρ D0 D1 c r h5).trans (W4_arg m ρ D0 D1 c r h0 h2 h1 h4))

/-- At the second region's entry a buffer the second stretch does not write and the first region does not put out
    is what it was at the first region's entry. -/
theorem V3_back (r : Ref sig .tc) (h1 : r ∉ HV.hostOps1_W) (h2 : r ≠ main_v17_0 ∧ r ≠ main_v17_1) :
    V3 m ρ D0 c r = V1 m ρ c r :=
  (H1_of (W2 m ρ D0 c) r h1).trans (W2_keep m ρ D0 c r h2)

/-- At the fourth region's entry a buffer the fourth stretch does not write and the third region does not put out
    is what it was at the third region's entry. -/
theorem V7_back (r : Ref sig .tc) (h3 : r ∉ HV.hostOps3_W) (h6 : r ≠ main_v42_0 ∧ r ≠ main_v42_1) :
    V7 m ρ D0 D1 D2 c r = V5 m ρ D0 D1 c r :=
  (H3_of (W6 m ρ D0 D1 D2 c) r h3).trans (W6_keep m ρ D0 D1 D2 c r h6)

/-! ## Region 0's entry -/

theorem E0_0 : V1 m ρ c main_arg0 = W0 m ρ c (Proc.devRef .tc main_arg0) :=
  W1_keep m ρ c main_arg0 (by decide)

theorem E0_1 : toRM (V1 m ρ c main_v9)
    = aggMK (W0 m ρ c (Proc.devRef .tc main_arg1)) (W0 m ρ c (Proc.devRef .tc main_arg2))
        (toRM (W0 m ρ c (Proc.devRef .tc main_arg0))) :=
  H0_v9 (W0 m ρ c)

theorem E0_2 : toS11 (V1 m ρ c main_v10) = toS0 (W0 m ρ c (Proc.devRef .tc main_arg3)) :=
  H0_v10 (W0 m ρ c)

theorem E0_3 : toWM (V1 m ρ c main_v15) = toWM (W0 m ρ c (Proc.devRef .tc main_arg4)) :=
  H0_v15 (W0 m ρ c)

theorem E0_4 : toCVrow (V1 m ρ c main_v11) = toCV (W0 m ρ c (Proc.devRef .tc main_arg5)) :=
  H0_v11 (W0 m ρ c)

/-! ## Region 1's entry -/

theorem E1_0 : V3 m ρ D0 c main_arg0 = W0 m ρ c (Proc.devRef .tc main_arg0) :=
  (V3_back m ρ D0 c main_arg0 (by decide) (by decide)).trans (E0_0 m ρ c)

theorem E1_1 : toRM (V3 m ρ D0 c main_v9)
    = aggMK (W0 m ρ c (Proc.devRef .tc main_arg1)) (W0 m ρ c (Proc.devRef .tc main_arg2))
        (toRM (W0 m ρ c (Proc.devRef .tc main_arg0))) :=
  (congrArg toRM (V3_back m ρ D0 c main_v9 (by decide) (by decide))).trans (E0_1 m ρ c)

theorem E1_2 : toS11 (V3 m ρ D0 c main_v10) = toS0 (W0 m ρ c (Proc.devRef .tc main_arg3)) :=
  (congrArg toS11 (V3_back m ρ D0 c main_v10 (by decide) (by decide))).trans (E0_2 m ρ c)

theorem E1_3 : toWM (V3 m ρ D0 c main_v15) = toWM (W0 m ρ c (Proc.devRef .tc main_arg4)) :=
  (congrArg toWM (V3_back m ρ D0 c main_v15 (by decide) (by decide))).trans (E0_3 m ρ c)

theorem E1_4 : toCVrow (V3 m ρ D0 c main_v11) = toCV (W0 m ρ c (Proc.devRef .tc main_arg5)) :=
  (congrArg toCVrow (V3_back m ρ D0 c main_v11 (by decide) (by decide))).trans (E0_4 m ρ c)

theorem E1_5 : toCVrow (V3 m ρ D0 c main_v19)
    = fun j => Ideal.div (toCVrow (W2 m ρ D0 c (Proc.devRef .tc main_v17_0)) j) cN :=
  funext fun j => H1_v19 (W2 m ρ D0 c) j

theorem E1_6 : toCVrow (V3 m ρ D0 c main_v23)
    = fun j => Ideal.div (toCVrow (W2 m ρ D0 c (Proc.devRef .tc main_v17_1)) j) cN
        - Ideal.div (toCVrow (W2 m ρ D0 c (Proc.devRef .tc main_v17_0)) j) cN
          * Ideal.div (toCVrow (W2 m ρ D0 c (Proc.devRef .tc main_v17_0)) j) cN :=
  funext fun j => H1_v23 (W2 m ρ D0 c) j

theorem E1_7 : toCVrow (V3 m ρ D0 c main_v13) = toCV (W0 m ρ c (Proc.devRef .tc main_arg6)) :=
  (congrArg toCVrow (V3_back m ρ D0 c main_v13 (by decide) (by decide))).trans (H0_v13 (W0 m ρ c))

theorem E1_8 : toCVrow (V3 m ρ D0 c main_v14) = toCV (W0 m ρ c (Proc.devRef .tc main_arg7)) :=
  (congrArg toCVrow (V3_back m ρ D0 c main_v14 (by decide) (by decide))).trans (H0_v14 (W0 m ρ c))

theorem E1_9 : toWM (V3 m ρ D0 c main_v16) = toWM (W0 m ρ c (Proc.devRef .tc main_arg8)) :=
  (congrArg toWM (V3_back m ρ D0 c main_v16 (by decide) (by decide))).trans (H0_v16 (W0 m ρ c))

theorem E1_10 : toCVrow (V3 m ρ D0 c main_v12) = toCV (W0 m ρ c (Proc.devRef .tc main_arg9)) :=
  (congrArg toCVrow (V3_back m ρ D0 c main_v12 (by decide) (by decide))).trans (H0_v12 (W0 m ρ c))

/-! ## Region 2's entry -/

theorem E2_0 : V5 m ρ D0 D1 c main_v24 = W4 m ρ D0 D1 c (Proc.devRef .tc main_v24) :=
  H2_v24 (W4 m ρ D0 D1 c)

theorem E2_1 : toRM (V5 m ρ D0 D1 c main_v34)
    = aggMK (W0 m ρ c (Proc.devRef .tc main_arg1)) (W0 m ρ c (Proc.devRef .tc main_arg2))
        (toRM (W4 m ρ D0 D1 c (Proc.devRef .tc main_v24))) := by
  have h := H2_v34 (W4 m ρ D0 D1 c)
  rw [W4_arg m ρ D0 D1 c main_arg1 (by decide) (by decide) (by decide) (by decide),
    W4_arg m ρ D0 D1 c main_arg2 (by decide) (by decide) (by decide) (by decide)] at h
  exact h

theorem E2_2 : toS11 (V5 m ρ D0 D1 c main_v35) = toS0 (W0 m ρ c (Proc.devRef .tc main_arg10)) := by
  have h := H2_v35 (W4 m ρ D0 D1 c)
  rw [W4_arg m ρ D0 D1 c main_arg10 (by decide) (by decide) (by decide) (by decide)] at h
  exact h

theorem E2_3 : toWM (V5 m ρ D0 D1 c main_v40) = toWM (W0 m ρ c (Proc.devRef .tc main_arg11)) := by
  have h := H2_v40 (W4 m ρ D0 D1 c)
  rw [W4_arg m ρ D0 D1 c main_arg11 (by decide) (by decide) (by decide) (by decide)] at h
  exact h

theorem E2_4 : toCVrow (V5 m ρ D0 D1 c main_v36) = toCV (W0 m ρ c (Proc.devRef .tc main_arg12)) := by
  have h := H2_v36 (W4 m ρ D0 D1 c)
  rw [W4_arg m ρ D0 D1 c main_arg12 (by decide) (by decide) (by decide) (by decide)] at h
  exact h

/-! ## Region 3's entry -/

theorem E3_0 : V7 m ρ D0 D1 D2 c main_v24 = W4 m ρ D0 D1 c (Proc.devRef .tc main_v24) :=
  (V7_back m ρ D0 D1 D2 c main_v24 (by decide) (by decide)).trans (E2_0 m ρ D0 D1 c)

theorem E3_1 : toRM (V7 m ρ D0 D1 D2 c main_v34)
    = aggMK (W0 m ρ c (Proc.devRef .tc main_arg1)) (W0 m ρ c (Proc.devRef .tc main_arg2))
        (toRM (W4 m ρ D0 D1 c (Proc.devRef .tc main_v24))) :=
  (congrArg toRM (V7_back m ρ D0 D1 D2 c main_v34 (by decide) (by decide))).trans (E2_1 m ρ D0 D1 c)

theorem E3_2 : toS11 (V7 m ρ D0 D1 D2 c main_v35) = toS0 (W0 m ρ c (Proc.devRef .tc main_arg10)) :=
  (congrArg toS11 (V7_back m ρ D0 D1 D2 c main_v35 (by decide) (by decide))).trans (E2_2 m ρ D0 D1 c)

theorem E3_3 : toWM (V7 m ρ D0 D1 D2 c main_v40) = toWM (W0 m ρ c (Proc.devRef .tc main_arg11)) :=
  (congrArg toWM (V7_back m ρ D0 D1 D2 c main_v40 (by decide) (by decide))).trans (E2_3 m ρ D0 D1 c)

theorem E3_4 : toCVrow (V7 m ρ D0 D1 D2 c main_v36) = toCV (W0 m ρ c (Proc.devRef .tc main_arg12)) :=
  (congrArg toCVrow (V7_back m ρ D0 D1 D2 c main_v36 (by decide) (by decide))).trans (E2_4 m ρ D0 D1 c)

theorem E3_5 : toCVrow (V7 m ρ D0 D1 D2 c main_v44)
    = fun j => Ideal.div (toCVrow (W6 m ρ D0 D1 D2 c (Proc.devRef .tc main_v42_0)) j) cN :=
  funext fun j => H3_v44 (W6 m ρ D0 D1 D2 c) j

theorem E3_6 : toCVrow (V7 m ρ D0 D1 D2 c main_v48)
    = fun j => Ideal.div (toCVrow (W6 m ρ D0 D1 D2 c (Proc.devRef .tc main_v42_1)) j) cN
        - Ideal.div (toCVrow (W6 m ρ D0 D1 D2 c (Proc.devRef .tc main_v42_0)) j) cN
          * Ideal.div (toCVrow (W6 m ρ D0 D1 D2 c (Proc.devRef .tc main_v42_0)) j) cN :=
  funext fun j => H3_v48 (W6 m ρ D0 D1 D2 c) j

theorem E3_7 : toCVrow (V7 m ρ D0 D1 D2 c main_v38) = toCV (W0 m ρ c (Proc.devRef .tc main_arg13)) := by
  have h := H2_v38 (W4 m ρ D0 D1 c)
  rw [W4_arg m ρ D0 D1 c main_arg13 (by decide) (by decide) (by decide) (by decide)] at h
  exact (congrArg toCVrow (V7_back m ρ D0 D1 D2 c main_v38 (by decide) (by decide))).trans h

theorem E3_8 : toCVrow (V7 m ρ D0 D1 D2 c main_v39) = toCV (W0 m ρ c (Proc.devRef .tc main_arg14)) := by
  have h := H2_v39 (W4 m ρ D0 D1 c)
  rw [W4_arg m ρ D0 D1 c main_arg14 (by decide) (by decide) (by decide) (by decide)] at h
  exact (congrArg toCVrow (V7_back m ρ D0 D1 D2 c main_v39 (by decide) (by decide))).trans h

theorem E3_9 : toWM (V7 m ρ D0 D1 D2 c main_v41) = toWM (W0 m ρ c (Proc.devRef .tc main_arg15)) := by
  have h := H2_v41 (W4 m ρ D0 D1 c)
  rw [W4_arg m ρ D0 D1 c main_arg15 (by decide) (by decide) (by decide) (by decide)] at h
  exact (congrArg toWM (V7_back m ρ D0 D1 D2 c main_v41 (by decide) (by decide))).trans h

theorem E3_10 : toCVrow (V7 m ρ D0 D1 D2 c main_v37) = toCV (W0 m ρ c (Proc.devRef .tc main_arg16)) := by
  have h := H2_v37 (W4 m ρ D0 D1 c)
  rw [W4_arg m ρ D0 D1 c main_arg16 (by decide) (by decide) (by decide) (by decide)] at h
  exact (congrArg toCVrow (V7_back m ρ D0 D1 D2 c main_v37 (by decide) (by decide))).trans h

end Walk

end Cert.KernelIdeal.Hand

end
-- ==== Proof.KernelChain.lean ====
/-
  The kernel program's value chain: from what the four regions leave in their outputs, given what each region computes
  from its windows' arrays at entry, to the whole result as the network of the mathematics with the kernel's statistics.

  Region 0 leaves the running column sums of h1 = (combination of x with its aggregate) * Wa + ba and of its square,
  read off the launch contents; the stretch after it turns them into the kernel's mean and variance; region 1 then
  leaves the rectified first layer. Regions 2 and 3 repeat this on that output with the second layer's parameters,
  without the final rectifier. Each step walks the region's entry arrays back to the launch contents or to the previous
  region's output.
-/
import proofs.«143642_j88098369176165_1_alg».proof.Proof.EntryKI

noncomputable section

namespace Cert.KernelIdeal.Hand

open Cert.KernelIdeal Cert.KernelIdeal.Gen Cert.KernelIdeal.GenP Cert.Gin
open Idealize.ShloMosaic Idealize.ShloMosaic.ValueIdx

namespace Chain

variable (m : (ℓ : Loc nD τ sig) → Buf (Elt Ideal) ℓ) (ρ : Dev nD → PrngReg)
variable (D0 : RegionData Ideal cfg0) (D1 : RegionData Ideal cfg1) (D2 : RegionData Ideal cfg2) (D3 : RegionData Ideal cfg3)
variable (c : Dev nD)

/-- What a statistics region leaves in its first output: the running sums of the linear map of the combination. -/
def SumsSpec0 (D0 : RegionData Ideal cfg0) : Prop := ∀ (V : VTy Ideal) (c : Dev nD),
  toCVrow ((D0.dat V c).arrAt 5 cfg0.N) = runSum (lin (toWM (V c (Pipeline.arrRef spec0 3))) (toCVrow (V c (Pipeline.arrRef spec0 4))) (combine (toS11 (V c (Pipeline.arrRef spec0 2))) (toRM (V c (Pipeline.arrRef spec0 0))) (toRM (V c (Pipeline.arrRef spec0 1))))) 24
/-- … and in its second output: the running sums of the squares. -/
def SqSpec0 (D0 : RegionData Ideal cfg0) : Prop := ∀ (V : VTy Ideal) (c : Dev nD),
  toCVrow ((D0.dat V c).arrAt 6 cfg0.N) = runSum (sq (lin (toWM (V c (Pipeline.arrRef spec0 3))) (toCVrow (V c (Pipeline.arrRef spec0 4))) (combine (toS11 (V c (Pipeline.arrRef spec0 2))) (toRM (V c (Pipeline.arrRef spec0 0))) (toRM (V c (Pipeline.arrRef spec0 1)))))) 24
def SumsSpec2 (D2 : RegionData Ideal cfg2) : Prop := ∀ (V : VTy Ideal) (c : Dev nD),
  toCVrow ((D2.dat V c).arrAt 5 cfg2.N) = runSum (lin (toWM (V c (Pipeline.arrRef spec2 3))) (toCVrow (V c (Pipeline.arrRef spec2 4))) (combine (toS11 (V c (Pipeline.arrRef spec2 2))) (toRM (V c (Pipeline.arrRef spec2 0))) (toRM (V c (Pipeline.arrRef spec2 1))))) 24
def SqSpec2 (D2 : RegionData Ideal cfg2) : Prop := ∀ (V : VTy Ideal) (c : Dev nD),
  toCVrow ((D2.dat V c).arrAt 6 cfg2.N) = runSum (sq (lin (toWM (V c (Pipeline.arrRef spec2 3))) (toCVrow (V c (Pipeline.arrRef spec2 4))) (combine (toS11 (V c (Pipeline.arrRef spec2 2))) (toRM (V c (Pipeline.arrRef spec2 0))) (toRM (V c (Pipeline.arrRef spec2 1)))))) 24
/-- What an apply region leaves in its output: the normalised, rectified linear map, through the second linear map;
    the first layer's is rectified once more. -/
def ApplySpec1 (D1 : RegionData Ideal cfg1) : Prop := ∀ (V : VTy Ideal) (c : Dev nD),
  toRM ((D1.dat V c).arrAt 11 cfg1.N) = relu (lin (toWM (V c (Pipeline.arrRef spec1 9))) (toCVrow (V c (Pipeline.arrRef spec1 10))) (bnRelu (toCVrow (V c (Pipeline.arrRef spec1 5))) (toCVrow (V c (Pipeline.arrRef spec1 6))) (toCVrow (V c (Pipeline.arrRef spec1 7))) (toCVrow (V c (Pipeline.arrRef spec1 8))) (lin (toWM (V c (Pipeline.arrRef spec1 3))) (toCVrow (V c (Pipeline.arrRef spec1 4))) (combine (toS11 (V c (Pipeline.arrRef spec1 2))) (toRM (V c (Pipeline.arrRef spec1 0))) (toRM (V c (Pipeline.arrRef spec1 1)))))))
def ApplySpec3 (D3 : RegionData Ideal cfg3) : Prop := ∀ (V : VTy Ideal) (c : Dev nD),
  toRM ((D3.dat V c).arrAt 11 cfg3.N) = (lin (toWM (V c (Pipeline.arrRef spec3 9))) (toCVrow (V c (Pipeline.arrRef spec3 10))) (bnRelu (toCVrow (V c (Pipeline.arrRef spec3 5))) (toCVrow (V c (Pipeline.arrRef spec3 6))) (toCVrow (V c (Pipeline.arrRef spec3 7))) (toCVrow (V c (Pipeline.arrRef spec3 8))) (lin (toWM (V c (Pipeline.arrRef spec3 3))) (toCVrow (V c (Pipeline.arrRef spec3 4))) (combine (toS11 (V c (Pipeline.arrRef spec3 2))) (toRM (V c (Pipeline.arrRef spec3 0))) (toRM (V c (Pipeline.arrRef spec3 1)))))))

variable (hS0 : SumsSpec0 D0) (hQ0 : SqSpec0 D0) (hA1 : ApplySpec1 D1)
variable (hS2 : SumsSpec2 D2) (hQ2 : SqSpec2 D2) (hA3 : ApplySpec3 D3)

include hS0 in
theorem stats1_sum : toCVrow (W2 m ρ D0 c (Proc.devRef .tc main_v17_0)) = runSum (lin (toWM (W0 m ρ c (Proc.devRef .tc main_arg4))) (toCV (W0 m ρ c (Proc.devRef .tc main_arg5))) (combine (toS0 (W0 m ρ c (Proc.devRef .tc main_arg3))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) 24 := by
  rw [W2_main_v17_0]
  have h : toCVrow ((D0.dat (V1 m ρ) c).arrAt 5 cfg0.N) = runSum (lin (toWM (V1 m ρ c main_v15)) (toCVrow (V1 m ρ c main_v11)) (combine (toS11 (V1 m ρ c main_v10)) (toRM (V1 m ρ c main_arg0)) (toRM (V1 m ρ c main_v9)))) 24 := hS0 (V1 m ρ) c
  rw [h, E0_0, E0_1, E0_2, E0_3, E0_4]

include hQ0 in
theorem stats1_sq : toCVrow (W2 m ρ D0 c (Proc.devRef .tc main_v17_1)) = runSum (sq (lin (toWM (W0 m ρ c (Proc.devRef .tc main_arg4))) (toCV (W0 m ρ c (Proc.devRef .tc main_arg5))) (combine (toS0 (W0 m ρ c (Proc.devRef .tc main_arg3))) (toRM (W0 m ρ c (Proc.devRef .tc main_arg0))) ((aggMK (W0 m ρ c (Proc.devRef .tc main_arg1)) (W0 m ρ c (Proc.devRef .tc main_arg2))) (toRM (W0 m ρ c (Proc.devRef .tc main_arg0))))))) 24 := by
  rw [W2_main_v17_1]
  have h : toCVrow ((D0.dat (V1 m ρ) c).arrAt 6 cfg0.N) = runSum (sq (lin (toWM (V1 m ρ c main_v15)) (toCVrow (V1 m ρ c main_v11)) (combine (toS11 (V1 m ρ c main_v10)) (toRM (V1 m ρ c main_arg0)) (toRM (V1 m ρ c main_v9))))) 24 := hQ0 (V1 m ρ) c
  rw [h, E0_0, E0_1, E0_2, E0_3, E0_4]

include hS0 hQ0 hA1 in
theorem out1 : toRM (W4 m ρ D0 D1 c (Proc.devRef .tc main_v24)) = relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0))))) := by
  rw [W4_main_v24]
  have h : toRM ((D1.dat (V3 m ρ D0) c).arrAt 11 cfg1.N) = relu (lin (toWM (V3 m ρ D0 c main_v16)) (toCVrow (V3 m ρ D0 c main_v12)) (bnRelu (toCVrow (V3 m ρ D0 c main_v19)) (toCVrow (V3 m ρ D0 c main_v23)) (toCVrow (V3 m ρ D0 c main_v13)) (toCVrow (V3 m ρ D0 c main_v14)) (lin (toWM (V3 m ρ D0 c main_v15)) (toCVrow (V3 m ρ D0 c main_v11)) (combine (toS11 (V3 m ρ D0 c main_v10)) (toRM (V3 m ρ D0 c main_arg0)) (toRM (V3 m ρ D0 c main_v9)))))) := hA1 (V3 m ρ D0) c
  rw [h, E1_0, E1_1, E1_2, E1_3, E1_4, E1_5, E1_6, E1_7, E1_8, E1_9, E1_10,
    stats1_sum m ρ D0 c hS0, stats1_sq m ρ D0 c hQ0]
  rfl

include hS0 hQ0 hA1 hS2 in
theorem stats2_sum : toCVrow (W6 m ρ D0 D1 D2 c (Proc.devRef .tc main_v42_0)) = runSum (lin (toWM (W0 m ρ c (Proc.devRef .tc main_arg11))) (toCV (W0 m ρ c (Proc.devRef .tc main_arg12))) (combine (toS0 (W0 m ρ c (Proc.devRef .tc main_arg10))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) ((aggMK (W0 m ρ c (Proc.devRef .tc main_arg1)) (W0 m ρ c (Proc.devRef .tc main_arg2))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0))))))))) 24 := by
  rw [W6_main_v42_0]
  have h : toCVrow ((D2.dat (V5 m ρ D0 D1) c).arrAt 5 cfg2.N) = runSum (lin (toWM (V5 m ρ D0 D1 c main_v40)) (toCVrow (V5 m ρ D0 D1 c main_v36)) (combine (toS11 (V5 m ρ D0 D1 c main_v35)) (toRM (V5 m ρ D0 D1 c main_v24)) (toRM (V5 m ρ D0 D1 c main_v34)))) 24 := hS2 (V5 m ρ D0 D1) c
  rw [h, E2_0, E2_1, E2_2, E2_3, E2_4, out1 m ρ D0 D1 c hS0 hQ0 hA1]

include hS0 hQ0 hA1 hQ2 in
theorem stats2_sq : toCVrow (W6 m ρ D0 D1 D2 c (Proc.devRef .tc main_v42_1)) = runSum (sq (lin (toWM (W0 m ρ c (Proc.devRef .tc main_arg11))) (toCV (W0 m ρ c (Proc.devRef .tc main_arg12))) (combine (toS0 (W0 m ρ c (Proc.devRef .tc main_arg10))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) ((aggMK (W0 m ρ c (Proc.devRef .tc main_arg1)) (W0 m ρ c (Proc.devRef .tc main_arg2))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))))))) 24 := by
  rw [W6_main_v42_1]
  have h : toCVrow ((D2.dat (V5 m ρ D0 D1) c).arrAt 6 cfg2.N) = runSum (sq (lin (toWM (V5 m ρ D0 D1 c main_v40)) (toCVrow (V5 m ρ D0 D1 c main_v36)) (combine (toS11 (V5 m ρ D0 D1 c main_v35)) (toRM (V5 m ρ D0 D1 c main_v24)) (toRM (V5 m ρ D0 D1 c main_v34))))) 24 := hQ2 (V5 m ρ D0 D1) c
  rw [h, E2_0, E2_1, E2_2, E2_3, E2_4, out1 m ρ D0 D1 c hS0 hQ0 hA1]

include hS0 hQ0 hA1 hS2 hQ2 hA3 in
theorem out2 : toRM (W8 m ρ D0 D1 D2 D3 c (Proc.devRef .tc main_v49)) = kLayer (toS0 (W0 m ρ c (Proc.devRef .tc main_arg10))) (toWM (W0 m ρ c (Proc.devRef .tc main_arg11))) (toCV (W0 m ρ c (Proc.devRef .tc main_arg12))) (toCV (W0 m ρ c (Proc.devRef .tc main_arg13))) (toCV (W0 m ρ c (Proc.devRef .tc main_arg14))) (toWM (W0 m ρ c (Proc.devRef .tc main_arg15))) (toCV (W0 m ρ c (Proc.devRef .tc main_arg16))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) ((aggMK (W0 m ρ c (Proc.devRef .tc main_arg1)) (W0 m ρ c (Proc.devRef .tc main_arg2))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0))))))) := by
  rw [W8_main_v49]
  have h : toRM ((D3.dat (V7 m ρ D0 D1 D2) c).arrAt 11 cfg3.N) = (lin (toWM (V7 m ρ D0 D1 D2 c main_v41)) (toCVrow (V7 m ρ D0 D1 D2 c main_v37)) (bnRelu (toCVrow (V7 m ρ D0 D1 D2 c main_v44)) (toCVrow (V7 m ρ D0 D1 D2 c main_v48)) (toCVrow (V7 m ρ D0 D1 D2 c main_v38)) (toCVrow (V7 m ρ D0 D1 D2 c main_v39)) (lin (toWM (V7 m ρ D0 D1 D2 c main_v40)) (toCVrow (V7 m ρ D0 D1 D2 c main_v36)) (combine (toS11 (V7 m ρ D0 D1 D2 c main_v35)) (toRM (V7 m ρ D0 D1 D2 c main_v24)) (toRM (V7 m ρ D0 D1 D2 c main_v34)))))) := hA3 (V7 m ρ D0 D1 D2) c
  rw [h, E3_0, E3_1, E3_2, E3_3, E3_4, E3_5, E3_6, E3_7, E3_8, E3_9, E3_10,
    stats2_sum m ρ D0 D1 D2 c hS0 hQ0 hA1 hS2, stats2_sq m ρ D0 D1 D2 c hS0 hQ0 hA1 hQ2, out1 m ρ D0 D1 c hS0 hQ0 hA1]
  rfl

include hS0 hQ0 hA1 hS2 hQ2 hA3 in
/-- The kernel program's result is the network of the mathematics with the kernel's statistics, of the launch
    contents of its seventeen arguments. -/
theorem out_eq : toRM (W8 m ρ D0 D1 D2 D3 c (Proc.devRef .tc main_v49))
    = netWith kLayer (aggMK (m ((c.tc : Thread nD τ).loc main_arg1)) (m ((c.tc : Thread nD τ).loc main_arg2))) (toRM (m ((c.tc : Thread nD τ).loc main_arg0)))
      (toS0 (m ((c.tc : Thread nD τ).loc main_arg3))) (toWM (m ((c.tc : Thread nD τ).loc main_arg4))) (toCV (m ((c.tc : Thread nD τ).loc main_arg5))) (toCV (m ((c.tc : Thread nD τ).loc main_arg6))) (toCV (m ((c.tc : Thread nD τ).loc main_arg7))) (toWM (m ((c.tc : Thread nD τ).loc main_arg8))) (toCV (m ((c.tc : Thread nD τ).loc main_arg9)))
      (toS0 (m ((c.tc : Thread nD τ).loc main_arg10))) (toWM (m ((c.tc : Thread nD τ).loc main_arg11))) (toCV (m ((c.tc : Thread nD τ).loc main_arg12))) (toCV (m ((c.tc : Thread nD τ).loc main_arg13))) (toCV (m ((c.tc : Thread nD τ).loc main_arg14))) (toWM (m ((c.tc : Thread nD τ).loc main_arg15))) (toCV (m ((c.tc : Thread nD τ).loc main_arg16))) :=
  out2 m ρ D0 D1 D2 D3 c hS0 hQ0 hA1 hS2 hQ2 hA3

end Chain

end Cert.KernelIdeal.Hand

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.ApplyValueKI.lean ====
/- The value of the apply regions' output array at the extended reals: each 4000 x 128 block the body stores is
   the layer's second linear map (and, in the first layer, the outer max with 0) of the batch-normalised first
   linear map of the combined features, entry by entry; the 25 blocks tile the 100000 x 128 array. -/
import proofs.«143642_j88098369176165_1_alg».proof.Proof.ApplyKI
import proofs.«143642_j88098369176165_1_alg».proof.Proof.Spec
import proofs.«143642_j88098369176165_1_alg».proof.Proof.LibDenseLayer
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.Pipeline (Dat Cfg Window)
open Cert.Gin (cOne cEps cZero)

/-! ## The matrix product of the two linear maps, read at an entry -/

local notation "dotD" => dot_S4000x128_S128x128_S4000x128_1_0_0_1_n_n

/-- A 4000 x 128 by 128 x 128 product into the zero accumulator, at entry (p, q): row p of the left operand against
    column q of the right one. -/
theorem matmul_at {φ₁ φ₂ : FTy} (L : FVec Ideal S4000x128 φ₁) (R : FVec Ideal S128x128 φ₂) (p : Fin 4000) (q : Fin 128) :
    matmul dot_S4000x128_S128x128_S4000x128_1_0_0_1_n_n none L R (constant S4000x128 .f32 0x00000000#32) (ix2 p q)
      = ∑ k : Fin 128, L (ix2 p k) * R (ix2 k q) :=
  Cert.DenseLayer.matmul_rows_cols (A := 4000) (K := 128) (B := 128) dot_S4000x128_S128x128_S4000x128_1_0_0_1_n_n rfl rfl
    (fun i k => by simp [DotDims.lhsIdx, dot_S4000x128_S128x128_S4000x128_1_0_0_1_n_n]; rfl)
    (fun i k => DotDims.lhsIdx_val_of_single (d := dot_S4000x128_S128x128_S4000x128_1_0_0_1_n_n) (cl := 1) rfl i k)
    (fun i k => DotDims.rhsIdx_val_of_single (d := dot_S4000x128_S128x128_S4000x128_1_0_0_1_n_n) (cr := 0) rfl i k)
    (fun i k => by simp [DotDims.rhsIdx, dot_S4000x128_S128x128_S4000x128_1_0_0_1_n_n]; rfl)
    none L R p q

/-- The one entry of a 1 x 1 array broadcast over 4000 x 128 reads that entry everywhere. -/
theorem broadcastTo_11_at {α : Type} (v : S1x1.Idx → α) (h : S1x1.Broadcasts S4000x128) (p : Fin 4000) (q : Fin 128) :
    broadcastTo S4000x128 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The zero offsets of a whole-buffer rectangle, however spelt. -/
theorem hz00 : (![0, 0] : Fin 2 → Nat) = fun _ => 0 := funext fun a => by fin_cases a <;> rfl

/-! ## Region 1: the payloads at an entry, over variables -/

/-- The first part's value at (p, k): the first linear map of the combined features, batch-normalised (before the max). -/
theorem pay2_1_at (a2 : Vec Ideal S1x1 .f32) (a0 a1 : Vec Ideal S4000x128 .f32) (a3 : Vec Ideal S128x128 .bf16)
    (a4 a6 a5 a7 a8 : Vec Ideal S1x128 .f32) (p : Fin 4000) (k : Fin 128) :
    k1_pay2 a2 a0 a1 a3 a4 a6 a5 a7 a8 (ix2 p k) = (((((∑ k' : Fin 128, ((cOne + a2 (ix2 0 0)) * a0 (ix2 p k') + a1 (ix2 p k')) * a3 (ix2 k' k)) + a4 (ix2 0 k)) - a5 (ix2 0 k)) * Ideal.rsqrt (a6 (ix2 0 k) + cEps)) * a7 (ix2 0 k) + a8 (ix2 0 k)) := by
  unfold k1_pay2
  simp only [shapeCast_self, addf_apply, mulf_apply, subf_apply, matmul_at, broadcastTo_1b_ab_apply, broadcastTo_11_at, truncf_apply, broadcast_apply]
  rfl

/-- The stored value at (p, q): the second linear map of the first part's value after its max with 0, then the outer max with 0. -/
theorem pay1_1_at (v36 : FVec Ideal S4000x128 .f32) (c0 : Ideal .f32) (v40 : Vec Ideal S128x128 .bf16) (v43 : Vec Ideal S1x128 .f32) (p : Fin 4000) (q : Fin 128) :
    k1_pay1 v36 c0 v40 v43 (ix2 p q) = max ((∑ k : Fin 128, max (v36 (ix2 p k)) c0 * v40 (ix2 k q)) + v43 (ix2 0 q)) cZero := by
  unfold k1_pay1
  simp only [shapeCast_self, addf_apply, maximumf_apply, matmul_at, broadcastTo_1b_ab_apply, truncf_apply, broadcast_apply]
  rfl

/-- What the body leaves in the output staging buffer, at (p, q), from the eleven input blocks. -/
theorem out1_at (x0 x1 : Vec Ideal S4000x128 .f32) (x2 : Vec Ideal S1x1 .f32) (x3 : Vec Ideal S128x128 .bf16) (x4 x5 x6 x7 x8 : Vec Ideal S1x128 .f32) (x9 : Vec Ideal S128x128 .bf16) (x10 : Vec Ideal S1x128 .f32) (p : Fin 4000) (q : Fin 128) :
    out1_11 x0 x1 x2 x3 x4 x5 x6 x7 x8 x9 x10 (ix2 p q)
      = max ((∑ k : Fin 128, max (((((∑ k' : Fin 128, ((cOne + x2 (ix2 0 0)) * x0 (ix2 p k') + x1 (ix2 p k')) * x3 (ix2 k' k)) + x4 (ix2 0 k)) - x5 (ix2 0 k)) * Ideal.rsqrt (x6 (ix2 0 k) + cEps)) * x7 (ix2 0 k) + x8 (ix2 0 k)) cZero * x9 (ix2 k q)) + x10 (ix2 0 q)) cZero := by
  unfold out1_11
  rw [View.canon_unit_zero hz00]
  simp only [View.ld_unit_zero (S := S4000x128) hz00, View.ld_unit_zero (S := S1x1) hz00, View.ld_unit_zero (S := S128x128) hz00, View.ld_unit_zero (S := S1x128) hz00]
  rw [pay1_1_at]
  simp only [pay2_1_at]
  rfl

/-! ## Region 3: the payloads at an entry, over variables -/

/-- The first part's value at (p, k): the first linear map of the combined features, batch-normalised (before the max). -/
theorem pay2_3_at (a2 : Vec Ideal S1x1 .f32) (a0 a1 : Vec Ideal S4000x128 .f32) (a3 : Vec Ideal S128x128 .bf16)
    (a4 a6 a5 a7 a8 : Vec Ideal S1x128 .f32) (p : Fin 4000) (k : Fin 128) :
    k3_pay2 a2 a0 a1 a3 a4 a6 a5 a7 a8 (ix2 p k) = (((((∑ k' : Fin 128, ((cOne + a2 (ix2 0 0)) * a0 (ix2 p k') + a1 (ix2 p k')) * a3 (ix2 k' k)) + a4 (ix2 0 k)) - a5 (ix2 0 k)) * Ideal.rsqrt (a6 (ix2 0 k) + cEps)) * a7 (ix2 0 k) + a8 (ix2 0 k)) := by
  unfold k3_pay2
  simp only [shapeCast_self, addf_apply, mulf_apply, subf_apply, matmul_at, broadcastTo_1b_ab_apply, broadcastTo_11_at, truncf_apply, broadcast_apply]
  rfl

/-- The stored value at (p, q): the second linear map of the first part's value after its max with 0. -/
theorem pay1_3_at (v37 : FVec Ideal S4000x128 .f32) (v41 : Vec Ideal S128x128 .bf16) (v44 : Vec Ideal S1x128 .f32) (p : Fin 4000) (q : Fin 128) :
    k3_pay1 v37 v41 v44 (ix2 p q) = (∑ k : Fin 128, max (v37 (ix2 p k)) cZero * v41 (ix2 k q)) + v44 (ix2 0 q) := by
  unfold k3_pay1
  simp only [shapeCast_self, addf_apply, maximumf_apply, matmul_at, broadcastTo_1b_ab_apply, truncf_apply, broadcast_apply]
  rfl

/-- What the body leaves in the output staging buffer, at (p, q), from the eleven input blocks. -/
theorem out3_at (x0 x1 : Vec Ideal S4000x128 .f32) (x2 : Vec Ideal S1x1 .f32) (x3 : Vec Ideal S128x128 .bf16) (x4 x5 x6 x7 x8 : Vec Ideal S1x128 .f32) (x9 : Vec Ideal S128x128 .bf16) (x10 : Vec Ideal S1x128 .f32) (p : Fin 4000) (q : Fin 128) :
    out3_11 x0 x1 x2 x3 x4 x5 x6 x7 x8 x9 x10 (ix2 p q)
      = (∑ k : Fin 128, max (((((∑ k' : Fin 128, ((cOne + x2 (ix2 0 0)) * x0 (ix2 p k') + x1 (ix2 p k')) * x3 (ix2 k' k)) + x4 (ix2 0 k)) - x5 (ix2 0 k)) * Ideal.rsqrt (x6 (ix2 0 k) + cEps)) * x7 (ix2 0 k) + x8 (ix2 0 k)) cZero * x9 (ix2 k q)) + x10 (ix2 0 q) := by
  unfold out3_11
  rw [View.canon_unit_zero hz00]
  simp only [View.ld_unit_zero (S := S4000x128) hz00, View.ld_unit_zero (S := S1x1) hz00, View.ld_unit_zero (S := S128x128) hz00, View.ld_unit_zero (S := S1x128) hz00]
  rw [pay1_3_at]
  simp only [pay2_3_at]

section Array
-- the TensorCore's buffer contents when the region is entered, at the extended reals
variable (V : (c : Dev nD) → (b : Ref sig .tc) → Buf (Elt Ideal) ((c : Thread nD τ).loc b))

/-! ## Region 1: from the blocks to the array -/

/-- The printed index maps, decided over the grid: the row-blocked windows (the two feature inputs and the output)
    are at block t on the rows and block 0 on the columns; every other window has the one block. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_11.index t (0 : Fin 2) = t.val
    ∧ win1_11.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0 :=
  (by decide +kernel : ∀ t : Fin grid1.N, _)

/-- Row-blocked input 0: row p of point t's block is the array's row 4000 t + p. -/
theorem iblk1_0_at (c : Dev nD) (t : Fin cfg1.N) (p : Fin 4000) (r : Fin 100000) (hr : r.val = t.val * 4000 + p.val) (k : Fin 128) :
    (iblk1 V c 0 t : S4000x128.Idx → EReal) (ix2 p k) = ((V c (Pipeline.arrRef spec1 0)) : S100000x128.Idx → EReal) (ix2 r k) := by
  obtain ⟨e0, e1, e2, e3, e4, e5, e6, e7, e8, e9, e10, e11, e12, e13, e14, e15, e16, e17, e18, e19, e20, e21, e22, e23⟩ := idx_facts1 t
  show ((V c (Pipeline.arrRef spec1 0)) : S100000x128.Idx → EReal) (((cfg1.win 0).blk t).view.emb (ix2 p k)) = _
  congr 1
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

/-- Row-blocked input 1: row p of point t's block is the array's row 4000 t + p. -/
theorem iblk1_1_at (c : Dev nD) (t : Fin cfg1.N) (p : Fin 4000) (r : Fin 100000) (hr : r.val = t.val * 4000 + p.val) (k : Fin 128) :
    (iblk1 V c 1 t : S4000x128.Idx → EReal) (ix2 p k) = ((V c (Pipeline.arrRef spec1 1)) : S100000x128.Idx → EReal) (ix2 r k) := by
  obtain ⟨e0, e1, e2, e3, e4, e5, e6, e7, e8, e9, e10, e11, e12, e13, e14, e15, e16, e17, e18, e19, e20, e21, e22, e23⟩ := idx_facts1 t
  show ((V c (Pipeline.arrRef spec1 1)) : S100000x128.Idx → EReal) (((cfg1.win 1).blk t).view.emb (ix2 p k)) = _
  congr 1
  funext a; apply Fin.ext
  match a with
  | ⟨0, _⟩ => show win1_1.index t (0 : Fin 2) * 4000 + 1 * p.val = r.val; omega
  | ⟨1, _⟩ => show win1_1.index t (1 : Fin 2) * 128 + 1 * k.val = k.val; omega

/-- Unblocked input 2: its one block is the whole array. -/
theorem iblk1_2_at (c : Dev nD) (t : Fin cfg1.N) :
    (iblk1 V c 2 t : S1x1.Idx → EReal) (ix2 (0 : Fin 1) (0 : Fin 1)) = ((V c (Pipeline.arrRef spec1 2)) : S1x1.Idx → EReal) (ix2 (0 : Fin 1) (0 : Fin 1)) := by
  obtain ⟨e0, e1, e2, e3, e4, e5, e6, e7, e8, e9, e10, e11, e12, e13, e14, e15, e16, e17, e18, e19, e20, e21, e22, e23⟩ := idx_facts1 t
  show ((V c (Pipeline.arrRef spec1 2)) : S1x1.Idx → EReal) (((cfg1.win 2).blk t).view.emb (ix2 (0 : Fin 1) (0 : Fin 1))) = _
  congr 1
  funext a; apply Fin.ext
  match a with
  | ⟨0, _⟩ => show win1_2.index t (0 : Fin 2) * 1 + 1 * 0 = 0; omega
  | ⟨1, _⟩ => show win1_2.index t (1 : Fin 2) * 1 + 1 * 0 = 0; omega

/-- Unblocked input 3: its one block is the whole array. -/
theorem iblk1_3_at (c : Dev nD) (t : Fin cfg1.N) (k' k : Fin 128) :
    (iblk1 V c 3 t : S128x128.Idx → EReal) (ix2 k' k) = ((V c (Pipeline.arrRef spec1 3)) : S128x128.Idx → EReal) (ix2 k' k) := by
  obtain ⟨e0, e1, e2, e3, e4, e5, e6, e7, e8, e9, e10, e11, e12, e13, e14, e15, e16, e17, e18, e19, e20, e21, e22, e23⟩ := idx_facts1 t
  show ((V c (Pipeline.arrRef spec1 3)) : S128x128.Idx → EReal) (((cfg1.win 3).blk t).view.emb (ix2 k' k)) = _
  congr 1
  funext a; apply Fin.ext
  match a with
  | ⟨0, _⟩ => show win1_3.index t (0 : Fin 2) * 128 + 1 * k'.val = k'.val; omega
  | ⟨1, _⟩ => show win1_3.index t (1 : Fin 2) * 128 + 1 * k.val = k.val; omega

/-- Unblocked input 4: its one block is the whole array. -/
theorem iblk1_4_at (c : Dev nD) (t : Fin cfg1.N) (k : Fin 128) :
    (iblk1 V c 4 t : S1x128.Idx → EReal) (ix2 (0 : Fin 1) k) = ((V c (Pipeline.arrRef spec1 4)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts1 t
  show ((V c (Pipeline.arrRef spec1 4)) : S1x128.Idx → EReal) (((cfg1.win 4).blk t).view.emb (ix2 (0 : Fin 1) k)) = _
  congr 1
  funext a; apply Fin.ext
  match a with
  | ⟨0, _⟩ => show win1_4.index t (0 : Fin 2) * 1 + 1 * 0 = 0; omega
  | ⟨1, _⟩ => show win1_4.index t (1 : Fin 2) * 128 + 1 * k.val = k.val; omega

/-- Unblocked input 5: its one block is the whole array. -/
theorem iblk1_5_at (c : Dev nD) (t : Fin cfg1.N) (k : Fin 128) :
    (iblk1 V c 5 t : S1x128.Idx → EReal) (ix2 (0 : Fin 1) k) = ((V c (Pipeline.arrRef spec1 5)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts1 t
  show ((V c (Pipeline.arrRef spec1 5)) : S1x128.Idx → EReal) (((cfg1.win 5).blk t).view.emb (ix2 (0 : Fin 1) k)) = _
  congr 1
  funext a; apply Fin.ext
  match a with
  | ⟨0, _⟩ => show win1_5.index t (0 : Fin 2) * 1 + 1 * 0 = 0; omega
  | ⟨1, _⟩ => show win1_5.index t (1 : Fin 2) * 128 + 1 * k.val = k.val; omega

/-- Unblocked input 6: its one block is the whole array. -/
theorem iblk1_6_at (c : Dev nD) (t : Fin cfg1.N) (k : Fin 128) :
    (iblk1 V c 6 t : S1x128.Idx → EReal) (ix2 (0 : Fin 1) k) = ((V c (Pipeline.arrRef spec1 6)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts1 t
  show ((V c (Pipeline.arrRef spec1 6)) : S1x128.Idx → EReal) (((cfg1.win 6).blk t).view.emb (ix2 (0 : Fin 1) k)) = _
  congr 1
  funext a; apply Fin.ext
  match a with
  | ⟨0, _⟩ => show win1_6.index t (0 : Fin 2) * 1 + 1 * 0 = 0; omega
  | ⟨1, _⟩ => show win1_6.index t (1 : Fin 2) * 128 + 1 * k.val = k.val; omega

/-- Unblocked input 7: its one block is the whole array. -/
theorem iblk1_7_at (c : Dev nD) (t : Fin cfg1.N) (k : Fin 128) :
    (iblk1 V c 7 t : S1x128.Idx → EReal) (ix2 (0 : Fin 1) k) = ((V c (Pipeline.arrRef spec1 7)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts1 t
  show ((V c (Pipeline.arrRef spec1 7)) : S1x128.Idx → EReal) (((cfg1.win 7).blk t).view.emb (ix2 (0 : Fin 1) k)) = _
  congr 1
  funext a; apply Fin.ext
  match a with
  | ⟨0, _⟩ => show win1_7.index t (0 : Fin 2) * 1 + 1 * 0 = 0; omega
  | ⟨1, _⟩ => show win1_7.index t (1 : Fin 2) * 128 + 1 * k.val = k.val; omega

/-- Unblocked input 8: its one block is the whole array. -/
theorem iblk1_8_at (c : Dev nD) (t : Fin cfg1.N) (k : Fin 128) :
    (iblk1 V c 8 t : S1x128.Idx → EReal) (ix2 (0 : Fin 1) k) = ((V c (Pipeline.arrRef spec1 8)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts1 t
  show ((V c (Pipeline.arrRef spec1 8)) : S1x128.Idx → EReal) (((cfg1.win 8).blk t).view.emb (ix2 (0 : Fin 1) k)) = _
  congr 1
  funext a; apply Fin.ext
  match a with
  | ⟨0, _⟩ => show win1_8.index t (0 : Fin 2) * 1 + 1 * 0 = 0; omega
  | ⟨1, _⟩ => show win1_8.index t (1 : Fin 2) * 128 + 1 * k.val = k.val; omega

/-- Unblocked input 9: its one block is the whole array. -/
theorem iblk1_9_at (c : Dev nD) (t : Fin cfg1.N) (k' k : Fin 128) :
    (iblk1 V c 9 t : S128x128.Idx → EReal) (ix2 k' k) = ((V c (Pipeline.arrRef spec1 9)) : S128x128.Idx → EReal) (ix2 k' k) := by
  obtain ⟨e0, e1, e2, e3, e4, e5, e6, e7, e8, e9, e10, e11, e12, e13, e14, e15, e16, e17, e18, e19, e20, e21, e22, e23⟩ := idx_facts1 t
  show ((V c (Pipeline.arrRef spec1 9)) : S128x128.Idx → EReal) (((cfg1.win 9).blk t).view.emb (ix2 k' k)) = _
  congr 1
  funext a; apply Fin.ext
  match a with
  | ⟨0, _⟩ => show win1_9.index t (0 : Fin 2) * 128 + 1 * k'.val = k'.val; omega
  | ⟨1, _⟩ => show win1_9.index t (1 : Fin 2) * 128 + 1 * k.val = k.val; omega

/-- Unblocked input 10: its one block is the whole array. -/
theorem iblk1_10_at (c : Dev nD) (t : Fin cfg1.N) (k : Fin 128) :
    (iblk1 V c 10 t : S1x128.Idx → EReal) (ix2 (0 : Fin 1) k) = ((V c (Pipeline.arrRef spec1 10)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts1 t
  show ((V c (Pipeline.arrRef spec1 10)) : S1x128.Idx → EReal) (((cfg1.win 10).blk t).view.emb (ix2 (0 : Fin 1) k)) = _
  congr 1
  funext a; apply Fin.ext
  match a with
  | ⟨0, _⟩ => show win1_10.index t (0 : Fin 2) * 1 + 1 * 0 = 0; omega
  | ⟨1, _⟩ => show win1_10.index t (1 : Fin 2) * 128 + 1 * k.val = k.val; omega

/-- The layer's output as a matrix, from eleven arrays. -/
def layerOf1 (A0 A1 : S100000x128.Idx → EReal) (A2 : S1x1.Idx → EReal) (A3 : S128x128.Idx → EReal) (A4 A5 A6 A7 A8 : S1x128.Idx → EReal) (A9 : S128x128.Idx → EReal) (A10 : S1x128.Idx → EReal) : Cert.Gin.RM :=
  Cert.Gin.relu (Cert.Gin.lin (Cert.Gin.toWM A9) (Cert.Gin.toCVrow A10) (Cert.Gin.bnRelu (Cert.Gin.toCVrow A5) (Cert.Gin.toCVrow A6) (Cert.Gin.toCVrow A7) (Cert.Gin.toCVrow A8) (Cert.Gin.lin (Cert.Gin.toWM A3) (Cert.Gin.toCVrow A4) (Cert.Gin.combine (Cert.Gin.toS11 A2) (Cert.Gin.toRM A0) (Cert.Gin.toRM A1)))))

/-- A stored block's entry is the layer's output at the array index it is written to, when the input blocks are the
    arrays' rows and columns the output's index names (over variables). -/
theorem block_eq1 (A0 A1 : S100000x128.Idx → EReal) (A2 : S1x1.Idx → EReal) (A3 : S128x128.Idx → EReal) (A4 A5 A6 A7 A8 : S1x128.Idx → EReal) (A9 : S128x128.Idx → EReal) (A10 : S1x128.Idx → EReal)
    (x0 x1 : Vec Ideal S4000x128 .f32) (x2 : Vec Ideal S1x1 .f32) (x3 : Vec Ideal S128x128 .bf16) (x4 x5 x6 x7 x8 : Vec Ideal S1x128 .f32) (x9 : Vec Ideal S128x128 .bf16) (x10 : Vec Ideal S1x128 .f32) (y : S4000x128.Idx) (i : S100000x128.Idx) (p : Fin 4000) (q : Fin 128) (hp : y 0 = p) (hq : y 1 = q) (hcol : i 1 = q)
    (h0 : ∀ k : Fin 128, x0 (ix2 p k) = A0 (ix2 (i 0) k)) (h1 : ∀ k : Fin 128, x1 (ix2 p k) = A1 (ix2 (i 0) k)) (h2 : x2 (ix2 (0 : Fin 1) (0 : Fin 1)) = A2 (ix2 (0 : Fin 1) (0 : Fin 1))) (h3 : ∀ k' k : Fin 128, x3 (ix2 k' k) = A3 (ix2 k' k)) (h4 : ∀ k : Fin 128, x4 (ix2 (0 : Fin 1) k) = A4 (ix2 (0 : Fin 1) k)) (h5 : ∀ k : Fin 128, x5 (ix2 (0 : Fin 1) k) = A5 (ix2 (0 : Fin 1) k)) (h6 : ∀ k : Fin 128, x6 (ix2 (0 : Fin 1) k) = A6 (ix2 (0 : Fin 1) k)) (h7 : ∀ k : Fin 128, x7 (ix2 (0 : Fin 1) k) = A7 (ix2 (0 : Fin 1) k)) (h8 : ∀ k : Fin 128, x8 (ix2 (0 : Fin 1) k) = A8 (ix2 (0 : Fin 1) k)) (h9 : ∀ k' k : Fin 128, x9 (ix2 k' k) = A9 (ix2 k' k)) (h10 : ∀ k : Fin 128, x10 (ix2 (0 : Fin 1) k) = A10 (ix2 (0 : Fin 1) k)) :
    out1_11 x0 x1 x2 x3 x4 x5 x6 x7 x8 x9 x10 y = Cert.Gin.ofRM (layerOf1 A0 A1 A2 A3 A4 A5 A6 A7 A8 A9 A10) i := by
  have h := out1_at x0 x1 x2 x3 x4 x5 x6 x7 x8 x9 x10 p q
  have hy : y = ix2 p q := funext fun a => by
    match a with
    | ⟨0, _⟩ => exact hp
    | ⟨1, _⟩ => exact hq
  have e : out1_11 x0 x1 x2 x3 x4 x5 x6 x7 x8 x9 x10 y = out1_11 x0 x1 x2 x3 x4 x5 x6 x7 x8 x9 x10 (ix2 p q) :=
    congrArg (out1_11 x0 x1 x2 x3 x4 x5 x6 x7 x8 x9 x10) hy
  refine (e.trans h).trans ?_
  simp only [h0, h1, h2, h3, h4, h5, h6, h7, h8, h9, h10]
  show _ = layerOf1 A0 A1 A2 A3 A4 A5 A6 A7 A8 A9 A10 (i 0) (i 1)
  rw [hcol]
  rfl

set_option maxHeartbeats 1000000 in
/-- What point t writes back is block t of the layer's output of the arrays the region finds. -/
theorem flushed1_eq (c : Dev nD) (t : Fin cfg1.N) :
    (dat1 (F := Ideal) V c).flushed 11 t = ((cfg1.win 11).blk t).view.read (Elt Ideal)
      (Cert.Gin.ofRM (layerOf1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)))) := by
  show (cfg1.win 11).cut (grid1.coords t) ((dat1 V c).after 11 t) = _
  rw [after1_11]
  funext j
  obtain ⟨e0, e1, e2, e3, e4, e5, e6, e7, e8, e9, e10, e11, e12, e13, e14, e15, e16, e17, e18, e19, e20, e21, e22, e23⟩ := idx_facts1 t
  have hcol : (((cfg1.win 11).blk t).view.emb j : S100000x128.Idx) 1 = (j : S4000x128.Idx) 1 := by
    apply Fin.ext
    show win1_11.index t (1 : Fin 2) * 128 + 1 * ((j : S4000x128.Idx) 1).val = ((j : S4000x128.Idx) 1).val
    omega
  have hrow : ((((cfg1.win 11).blk t).view.emb j : S100000x128.Idx) 0).val = t.val * 4000 + ((j : S4000x128.Idx) 0).val := by
    show win1_11.index t (0 : Fin 2) * 4000 + 1 * ((j : S4000x128.Idx) 0).val = _
    omega
  exact block_eq1 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j (((cfg1.win 11).blk t).view.emb j) ((j : S4000x128.Idx) 0) ((j : S4000x128.Idx) 1) rfl rfl hcol
    (fun k => iblk1_0_at V c t _ _ hrow k) (fun k => iblk1_1_at V c t _ _ hrow k) (iblk1_2_at V c t) (fun k' k => iblk1_3_at V c t k' k) (fun k => iblk1_4_at V c t k) (fun k => iblk1_5_at V c t k) (fun k => iblk1_6_at V c t k) (fun k => iblk1_7_at V c t k) (fun k => iblk1_8_at V c t k) (fun k' k => iblk1_9_at V c t k' k) (fun k => iblk1_10_at V c t k)

/-- An index of the array is in point t's block iff each coordinate is in the block's range on its axis. -/
theorem mem_blk1 (t : Fin cfg1.N) (i : S100000x128.Idx) :
    i ∈ ((cfg1.win 11).blk t).view.set ↔ ∀ a : Fin 2, win1_11.index t a * S4000x128.size a ≤ (i a).val ∧ (i a).val < win1_11.index t a * S4000x128.size a + S4000x128.size a := by
  show i ∈ ((View.whole main_v24).slice (win1_11.rect t)).set ↔ _
  rw [View.set_slice_whole, Rect.mem_set_unit]
  exact Iff.rfl

/-- The 25 blocks tile the array: row r is in block r / 4000. -/
theorem cover1 (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  have hN : cfg1.N = 25 := N_1
  have hlt : (i 0).val / 4000 < cfg1.N := by rw [hN]; omega
  refine ⟨⟨(i 0).val / 4000, hlt⟩, flush1_11 _, ?_⟩
  rw [mem_blk1]
  obtain ⟨e0, e1, e2, e3, e4, e5, e6, e7, e8, e9, e10, e11, e12, e13, e14, e15, e16, e17, e18, e19, e20, e21, e22, e23⟩ := idx_facts1 ⟨(i 0).val / 4000, hlt⟩
  intro a
  match a with
  | ⟨0, _⟩ =>
    show win1_11.index ⟨(i 0).val / 4000, hlt⟩ (0 : Fin 2) * 4000 ≤ (i 0).val ∧ (i 0).val < win1_11.index ⟨(i 0).val / 4000, hlt⟩ (0 : Fin 2) * 4000 + 4000
    rw [e4]; show (i 0).val / 4000 * 4000 ≤ (i 0).val ∧ (i 0).val < (i 0).val / 4000 * 4000 + 4000; omega
  | ⟨1, _⟩ =>
    show win1_11.index ⟨(i 0).val / 4000, hlt⟩ (1 : Fin 2) * 128 ≤ (i 1).val ∧ (i 1).val < win1_11.index ⟨(i 0).val / 4000, hlt⟩ (1 : Fin 2) * 128 + 128
    rw [e5]; omega

/-- The output array after the region, read as a matrix, is the layer's output of the arrays the region finds. -/
theorem arrAt1_11 (c : Dev nD) :
    Cert.Gin.toRM ((dat1 (F := Ideal) V c).arrAt 11 cfg1.N)
      = Cert.Gin.relu (Cert.Gin.lin (Cert.Gin.toWM (V c (Pipeline.arrRef spec1 9))) (Cert.Gin.toCVrow (V c (Pipeline.arrRef spec1 10))) (Cert.Gin.bnRelu (Cert.Gin.toCVrow (V c (Pipeline.arrRef spec1 5))) (Cert.Gin.toCVrow (V c (Pipeline.arrRef spec1 6))) (Cert.Gin.toCVrow (V c (Pipeline.arrRef spec1 7))) (Cert.Gin.toCVrow (V c (Pipeline.arrRef spec1 8))) (Cert.Gin.lin (Cert.Gin.toWM (V c (Pipeline.arrRef spec1 3))) (Cert.Gin.toCVrow (V c (Pipeline.arrRef spec1 4))) (Cert.Gin.combine (Cert.Gin.toS11 (V c (Pipeline.arrRef spec1 2))) (Cert.Gin.toRM (V c (Pipeline.arrRef spec1 0))) (Cert.Gin.toRM (V c (Pipeline.arrRef spec1 1))))))) := by
  rw [(dat1 (F := Ideal) V c).arrAt_eq_of_cover 11 _ (fun t _ => flushed1_eq V c t) (cover1)]
  rfl

/-! ## Region 3: from the blocks to the array -/

/-- The printed index maps, decided over the grid: the row-blocked windows (the two feature inputs and the output)
    are at block t on the rows and block 0 on the columns; every other window has the one block. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_11.index t (0 : Fin 2) = t.val
    ∧ win3_11.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0 :=
  (by decide +kernel : ∀ t : Fin grid3.N, _)

/-- Row-blocked input 0: row p of point t's block is the array's row 4000 t + p. -/
theorem iblk3_0_at (c : Dev nD) (t : Fin cfg3.N) (p : Fin 4000) (r : Fin 100000) (hr : r.val = t.val * 4000 + p.val) (k : Fin 128) :
    (iblk3 V c 0 t : S4000x128.Idx → EReal) (ix2 p k) = ((V c (Pipeline.arrRef spec3 0)) : S100000x128.Idx → EReal) (ix2 r k) := by
  obtain ⟨e0, e1, e2, e3, e4, e5, e6, e7, e8, e9, e10, e11, e12, e13, e14, e15, e16, e17, e18, e19, e20, e21, e22, e23⟩ := idx_facts3 t
  show ((V c (Pipeline.arrRef spec3 0)) : S100000x128.Idx → EReal) (((cfg3.win 0).blk t).view.emb (ix2 p k)) = _
  congr 1
  funext a; apply Fin.ext
  match a with
  | ⟨0, _⟩ => show win3_0.index t (0 : Fin 2) * 4000 + 1 * p.val = r.val; omega
  | ⟨1, _⟩ => show win3_0.index t (1 : Fin 2) * 128 + 1 * k.val = k.val; omega

/-- Row-blocked input 1: row p of point t's block is the array's row 4000 t + p. -/
theorem iblk3_1_at (c : Dev nD) (t : Fin cfg3.N) (p : Fin 4000) (r : Fin 100000) (hr : r.val = t.val * 4000 + p.val) (k : Fin 128) :
    (iblk3 V c 1 t : S4000x128.Idx → EReal) (ix2 p k) = ((V c (Pipeline.arrRef spec3 1)) : S100000x128.Idx → EReal) (ix2 r k) := by
  obtain ⟨e0, e1, e2, e3, e4, e5, e6, e7, e8, e9, e10, e11, e12, e13, e14, e15, e16, e17, e18, e19, e20, e21, e22, e23⟩ := idx_facts3 t
  show ((V c (Pipeline.arrRef spec3 1)) : S100000x128.Idx → EReal) (((cfg3.win 1).blk t).view.emb (ix2 p k)) = _
  congr 1
  funext a; apply Fin.ext
  match a with
  | ⟨0, _⟩ => show win3_1.index t (0 : Fin 2) * 4000 + 1 * p.val = r.val; omega
  | ⟨1, _⟩ => show win3_1.index t (1 : Fin 2) * 128 + 1 * k.val = k.val; omega

/-- Unblocked input 2: its one block is the whole array. -/
theorem iblk3_2_at (c : Dev nD) (t : Fin cfg3.N) :
    (iblk3 V c 2 t : S1x1.Idx → EReal) (ix2 (0 : Fin 1) (0 : Fin 1)) = ((V c (Pipeline.arrRef spec3 2)) : S1x1.Idx → EReal) (ix2 (0 : Fin 1) (0 : Fin 1)) := by
  obtain ⟨e0, e1, e2, e3, e4, e5, e6, e7, e8, e9, e10, e11, e12, e13, e14, e15, e16, e17, e18, e19, e20, e21, e22, e23⟩ := idx_facts3 t
  show ((V c (Pipeline.arrRef spec3 2)) : S1x1.Idx → EReal) (((cfg3.win 2).blk t).view.emb (ix2 (0 : Fin 1) (0 : Fin 1))) = _
  congr 1
  funext a; apply Fin.ext
  match a with
  | ⟨0, _⟩ => show win3_2.index t (0 : Fin 2) * 1 + 1 * 0 = 0; omega
  | ⟨1, _⟩ => show win3_2.index t (1 : Fin 2) * 1 + 1 * 0 = 0; omega

/-- Unblocked input 3: its one block is the whole array. -/
theorem iblk3_3_at (c : Dev nD) (t : Fin cfg3.N) (k' k : Fin 128) :
    (iblk3 V c 3 t : S128x128.Idx → EReal) (ix2 k' k) = ((V c (Pipeline.arrRef spec3 3)) : S128x128.Idx → EReal) (ix2 k' k) := by
  obtain ⟨e0, e1, e2, e3, e4, e5, e6, e7, e8, e9, e10, e11, e12, e13, e14, e15, e16, e17, e18, e19, e20, e21, e22, e23⟩ := idx_facts3 t
  show ((V c (Pipeline.arrRef spec3 3)) : S128x128.Idx → EReal) (((cfg3.win 3).blk t).view.emb (ix2 k' k)) = _
  congr 1
  funext a; apply Fin.ext
  match a with
  | ⟨0, _⟩ => show win3_3.index t (0 : Fin 2) * 128 + 1 * k'.val = k'.val; omega
  | ⟨1, _⟩ => show win3_3.index t (1 : Fin 2) * 128 + 1 * k.val = k.val; omega

/-- Unblocked input 4: its one block is the whole array. -/
theorem iblk3_4_at (c : Dev nD) (t : Fin cfg3.N) (k : Fin 128) :
    (iblk3 V c 4 t : S1x128.Idx → EReal) (ix2 (0 : Fin 1) k) = ((V c (Pipeline.arrRef spec3 4)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts3 t
  show ((V c (Pipeline.arrRef spec3 4)) : S1x128.Idx → EReal) (((cfg3.win 4).blk t).view.emb (ix2 (0 : Fin 1) k)) = _
  congr 1
  funext a; apply Fin.ext
  match a with
  | ⟨0, _⟩ => show win3_4.index t (0 : Fin 2) * 1 + 1 * 0 = 0; omega
  | ⟨1, _⟩ => show win3_4.index t (1 : Fin 2) * 128 + 1 * k.val = k.val; omega

/-- Unblocked input 5: its one block is the whole array. -/
theorem iblk3_5_at (c : Dev nD) (t : Fin cfg3.N) (k : Fin 128) :
    (iblk3 V c 5 t : S1x128.Idx → EReal) (ix2 (0 : Fin 1) k) = ((V c (Pipeline.arrRef spec3 5)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts3 t
  show ((V c (Pipeline.arrRef spec3 5)) : S1x128.Idx → EReal) (((cfg3.win 5).blk t).view.emb (ix2 (0 : Fin 1) k)) = _
  congr 1
  funext a; apply Fin.ext
  match a with
  | ⟨0, _⟩ => show win3_5.index t (0 : Fin 2) * 1 + 1 * 0 = 0; omega
  | ⟨1, _⟩ => show win3_5.index t (1 : Fin 2) * 128 + 1 * k.val = k.val; omega

/-- Unblocked input 6: its one block is the whole array. -/
theorem iblk3_6_at (c : Dev nD) (t : Fin cfg3.N) (k : Fin 128) :
    (iblk3 V c 6 t : S1x128.Idx → EReal) (ix2 (0 : Fin 1) k) = ((V c (Pipeline.arrRef spec3 6)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts3 t
  show ((V c (Pipeline.arrRef spec3 6)) : S1x128.Idx → EReal) (((cfg3.win 6).blk t).view.emb (ix2 (0 : Fin 1) k)) = _
  congr 1
  funext a; apply Fin.ext
  match a with
  | ⟨0, _⟩ => show win3_6.index t (0 : Fin 2) * 1 + 1 * 0 = 0; omega
  | ⟨1, _⟩ => show win3_6.index t (1 : Fin 2) * 128 + 1 * k.val = k.val; omega

/-- Unblocked input 7: its one block is the whole array. -/
theorem iblk3_7_at (c : Dev nD) (t : Fin cfg3.N) (k : Fin 128) :
    (iblk3 V c 7 t : S1x128.Idx → EReal) (ix2 (0 : Fin 1) k) = ((V c (Pipeline.arrRef spec3 7)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts3 t
  show ((V c (Pipeline.arrRef spec3 7)) : S1x128.Idx → EReal) (((cfg3.win 7).blk t).view.emb (ix2 (0 : Fin 1) k)) = _
  congr 1
  funext a; apply Fin.ext
  match a with
  | ⟨0, _⟩ => show win3_7.index t (0 : Fin 2) * 1 + 1 * 0 = 0; omega
  | ⟨1, _⟩ => show win3_7.index t (1 : Fin 2) * 128 + 1 * k.val = k.val; omega

/-- Unblocked input 8: its one block is the whole array. -/
theorem iblk3_8_at (c : Dev nD) (t : Fin cfg3.N) (k : Fin 128) :
    (iblk3 V c 8 t : S1x128.Idx → EReal) (ix2 (0 : Fin 1) k) = ((V c (Pipeline.arrRef spec3 8)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts3 t
  show ((V c (Pipeline.arrRef spec3 8)) : S1x128.Idx → EReal) (((cfg3.win 8).blk t).view.emb (ix2 (0 : Fin 1) k)) = _
  congr 1
  funext a; apply Fin.ext
  match a with
  | ⟨0, _⟩ => show win3_8.index t (0 : Fin 2) * 1 + 1 * 0 = 0; omega
  | ⟨1, _⟩ => show win3_8.index t (1 : Fin 2) * 128 + 1 * k.val = k.val; omega

/-- Unblocked input 9: its one block is the whole array. -/
theorem iblk3_9_at (c : Dev nD) (t : Fin cfg3.N) (k' k : Fin 128) :
    (iblk3 V c 9 t : S128x128.Idx → EReal) (ix2 k' k) = ((V c (Pipeline.arrRef spec3 9)) : S128x128.Idx → EReal) (ix2 k' k) := by
  obtain ⟨e0, e1, e2, e3, e4, e5, e6, e7, e8, e9, e10, e11, e12, e13, e14, e15, e16, e17, e18, e19, e20, e21, e22, e23⟩ := idx_facts3 t
  show ((V c (Pipeline.arrRef spec3 9)) : S128x128.Idx → EReal) (((cfg3.win 9).blk t).view.emb (ix2 k' k)) = _
  congr 1
  funext a; apply Fin.ext
  match a with
  | ⟨0, _⟩ => show win3_9.index t (0 : Fin 2) * 128 + 1 * k'.val = k'.val; omega
  | ⟨1, _⟩ => show win3_9.index t (1 : Fin 2) * 128 + 1 * k.val = k.val; omega

/-- Unblocked input 10: its one block is the whole array. -/
theorem iblk3_10_at (c : Dev nD) (t : Fin cfg3.N) (k : Fin 128) :
    (iblk3 V c 10 t : S1x128.Idx → EReal) (ix2 (0 : Fin 1) k) = ((V c (Pipeline.arrRef spec3 10)) : S1x128.Idx → EReal) (ix2 (0 : Fin 1) k) := by
  obtain ⟨e0, e1, e2, e3, e4, e5, e6, e7, e8, e9, e10, e11, e12, e13, e14, e15, e16, e17, e18, e19, e20, e21, e22, e23⟩ := idx_facts3 t
  show ((V c (Pipeline.arrRef spec3 10)) : S1x128.Idx → EReal) (((cfg3.win 10).blk t).view.emb (ix2 (0 : Fin 1) k)) = _
  congr 1
  funext a; apply Fin.ext
  match a with
  | ⟨0, _⟩ => show win3_10.index t (0 : Fin 2) * 1 + 1 * 0 = 0; omega
  | ⟨1, _⟩ => show win3_10.index t (1 : Fin 2) * 128 + 1 * k.val = k.val; omega

/-- The layer's output as a matrix, from eleven arrays. -/
def layerOf3 (A0 A1 : S100000x128.Idx → EReal) (A2 : S1x1.Idx → EReal) (A3 : S128x128.Idx → EReal) (A4 A5 A6 A7 A8 : S1x128.Idx → EReal) (A9 : S128x128.Idx → EReal) (A10 : S1x128.Idx → EReal) : Cert.Gin.RM :=
  Cert.Gin.lin (Cert.Gin.toWM A9) (Cert.Gin.toCVrow A10) (Cert.Gin.bnRelu (Cert.Gin.toCVrow A5) (Cert.Gin.toCVrow A6) (Cert.Gin.toCVrow A7) (Cert.Gin.toCVrow A8) (Cert.Gin.lin (Cert.Gin.toWM A3) (Cert.Gin.toCVrow A4) (Cert.Gin.combine (Cert.Gin.toS11 A2) (Cert.Gin.toRM A0) (Cert.Gin.toRM A1))))

/-- A stored block's entry is the layer's output at the array index it is written to, when the input blocks are the
    arrays' rows and columns the output's index names (over variables). -/
theorem block_eq3 (A0 A1 : S100000x128.Idx → EReal) (A2 : S1x1.Idx → EReal) (A3 : S128x128.Idx → EReal) (A4 A5 A6 A7 A8 : S1x128.Idx → EReal) (A9 : S128x128.Idx → EReal) (A10 : S1x128.Idx → EReal)
    (x0 x1 : Vec Ideal S4000x128 .f32) (x2 : Vec Ideal S1x1 .f32) (x3 : Vec Ideal S128x128 .bf16) (x4 x5 x6 x7 x8 : Vec Ideal S1x128 .f32) (x9 : Vec Ideal S128x128 .bf16) (x10 : Vec Ideal S1x128 .f32) (y : S4000x128.Idx) (i : S100000x128.Idx) (p : Fin 4000) (q : Fin 128) (hp : y 0 = p) (hq : y 1 = q) (hcol : i 1 = q)
    (h0 : ∀ k : Fin 128, x0 (ix2 p k) = A0 (ix2 (i 0) k)) (h1 : ∀ k : Fin 128, x1 (ix2 p k) = A1 (ix2 (i 0) k)) (h2 : x2 (ix2 (0 : Fin 1) (0 : Fin 1)) = A2 (ix2 (0 : Fin 1) (0 : Fin 1))) (h3 : ∀ k' k : Fin 128, x3 (ix2 k' k) = A3 (ix2 k' k)) (h4 : ∀ k : Fin 128, x4 (ix2 (0 : Fin 1) k) = A4 (ix2 (0 : Fin 1) k)) (h5 : ∀ k : Fin 128, x5 (ix2 (0 : Fin 1) k) = A5 (ix2 (0 : Fin 1) k)) (h6 : ∀ k : Fin 128, x6 (ix2 (0 : Fin 1) k) = A6 (ix2 (0 : Fin 1) k)) (h7 : ∀ k : Fin 128, x7 (ix2 (0 : Fin 1) k) = A7 (ix2 (0 : Fin 1) k)) (h8 : ∀ k : Fin 128, x8 (ix2 (0 : Fin 1) k) = A8 (ix2 (0 : Fin 1) k)) (h9 : ∀ k' k : Fin 128, x9 (ix2 k' k) = A9 (ix2 k' k)) (h10 : ∀ k : Fin 128, x10 (ix2 (0 : Fin 1) k) = A10 (ix2 (0 : Fin 1) k)) :
    out3_11 x0 x1 x2 x3 x4 x5 x6 x7 x8 x9 x10 y = Cert.Gin.ofRM (layerOf3 A0 A1 A2 A3 A4 A5 A6 A7 A8 A9 A10) i := by
  have h := out3_at x0 x1 x2 x3 x4 x5 x6 x7 x8 x9 x10 p q
  have hy : y = ix2 p q := funext fun a => by
    match a with
    | ⟨0, _⟩ => exact hp
    | ⟨1, _⟩ => exact hq
  have e : out3_11 x0 x1 x2 x3 x4 x5 x6 x7 x8 x9 x10 y = out3_11 x0 x1 x2 x3 x4 x5 x6 x7 x8 x9 x10 (ix2 p q) :=
    congrArg (out3_11 x0 x1 x2 x3 x4 x5 x6 x7 x8 x9 x10) hy
  refine (e.trans h).trans ?_
  simp only [h0, h1, h2, h3, h4, h5, h6, h7, h8, h9, h10]
  show _ = layerOf3 A0 A1 A2 A3 A4 A5 A6 A7 A8 A9 A10 (i 0) (i 1)
  rw [hcol]
  rfl

set_option maxHeartbeats 1000000 in
/-- What point t writes back is block t of the layer's output of the arrays the region finds. -/
theorem flushed3_eq (c : Dev nD) (t : Fin cfg3.N) :
    (dat3 (F := Ideal) V c).flushed 11 t = ((cfg3.win 11).blk t).view.read (Elt Ideal)
      (Cert.Gin.ofRM (layerOf3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)))) := by
  show (cfg3.win 11).cut (grid3.coords t) ((dat3 V c).after 11 t) = _
  rw [after3_11]
  funext j
  obtain ⟨e0, e1, e2, e3, e4, e5, e6, e7, e8, e9, e10, e11, e12, e13, e14, e15, e16, e17, e18, e19, e20, e21, e22, e23⟩ := idx_facts3 t
  have hcol : (((cfg3.win 11).blk t).view.emb j : S100000x128.Idx) 1 = (j : S4000x128.Idx) 1 := by
    apply Fin.ext
    show win3_11.index t (1 : Fin 2) * 128 + 1 * ((j : S4000x128.Idx) 1).val = ((j : S4000x128.Idx) 1).val
    omega
  have hrow : ((((cfg3.win 11).blk t).view.emb j : S100000x128.Idx) 0).val = t.val * 4000 + ((j : S4000x128.Idx) 0).val := by
    show win3_11.index t (0 : Fin 2) * 4000 + 1 * ((j : S4000x128.Idx) 0).val = _
    omega
  exact block_eq3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) j (((cfg3.win 11).blk t).view.emb j) ((j : S4000x128.Idx) 0) ((j : S4000x128.Idx) 1) rfl rfl hcol
    (fun k => iblk3_0_at V c t _ _ hrow k) (fun k => iblk3_1_at V c t _ _ hrow k) (iblk3_2_at V c t) (fun k' k => iblk3_3_at V c t k' k) (fun k => iblk3_4_at V c t k) (fun k => iblk3_5_at V c t k) (fun k => iblk3_6_at V c t k) (fun k => iblk3_7_at V c t k) (fun k => iblk3_8_at V c t k) (fun k' k => iblk3_9_at V c t k' k) (fun k => iblk3_10_at V c t k)

/-- An index of the array is in point t's block iff each coordinate is in the block's range on its axis. -/
theorem mem_blk3 (t : Fin cfg3.N) (i : S100000x128.Idx) :
    i ∈ ((cfg3.win 11).blk t).view.set ↔ ∀ a : Fin 2, win3_11.index t a * S4000x128.size a ≤ (i a).val ∧ (i a).val < win3_11.index t a * S4000x128.size a + S4000x128.size a := by
  show i ∈ ((View.whole main_v49).slice (win3_11.rect t)).set ↔ _
  rw [View.set_slice_whole, Rect.mem_set_unit]
  exact Iff.rfl

/-- The 25 blocks tile the array: row r is in block r / 4000. -/
theorem cover3 (i : S100000x128.Idx) :
    ∃ t : Fin cfg3.N, (cfg3.win 11).flush t = true ∧ i ∈ ((cfg3.win 11).blk t).view.set := by
  have hi0 : (i 0).val < 100000 := (i 0).isLt
  have hi1 : (i 1).val < 128 := (i 1).isLt
  have hN : cfg3.N = 25 := N_3
  have hlt : (i 0).val / 4000 < cfg3.N := by rw [hN]; omega
  refine ⟨⟨(i 0).val / 4000, hlt⟩, flush3_11 _, ?_⟩
  rw [mem_blk3]
  obtain ⟨e0, e1, e2, e3, e4, e5, e6, e7, e8, e9, e10, e11, e12, e13, e14, e15, e16, e17, e18, e19, e20, e21, e22, e23⟩ := idx_facts3 ⟨(i 0).val / 4000, hlt⟩
  intro a
  match a with
  | ⟨0, _⟩ =>
    show win3_11.index ⟨(i 0).val / 4000, hlt⟩ (0 : Fin 2) * 4000 ≤ (i 0).val ∧ (i 0).val < win3_11.index ⟨(i 0).val / 4000, hlt⟩ (0 : Fin 2) * 4000 + 4000
    rw [e4]; show (i 0).val / 4000 * 4000 ≤ (i 0).val ∧ (i 0).val < (i 0).val / 4000 * 4000 + 4000; omega
  | ⟨1, _⟩ =>
    show win3_11.index ⟨(i 0).val / 4000, hlt⟩ (1 : Fin 2) * 128 ≤ (i 1).val ∧ (i 1).val < win3_11.index ⟨(i 0).val / 4000, hlt⟩ (1 : Fin 2) * 128 + 128
    rw [e5]; omega

/-- The output array after the region, read as a matrix, is the layer's output of the arrays the region finds. -/
theorem arrAt3_11 (c : Dev nD) :
    Cert.Gin.toRM ((dat3 (F := Ideal) V c).arrAt 11 cfg3.N)
      = Cert.Gin.lin (Cert.Gin.toWM (V c (Pipeline.arrRef spec3 9))) (Cert.Gin.toCVrow (V c (Pipeline.arrRef spec3 10))) (Cert.Gin.bnRelu (Cert.Gin.toCVrow (V c (Pipeline.arrRef spec3 5))) (Cert.Gin.toCVrow (V c (Pipeline.arrRef spec3 6))) (Cert.Gin.toCVrow (V c (Pipeline.arrRef spec3 7))) (Cert.Gin.toCVrow (V c (Pipeline.arrRef spec3 8))) (Cert.Gin.lin (Cert.Gin.toWM (V c (Pipeline.arrRef spec3 3))) (Cert.Gin.toCVrow (V c (Pipeline.arrRef spec3 4))) (Cert.Gin.combine (Cert.Gin.toS11 (V c (Pipeline.arrRef spec3 2))) (Cert.Gin.toRM (V c (Pipeline.arrRef spec3 0))) (Cert.Gin.toRM (V c (Pipeline.arrRef spec3 1)))))) := by
  rw [(dat3 (F := Ideal) V c).arrAt_eq_of_cover 11 _ (fun t _ => flushed3_eq V c t) (cover3)]
  rfl

end Array

end Cert.KernelIdeal.Hand

end
-- ==== Proof.StatsPayloadKI.lean ====
/- The statistics kernels' payloads read at an entry, at the exact values: the block's first linear map as a
   128-term dot product plus the bias, the running column sums and sums of squares as the previous row plus the
   block's column sums, and the zeros stored at the first grid point. -/
import proofs.«143642_j88098369176165_1_alg».proof.Proof.Gen.KernelIdeal.Skeleton
import proofs.«143642_j88098369176165_1_alg».proof.Proof.Spec
import proofs.«143642_j88098369176165_1_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Gin
open Idealize.ShloMosaic Idealize.ShloMosaic.ValueIdx

/-! ## The statistics kernel of the first layer: its payloads read at an entry -/

/-- The block's first linear map at row `q`, column `j`: rounding to the narrow format is the identity on exact
    values and the matrix unit's product into a zero accumulator is the bare sum over the contracted axis. -/
theorem pay4_apply (eps : Vec Ideal S1x1 .f32) (x agg : Vec Ideal S4000x128 .f32) (wa : Vec Ideal S128x128 .bf16)
    (ba : Vec Ideal S1x128 .f32) (q : Fin 4000) (j : Fin 128) :
    k0_pay4 (F := Ideal) eps x agg wa ba (ix2 q j)
      = (∑ k : Fin 128, ((cOne + eps (ix2 0 0)) * x (ix2 q k) + agg (ix2 q k)) * wa (ix2 k j)) + ba (ix2 0 j) := by
  unfold k0_pay4
  simp only [shapeCast_self, matmul]
  rw [addf_apply, broadcastTo_1b_ab_apply,
    Cert.DenseLayer.matmul_rows_cols dot_S4000x128_S128x128_S4000x128_1_0_0_1_n_n rfl rfl
      (fun _ _ => rfl) (fun i q => DotDims.lhsIdx_val_of_single _ rfl i q)
      (fun i q => DotDims.rhsIdx_val_of_single _ rfl i q) (fun _ _ => rfl)]
  refine congrArg (· + ba (ix2 0 j)) (Finset.sum_congr rfl fun k _ => ?_)
  rw [truncf_apply, addf_apply, mulf_apply,
    broadcastTo_apply _ broadcasts_S1x1_S4000x128 (ix2 q k) (ix2 0 0)
      (fun a => by match a with | ⟨0, _⟩ => rfl | ⟨1, _⟩ => rfl),
    addf_apply, broadcast_apply]
  rfl

/-- The running column sums after the block: the sums before it plus the block's column sums of the linear map. -/
theorem pay5_apply (eps : Vec Ideal S1x1 .f32) (x agg : Vec Ideal S4000x128 .f32) (wa : Vec Ideal S128x128 .bf16)
    (ba prev : Vec Ideal S1x128 .f32) (j : Fin 128) :
    k0_pay5 (F := Ideal) eps x agg wa ba prev (ix2 0 j)
      = prev (ix2 0 j) + ∑ q : Fin 4000, k0_pay4 (F := Ideal) eps x agg wa ba (ix2 q j) := by
  unfold k0_pay5
  simp only [shapeCast_self]
  rw [addf_apply, shapeCast_a_1a_apply]
  refine congrArg (prev (ix2 0 j) + ·) ?_
  refine (Ideal.multiReduction_add_single _ _ reduces_S4000x128_S128 (.inl rfl) rfl (ix1 j)).trans ?_
  refine Finset.sum_congr rfl fun q _ => congrArg _ (funext fun a => Fin.ext ?_)
  match a with
  | ⟨0, _⟩ => rfl
  | ⟨1, _⟩ => rfl

/-- The running column sums of squares after the block, as the kernel stores them. -/
theorem pay6_apply (eps : Vec Ideal S1x1 .f32) (x agg : Vec Ideal S4000x128 .f32) (wa : Vec Ideal S128x128 .bf16)
    (ba prev : Vec Ideal S1x128 .f32) (j : Fin 128) :
    k0_pay1 (F := Ideal) (k0_pay6 (F := Ideal) eps x agg wa ba prev) (ix2 0 j)
      = prev (ix2 0 j) + ∑ q : Fin 4000, k0_pay4 (F := Ideal) eps x agg wa ba (ix2 q j) * k0_pay4 (F := Ideal) eps x agg wa ba (ix2 q j) := by
  unfold k0_pay1 k0_pay6
  simp only [shapeCast_self]
  rw [addf_apply, shapeCast_a_1a_apply]
  refine congrArg (prev (ix2 0 j) + ·) ?_
  refine (Ideal.multiReduction_add_single _ _ reduces_S4000x128_S128 (.inl rfl) rfl (ix1 j)).trans ?_
  refine Finset.sum_congr rfl fun q _ => ?_
  rw [mulf_apply]
  have e : (reduces_S4000x128_S128.lift (ix1 j) q : S4000x128.Idx) = ix2 q j := funext fun a => Fin.ext (by
    match a with
    | ⟨0, _⟩ => rfl
    | ⟨1, _⟩ => rfl)
  rw [e]
  rfl

/-- The zero the kernel stores into the running sums at its first point. -/
theorem pay2_apply (j : Fin 128) : k0_pay2 (F := Ideal) (ix2 0 j) = cZero := by
  unfold k0_pay2
  simp only [shapeCast_self]
  rfl

/-- The zero the kernel stores into the running sums of squares at its first point. -/
theorem pay3_apply (j : Fin 128) : k0_pay3 (F := Ideal) (ix2 0 j) = cZero := by
  unfold k0_pay3
  simp only [shapeCast_self]
  rfl

/-! ## The statistics kernel of the second layer: its payloads read at an entry -/

/-- The block's first linear map at row `q`, column `j`: rounding to the narrow format is the identity on exact
    values and the matrix unit's product into a zero accumulator is the bare sum over the contracted axis. -/
theorem pay4_apply2 (eps : Vec Ideal S1x1 .f32) (x agg : Vec Ideal S4000x128 .f32) (wa : Vec Ideal S128x128 .bf16)
    (ba : Vec Ideal S1x128 .f32) (q : Fin 4000) (j : Fin 128) :
    k2_pay4 (F := Ideal) eps x agg wa ba (ix2 q j)
      = (∑ k : Fin 128, ((cOne + eps (ix2 0 0)) * x (ix2 q k) + agg (ix2 q k)) * wa (ix2 k j)) + ba (ix2 0 j) := by
  unfold k2_pay4
  simp only [shapeCast_self, matmul]
  rw [addf_apply, broadcastTo_1b_ab_apply,
    Cert.DenseLayer.matmul_rows_cols dot_S4000x128_S128x128_S4000x128_1_0_0_1_n_n rfl rfl
      (fun _ _ => rfl) (fun i q => DotDims.lhsIdx_val_of_single _ rfl i q)
      (fun i q => DotDims.rhsIdx_val_of_single _ rfl i q) (fun _ _ => rfl)]
  refine congrArg (· + ba (ix2 0 j)) (Finset.sum_congr rfl fun k _ => ?_)
  rw [truncf_apply, addf_apply, mulf_apply,
    broadcastTo_apply _ broadcasts_S1x1_S4000x128 (ix2 q k) (ix2 0 0)
      (fun a => by match a with | ⟨0, _⟩ => rfl | ⟨1, _⟩ => rfl),
    addf_apply, broadcast_apply]
  rfl

/-- The running column sums after the block: the sums before it plus the block's column sums of the linear map. -/
theorem pay5_apply2 (eps : Vec Ideal S1x1 .f32) (x agg : Vec Ideal S4000x128 .f32) (wa : Vec Ideal S128x128 .bf16)
    (ba prev : Vec Ideal S1x128 .f32) (j : Fin 128) :
    k2_pay5 (F := Ideal) eps x agg wa ba prev (ix2 0 j)
      = prev (ix2 0 j) + ∑ q : Fin 4000, k2_pay4 (F := Ideal) eps x agg wa ba (ix2 q j) := by
  unfold k2_pay5
  simp only [shapeCast_self]
  rw [addf_apply, shapeCast_a_1a_apply]
  refine congrArg (prev (ix2 0 j) + ·) ?_
  refine (Ideal.multiReduction_add_single _ _ reduces_S4000x128_S128 (.inl rfl) rfl (ix1 j)).trans ?_
  refine Finset.sum_congr rfl fun q _ => congrArg _ (funext fun a => Fin.ext ?_)
  match a with
  | ⟨0, _⟩ => rfl
  | ⟨1, _⟩ => rfl

/-- The running column sums of squares after the block, as the kernel stores them. -/
theorem pay6_apply2 (eps : Vec Ideal S1x1 .f32) (x agg : Vec Ideal S4000x128 .f32) (wa : Vec Ideal S128x128 .bf16)
    (ba prev : Vec Ideal S1x128 .f32) (j : Fin 128) :
    k2_pay1 (F := Ideal) (k2_pay6 (F := Ideal) eps x agg wa ba prev) (ix2 0 j)
      = prev (ix2 0 j) + ∑ q : Fin 4000, k2_pay4 (F := Ideal) eps x agg wa ba (ix2 q j) * k2_pay4 (F := Ideal) eps x agg wa ba (ix2 q j) := by
  unfold k2_pay1 k2_pay6
  simp only [shapeCast_self]
  rw [addf_apply, shapeCast_a_1a_apply]
  refine congrArg (prev (ix2 0 j) + ·) ?_
  refine (Ideal.multiReduction_add_single _ _ reduces_S4000x128_S128 (.inl rfl) rfl (ix1 j)).trans ?_
  refine Finset.sum_congr rfl fun q _ => ?_
  rw [mulf_apply]
  have e : (reduces_S4000x128_S128.lift (ix1 j) q : S4000x128.Idx) = ix2 q j := funext fun a => Fin.ext (by
    match a with
    | ⟨0, _⟩ => rfl
    | ⟨1, _⟩ => rfl)
  rw [e]
  rfl

/-- The zero the kernel stores into the running sums at its first point. -/
theorem pay2_apply2 (j : Fin 128) : k2_pay2 (F := Ideal) (ix2 0 j) = cZero := by
  unfold k2_pay2
  simp only [shapeCast_self]
  rfl

/-- The zero the kernel stores into the running sums of squares at its first point. -/
theorem pay3_apply2 (j : Fin 128) : k2_pay3 (F := Ideal) (ix2 0 j) = cZero := by
  unfold k2_pay3
  simp only [shapeCast_self]
  rfl

end Cert.KernelIdeal.Hand

end
-- ==== Proof.StatsInductionKI.lean ====
/- The statistics kernels' running sums over the 25 grid points, as mathematics over hypotheses: if a sequence of
   rows starts at the first block's sums added to zero and each later point adds its block's column sums, then after
   the points `0 … n` the row holds the specification's running sum; instantiated at the column sums of the first
   linear map and of its square, whose block entries are the whole array's entries at the block's rows. -/
import proofs.«143642_j88098369176165_1_alg».proof.Proof.StatsPayloadKI
import proofs.«143642_j88098369176165_1_alg».proof.Proof.Spec

noncomputable section

namespace Cert.KernelIdeal.Hand

open Cert.KernelIdeal Cert.KernelIdeal.Gen Cert.Gin
open Idealize.ShloMosaic Idealize.ShloMosaic.ValueIdx

/-- A sequence of rows that starts at zero plus the first block's column sums and adds one block's column sums per
    later point holds, after the points `0 … n`, the specification's running sum. -/
theorem runSum_of_steps (h : RM) (S : ℕ → Vec Ideal S1x128 .f32)
    (h0 : ∀ j : Fin 128, S 0 (ix2 0 j) = cZero + ∑ q : Fin 4000, h (rowOf ⟨0, by omega⟩ q) j)
    (hs : ∀ n (hn : n + 1 < 25) (j : Fin 128), S (n + 1) (ix2 0 j) = S n (ix2 0 j) + ∑ q : Fin 4000, h (rowOf ⟨n + 1, hn⟩ q) j) :
    ∀ n, n < 25 → ∀ j : Fin 128, S n (ix2 0 j) = runSum h n j := by
  intro n
  induction n with
  | zero => intro _ j; rw [h0 j]; rfl
  | succ n ih =>
    intro hn j
    rw [hs n hn j, ih (by omega) j]
    show _ = runSum h n j + (if hn : n + 1 < 25 then blockSum h ⟨n + 1, hn⟩ j else 0)
    rw [dif_pos hn]
    rfl

/-! ## The statistics kernel of the first layer -/

/-- An entry of the block's linear map is the entry of the whole array's linear map at the block's row. -/
theorem blockEntry (X Agg : (⟨2, ![100000, 128]⟩ : Shape).Idx → EReal) (eps : Vec Ideal S1x1 .f32)
    (wa : Vec Ideal S128x128 .bf16) (ba : Vec Ideal S1x128 .f32) (xb aggb : ℕ → Vec Ideal S4000x128 .f32)
    (hx : ∀ (t : ℕ) (ht : t < 25) (q : Fin 4000) (k : Fin 128), xb t (ix2 q k) = X (ix2 (Cert.Gin.rowOf ⟨t, ht⟩ q) k))
    (hagg : ∀ (t : ℕ) (ht : t < 25) (q : Fin 4000) (k : Fin 128), aggb t (ix2 q k) = Agg (ix2 (Cert.Gin.rowOf ⟨t, ht⟩ q) k))
    (t : ℕ) (ht : t < 25) (q : Fin 4000) (j : Fin 128) :
    k0_pay4 (F := Ideal) eps (xb t) (aggb t) wa ba (ix2 q j)
      = Cert.Gin.lin (toWM wa) (toCVrow ba) (Cert.Gin.combine (toS11 eps) (toRM X) (toRM Agg)) (Cert.Gin.rowOf ⟨t, ht⟩ q) j := by
  rw [pay4_apply]
  simp only [hx t ht, hagg t ht]
  rfl

/-- The running column sums after the grid points `0 … n` are the specification's running sums of the linear map. -/
theorem runS_eq (X Agg : (⟨2, ![100000, 128]⟩ : Shape).Idx → EReal) (eps : Vec Ideal S1x1 .f32)
    (wa : Vec Ideal S128x128 .bf16) (ba : Vec Ideal S1x128 .f32) (xb aggb : ℕ → Vec Ideal S4000x128 .f32)
    (hx : ∀ (t : ℕ) (ht : t < 25) (q : Fin 4000) (k : Fin 128), xb t (ix2 q k) = X (ix2 (Cert.Gin.rowOf ⟨t, ht⟩ q) k))
    (hagg : ∀ (t : ℕ) (ht : t < 25) (q : Fin 4000) (k : Fin 128), aggb t (ix2 q k) = Agg (ix2 (Cert.Gin.rowOf ⟨t, ht⟩ q) k))
    (Z : Vec Ideal S1x128 .f32) (hZ : ∀ j : Fin 128, Z (ix2 0 j) = cZero)
    (S : ℕ → Vec Ideal S1x128 .f32) (h0 : S 0 = k0_pay5 (F := Ideal) eps (xb 0) (aggb 0) wa ba Z)
    (hs : ∀ n, n + 1 < 25 → S (n + 1) = k0_pay5 (F := Ideal) eps (xb (n + 1)) (aggb (n + 1)) wa ba (S n)) :
    ∀ n, n < 25 → ∀ j : Fin 128, S n (ix2 0 j)
      = Cert.Gin.runSum (Cert.Gin.lin (toWM wa) (toCVrow ba) (Cert.Gin.combine (toS11 eps) (toRM X) (toRM Agg))) n j := by
  refine runSum_of_steps _ S (fun j => ?_) (fun n hn j => ?_)
  · rw [h0, pay5_apply, hZ j]
    exact congrArg (cZero + ·) (Finset.sum_congr rfl fun q _ => blockEntry X Agg eps wa ba xb aggb hx hagg 0 (by omega) q j)
  · rw [hs n hn, pay5_apply]
    exact congrArg (S n (ix2 0 j) + ·) (Finset.sum_congr rfl fun q _ => blockEntry X Agg eps wa ba xb aggb hx hagg (n + 1) hn q j)

/-- The running column sums of squares after the grid points `0 … n` are the specification's running sums of the
    squared linear map. -/
theorem runQ_eq (X Agg : (⟨2, ![100000, 128]⟩ : Shape).Idx → EReal) (eps : Vec Ideal S1x1 .f32)
    (wa : Vec Ideal S128x128 .bf16) (ba : Vec Ideal S1x128 .f32) (xb aggb : ℕ → Vec Ideal S4000x128 .f32)
    (hx : ∀ (t : ℕ) (ht : t < 25) (q : Fin 4000) (k : Fin 128), xb t (ix2 q k) = X (ix2 (Cert.Gin.rowOf ⟨t, ht⟩ q) k))
    (hagg : ∀ (t : ℕ) (ht : t < 25) (q : Fin 4000) (k : Fin 128), aggb t (ix2 q k) = Agg (ix2 (Cert.Gin.rowOf ⟨t, ht⟩ q) k))
    (Z : Vec Ideal S1x128 .f32) (hZ : ∀ j : Fin 128, Z (ix2 0 j) = cZero)
    (Q : ℕ → Vec Ideal S1x128 .f32) (h0 : Q 0 = k0_pay1 (F := Ideal) (k0_pay6 (F := Ideal) eps (xb 0) (aggb 0) wa ba Z))
    (hs : ∀ n, n + 1 < 25 → Q (n + 1) = k0_pay1 (F := Ideal) (k0_pay6 (F := Ideal) eps (xb (n + 1)) (aggb (n + 1)) wa ba (Q n))) :
    ∀ n, n < 25 → ∀ j : Fin 128, Q n (ix2 0 j)
      = Cert.Gin.runSum (Cert.Gin.sq (Cert.Gin.lin (toWM wa) (toCVrow ba) (Cert.Gin.combine (toS11 eps) (toRM X) (toRM Agg)))) n j := by
  refine runSum_of_steps _ Q (fun j => ?_) (fun n hn j => ?_)
  · rw [h0, pay6_apply, hZ j]
    refine congrArg (cZero + ·) (Finset.sum_congr rfl fun q _ => ?_)
    rw [blockEntry X Agg eps wa ba xb aggb hx hagg 0 (by omega) q j]
    rfl
  · rw [hs n hn, pay6_apply]
    refine congrArg (Q n (ix2 0 j) + ·) (Finset.sum_congr rfl fun q _ => ?_)
    rw [blockEntry X Agg eps wa ba xb aggb hx hagg (n + 1) hn q j]
    rfl

/-! ## The statistics kernel of the second layer -/

/-- An entry of the block's linear map is the entry of the whole array's linear map at the block's row. -/
theorem blockEntry2 (X Agg : (⟨2, ![100000, 128]⟩ : Shape).Idx → EReal) (eps : Vec Ideal S1x1 .f32)
    (wa : Vec Ideal S128x128 .bf16) (ba : Vec Ideal S1x128 .f32) (xb aggb : ℕ → Vec Ideal S4000x128 .f32)
    (hx : ∀ (t : ℕ) (ht : t < 25) (q : Fin 4000) (k : Fin 128), xb t (ix2 q k) = X (ix2 (Cert.Gin.rowOf ⟨t, ht⟩ q) k))
    (hagg : ∀ (t : ℕ) (ht : t < 25) (q : Fin 4000) (k : Fin 128), aggb t (ix2 q k) = Agg (ix2 (Cert.Gin.rowOf ⟨t, ht⟩ q) k))
    (t : ℕ) (ht : t < 25) (q : Fin 4000) (j : Fin 128) :
    k2_pay4 (F := Ideal) eps (xb t) (aggb t) wa ba (ix2 q j)
      = Cert.Gin.lin (toWM wa) (toCVrow ba) (Cert.Gin.combine (toS11 eps) (toRM X) (toRM Agg)) (Cert.Gin.rowOf ⟨t, ht⟩ q) j := by
  rw [pay4_apply2]
  simp only [hx t ht, hagg t ht]
  rfl

/-- The running column sums after the grid points `0 … n` are the specification's running sums of the linear map. -/
theorem runS_eq2 (X Agg : (⟨2, ![100000, 128]⟩ : Shape).Idx → EReal) (eps : Vec Ideal S1x1 .f32)
    (wa : Vec Ideal S128x128 .bf16) (ba : Vec Ideal S1x128 .f32) (xb aggb : ℕ → Vec Ideal S4000x128 .f32)
    (hx : ∀ (t : ℕ) (ht : t < 25) (q : Fin 4000) (k : Fin 128), xb t (ix2 q k) = X (ix2 (Cert.Gin.rowOf ⟨t, ht⟩ q) k))
    (hagg : ∀ (t : ℕ) (ht : t < 25) (q : Fin 4000) (k : Fin 128), aggb t (ix2 q k) = Agg (ix2 (Cert.Gin.rowOf ⟨t, ht⟩ q) k))
    (Z : Vec Ideal S1x128 .f32) (hZ : ∀ j : Fin 128, Z (ix2 0 j) = cZero)
    (S : ℕ → Vec Ideal S1x128 .f32) (h0 : S 0 = k2_pay5 (F := Ideal) eps (xb 0) (aggb 0) wa ba Z)
    (hs : ∀ n, n + 1 < 25 → S (n + 1) = k2_pay5 (F := Ideal) eps (xb (n + 1)) (aggb (n + 1)) wa ba (S n)) :
    ∀ n, n < 25 → ∀ j : Fin 128, S n (ix2 0 j)
      = Cert.Gin.runSum (Cert.Gin.lin (toWM wa) (toCVrow ba) (Cert.Gin.combine (toS11 eps) (toRM X) (toRM Agg))) n j := by
  refine runSum_of_steps _ S (fun j => ?_) (fun n hn j => ?_)
  · rw [h0, pay5_apply2, hZ j]
    exact congrArg (cZero + ·) (Finset.sum_congr rfl fun q _ => blockEntry2 X Agg eps wa ba xb aggb hx hagg 0 (by omega) q j)
  · rw [hs n hn, pay5_apply2]
    exact congrArg (S n (ix2 0 j) + ·) (Finset.sum_congr rfl fun q _ => blockEntry2 X Agg eps wa ba xb aggb hx hagg (n + 1) hn q j)

/-- The running column sums of squares after the grid points `0 … n` are the specification's running sums of the
    squared linear map. -/
theorem runQ_eq2 (X Agg : (⟨2, ![100000, 128]⟩ : Shape).Idx → EReal) (eps : Vec Ideal S1x1 .f32)
    (wa : Vec Ideal S128x128 .bf16) (ba : Vec Ideal S1x128 .f32) (xb aggb : ℕ → Vec Ideal S4000x128 .f32)
    (hx : ∀ (t : ℕ) (ht : t < 25) (q : Fin 4000) (k : Fin 128), xb t (ix2 q k) = X (ix2 (Cert.Gin.rowOf ⟨t, ht⟩ q) k))
    (hagg : ∀ (t : ℕ) (ht : t < 25) (q : Fin 4000) (k : Fin 128), aggb t (ix2 q k) = Agg (ix2 (Cert.Gin.rowOf ⟨t, ht⟩ q) k))
    (Z : Vec Ideal S1x128 .f32) (hZ : ∀ j : Fin 128, Z (ix2 0 j) = cZero)
    (Q : ℕ → Vec Ideal S1x128 .f32) (h0 : Q 0 = k2_pay1 (F := Ideal) (k2_pay6 (F := Ideal) eps (xb 0) (aggb 0) wa ba Z))
    (hs : ∀ n, n + 1 < 25 → Q (n + 1) = k2_pay1 (F := Ideal) (k2_pay6 (F := Ideal) eps (xb (n + 1)) (aggb (n + 1)) wa ba (Q n))) :
    ∀ n, n < 25 → ∀ j : Fin 128, Q n (ix2 0 j)
      = Cert.Gin.runSum (Cert.Gin.sq (Cert.Gin.lin (toWM wa) (toCVrow ba) (Cert.Gin.combine (toS11 eps) (toRM X) (toRM Agg)))) n j := by
  refine runSum_of_steps _ Q (fun j => ?_) (fun n hn j => ?_)
  · rw [h0, pay6_apply2, hZ j]
    refine congrArg (cZero + ·) (Finset.sum_congr rfl fun q _ => ?_)
    rw [blockEntry2 X Agg eps wa ba xb aggb hx hagg 0 (by omega) q j]
    rfl
  · rw [hs n hn, pay6_apply2]
    refine congrArg (Q n (ix2 0 j) + ·) (Finset.sum_congr rfl fun q _ => ?_)
    rw [blockEntry2 X Agg eps wa ba xb aggb hx hagg (n + 1) hn q j]
    rfl

end Cert.KernelIdeal.Hand

end
-- ==== Proof.StatsValueKI.lean ====
/- The statistics regions' two output rows after the run, at the exact values: each is written once, at the last
   grid point, with the accumulator's contents there, and the accumulator runs through the specification's running
   sums because every point's row-blocked inputs are the arrays' rows of that block and its other inputs the whole
   arrays. -/
import proofs.«143642_j88098369176165_1_alg».proof.Proof.StatsKI
import proofs.«143642_j88098369176165_1_alg».proof.Proof.StatsInductionKI
import proofs.«143642_j88098369176165_1_alg».proof.Proof.Spec
import proofs.«143642_j88098369176165_1_alg».proof.Proof.LaunchKI
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP Cert.Gin
open Idealize.ShloMosaic Idealize.ShloMosaic.TcCoe Idealize.ShloMosaic.ValueIdx
open Idealize.ShloMosaic.Pipeline (Dat Cfg Window)

section Array
-- the TensorCore's buffer contents when the region is entered, at the extended reals
variable (V : (c : Dev nD) → (b : Ref sig .tc) → Buf (Elt Ideal) ((c : Thread nD τ).loc b))

/-! # Region 0: from the running sums to the arrays -/

/-- The printed index maps, decided over the grid: the two row-blocked inputs are at block t on the rows and block 0
    on the columns; every other window has the one block. -/
theorem sv_idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- Row-blocked input 0: row p of point t's block is the array's row 4000 t + p. -/
theorem sv_iblk0_0_at (c : Dev nD) (t : Fin cfg0.N) (p : Fin 4000) (r : Fin 100000) (hr : r.val = t.val * 4000 + p.val) (k : Fin 128) :
    (iblk0 V c 0 t : S4000x128.Idx → EReal) (ix2 p k) = ((V c (Pipeline.arrRef spec0 0)) : S100000x128.Idx → EReal) (ix2 r k) := by
  obtain ⟨e0, e1, e2, e3, e4, e5, e6, e7, e8, e9, e10, e11, e12, e13⟩ := sv_idx_facts0 t
  show ((V c (Pipeline.arrRef spec0 0)) : S100000x128.Idx → EReal) (((cfg0.win 0).blk t).view.emb (ix2 p k)) = _
  congr 1
  funext a; apply Fin.ext
  match a with
  | ⟨0, _⟩ => show win0_0.index t (0 : Fin 2) * 4000 + 1 * p.val = r.val; omega
  | ⟨1, _⟩ => show win0_0.index t (1 : Fin 2) * 128 + 1 * k.val = k.val; omega

/-- Row-blocked input 1: row p of point t's block is the array's row 4000 t + p. -/
theorem sv_iblk0_1_at (c : Dev nD) (t : Fin cfg0.N) (p : Fin 4000) (r : Fin 100000) (hr : r.val = t.val * 4000 + p.val) (k : Fin 128) :
    (iblk0 V c 1 t : S4000x128.Idx → EReal) (ix2 p k) = ((V c (Pipeline.arrRef spec0 1)) : S100000x128.Idx → EReal) (ix2 r k) := by
  obtain ⟨e0, e1, e2, e3, e4, e5, e6, e7, e8, e9, e10, e11, e12, e13⟩ := sv_idx_facts0 t
  show ((V c (Pipeline.arrRef spec0 1)) : S100000x128.Idx → EReal) (((cfg0.win 1).blk t).view.emb (ix2 p k)) = _
  congr 1
  funext a; apply Fin.ext
  match a with
  | ⟨0, _⟩ => show win0_1.index t (0 : Fin 2) * 4000 + 1 * p.val = r.val; omega
  | ⟨1, _⟩ => show win0_1.index t (1 : Fin 2) * 128 + 1 * k.val = k.val; omega

/-- Unblocked input 2: its one block is the whole array, at every point. -/
theorem sv_iblk0_2_eq (c : Dev nD) (t : Fin cfg0.N) :
    (iblk0 V c 2 t : S1x1.Idx → EReal) = ((V c (Pipeline.arrRef spec0 2)) : S1x1.Idx → EReal) := by
  obtain ⟨e0, e1, e2, e3, e4, e5, e6, e7, e8, e9, e10, e11, e12, e13⟩ := sv_idx_facts0 t
  funext y
  show ((V c (Pipeline.arrRef spec0 2)) : S1x1.Idx → EReal) (((cfg0.win 2).blk t).view.emb y) = _
  congr 1
  funext a; apply Fin.ext
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- Unblocked input 3: its one block is the whole array, at every point. -/
theorem sv_iblk0_3_eq (c : Dev nD) (t : Fin cfg0.N) :
    (iblk0 V c 3 t : S128x128.Idx → EReal) = ((V c (Pipeline.arrRef spec0 3)) : S128x128.Idx → EReal) := by
  obtain ⟨e0, e1, e2, e3, e4, e5, e6, e7, e8, e9, e10, e11, e12, e13⟩ := sv_idx_facts0 t
  funext y
  show ((V c (Pipeline.arrRef spec0 3)) : S128x128.Idx → EReal) (((cfg0.win 3).blk t).view.emb y) = _
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Unblocked input 4: its one block is the whole array, at every point. -/
theorem sv_iblk0_4_eq (c : Dev nD) (t : Fin cfg0.N) :
    (iblk0 V c 4 t : S1x128.Idx → EReal) = ((V c (Pipeline.arrRef spec0 4)) : S1x128.Idx → EReal) := by
  obtain ⟨e0, e1, e2, e3, e4, e5, e6, e7, e8, e9, e10, e11, e12, e13⟩ := sv_idx_facts0 t
  funext y
  show ((V c (Pipeline.arrRef spec0 4)) : S1x128.Idx → EReal) (((cfg0.win 4).blk t).view.emb y) = _
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The running sums are the specification's, point by point. -/
theorem sv_runS0_spec (c : Dev nD) : ∀ n, n < 25 → ∀ j : Fin 128,
    (runS0 (F := Ideal) V c n : S1x128.Idx → EReal) (ix2 (0 : Fin 1) j) = Cert.Gin.runSum (Cert.Gin.lin (toWM (V c (Pipeline.arrRef spec0 3))) (toCVrow (V c (Pipeline.arrRef spec0 4))) (Cert.Gin.combine (toS11 (V c (Pipeline.arrRef spec0 2))) (toRM (V c (Pipeline.arrRef spec0 0))) (toRM (V c (Pipeline.arrRef spec0 1))))) n j := by
  have hN : cfg0.N = 25 := N_0
  refine runS_eq (V c (Pipeline.arrRef spec0 0)) (V c (Pipeline.arrRef spec0 1)) (V c (Pipeline.arrRef spec0 2)) (V c (Pipeline.arrRef spec0 3)) (V c (Pipeline.arrRef spec0 4))
    (fun t => if h : t < cfg0.N then (iblk0 V c 0 ⟨t, h⟩ : S4000x128.Idx → EReal) else fun _ => 0)
    (fun t => if h : t < cfg0.N then (iblk0 V c 1 ⟨t, h⟩ : S4000x128.Idx → EReal) else fun _ => 0)
    (fun t ht q k => ?_) (fun t ht q k => ?_) zeroS0 (fun j => pay2_apply j) (runS0 (F := Ideal) V c) ?_ (fun n hn => ?_)
  · have ht' : t < cfg0.N := by rw [hN]; exact ht
    rw [dif_pos ht']
    exact sv_iblk0_0_at V c ⟨t, ht'⟩ q _ (by show 4000 * t + q.val = t * 4000 + q.val; omega) k
  · have ht' : t < cfg0.N := by rw [hN]; exact ht
    rw [dif_pos ht']
    exact sv_iblk0_1_at V c ⟨t, ht'⟩ q _ (by show 4000 * t + q.val = t * 4000 + q.val; omega) k
  · have h0 : 0 < cfg0.N := by rw [hN]; omega
    rw [dif_pos h0, dif_pos h0]
    refine (runS0_first V c ⟨0, h0⟩ rfl).trans ?_
    unfold stepSAt0 stepS0
    rw [sv_iblk0_2_eq V c ⟨0, h0⟩, sv_iblk0_3_eq V c ⟨0, h0⟩, sv_iblk0_4_eq V c ⟨0, h0⟩]
  · have hn' : n + 1 < cfg0.N := by rw [hN]; exact hn
    rw [dif_pos hn', dif_pos hn']
    refine (runS0_pos V c ⟨n + 1, hn'⟩ (Nat.succ_ne_zero n)).trans ?_
    unfold stepSAt0 stepS0
    rw [sv_iblk0_2_eq V c ⟨n + 1, hn'⟩, sv_iblk0_3_eq V c ⟨n + 1, hn'⟩, sv_iblk0_4_eq V c ⟨n + 1, hn'⟩]
    rfl

/-- The running sums of squares are the specification's, point by point. -/
theorem sv_runQ0_spec (c : Dev nD) : ∀ n, n < 25 → ∀ j : Fin 128,
    (runQ0 (F := Ideal) V c n : S1x128.Idx → EReal) (ix2 (0 : Fin 1) j) = Cert.Gin.runSum (Cert.Gin.sq (Cert.Gin.lin (toWM (V c (Pipeline.arrRef spec0 3))) (toCVrow (V c (Pipeline.arrRef spec0 4))) (Cert.Gin.combine (toS11 (V c (Pipeline.arrRef spec0 2))) (toRM (V c (Pipeline.arrRef spec0 0))) (toRM (V c (Pipeline.arrRef spec0 1)))))) n j := by
  have hN : cfg0.N = 25 := N_0
  refine runQ_eq (V c (Pipeline.arrRef spec0 0)) (V c (Pipeline.arrRef spec0 1)) (V c (Pipeline.arrRef spec0 2)) (V c (Pipeline.arrRef spec0 3)) (V c (Pipeline.arrRef spec0 4))
    (fun t => if h : t < cfg0.N then (iblk0 V c 0 ⟨t, h⟩ : S4000x128.Idx → EReal) else fun _ => 0)
    (fun t => if h : t < cfg0.N then (iblk0 V c 1 ⟨t, h⟩ : S4000x128.Idx → EReal) else fun _ => 0)
    (fun t ht q k => ?_) (fun t ht q k => ?_) zeroQ0 (fun j => pay3_apply j) (runQ0 (F := Ideal) V c) ?_ (fun n hn => ?_)
  · have ht' : t < cfg0.N := by rw [hN]; exact ht
    rw [dif_pos ht']
    exact sv_iblk0_0_at V c ⟨t, ht'⟩ q _ (by show 4000 * t + q.val = t * 4000 + q.val; omega) k
  · have ht' : t < cfg0.N := by rw [hN]; exact ht
    rw [dif_pos ht']
    exact sv_iblk0_1_at V c ⟨t, ht'⟩ q _ (by show 4000 * t + q.val = t * 4000 + q.val; omega) k
  · have h0 : 0 < cfg0.N := by rw [hN]; omega
    rw [dif_pos h0, dif_pos h0]
    refine (runQ0_first V c ⟨0, h0⟩ rfl).trans ?_
    unfold stepQAt0 stepQ0
    rw [sv_iblk0_2_eq V c ⟨0, h0⟩, sv_iblk0_3_eq V c ⟨0, h0⟩, sv_iblk0_4_eq V c ⟨0, h0⟩]
  · have hn' : n + 1 < cfg0.N := by rw [hN]; exact hn
    rw [dif_pos hn', dif_pos hn']
    refine (runQ0_pos V c ⟨n + 1, hn'⟩ (Nat.succ_ne_zero n)).trans ?_
    unfold stepQAt0 stepQ0
    rw [sv_iblk0_2_eq V c ⟨n + 1, hn'⟩, sv_iblk0_3_eq V c ⟨n + 1, hn'⟩, sv_iblk0_4_eq V c ⟨n + 1, hn'⟩]
    rfl

/-- What the one write-back of window 5, at the last point, writes: the running sums after the last point, read
    through the window's one block, which is the whole row. -/
theorem sv_flushed0_5_eq (c : Dev nD) (t : Fin cfg0.N) (hf : (cfg0.win 5).flush t = true) :
    (dat0 (F := Ideal) V c).flushed 5 t = ((cfg0.win 5).blk t).view.read (Elt Ideal) (runS0 (F := Ideal) V c 24) := by
  have hN : cfg0.N = 25 := N_0
  have h24 : t.val = 24 := by have := (flush0_5 t).mp hf; have := t.isLt; omega
  show (cfg0.win 5).cut (grid0.coords t) ((dat0 V c).after 5 t) = _
  rw [after0_5, h24]
  obtain ⟨e0, e1, e2, e3, e4, e5, e6, e7, e8, e9, e10, e11, e12, e13⟩ := sv_idx_facts0 t
  funext y
  show runS0 V c 24 y = (runS0 V c 24 : S1x128.Idx → EReal) (((cfg0.win 5).blk t).view.emb y)
  congr 1
  funext a; apply Fin.ext
  match a with
  | ⟨0, _⟩ => show (y 0).val = win0_5.index t (0 : Fin 2) * 1 + 1 * (y 0).val; omega
  | ⟨1, _⟩ => show (y 1).val = win0_5.index t (1 : Fin 2) * 128 + 1 * (y 1).val; omega

/-- The last point's block of window 5 covers its array. -/
theorem sv_cover0_5 (i : S1x128.Idx) :
    ∃ t : Fin cfg0.N, (cfg0.win 5).flush t = true ∧ i ∈ ((cfg0.win 5).blk t).view.set := by
  have hN : cfg0.N = 25 := N_0
  have hlt : 24 < cfg0.N := by rw [hN]; omega
  have hi0 : (i 0).val < 1 := (i 0).isLt
  have hi1 : (i 1).val < 128 := (i 1).isLt
  refine ⟨⟨24, hlt⟩, (flush0_5 _).mpr (by show 24 % 25 = 24; omega), ?_⟩
  show i ∈ ((View.whole main_v17_0).slice (win0_5.rect ⟨24, hlt⟩)).set
  rw [View.set_slice_whole, Rect.mem_set_unit]
  obtain ⟨e0, e1, e2, e3, e4, e5, e6, e7, e8, e9, e10, e11, e12, e13⟩ := sv_idx_facts0 ⟨24, hlt⟩
  intro a
  match a with
  | ⟨0, _⟩ =>
    show win0_5.index ⟨24, hlt⟩ (0 : Fin 2) * 1 ≤ (i 0).val ∧ (i 0).val < win0_5.index ⟨24, hlt⟩ (0 : Fin 2) * 1 + 1
    omega
  | ⟨1, _⟩ =>
    show win0_5.index ⟨24, hlt⟩ (1 : Fin 2) * 128 ≤ (i 1).val ∧ (i 1).val < win0_5.index ⟨24, hlt⟩ (1 : Fin 2) * 128 + 128
    omega

/-- The sums' array after the region, read as a row, is the specification's running sums after the last point. -/
theorem arrAt0_5 (c : Dev nD) :
    toCVrow ((dat0 (F := Ideal) V c).arrAt 5 cfg0.N) = Cert.Gin.runSum (Cert.Gin.lin (toWM (V c (Pipeline.arrRef spec0 3))) (toCVrow (V c (Pipeline.arrRef spec0 4))) (Cert.Gin.combine (toS11 (V c (Pipeline.arrRef spec0 2))) (toRM (V c (Pipeline.arrRef spec0 0))) (toRM (V c (Pipeline.arrRef spec0 1))))) 24 := by
  rw [(dat0 (F := Ideal) V c).arrAt_eq_of_cover 5 (runS0 (F := Ideal) V c 24) (sv_flushed0_5_eq V c) (sv_cover0_5)]
  funext j
  exact sv_runS0_spec V c 24 (by omega) j

/-- What the one write-back of window 6, at the last point, writes: the running sums of squares after the last point, read
    through the window's one block, which is the whole row. -/
theorem sv_flushed0_6_eq (c : Dev nD) (t : Fin cfg0.N) (hf : (cfg0.win 6).flush t = true) :
    (dat0 (F := Ideal) V c).flushed 6 t = ((cfg0.win 6).blk t).view.read (Elt Ideal) (runQ0 (F := Ideal) V c 24) := by
  have hN : cfg0.N = 25 := N_0
  have h24 : t.val = 24 := by have := (flush0_6 t).mp hf; have := t.isLt; omega
  show (cfg0.win 6).cut (grid0.coords t) ((dat0 V c).after 6 t) = _
  rw [after0_6, h24]
  obtain ⟨e0, e1, e2, e3, e4, e5, e6, e7, e8, e9, e10, e11, e12, e13⟩ := sv_idx_facts0 t
  funext y
  show runQ0 V c 24 y = (runQ0 V c 24 : S1x128.Idx → EReal) (((cfg0.win 6).blk t).view.emb y)
  congr 1
  funext a; apply Fin.ext
  match a with
  | ⟨0, _⟩ => show (y 0).val = win0_6.index t (0 : Fin 2) * 1 + 1 * (y 0).val; omega
  | ⟨1, _⟩ => show (y 1).val = win0_6.index t (1 : Fin 2) * 128 + 1 * (y 1).val; omega

/-- The last point's block of window 6 covers its array. -/
theorem sv_cover0_6 (i : S1x128.Idx) :
    ∃ t : Fin cfg0.N, (cfg0.win 6).flush t = true ∧ i ∈ ((cfg0.win 6).blk t).view.set := by
  have hN : cfg0.N = 25 := N_0
  have hlt : 24 < cfg0.N := by rw [hN]; omega
  have hi0 : (i 0).val < 1 := (i 0).isLt
  have hi1 : (i 1).val < 128 := (i 1).isLt
  refine ⟨⟨24, hlt⟩, (flush0_6 _).mpr (by show 24 % 25 = 24; omega), ?_⟩
  show i ∈ ((View.whole main_v17_1).slice (win0_6.rect ⟨24, hlt⟩)).set
  rw [View.set_slice_whole, Rect.mem_set_unit]
  obtain ⟨e0, e1, e2, e3, e4, e5, e6, e7, e8, e9, e10, e11, e12, e13⟩ := sv_idx_facts0 ⟨24, hlt⟩
  intro a
  match a with
  | ⟨0, _⟩ =>
    show win0_6.index ⟨24, hlt⟩ (0 : Fin 2) * 1 ≤ (i 0).val ∧ (i 0).val < win0_6.index ⟨24, hlt⟩ (0 : Fin 2) * 1 + 1
    omega
  | ⟨1, _⟩ =>
    show win0_6.index ⟨24, hlt⟩ (1 : Fin 2) * 128 ≤ (i 1).val ∧ (i 1).val < win0_6.index ⟨24, hlt⟩ (1 : Fin 2) * 128 + 128
    omega

/-- The sums of squares' array after the region, read as a row, is the specification's running sums of squares after the last point. -/
theorem arrAt0_6 (c : Dev nD) :
    toCVrow ((dat0 (F := Ideal) V c).arrAt 6 cfg0.N) = Cert.Gin.runSum (Cert.Gin.sq (Cert.Gin.lin (toWM (V c (Pipeline.arrRef spec0 3))) (toCVrow (V c (Pipeline.arrRef spec0 4))) (Cert.Gin.combine (toS11 (V c (Pipeline.arrRef spec0 2))) (toRM (V c (Pipeline.arrRef spec0 0))) (toRM (V c (Pipeline.arrRef spec0 1)))))) 24 := by
  rw [(dat0 (F := Ideal) V c).arrAt_eq_of_cover 6 (runQ0 (F := Ideal) V c 24) (sv_flushed0_6_eq V c) (sv_cover0_6)]
  funext j
  exact sv_runQ0_spec V c 24 (by omega) j

/-! # Region 2: from the running sums to the arrays -/

/-- The printed index maps, decided over the grid: the two row-blocked inputs are at block t on the rows and block 0
    on the columns; every other window has the one block. -/
theorem sv_idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0 :=
  (by decide +kernel : ∀ t : Fin grid2.N, _)

/-- Row-blocked input 0: row p of point t's block is the array's row 4000 t + p. -/
theorem sv_iblk2_0_at (c : Dev nD) (t : Fin cfg2.N) (p : Fin 4000) (r : Fin 100000) (hr : r.val = t.val * 4000 + p.val) (k : Fin 128) :
    (iblk2 V c 0 t : S4000x128.Idx → EReal) (ix2 p k) = ((V c (Pipeline.arrRef spec2 0)) : S100000x128.Idx → EReal) (ix2 r k) := by
  obtain ⟨e0, e1, e2, e3, e4, e5, e6, e7, e8, e9, e10, e11, e12, e13⟩ := sv_idx_facts2 t
  show ((V c (Pipeline.arrRef spec2 0)) : S100000x128.Idx → EReal) (((cfg2.win 0).blk t).view.emb (ix2 p k)) = _
  congr 1
  funext a; apply Fin.ext
  match a with
  | ⟨0, _⟩ => show win2_0.index t (0 : Fin 2) * 4000 + 1 * p.val = r.val; omega
  | ⟨1, _⟩ => show win2_0.index t (1 : Fin 2) * 128 + 1 * k.val = k.val; omega

/-- Row-blocked input 1: row p of point t's block is the array's row 4000 t + p. -/
theorem sv_iblk2_1_at (c : Dev nD) (t : Fin cfg2.N) (p : Fin 4000) (r : Fin 100000) (hr : r.val = t.val * 4000 + p.val) (k : Fin 128) :
    (iblk2 V c 1 t : S4000x128.Idx → EReal) (ix2 p k) = ((V c (Pipeline.arrRef spec2 1)) : S100000x128.Idx → EReal) (ix2 r k) := by
  obtain ⟨e0, e1, e2, e3, e4, e5, e6, e7, e8, e9, e10, e11, e12, e13⟩ := sv_idx_facts2 t
  show ((V c (Pipeline.arrRef spec2 1)) : S100000x128.Idx → EReal) (((cfg2.win 1).blk t).view.emb (ix2 p k)) = _
  congr 1
  funext a; apply Fin.ext
  match a with
  | ⟨0, _⟩ => show win2_1.index t (0 : Fin 2) * 4000 + 1 * p.val = r.val; omega
  | ⟨1, _⟩ => show win2_1.index t (1 : Fin 2) * 128 + 1 * k.val = k.val; omega

/-- Unblocked input 2: its one block is the whole array, at every point. -/
theorem sv_iblk2_2_eq (c : Dev nD) (t : Fin cfg2.N) :
    (iblk2 V c 2 t : S1x1.Idx → EReal) = ((V c (Pipeline.arrRef spec2 2)) : S1x1.Idx → EReal) := by
  obtain ⟨e0, e1, e2, e3, e4, e5, e6, e7, e8, e9, e10, e11, e12, e13⟩ := sv_idx_facts2 t
  funext y
  show ((V c (Pipeline.arrRef spec2 2)) : S1x1.Idx → EReal) (((cfg2.win 2).blk t).view.emb y) = _
  congr 1
  funext a; apply Fin.ext
  match a with
  | ⟨0, _⟩ => show win2_2.index t (0 : Fin 2) * 1 + 1 * (y 0).val = (y 0).val; omega
  | ⟨1, _⟩ => show win2_2.index t (1 : Fin 2) * 1 + 1 * (y 1).val = (y 1).val; omega

/-- Unblocked input 3: its one block is the whole array, at every point. -/
theorem sv_iblk2_3_eq (c : Dev nD) (t : Fin cfg2.N) :
    (iblk2 V c 3 t : S128x128.Idx → EReal) = ((V c (Pipeline.arrRef spec2 3)) : S128x128.Idx → EReal) := by
  obtain ⟨e0, e1, e2, e3, e4, e5, e6, e7, e8, e9, e10, e11, e12, e13⟩ := sv_idx_facts2 t
  funext y
  show ((V c (Pipeline.arrRef spec2 3)) : S128x128.Idx → EReal) (((cfg2.win 3).blk t).view.emb y) = _
  congr 1
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Unblocked input 4: its one block is the whole array, at every point. -/
theorem sv_iblk2_4_eq (c : Dev nD) (t : Fin cfg2.N) :
    (iblk2 V c 4 t : S1x128.Idx → EReal) = ((V c (Pipeline.arrRef spec2 4)) : S1x128.Idx → EReal) := by
  obtain ⟨e0, e1, e2, e3, e4, e5, e6, e7, e8, e9, e10, e11, e12, e13⟩ := sv_idx_facts2 t
  funext y
  show ((V c (Pipeline.arrRef spec2 4)) : S1x128.Idx → EReal) (((cfg2.win 4).blk t).view.emb y) = _
  congr 1
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The running sums are the specification's, point by point. -/
theorem sv_runS2_spec (c : Dev nD) : ∀ n, n < 25 → ∀ j : Fin 128,
    (runS2 (F := Ideal) V c n : S1x128.Idx → EReal) (ix2 (0 : Fin 1) j) = Cert.Gin.runSum (Cert.Gin.lin (toWM (V c (Pipeline.arrRef spec2 3))) (toCVrow (V c (Pipeline.arrRef spec2 4))) (Cert.Gin.combine (toS11 (V c (Pipeline.arrRef spec2 2))) (toRM (V c (Pipeline.arrRef spec2 0))) (toRM (V c (Pipeline.arrRef spec2 1))))) n j := by
  have hN : cfg2.N = 25 := N_2
  refine runS_eq2 (V c (Pipeline.arrRef spec2 0)) (V c (Pipeline.arrRef spec2 1)) (V c (Pipeline.arrRef spec2 2)) (V c (Pipeline.arrRef spec2 3)) (V c (Pipeline.arrRef spec2 4))
    (fun t => if h : t < cfg2.N then (iblk2 V c 0 ⟨t, h⟩ : S4000x128.Idx → EReal) else fun _ => 0)
    (fun t => if h : t < cfg2.N then (iblk2 V c 1 ⟨t, h⟩ : S4000x128.Idx → EReal) else fun _ => 0)
    (fun t ht q k => ?_) (fun t ht q k => ?_) zeroS2 (fun j => pay2_apply2 j) (runS2 (F := Ideal) V c) ?_ (fun n hn => ?_)
  · have ht' : t < cfg2.N := by rw [hN]; exact ht
    rw [dif_pos ht']
    exact sv_iblk2_0_at V c ⟨t, ht'⟩ q _ (by show 4000 * t + q.val = t * 4000 + q.val; omega) k
  · have ht' : t < cfg2.N := by rw [hN]; exact ht
    rw [dif_pos ht']
    exact sv_iblk2_1_at V c ⟨t, ht'⟩ q _ (by show 4000 * t + q.val = t * 4000 + q.val; omega) k
  · have h0 : 0 < cfg2.N := by rw [hN]; omega
    rw [dif_pos h0, dif_pos h0]
    refine (runS2_first V c ⟨0, h0⟩ rfl).trans ?_
    unfold stepSAt2 stepS2
    rw [sv_iblk2_2_eq V c ⟨0, h0⟩, sv_iblk2_3_eq V c ⟨0, h0⟩, sv_iblk2_4_eq V c ⟨0, h0⟩]
  · have hn' : n + 1 < cfg2.N := by rw [hN]; exact hn
    rw [dif_pos hn', dif_pos hn']
    refine (runS2_pos V c ⟨n + 1, hn'⟩ (Nat.succ_ne_zero n)).trans ?_
    unfold stepSAt2 stepS2
    rw [sv_iblk2_2_eq V c ⟨n + 1, hn'⟩, sv_iblk2_3_eq V c ⟨n + 1, hn'⟩, sv_iblk2_4_eq V c ⟨n + 1, hn'⟩]
    rfl

/-- The running sums of squares are the specification's, point by point. -/
theorem sv_runQ2_spec (c : Dev nD) : ∀ n, n < 25 → ∀ j : Fin 128,
    (runQ2 (F := Ideal) V c n : S1x128.Idx → EReal) (ix2 (0 : Fin 1) j) = Cert.Gin.runSum (Cert.Gin.sq (Cert.Gin.lin (toWM (V c (Pipeline.arrRef spec2 3))) (toCVrow (V c (Pipeline.arrRef spec2 4))) (Cert.Gin.combine (toS11 (V c (Pipeline.arrRef spec2 2))) (toRM (V c (Pipeline.arrRef spec2 0))) (toRM (V c (Pipeline.arrRef spec2 1)))))) n j := by
  have hN : cfg2.N = 25 := N_2
  refine runQ_eq2 (V c (Pipeline.arrRef spec2 0)) (V c (Pipeline.arrRef spec2 1)) (V c (Pipeline.arrRef spec2 2)) (V c (Pipeline.arrRef spec2 3)) (V c (Pipeline.arrRef spec2 4))
    (fun t => if h : t < cfg2.N then (iblk2 V c 0 ⟨t, h⟩ : S4000x128.Idx → EReal) else fun _ => 0)
    (fun t => if h : t < cfg2.N then (iblk2 V c 1 ⟨t, h⟩ : S4000x128.Idx → EReal) else fun _ => 0)
    (fun t ht q k => ?_) (fun t ht q k => ?_) zeroQ2 (fun j => pay3_apply2 j) (runQ2 (F := Ideal) V c) ?_ (fun n hn => ?_)
  · have ht' : t < cfg2.N := by rw [hN]; exact ht
    rw [dif_pos ht']
    exact sv_iblk2_0_at V c ⟨t, ht'⟩ q _ (by show 4000 * t + q.val = t * 4000 + q.val; omega) k
  · have ht' : t < cfg2.N := by rw [hN]; exact ht
    rw [dif_pos ht']
    exact sv_iblk2_1_at V c ⟨t, ht'⟩ q _ (by show 4000 * t + q.val = t * 4000 + q.val; omega) k
  · have h0 : 0 < cfg2.N := by rw [hN]; omega
    rw [dif_pos h0, dif_pos h0]
    refine (runQ2_first V c ⟨0, h0⟩ rfl).trans ?_
    unfold stepQAt2 stepQ2
    rw [sv_iblk2_2_eq V c ⟨0, h0⟩, sv_iblk2_3_eq V c ⟨0, h0⟩, sv_iblk2_4_eq V c ⟨0, h0⟩]
  · have hn' : n + 1 < cfg2.N := by rw [hN]; exact hn
    rw [dif_pos hn', dif_pos hn']
    refine (runQ2_pos V c ⟨n + 1, hn'⟩ (Nat.succ_ne_zero n)).trans ?_
    unfold stepQAt2 stepQ2
    rw [sv_iblk2_2_eq V c ⟨n + 1, hn'⟩, sv_iblk2_3_eq V c ⟨n + 1, hn'⟩, sv_iblk2_4_eq V c ⟨n + 1, hn'⟩]
    rfl

/-- What the one write-back of window 5, at the last point, writes: the running sums after the last point, read
    through the window's one block, which is the whole row. -/
theorem sv_flushed2_5_eq (c : Dev nD) (t : Fin cfg2.N) (hf : (cfg2.win 5).flush t = true) :
    (dat2 (F := Ideal) V c).flushed 5 t = ((cfg2.win 5).blk t).view.read (Elt Ideal) (runS2 (F := Ideal) V c 24) := by
  have hN : cfg2.N = 25 := N_2
  have h24 : t.val = 24 := by have := (flush2_5 t).mp hf; have := t.isLt; omega
  show (cfg2.win 5).cut (grid2.coords t) ((dat2 V c).after 5 t) = _
  rw [after2_5, h24]
  obtain ⟨e0, e1, e2, e3, e4, e5, e6, e7, e8, e9, e10, e11, e12, e13⟩ := sv_idx_facts2 t
  funext y
  show runS2 V c 24 y = (runS2 V c 24 : S1x128.Idx → EReal) (((cfg2.win 5).blk t).view.emb y)
  congr 1
  funext a; apply Fin.ext
  match a with
  | ⟨0, _⟩ => show (y 0).val = win2_5.index t (0 : Fin 2) * 1 + 1 * (y 0).val; omega
  | ⟨1, _⟩ => show (y 1).val = win2_5.index t (1 : Fin 2) * 128 + 1 * (y 1).val; omega

/-- The last point's block of window 5 covers its array. -/
theorem sv_cover2_5 (i : S1x128.Idx) :
    ∃ t : Fin cfg2.N, (cfg2.win 5).flush t = true ∧ i ∈ ((cfg2.win 5).blk t).view.set := by
  have hN : cfg2.N = 25 := N_2
  have hlt : 24 < cfg2.N := by rw [hN]; omega
  have hi0 : (i 0).val < 1 := (i 0).isLt
  have hi1 : (i 1).val < 128 := (i 1).isLt
  refine ⟨⟨24, hlt⟩, (flush2_5 _).mpr (by show 24 % 25 = 24; omega), ?_⟩
  show i ∈ ((View.whole main_v42_0).slice (win2_5.rect ⟨24, hlt⟩)).set
  rw [View.set_slice_whole, Rect.mem_set_unit]
  obtain ⟨e0, e1, e2, e3, e4, e5, e6, e7, e8, e9, e10, e11, e12, e13⟩ := sv_idx_facts2 ⟨24, hlt⟩
  intro a
  match a with
  | ⟨0, _⟩ =>
    show win2_5.index ⟨24, hlt⟩ (0 : Fin 2) * 1 ≤ (i 0).val ∧ (i 0).val < win2_5.index ⟨24, hlt⟩ (0 : Fin 2) * 1 + 1
    omega
  | ⟨1, _⟩ =>
    show win2_5.index ⟨24, hlt⟩ (1 : Fin 2) * 128 ≤ (i 1).val ∧ (i 1).val < win2_5.index ⟨24, hlt⟩ (1 : Fin 2) * 128 + 128
    omega

/-- The sums' array after the region, read as a row, is the specification's running sums after the last point. -/
theorem arrAt2_5 (c : Dev nD) :
    toCVrow ((dat2 (F := Ideal) V c).arrAt 5 cfg2.N) = Cert.Gin.runSum (Cert.Gin.lin (toWM (V c (Pipeline.arrRef spec2 3))) (toCVrow (V c (Pipeline.arrRef spec2 4))) (Cert.Gin.combine (toS11 (V c (Pipeline.arrRef spec2 2))) (toRM (V c (Pipeline.arrRef spec2 0))) (toRM (V c (Pipeline.arrRef spec2 1))))) 24 := by
  rw [(dat2 (F := Ideal) V c).arrAt_eq_of_cover 5 (runS2 (F := Ideal) V c 24) (sv_flushed2_5_eq V c) (sv_cover2_5)]
  funext j
  exact sv_runS2_spec V c 24 (by omega) j

/-- What the one write-back of window 6, at the last point, writes: the running sums of squares after the last point, read
    through the window's one block, which is the whole row. -/
theorem sv_flushed2_6_eq (c : Dev nD) (t : Fin cfg2.N) (hf : (cfg2.win 6).flush t = true) :
    (dat2 (F := Ideal) V c).flushed 6 t = ((cfg2.win 6).blk t).view.read (Elt Ideal) (runQ2 (F := Ideal) V c 24) := by
  have hN : cfg2.N = 25 := N_2
  have h24 : t.val = 24 := by have := (flush2_6 t).mp hf; have := t.isLt; omega
  show (cfg2.win 6).cut (grid2.coords t) ((dat2 V c).after 6 t) = _
  rw [after2_6, h24]
  obtain ⟨e0, e1, e2, e3, e4, e5, e6, e7, e8, e9, e10, e11, e12, e13⟩ := sv_idx_facts2 t
  funext y
  show runQ2 V c 24 y = (runQ2 V c 24 : S1x128.Idx → EReal) (((cfg2.win 6).blk t).view.emb y)
  congr 1
  funext a; apply Fin.ext
  match a with
  | ⟨0, _⟩ => show (y 0).val = win2_6.index t (0 : Fin 2) * 1 + 1 * (y 0).val; omega
  | ⟨1, _⟩ => show (y 1).val = win2_6.index t (1 : Fin 2) * 128 + 1 * (y 1).val; omega

/-- The last point's block of window 6 covers its array. -/
theorem sv_cover2_6 (i : S1x128.Idx) :
    ∃ t : Fin cfg2.N, (cfg2.win 6).flush t = true ∧ i ∈ ((cfg2.win 6).blk t).view.set := by
  have hN : cfg2.N = 25 := N_2
  have hlt : 24 < cfg2.N := by rw [hN]; omega
  have hi0 : (i 0).val < 1 := (i 0).isLt
  have hi1 : (i 1).val < 128 := (i 1).isLt
  refine ⟨⟨24, hlt⟩, (flush2_6 _).mpr (by show 24 % 25 = 24; omega), ?_⟩
  show i ∈ ((View.whole main_v42_1).slice (win2_6.rect ⟨24, hlt⟩)).set
  rw [View.set_slice_whole, Rect.mem_set_unit]
  obtain ⟨e0, e1, e2, e3, e4, e5, e6, e7, e8, e9, e10, e11, e12, e13⟩ := sv_idx_facts2 ⟨24, hlt⟩
  intro a
  match a with
  | ⟨0, _⟩ =>
    show win2_6.index ⟨24, hlt⟩ (0 : Fin 2) * 1 ≤ (i 0).val ∧ (i 0).val < win2_6.index ⟨24, hlt⟩ (0 : Fin 2) * 1 + 1
    omega
  | ⟨1, _⟩ =>
    show win2_6.index ⟨24, hlt⟩ (1 : Fin 2) * 128 ≤ (i 1).val ∧ (i 1).val < win2_6.index ⟨24, hlt⟩ (1 : Fin 2) * 128 + 128
    omega

/-- The sums of squares' array after the region, read as a row, is the specification's running sums of squares after the last point. -/
theorem arrAt2_6 (c : Dev nD) :
    toCVrow ((dat2 (F := Ideal) V c).arrAt 6 cfg2.N) = Cert.Gin.runSum (Cert.Gin.sq (Cert.Gin.lin (toWM (V c (Pipeline.arrRef spec2 3))) (toCVrow (V c (Pipeline.arrRef spec2 4))) (Cert.Gin.combine (toS11 (V c (Pipeline.arrRef spec2 2))) (toRM (V c (Pipeline.arrRef spec2 0))) (toRM (V c (Pipeline.arrRef spec2 1)))))) 24 := by
  rw [(dat2 (F := Ideal) V c).arrAt_eq_of_cover 6 (runQ2 (F := Ideal) V c 24) (sv_flushed2_6_eq V c) (sv_cover2_6)]
  funext j
  exact sv_runQ2_spec V c 24 (by omega) j

end Array

end Cert.KernelIdeal.Hand

end
-- ==== Proof.KernelValue.lean ====
/-
  The kernel program's value chain at the regions' proof data of this certificate: the running sums the two statistics
  regions leave and the arrays the two apply regions leave are what the regions' value lemmas say, so the whole result
  is the network of the mathematics with the kernel's statistics.
-/
import proofs.«143642_j88098369176165_1_alg».proof.Proof.DataKI
import proofs.«143642_j88098369176165_1_alg».proof.Proof.KernelChain
import proofs.«143642_j88098369176165_1_alg».proof.Proof.ApplyValueKI
import proofs.«143642_j88098369176165_1_alg».proof.Proof.StatsValueKI

noncomputable section

namespace Cert.KernelIdeal.Hand

open Cert.KernelIdeal Cert.KernelIdeal.Gen Cert.KernelIdeal.GenP Cert.Gin
open Idealize.ShloMosaic Idealize.ShloMosaic.ValueIdx

/-! ## The six region value facts, at this certificate's proof data -/

theorem sumsSpec0 : Chain.SumsSpec0 (D0 (F := Ideal)) := fun V c => arrAt0_5 V c
theorem sqSpec0 : Chain.SqSpec0 (D0 (F := Ideal)) := fun V c => arrAt0_6 V c
theorem applySpec1 : Chain.ApplySpec1 (D1 (F := Ideal)) := fun V c => arrAt1_11 V c
theorem sumsSpec2 : Chain.SumsSpec2 (D2 (F := Ideal)) := fun V c => arrAt2_5 V c
theorem sqSpec2 : Chain.SqSpec2 (D2 (F := Ideal)) := fun V c => arrAt2_6 V c
theorem applySpec3 : Chain.ApplySpec3 (D3 (F := Ideal)) := fun V c => arrAt3_11 V c

variable (m : (ℓ : Loc nD τ sig) → Buf (Elt Ideal) ℓ) (ρ : Dev nD → PrngReg) (c : Dev nD)

/-- After region 0: the running sums of the first layer's linear map and of its square. -/
theorem stats1 :
    toCVrow (W2 m ρ D0 c (Proc.devRef .tc main_v17_0)) = runSum (lin (toWM (W0 m ρ c (Proc.devRef .tc main_arg4))) (toCV (W0 m ρ c (Proc.devRef .tc main_arg5))) (combine (toS0 (W0 m ρ c (Proc.devRef .tc main_arg3))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) 24
    ∧ toCVrow (W2 m ρ D0 c (Proc.devRef .tc main_v17_1)) = runSum (sq (lin (toWM (W0 m ρ c (Proc.devRef .tc main_arg4))) (toCV (W0 m ρ c (Proc.devRef .tc main_arg5))) (combine (toS0 (W0 m ρ c (Proc.devRef .tc main_arg3))) (toRM (W0 m ρ c (Proc.devRef .tc main_arg0))) ((aggMK (W0 m ρ c (Proc.devRef .tc main_arg1)) (W0 m ρ c (Proc.devRef .tc main_arg2))) (toRM (W0 m ρ c (Proc.devRef .tc main_arg0))))))) 24 :=
  ⟨Chain.stats1_sum m ρ D0 c sumsSpec0, Chain.stats1_sq m ρ D0 c sqSpec0⟩

/-- After region 1: the rectified first layer with the kernel's statistics. -/
theorem out1 : toRM (W4 m ρ D0 D1 c (Proc.devRef .tc main_v24)) = relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0))))) :=
  Chain.out1 m ρ D0 D1 c sumsSpec0 sqSpec0 applySpec1

/-- After region 2: the running sums of the second layer's linear map and of its square. -/
theorem stats2 :
    toCVrow (W6 m ρ D0 D1 D2 c (Proc.devRef .tc main_v42_0)) = runSum (lin (toWM (W0 m ρ c (Proc.devRef .tc main_arg11))) (toCV (W0 m ρ c (Proc.devRef .tc main_arg12))) (combine (toS0 (W0 m ρ c (Proc.devRef .tc main_arg10))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) ((aggMK (W0 m ρ c (Proc.devRef .tc main_arg1)) (W0 m ρ c (Proc.devRef .tc main_arg2))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0))))))))) 24
    ∧ toCVrow (W6 m ρ D0 D1 D2 c (Proc.devRef .tc main_v42_1)) = runSum (sq (lin (toWM (W0 m ρ c (Proc.devRef .tc main_arg11))) (toCV (W0 m ρ c (Proc.devRef .tc main_arg12))) (combine (toS0 (W0 m ρ c (Proc.devRef .tc main_arg10))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) ((aggMK (W0 m ρ c (Proc.devRef .tc main_arg1)) (W0 m ρ c (Proc.devRef .tc main_arg2))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))))))) 24 :=
  ⟨Chain.stats2_sum m ρ D0 D1 D2 c sumsSpec0 sqSpec0 applySpec1 sumsSpec2,
   Chain.stats2_sq m ρ D0 D1 D2 c sumsSpec0 sqSpec0 applySpec1 sqSpec2⟩

/-- After region 3: the second layer, with the kernel's statistics, of the rectified first layer. -/
theorem out2 : toRM (W8 m ρ D0 D1 D2 D3 c (Proc.devRef .tc main_v49)) = kLayer (toS0 (W0 m ρ c (Proc.devRef .tc main_arg10))) (toWM (W0 m ρ c (Proc.devRef .tc main_arg11))) (toCV (W0 m ρ c (Proc.devRef .tc main_arg12))) (toCV (W0 m ρ c (Proc.devRef .tc main_arg13))) (toCV (W0 m ρ c (Proc.devRef .tc main_arg14))) (toWM (W0 m ρ c (Proc.devRef .tc main_arg15))) (toCV (W0 m ρ c (Proc.devRef .tc main_arg16))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0)))))) ((aggMK (W0 m ρ c (Proc.devRef .tc main_arg1)) (W0 m ρ c (Proc.devRef .tc main_arg2))) (relu (kLayer (toS0 (W0 m ρ c (Proc.devRef .tc main_arg3))) (toWM (W0 m ρ c (Proc.devRef .tc main_arg4))) (toCV (W0 m ρ c (Proc.devRef .tc main_arg5))) (toCV (W0 m ρ c (Proc.devRef .tc main_arg6))) (toCV (W0 m ρ c (Proc.devRef .tc main_arg7))) (toWM (W0 m ρ c (Proc.devRef .tc main_arg8))) (toCV (W0 m ρ c (Proc.devRef .tc main_arg9))) (toRM (W0 m ρ c (Proc.devRef .tc main_arg0))) ((aggMK (W0 m ρ c (Proc.devRef .tc main_arg1)) (W0 m ρ c (Proc.devRef .tc main_arg2))) (toRM (W0 m ρ c (Proc.devRef .tc main_arg0))))))) :=
  Chain.out2 m ρ D0 D1 D2 D3 c sumsSpec0 sqSpec0 applySpec1 sumsSpec2 sqSpec2 applySpec3

/-- The kernel program's result is the network of the mathematics with the kernel's statistics, of the launch contents
    of its seventeen arguments. -/
theorem out_eq : toRM (W8 m ρ D0 D1 D2 D3 c (Proc.devRef .tc main_v49))
    = netWith kLayer (aggMK (m ((c.tc : Thread nD τ).loc main_arg1)) (m ((c.tc : Thread nD τ).loc main_arg2))) (toRM (m ((c.tc : Thread nD τ).loc main_arg0)))
      (toS0 (m ((c.tc : Thread nD τ).loc main_arg3))) (toWM (m ((c.tc : Thread nD τ).loc main_arg4))) (toCV (m ((c.tc : Thread nD τ).loc main_arg5))) (toCV (m ((c.tc : Thread nD τ).loc main_arg6))) (toCV (m ((c.tc : Thread nD τ).loc main_arg7))) (toWM (m ((c.tc : Thread nD τ).loc main_arg8))) (toCV (m ((c.tc : Thread nD τ).loc main_arg9)))
      (toS0 (m ((c.tc : Thread nD τ).loc main_arg10))) (toWM (m ((c.tc : Thread nD τ).loc main_arg11))) (toCV (m ((c.tc : Thread nD τ).loc main_arg12))) (toCV (m ((c.tc : Thread nD τ).loc main_arg13))) (toCV (m ((c.tc : Thread nD τ).loc main_arg14))) (toWM (m ((c.tc : Thread nD τ).loc main_arg15))) (toCV (m ((c.tc : Thread nD τ).loc main_arg16))) :=
  Chain.out_eq m ρ D0 D1 D2 D3 c sumsSpec0 sqSpec0 applySpec1 sumsSpec2 sqSpec2 applySpec3

end Cert.KernelIdeal.Hand

end
-- ==== Proof.RefRunOps.lean ====
/- The reference program's host operations as lists, one list per stage of a layer (gather, scatter, combine and
   first linear map, column means, column variances, normalisation and rectifier, second linear map), the operations
   of the called functions standing at their calls over the calls' own buffers; and that the program is the sequence
   of these lists. -/
import proofs.«143642_j88098369176165_1_alg».proof.Proof.RefRunDefs
import Idealize.ShloMosaic.Lib.StableHlo.Run
import Idealize.ShloMosaic.Lib.Pipeline.Frame

set_option Elab.async false

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

def Wg1 : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

theorem Wg1_sub : (Wg1 : List (HloOp τ sig (Elt F))).Forall fun op => op.bufs ⊆ tcRefs τ sig := by
  unfold Wg1
  exact ⟨nullary_bufs_sub .., unary_bufs_sub .., binary_bufs_sub .., nullary_bufs_sub .., unary_bufs_sub .., binary_bufs_sub .., ternary_bufs_sub .., unary_bufs_sub .., binary_bufs_sub ..⟩

theorem Wg1_fresh : ∀ op ∈ (Wg1 : List (HloOp τ sig (Elt F))), op.fresh = ∅ := by
  unfold Wg1
  intro _ h; (repeat (cases h with | head => rfl | tail _ h => ?_)); exact nomatch h

def Ws1 : List (HloOp τ sig (Elt F)) :=
  [ nullary main_cst (constant S_ .f32 0x00000000#32),
    unary main_cst main_v7 (broadcastInDim S100000x128 ![] bcast_S_S100000x128 : (⟨S_, .f32⟩ : BufTy).Contents (Elt F) → (⟨S100000x128, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem Ws1_sub : (Ws1 : List (HloOp τ sig (Elt F))).Forall fun op => op.bufs ⊆ tcRefs τ sig := by
  unfold Ws1
  exact ⟨nullary_bufs_sub .., unary_bufs_sub .., unary_bufs_sub .., ternary_bufs_sub ..⟩

theorem Ws1_fresh : ∀ op ∈ (Ws1 : List (HloOp τ sig (Elt F))), op.fresh = ∅ := by
  unfold Ws1
  intro _ h; (repeat (cases h with | head => rfl | tail _ h => ?_)); exact nomatch h

def Wl1 : List (HloOp τ sig (Elt F)) :=
  [ nullary main_cst_1 (constant S_ .f32 0x3F800000#32),
    binary main_cst_1 main_arg3 main_v10 (addf : (⟨S_, .f32⟩ : BufTy).Contents (Elt F) → (⟨S_, .f32⟩ : BufTy).Contents (Elt F) → (⟨S_, .f32⟩ : BufTy).Contents (Elt F)),
    unary main_v10 main_v11 (broadcastInDim S100000x128 ![] bcast_S_S100000x128 : (⟨S_, .f32⟩ : BufTy).Contents (Elt F) → (⟨S100000x128, .f32⟩ : BufTy).Contents (Elt F)),
    binary main_v11 main_arg0 main_v12 (mulf : (⟨S100000x128, .f32⟩ : BufTy).Contents (Elt F) → (⟨S100000x128, .f32⟩ : BufTy).Contents (Elt F) → (⟨S100000x128, .f32⟩ : BufTy).Contents (Elt F)),
    binary main_v12 main_v9 main_v13 (addf : (⟨S100000x128, .f32⟩ : BufTy).Contents (Elt F) → (⟨S100000x128, .f32⟩ : BufTy).Contents (Elt F) → (⟨S100000x128, .f32⟩ : BufTy).Contents (Elt F)),
    binary main_v13 main_arg4 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)) ]

theorem Wl1_sub : (Wl1 : List (HloOp τ sig (Elt F))).Forall fun op => op.bufs ⊆ tcRefs τ sig := by
  unfold Wl1
  exact ⟨nullary_bufs_sub .., binary_bufs_sub .., unary_bufs_sub .., binary_bufs_sub .., binary_bufs_sub .., binary_bufs_sub .., unary_bufs_sub .., unary_bufs_sub .., binary_bufs_sub ..⟩

theorem Wl1_fresh : ∀ op ∈ (Wl1 : List (HloOp τ sig (Elt F))), op.fresh = ∅ := by
  unfold Wl1
  intro _ h; (repeat (cases h with | head => rfl | tail _ h => ?_)); exact nomatch h

def Wm1 : List (HloOp τ sig (Elt F)) :=
  [ nullary main_cst_2 (constant S_ .f32 0x00000000#32),
    binary main_v17 main_cst_2 main_v18 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v19 (broadcastInDim S128 ![] bcast_S_S128 : (⟨S_, .f32⟩ : BufTy).Contents (Elt F) → (⟨S128, .f32⟩ : BufTy).Contents (Elt F)),
    binary main_v18 main_v19 main_v20 (Host.divf : (⟨S128, .f32⟩ : BufTy).Contents (Elt F) → (⟨S128, .f32⟩ : BufTy).Contents (Elt F) → (⟨S128, .f32⟩ : BufTy).Contents (Elt F)) ]

theorem Wm1_sub : (Wm1 : List (HloOp τ sig (Elt F))).Forall fun op => op.bufs ⊆ tcRefs τ sig := by
  unfold Wm1
  exact ⟨nullary_bufs_sub .., binary_bufs_sub .., nullary_bufs_sub .., unary_bufs_sub .., binary_bufs_sub ..⟩

theorem Wm1_fresh : ∀ op ∈ (Wm1 : List (HloOp τ sig (Elt F))), op.fresh = ∅ := by
  unfold Wm1
  intro _ h; (repeat (cases h with | head => rfl | tail _ h => ?_)); exact nomatch h

def Wv1 : List (HloOp τ sig (Elt F)) :=
  [ nullary main_c_4 (constantI S_ 32 0#32),
    nullary main_call0_cst (constant S_ .f32 0x00000000#32),
    binary main_v17 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v0 main_call0_v1 (broadcastInDim S1x128 ![1] bcast_S128_S1x128_1 : (⟨S128, .f32⟩ : BufTy).Contents (Elt F) → (⟨S1x128, .f32⟩ : BufTy).Contents (Elt F)),
    nullary main_call0_cst_0 (constant S_ .f32 0x47C35000#32),
    unary main_call0_cst_0 main_call0_v2 (broadcastInDim S1x128 ![] bcast_S_S1x128 : (⟨S_, .f32⟩ : BufTy).Contents (Elt F) → (⟨S1x128, .f32⟩ : BufTy).Contents (Elt F)),
    binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    unary main_call0_v3 main_call0_v4 (broadcastInDim S100000x128 ![0, 1] bcast_S1x128_S100000x128_0_1 : (⟨S1x128, .f32⟩ : BufTy).Contents (Elt F) → (⟨S100000x128, .f32⟩ : BufTy).Contents (Elt F)),
    binary main_v17 main_call0_v4 main_call0_v5 (subf : (⟨S100000x128, .f32⟩ : BufTy).Contents (Elt F) → (⟨S100000x128, .f32⟩ : BufTy).Contents (Elt F) → (⟨S100000x128, .f32⟩ : BufTy).Contents (Elt F)),
    binary main_call0_v5 main_call0_v5 main_call0_v6 (mulf : (⟨S100000x128, .f32⟩ : BufTy).Contents (Elt F) → (⟨S100000x128, .f32⟩ : BufTy).Contents (Elt F) → (⟨S100000x128, .f32⟩ : BufTy).Contents (Elt F)),
    unary main_c_4 main_call0_v7 (sitofp .f32 : (⟨S_, .i32⟩ : BufTy).Contents (Elt F) → (⟨S_, .f32⟩ : BufTy).Contents (Elt F)),
    nullary main_call0_cst_1 (constant S_ .f32 0x47C35000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v8 main_call0_v10 (broadcastInDim S128 ![] bcast_S_S128 : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S128 ![] bcast_S_S128 : (⟨S_, .f32⟩ : BufTy).Contents (Elt F) → (⟨S128, .f32⟩ : BufTy).Contents (Elt F)),
    ternary main_call0_v12 main_call0_v11 main_call0_call0_v1 main_v21 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

theorem Wv1_sub : (Wv1 : List (HloOp τ sig (Elt F))).Forall fun op => op.bufs ⊆ tcRefs τ sig := by
  unfold Wv1
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem Wv1_fresh : ∀ op ∈ (Wv1 : List (HloOp τ sig (Elt F))), op.fresh = ∅ := by
  unfold Wv1
  intro _ h; (repeat (cases h with | head => rfl | tail _ h => ?_)); exact nomatch h

def Wb1 : List (HloOp τ sig (Elt F)) :=
  [ unary main_v20 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v17 main_v23 main_v24 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v25 (broadcastInDim S128 ![] bcast_S_S128 : (⟨S_, .f32⟩ : BufTy).Contents (Elt F) → (⟨S128, .f32⟩ : BufTy).Contents (Elt F)),
    binary main_v21 main_v25 main_v26 (addf : (⟨S128, .f32⟩ : BufTy).Contents (Elt F) → (⟨S128, .f32⟩ : BufTy).Contents (Elt F) → (⟨S128, .f32⟩ : BufTy).Contents (Elt F)),
    unary main_v26 main_v27 (Host.rsqrt : (⟨S128, .f32⟩ : BufTy).Contents (Elt F) → (⟨S128, .f32⟩ : BufTy).Contents (Elt F)),
    unary main_v27 main_v28 (broadcastInDim S1x128 ![1] bcast_S128_S1x128_1 : (⟨S128, .f32⟩ : BufTy).Contents (Elt F) → (⟨S1x128, .f32⟩ : BufTy).Contents (Elt F)),
    unary main_v28 main_v29 (broadcastInDim S100000x128 ![0, 1] bcast_S1x128_S100000x128_0_1 : (⟨S1x128, .f32⟩ : BufTy).Contents (Elt F) → (⟨S100000x128, .f32⟩ : BufTy).Contents (Elt F)),
    binary main_v24 main_v29 main_v30 (mulf : (⟨S100000x128, .f32⟩ : BufTy).Contents (Elt F) → (⟨S100000x128, .f32⟩ : BufTy).Contents (Elt F) → (⟨S100000x128, .f32⟩ : BufTy).Contents (Elt F)),
    unary main_arg6 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (mulf : (⟨S100000x128, .f32⟩ : BufTy).Contents (Elt F) → (⟨S100000x128, .f32⟩ : BufTy).Contents (Elt F) → (⟨S100000x128, .f32⟩ : BufTy).Contents (Elt F)),
    unary main_arg7 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v36 main_call1_v0 main_v37 (maximumf : (⟨S100000x128, .f32⟩ : BufTy).Contents (Elt F) → (⟨S100000x128, .f32⟩ : BufTy).Contents (Elt F) → (⟨S100000x128, .f32⟩ : BufTy).Contents (Elt F)) ]

theorem Wb1_sub : (Wb1 : List (HloOp τ sig (Elt F))).Forall fun op => op.bufs ⊆ tcRefs τ sig := by
  unfold Wb1
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem Wb1_fresh : ∀ op ∈ (Wb1 : List (HloOp τ sig (Elt F))), op.fresh = ∅ := by
  unfold Wb1
  intro _ h; (repeat (cases h with | head => rfl | tail _ h => ?_)); exact nomatch h

def Wo1 : List (HloOp τ sig (Elt F)) :=
  [ binary main_v37 main_arg8 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)) ]

theorem Wo1_sub : (Wo1 : List (HloOp τ sig (Elt F))).Forall fun op => op.bufs ⊆ tcRefs τ sig := by
  unfold Wo1
  exact ⟨binary_bufs_sub .., unary_bufs_sub .., unary_bufs_sub .., binary_bufs_sub ..⟩

theorem Wo1_fresh : ∀ op ∈ (Wo1 : List (HloOp τ sig (Elt F))), op.fresh = ∅ := by
  unfold Wo1
  intro _ h; (repeat (cases h with | head => rfl | tail _ h => ?_)); exact nomatch h

def Wr1 : List (HloOp τ sig (Elt F)) :=
  [ nullary main_call2_cst (constant S_ .f32 0x00000000#32),
    unary main_call2_cst main_call2_v0 (broadcastInDim S100000x128 ![] bcast_S_S100000x128 : (⟨S_, .f32⟩ : BufTy).Contents (Elt F) → (⟨S100000x128, .f32⟩ : BufTy).Contents (Elt F)),
    binary main_v41 main_call2_v0 main_v42 (maximumf : (⟨S100000x128, .f32⟩ : BufTy).Contents (Elt F) → (⟨S100000x128, .f32⟩ : BufTy).Contents (Elt F) → (⟨S100000x128, .f32⟩ : BufTy).Contents (Elt F)) ]

theorem Wr1_sub : (Wr1 : List (HloOp τ sig (Elt F))).Forall fun op => op.bufs ⊆ tcRefs τ sig := by
  unfold Wr1
  exact ⟨nullary_bufs_sub .., unary_bufs_sub .., binary_bufs_sub ..⟩

theorem Wr1_fresh : ∀ op ∈ (Wr1 : List (HloOp τ sig (Elt F))), op.fresh = ∅ := by
  unfold Wr1
  intro _ h; (repeat (cases h with | head => rfl | tail _ h => ?_)); exact nomatch h

def Wg2 : List (HloOp τ sig (Elt F)) :=
  [ nullary main_c_6 (constantI S_ 32 0#32),
    unary main_c_6 main_v43 (broadcastInDim S1600000 ![] bcast_S_S1600000 : (⟨S_, .i32⟩ : BufTy).Contents (Elt F) → (⟨S1600000, .i32⟩ : BufTy).Contents (Elt F)),
    binary main_arg1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v45 (broadcastInDim S1600000 ![] bcast_S_S1600000 : (⟨S_, .i32⟩ : BufTy).Contents (Elt F) → (⟨S1600000, .i32⟩ : BufTy).Contents (Elt F)),
    binary main_arg1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_arg1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v42 main_v48 main_v49 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)) ]

theorem Wg2_sub : (Wg2 : List (HloOp τ sig (Elt F))).Forall fun op => op.bufs ⊆ tcRefs τ sig := by
  unfold Wg2
  exact ⟨nullary_bufs_sub .., unary_bufs_sub .., binary_bufs_sub .., nullary_bufs_sub .., unary_bufs_sub .., binary_bufs_sub .., ternary_bufs_sub .., unary_bufs_sub .., binary_bufs_sub ..⟩

theorem Wg2_fresh : ∀ op ∈ (Wg2 : List (HloOp τ sig (Elt F))), op.fresh = ∅ := by
  unfold Wg2
  intro _ h; (repeat (cases h with | head => rfl | tail _ h => ?_)); exact nomatch h

def Ws2 : List (HloOp τ sig (Elt F)) :=
  [ nullary main_cst_8 (constant S_ .f32 0x00000000#32),
    unary main_cst_8 main_v50 (broadcastInDim S100000x128 ![] bcast_S_S100000x128 : (⟨S_, .f32⟩ : BufTy).Contents (Elt F) → (⟨S100000x128, .f32⟩ : BufTy).Contents (Elt F)),
    unary main_arg2 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem Ws2_sub : (Ws2 : List (HloOp τ sig (Elt F))).Forall fun op => op.bufs ⊆ tcRefs τ sig := by
  unfold Ws2
  exact ⟨nullary_bufs_sub .., unary_bufs_sub .., unary_bufs_sub .., ternary_bufs_sub ..⟩

theorem Ws2_fresh : ∀ op ∈ (Ws2 : List (HloOp τ sig (Elt F))), op.fresh = ∅ := by
  unfold Ws2
  intro _ h; (repeat (cases h with | head => rfl | tail _ h => ?_)); exact nomatch h

def Wl2 : List (HloOp τ sig (Elt F)) :=
  [ nullary main_cst_9 (constant S_ .f32 0x3F800000#32),
    binary main_cst_9 main_arg10 main_v53 (addf : (⟨S_, .f32⟩ : BufTy).Contents (Elt F) → (⟨S_, .f32⟩ : BufTy).Contents (Elt F) → (⟨S_, .f32⟩ : BufTy).Contents (Elt F)),
    unary main_v53 main_v54 (broadcastInDim S100000x128 ![] bcast_S_S100000x128 : (⟨S_, .f32⟩ : BufTy).Contents (Elt F) → (⟨S100000x128, .f32⟩ : BufTy).Contents (Elt F)),
    binary main_v54 main_v42 main_v55 (mulf : (⟨S100000x128, .f32⟩ : BufTy).Contents (Elt F) → (⟨S100000x128, .f32⟩ : BufTy).Contents (Elt F) → (⟨S100000x128, .f32⟩ : BufTy).Contents (Elt F)),
    binary main_v55 main_v52 main_v56 (addf : (⟨S100000x128, .f32⟩ : BufTy).Contents (Elt F) → (⟨S100000x128, .f32⟩ : BufTy).Contents (Elt F) → (⟨S100000x128, .f32⟩ : BufTy).Contents (Elt F)),
    binary main_v56 main_arg11 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)) ]

theorem Wl2_sub : (Wl2 : List (HloOp τ sig (Elt F))).Forall fun op => op.bufs ⊆ tcRefs τ sig := by
  unfold Wl2
  exact ⟨nullary_bufs_sub .., binary_bufs_sub .., unary_bufs_sub .., binary_bufs_sub .., binary_bufs_sub .., binary_bufs_sub .., unary_bufs_sub .., unary_bufs_sub .., binary_bufs_sub ..⟩

theorem Wl2_fresh : ∀ op ∈ (Wl2 : List (HloOp τ sig (Elt F))), op.fresh = ∅ := by
  unfold Wl2
  intro _ h; (repeat (cases h with | head => rfl | tail _ h => ?_)); exact nomatch h

def Wm2 : List (HloOp τ sig (Elt F)) :=
  [ nullary main_cst_10 (constant S_ .f32 0x00000000#32),
    binary main_v60 main_cst_10 main_v61 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)) ]

theorem Wm2_sub : (Wm2 : List (HloOp τ sig (Elt F))).Forall fun op => op.bufs ⊆ tcRefs τ sig := by
  unfold Wm2
  exact ⟨nullary_bufs_sub .., binary_bufs_sub .., nullary_bufs_sub .., unary_bufs_sub .., binary_bufs_sub ..⟩

theorem Wm2_fresh : ∀ op ∈ (Wm2 : List (HloOp τ sig (Elt F))), op.fresh = ∅ := by
  unfold Wm2
  intro _ h; (repeat (cases h with | head => rfl | tail _ h => ?_)); exact nomatch h

def Wv2 : List (HloOp τ sig (Elt F)) :=
  [ nullary main_c_12 (constantI S_ 32 0#32),
    nullary main_call3_cst (constant S_ .f32 0x00000000#32),
    binary main_v60 main_call3_cst main_call3_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call3_v0 main_call3_v1 (broadcastInDim S1x128 ![1] bcast_S128_S1x128_1 : (⟨S128, .f32⟩ : BufTy).Contents (Elt F) → (⟨S1x128, .f32⟩ : BufTy).Contents (Elt F)),
    nullary main_call3_cst_0 (constant S_ .f32 0x47C35000#32),
    unary main_call3_cst_0 main_call3_v2 (broadcastInDim S1x128 ![] bcast_S_S1x128 : (⟨S_, .f32⟩ : BufTy).Contents (Elt F) → (⟨S1x128, .f32⟩ : BufTy).Contents (Elt F)),
    binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    unary main_call3_v3 main_call3_v4 (broadcastInDim S100000x128 ![0, 1] bcast_S1x128_S100000x128_0_1 : (⟨S1x128, .f32⟩ : BufTy).Contents (Elt F) → (⟨S100000x128, .f32⟩ : BufTy).Contents (Elt F)),
    binary main_v60 main_call3_v4 main_call3_v5 (subf : (⟨S100000x128, .f32⟩ : BufTy).Contents (Elt F) → (⟨S100000x128, .f32⟩ : BufTy).Contents (Elt F) → (⟨S100000x128, .f32⟩ : BufTy).Contents (Elt F)),
    binary main_call3_v5 main_call3_v5 main_call3_v6 (mulf : (⟨S100000x128, .f32⟩ : BufTy).Contents (Elt F) → (⟨S100000x128, .f32⟩ : BufTy).Contents (Elt F) → (⟨S100000x128, .f32⟩ : BufTy).Contents (Elt F)),
    unary main_c_12 main_call3_v7 (sitofp .f32 : (⟨S_, .i32⟩ : BufTy).Contents (Elt F) → (⟨S_, .f32⟩ : BufTy).Contents (Elt F)),
    nullary main_call3_cst_1 (constant S_ .f32 0x47C35000#32),
    binary main_call3_cst_1 main_call3_v7 main_call3_v8 (subf : (⟨S_, .f32⟩ : BufTy).Contents (Elt F) → (⟨S_, .f32⟩ : BufTy).Contents (Elt F) → (⟨S_, .f32⟩ : BufTy).Contents (Elt F)),
    nullary main_call3_cst_2 (constant S_ .f32 0x00000000#32),
    binary main_call3_v6 main_call3_cst_2 main_call3_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call3_v8 main_call3_v10 (broadcastInDim S128 ![] bcast_S_S128 : (⟨S_, .f32⟩ : BufTy).Contents (Elt F) → (⟨S128, .f32⟩ : BufTy).Contents (Elt F)),
    binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    nullary main_call3_cst_3 (constant S_ .f32 0x00000000#32),
    binary main_call3_v8 main_call3_cst_3 main_call3_v12 (cmpf .ogt : (⟨S_, .f32⟩ : BufTy).Contents (Elt F) → (⟨S_, .f32⟩ : BufTy).Contents (Elt F) → (⟨S_, .i1⟩ : BufTy).Contents (Elt F)),
    nullary main_call3_cst_4 (constant S_ .f32 0x7FC00000#32),
    unary main_call3_cst_4 main_call3_call0_v0 (id : (⟨S_, .f32⟩ : BufTy).Contents (Elt F) → (⟨S_, .f32⟩ : BufTy).Contents (Elt F)),
    unary main_call3_call0_v0 main_call3_call0_v1 (broadcastInDim S128 ![] bcast_S_S128 : (⟨S_, .f32⟩ : BufTy).Contents (Elt F) → (⟨S128, .f32⟩ : BufTy).Contents (Elt F)),
    ternary main_call3_v12 main_call3_v11 main_call3_call0_v1 main_v64 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

theorem Wv2_sub : (Wv2 : List (HloOp τ sig (Elt F))).Forall fun op => op.bufs ⊆ tcRefs τ sig := by
  unfold Wv2
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem Wv2_fresh : ∀ op ∈ (Wv2 : List (HloOp τ sig (Elt F))), op.fresh = ∅ := by
  unfold Wv2
  intro _ h; (repeat (cases h with | head => rfl | tail _ h => ?_)); exact nomatch h

def Wb2 : List (HloOp τ sig (Elt F)) :=
  [ unary main_v63 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v60 main_v66 main_v67 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v68 (broadcastInDim S128 ![] bcast_S_S128 : (⟨S_, .f32⟩ : BufTy).Contents (Elt F) → (⟨S128, .f32⟩ : BufTy).Contents (Elt F)),
    binary main_v64 main_v68 main_v69 (addf : (⟨S128, .f32⟩ : BufTy).Contents (Elt F) → (⟨S128, .f32⟩ : BufTy).Contents (Elt F) → (⟨S128, .f32⟩ : BufTy).Contents (Elt F)),
    unary main_v69 main_v70 (Host.rsqrt : (⟨S128, .f32⟩ : BufTy).Contents (Elt F) → (⟨S128, .f32⟩ : BufTy).Contents (Elt F)),
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v67 main_v72 main_v73 (mulf : (⟨S100000x128, .f32⟩ : BufTy).Contents (Elt F) → (⟨S100000x128, .f32⟩ : BufTy).Contents (Elt F) → (⟨S100000x128, .f32⟩ : BufTy).Contents (Elt F)),
    unary main_arg13 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (mulf : (⟨S100000x128, .f32⟩ : BufTy).Contents (Elt F) → (⟨S100000x128, .f32⟩ : BufTy).Contents (Elt F) → (⟨S100000x128, .f32⟩ : BufTy).Contents (Elt F)),
    unary main_arg14 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)),
    nullary main_call4_cst (constant S_ .f32 0x00000000#32),
    unary main_call4_cst main_call4_v0 (broadcastInDim S100000x128 ![] bcast_S_S100000x128 : (⟨S_, .f32⟩ : BufTy).Contents (Elt F) → (⟨S100000x128, .f32⟩ : BufTy).Contents (Elt F)),
    binary main_v79 main_call4_v0 main_v80 (maximumf : (⟨S100000x128, .f32⟩ : BufTy).Contents (Elt F) → (⟨S100000x128, .f32⟩ : BufTy).Contents (Elt F) → (⟨S100000x128, .f32⟩ : BufTy).Contents (Elt F)) ]

theorem Wb2_sub : (Wb2 : List (HloOp τ sig (Elt F))).Forall fun op => op.bufs ⊆ tcRefs τ sig := by
  unfold Wb2
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem Wb2_fresh : ∀ op ∈ (Wb2 : List (HloOp τ sig (Elt F))), op.fresh = ∅ := by
  unfold Wb2
  intro _ h; (repeat (cases h with | head => rfl | tail _ h => ?_)); exact nomatch h

def Wo2 : List (HloOp τ sig (Elt F)) :=
  [ binary main_v80 main_arg15 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)) ]

theorem Wo2_sub : (Wo2 : List (HloOp τ sig (Elt F))).Forall fun op => op.bufs ⊆ tcRefs τ sig := by
  unfold Wo2
  exact ⟨binary_bufs_sub .., unary_bufs_sub .., unary_bufs_sub .., binary_bufs_sub ..⟩

theorem Wo2_fresh : ∀ op ∈ (Wo2 : List (HloOp τ sig (Elt F))), op.fresh = ∅ := by
  unfold Wo2
  intro _ h; (repeat (cases h with | head => rfl | tail _ h => ?_)); exact nomatch h

/-- The operations of the program's first window of statements. -/
def opsA : List (HloOp τ sig (Elt F)) := Wg1 ++ (Ws1 ++ (Wl1 ++ (Wm1 ++ (Wv1 ++ (Wb1 ++ (Wo1 ++ (Wr1 ++ (Wg2))))))))
/-- The operations of the program's second window of statements. -/
def opsB : List (HloOp τ sig (Elt F)) := Ws2 ++ (Wl2 ++ (Wm2 ++ (Wv2 ++ (Wb2 ++ (Wo2)))))
/-- All the operations, in order. -/
def ops : List (HloOp τ sig (Elt F)) := opsA ++ opsB

set_option maxRecDepth 8192 in
set_option maxHeartbeats 4000000 in
theorem main_part0_eq (c : Dev nD) : main_part0 (F := F) c = seq opsA := rfl

set_option maxRecDepth 8192 in
set_option maxHeartbeats 4000000 in
theorem main_part1_eq (c : Dev nD) : main_part1 (F := F) c = seq opsB := rfl

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, opsA, opsB, List.mem_append] at h
    rcases h with (h | h | h | h | h | h | h | h | h) | (h | h | h | h | h | h)
    exacts [List.forall_iff_forall_mem.mp Wg1_sub op h, List.forall_iff_forall_mem.mp Ws1_sub op h, List.forall_iff_forall_mem.mp Wl1_sub op h, List.forall_iff_forall_mem.mp Wm1_sub op h, List.forall_iff_forall_mem.mp Wv1_sub op h, List.forall_iff_forall_mem.mp Wb1_sub op h, List.forall_iff_forall_mem.mp Wo1_sub op h, List.forall_iff_forall_mem.mp Wr1_sub op h, List.forall_iff_forall_mem.mp Wg2_sub op h, List.forall_iff_forall_mem.mp Ws2_sub op h, List.forall_iff_forall_mem.mp Wl2_sub op h, List.forall_iff_forall_mem.mp Wm2_sub op h, List.forall_iff_forall_mem.mp Wv2_sub op h, List.forall_iff_forall_mem.mp Wb2_sub op h, List.forall_iff_forall_mem.mp Wo2_sub op h]

theorem ops_fresh : ∀ op ∈ (ops : List (HloOp τ sig (Elt F))), op.fresh = ∅ := by
  intro op h
  simp only [ops, opsA, opsB, List.mem_append] at h
  rcases h with (h | h | h | h | h | h | h | h | h) | (h | h | h | h | h | h)
  exacts [Wg1_fresh op h, Ws1_fresh op h, Wl1_fresh op h, Wm1_fresh op h, Wv1_fresh op h, Wb1_fresh op h, Wo1_fresh op h, Wr1_fresh op h, Wg2_fresh op h, Ws2_fresh op h, Wl2_fresh op h, Wm2_fresh op h, Wv2_fresh op h, Wb2_fresh op h, Wo2_fresh op h]

end Cert.ReferenceIdeal.RefRun

end
-- ==== Proof.RefRunWin.lean ====
/- What each stage's list of operations leaves in its result buffer, as the stage's pure function of the
   contents it reads; and that a list leaves every buffer it does not write as it was. -/
import proofs.«143642_j88098369176165_1_alg».proof.Proof.RefRunOps

set_option Elab.async false

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The buffers the window writes. -/
abbrev Wg1_W : List (Ref sig .tc) := [main_c, main_v0, main_v1, main_c_0, main_v2, main_v3, main_v4, main_v5, main_v6]

theorem Wg1_writes : (Wg1 : List (HloOp τ sig (Elt F))).Forall fun op => op.writes ⊆ (Wg1_W.map (Proc.devRef (τ := τ) .tc)).toFinset := by
  unfold Wg1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wg1_keep (V : Valuation τ sig (Elt F)) (r : Ref sig .tc) (h : r ∉ Wg1_W) :
    after Wg1 V (no_index (Proc.devRef .tc r)) = V (Proc.devRef .tc r) :=
  after_of_writes_sub Wg1 _ Wg1_writes h

/-- The buffers the window writes. -/
abbrev Ws1_W : List (Ref sig .tc) := [main_cst, main_v7, main_v8, main_v9]

theorem Ws1_writes : (Ws1 : List (HloOp τ sig (Elt F))).Forall fun op => op.writes ⊆ (Ws1_W.map (Proc.devRef (τ := τ) .tc)).toFinset := by
  unfold Ws1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Ws1_keep (V : Valuation τ sig (Elt F)) (r : Ref sig .tc) (h : r ∉ Ws1_W) :
    after Ws1 V (no_index (Proc.devRef .tc r)) = V (Proc.devRef .tc r) :=
  after_of_writes_sub Ws1 _ Ws1_writes h

/-- The buffers the window writes. -/
abbrev Wl1_W : List (Ref sig .tc) := [main_cst_1, main_v10, main_v11, main_v12, main_v13, main_v14, main_v15, main_v16, main_v17]

theorem Wl1_writes : (Wl1 : List (HloOp τ sig (Elt F))).Forall fun op => op.writes ⊆ (Wl1_W.map (Proc.devRef (τ := τ) .tc)).toFinset := by
  unfold Wl1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wl1_keep (V : Valuation τ sig (Elt F)) (r : Ref sig .tc) (h : r ∉ Wl1_W) :
    after Wl1 V (no_index (Proc.devRef .tc r)) = V (Proc.devRef .tc r) :=
  after_of_writes_sub Wl1 _ Wl1_writes h

/-- The buffers the window writes. -/
abbrev Wm1_W : List (Ref sig .tc) := [main_cst_2, main_v18, main_cst_3, main_v19, main_v20]

theorem Wm1_writes : (Wm1 : List (HloOp τ sig (Elt F))).Forall fun op => op.writes ⊆ (Wm1_W.map (Proc.devRef (τ := τ) .tc)).toFinset := by
  unfold Wm1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wm1_keep (V : Valuation τ sig (Elt F)) (r : Ref sig .tc) (h : r ∉ Wm1_W) :
    after Wm1 V (no_index (Proc.devRef .tc r)) = V (Proc.devRef .tc r) :=
  after_of_writes_sub Wm1 _ Wm1_writes h

/-- The buffers the window writes. -/
abbrev Wv1_W : List (Ref sig .tc) := [main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v21]

theorem Wv1_writes : (Wv1 : List (HloOp τ sig (Elt F))).Forall fun op => op.writes ⊆ (Wv1_W.map (Proc.devRef (τ := τ) .tc)).toFinset := by
  unfold Wv1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wv1_keep (V : Valuation τ sig (Elt F)) (r : Ref sig .tc) (h : r ∉ Wv1_W) :
    after Wv1 V (no_index (Proc.devRef .tc r)) = V (Proc.devRef .tc r) :=
  after_of_writes_sub Wv1 _ Wv1_writes h

/-- The buffers the window writes. -/
abbrev Wb1_W : List (Ref sig .tc) := [main_v22, main_v23, main_v24, main_cst_5, main_v25, main_v26, main_v27, main_v28, main_v29, main_v30, main_v31, main_v32, main_v33, main_v34, main_v35, main_v36, main_call1_cst, main_call1_v0, main_v37]

theorem Wb1_writes : (Wb1 : List (HloOp τ sig (Elt F))).Forall fun op => op.writes ⊆ (Wb1_W.map (Proc.devRef (τ := τ) .tc)).toFinset := by
  unfold Wb1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wb1_keep (V : Valuation τ sig (Elt F)) (r : Ref sig .tc) (h : r ∉ Wb1_W) :
    after Wb1 V (no_index (Proc.devRef .tc r)) = V (Proc.devRef .tc r) :=
  after_of_writes_sub Wb1 _ Wb1_writes h

/-- The buffers the window writes. -/
abbrev Wo1_W : List (Ref sig .tc) := [main_v38, main_v39, main_v40, main_v41]

theorem Wo1_writes : (Wo1 : List (HloOp τ sig (Elt F))).Forall fun op => op.writes ⊆ (Wo1_W.map (Proc.devRef (τ := τ) .tc)).toFinset := by
  unfold Wo1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wo1_keep (V : Valuation τ sig (Elt F)) (r : Ref sig .tc) (h : r ∉ Wo1_W) :
    after Wo1 V (no_index (Proc.devRef .tc r)) = V (Proc.devRef .tc r) :=
  after_of_writes_sub Wo1 _ Wo1_writes h

/-- The buffers the window writes. -/
abbrev Wr1_W : List (Ref sig .tc) := [main_call2_cst, main_call2_v0, main_v42]

theorem Wr1_writes : (Wr1 : List (HloOp τ sig (Elt F))).Forall fun op => op.writes ⊆ (Wr1_W.map (Proc.devRef (τ := τ) .tc)).toFinset := by
  unfold Wr1
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wr1_keep (V : Valuation τ sig (Elt F)) (r : Ref sig .tc) (h : r ∉ Wr1_W) :
    after Wr1 V (no_index (Proc.devRef .tc r)) = V (Proc.devRef .tc r) :=
  after_of_writes_sub Wr1 _ Wr1_writes h

/-- The buffers the window writes. -/
abbrev Wg2_W : List (Ref sig .tc) := [main_c_6, main_v43, main_v44, main_c_7, main_v45, main_v46, main_v47, main_v48, main_v49]

theorem Wg2_writes : (Wg2 : List (HloOp τ sig (Elt F))).Forall fun op => op.writes ⊆ (Wg2_W.map (Proc.devRef (τ := τ) .tc)).toFinset := by
  unfold Wg2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wg2_keep (V : Valuation τ sig (Elt F)) (r : Ref sig .tc) (h : r ∉ Wg2_W) :
    after Wg2 V (no_index (Proc.devRef .tc r)) = V (Proc.devRef .tc r) :=
  after_of_writes_sub Wg2 _ Wg2_writes h

/-- The buffers the window writes. -/
abbrev Ws2_W : List (Ref sig .tc) := [main_cst_8, main_v50, main_v51, main_v52]

theorem Ws2_writes : (Ws2 : List (HloOp τ sig (Elt F))).Forall fun op => op.writes ⊆ (Ws2_W.map (Proc.devRef (τ := τ) .tc)).toFinset := by
  unfold Ws2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Ws2_keep (V : Valuation τ sig (Elt F)) (r : Ref sig .tc) (h : r ∉ Ws2_W) :
    after Ws2 V (no_index (Proc.devRef .tc r)) = V (Proc.devRef .tc r) :=
  after_of_writes_sub Ws2 _ Ws2_writes h

/-- The buffers the window writes. -/
abbrev Wl2_W : List (Ref sig .tc) := [main_cst_9, main_v53, main_v54, main_v55, main_v56, main_v57, main_v58, main_v59, main_v60]

theorem Wl2_writes : (Wl2 : List (HloOp τ sig (Elt F))).Forall fun op => op.writes ⊆ (Wl2_W.map (Proc.devRef (τ := τ) .tc)).toFinset := by
  unfold Wl2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wl2_keep (V : Valuation τ sig (Elt F)) (r : Ref sig .tc) (h : r ∉ Wl2_W) :
    after Wl2 V (no_index (Proc.devRef .tc r)) = V (Proc.devRef .tc r) :=
  after_of_writes_sub Wl2 _ Wl2_writes h

/-- The buffers the window writes. -/
abbrev Wm2_W : List (Ref sig .tc) := [main_cst_10, main_v61, main_cst_11, main_v62, main_v63]

theorem Wm2_writes : (Wm2 : List (HloOp τ sig (Elt F))).Forall fun op => op.writes ⊆ (Wm2_W.map (Proc.devRef (τ := τ) .tc)).toFinset := by
  unfold Wm2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wm2_keep (V : Valuation τ sig (Elt F)) (r : Ref sig .tc) (h : r ∉ Wm2_W) :
    after Wm2 V (no_index (Proc.devRef .tc r)) = V (Proc.devRef .tc r) :=
  after_of_writes_sub Wm2 _ Wm2_writes h

/-- The buffers the window writes. -/
abbrev Wv2_W : List (Ref sig .tc) := [main_c_12, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v64]

theorem Wv2_writes : (Wv2 : List (HloOp τ sig (Elt F))).Forall fun op => op.writes ⊆ (Wv2_W.map (Proc.devRef (τ := τ) .tc)).toFinset := by
  unfold Wv2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wv2_keep (V : Valuation τ sig (Elt F)) (r : Ref sig .tc) (h : r ∉ Wv2_W) :
    after Wv2 V (no_index (Proc.devRef .tc r)) = V (Proc.devRef .tc r) :=
  after_of_writes_sub Wv2 _ Wv2_writes h

/-- The buffers the window writes. -/
abbrev Wb2_W : List (Ref sig .tc) := [main_v65, main_v66, main_v67, main_cst_13, main_v68, main_v69, main_v70, main_v71, main_v72, main_v73, main_v74, main_v75, main_v76, main_v77, main_v78, main_v79, main_call4_cst, main_call4_v0, main_v80]

theorem Wb2_writes : (Wb2 : List (HloOp τ sig (Elt F))).Forall fun op => op.writes ⊆ (Wb2_W.map (Proc.devRef (τ := τ) .tc)).toFinset := by
  unfold Wb2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wb2_keep (V : Valuation τ sig (Elt F)) (r : Ref sig .tc) (h : r ∉ Wb2_W) :
    after Wb2 V (no_index (Proc.devRef .tc r)) = V (Proc.devRef .tc r) :=
  after_of_writes_sub Wb2 _ Wb2_writes h

/-- The buffers the window writes. -/
abbrev Wo2_W : List (Ref sig .tc) := [main_v81, main_v82, main_v83, main_v84]

theorem Wo2_writes : (Wo2 : List (HloOp τ sig (Elt F))).Forall fun op => op.writes ⊆ (Wo2_W.map (Proc.devRef (τ := τ) .tc)).toFinset := by
  unfold Wo2
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the window does not write keeps its contents through it. -/
theorem Wo2_keep (V : Valuation τ sig (Elt F)) (r : Ref sig .tc) (h : r ∉ Wo2_W) :
    after Wo2 V (no_index (Proc.devRef .tc r)) = V (Proc.devRef .tc r) :=
  after_of_writes_sub Wo2 _ Wo2_writes h

/-- The gather window: the per-edge rows of the layer's input at the normalised source indices. -/
theorem Wg1_out (V : Valuation τ sig (Elt F)) :
    after Wg1 V (no_index (Proc.devRef .tc main_v6)) = gatherOf (V (Proc.devRef .tc main_arg0)) (V (Proc.devRef .tc main_arg1)) := by
  unfold Wg1
  after_results_simp
  rfl

/-- The scatter window: the per-edge rows summed at the destination indices. -/
theorem Ws1_out (V : Valuation τ sig (Elt F)) :
    after Ws1 V (no_index (Proc.devRef .tc main_v9)) = scatterOf (V (Proc.devRef .tc main_arg2)) (V (Proc.devRef .tc main_v6)) := by
  unfold Ws1
  after_results_simp
  rfl

/-- The combine window: `(1 + eps) * x + agg`, then the first linear map. -/
theorem Wl1_out (V : Valuation τ sig (Elt F)) :
    after Wl1 V (no_index (Proc.devRef .tc main_v17)) = lin (V (Proc.devRef .tc main_arg4)) (V (Proc.devRef .tc main_arg5)) (combineOf (V (Proc.devRef .tc main_arg3)) (V (Proc.devRef .tc main_arg0)) (V (Proc.devRef .tc main_v9))) := by
  unfold Wl1
  after_results_simp
  rfl

/-- The mean window: the column means. -/
theorem Wm1_out (V : Valuation τ sig (Elt F)) :
    after Wm1 V (no_index (Proc.devRef .tc main_v20)) = colMean (V (Proc.devRef .tc main_v17)) := by
  unfold Wm1
  after_results_simp
  rfl

/-- The variance window: the column variances. -/
theorem Wv1_out (V : Valuation τ sig (Elt F)) :
    after Wv1 V (no_index (Proc.devRef .tc main_v21)) = colVar (V (Proc.devRef .tc main_v17)) := by
  unfold Wv1
  after_results_simp
  rfl

/-- The normalisation window: batch normalisation, then the rectifier. -/
theorem Wb1_out (V : Valuation τ sig (Elt F)) :
    after Wb1 V (no_index (Proc.devRef .tc main_v37)) = bnRelu (V (Proc.devRef .tc main_v20)) (V (Proc.devRef .tc main_v21)) (V (Proc.devRef .tc main_arg6)) (V (Proc.devRef .tc main_arg7)) (V (Proc.devRef .tc main_v17)) := by
  unfold Wb1
  after_results_simp
  rfl

/-- The output window: the second linear map. -/
theorem Wo1_out (V : Valuation τ sig (Elt F)) :
    after Wo1 V (no_index (Proc.devRef .tc main_v41)) = lin (V (Proc.devRef .tc main_arg8)) (V (Proc.devRef .tc main_arg9)) (V (Proc.devRef .tc main_v37)) := by
  unfold Wo1
  after_results_simp
  rfl

/-- The rectifier between the layers. -/
theorem Wr1_out (V : Valuation τ sig (Elt F)) :
    after Wr1 V (no_index (Proc.devRef .tc main_v42)) = relu1 (V (Proc.devRef .tc main_v41)) := by
  unfold Wr1
  after_results_simp
  rfl

/-- The gather window: the per-edge rows of the layer's input at the normalised source indices. -/
theorem Wg2_out (V : Valuation τ sig (Elt F)) :
    after Wg2 V (no_index (Proc.devRef .tc main_v49)) = gatherOf (V (Proc.devRef .tc main_v42)) (V (Proc.devRef .tc main_arg1)) := by
  unfold Wg2
  after_results_simp
  rfl

/-- The scatter window: the per-edge rows summed at the destination indices. -/
theorem Ws2_out (V : Valuation τ sig (Elt F)) :
    after Ws2 V (no_index (Proc.devRef .tc main_v52)) = scatterOf (V (Proc.devRef .tc main_arg2)) (V (Proc.devRef .tc main_v49)) := by
  unfold Ws2
  after_results_simp
  rfl

/-- The combine window: `(1 + eps) * x + agg`, then the first linear map. -/
theorem Wl2_out (V : Valuation τ sig (Elt F)) :
    after Wl2 V (no_index (Proc.devRef .tc main_v60)) = lin (V (Proc.devRef .tc main_arg11)) (V (Proc.devRef .tc main_arg12)) (combineOf (V (Proc.devRef .tc main_arg10)) (V (Proc.devRef .tc main_v42)) (V (Proc.devRef .tc main_v52))) := by
  unfold Wl2
  after_results_simp
  rfl

/-- The mean window: the column means. -/
theorem Wm2_out (V : Valuation τ sig (Elt F)) :
    after Wm2 V (no_index (Proc.devRef .tc main_v63)) = colMean (V (Proc.devRef .tc main_v60)) := by
  unfold Wm2
  after_results_simp
  rfl

/-- The variance window: the column variances. -/
theorem Wv2_out (V : Valuation τ sig (Elt F)) :
    after Wv2 V (no_index (Proc.devRef .tc main_v64)) = colVar (V (Proc.devRef .tc main_v60)) := by
  unfold Wv2
  after_results_simp
  rfl

/-- The normalisation window: batch normalisation, then the rectifier. -/
theorem Wb2_out (V : Valuation τ sig (Elt F)) :
    after Wb2 V (no_index (Proc.devRef .tc main_v80)) = bnRelu (V (Proc.devRef .tc main_v63)) (V (Proc.devRef .tc main_v64)) (V (Proc.devRef .tc main_arg13)) (V (Proc.devRef .tc main_arg14)) (V (Proc.devRef .tc main_v60)) := by
  unfold Wb2
  after_results_simp
  rfl

/-- The output window: the second linear map. -/
theorem Wo2_out (V : Valuation τ sig (Elt F)) :
    after Wo2 V (no_index (Proc.devRef .tc main_v84)) = lin (V (Proc.devRef .tc main_arg15)) (V (Proc.devRef .tc main_arg16)) (V (Proc.devRef .tc main_v80)) := by
  unfold Wo2
  after_results_simp
  rfl

end Cert.ReferenceIdeal.RefRun

end
-- ==== Proof.RefRun.lean ====
/- The reference program's run read back: from any memory with zero counters every weakly fair execution of the
   program terminates, its result buffer holding the two-layer function `refOut` of the arguments' launch contents
   and every argument buffer unchanged. The operations' fold is read window by window: a window's result is its
   stage function of the contents before it, and a window leaves what it does not write. -/
import proofs.«143642_j88098369176165_1_alg».proof.Proof.RefRunWin

set_option Elab.async false

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

set_option maxRecDepth 8192 in
set_option maxHeartbeats 2000000 in
/-- The fold of all the operations at the result buffer: the two layers composed. -/
theorem out_eq (V : Valuation τ sig (Elt F)) :
    after ops V (Proc.devRef .tc main_v84)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  simp (disch := decide) only [ops, opsA, opsB, after_append, Wg1_out, Ws1_out, Wl1_out, Wm1_out, Wv1_out, Wb1_out, Wo1_out, Wr1_out, Wg2_out, Ws2_out, Wl2_out, Wm2_out, Wv2_out, Wb2_out, Wo2_out, Wg1_keep, Ws1_keep, Wl1_keep, Wm1_keep, Wv1_keep, Wb1_keep, Wo1_keep, Wr1_keep, Wg2_keep, Ws2_keep, Wl2_keep, Wm2_keep, Wv2_keep, Wb2_keep, Wo2_keep]
  rfl

set_option maxRecDepth 8192 in
theorem main_arg0_eq (V : Valuation τ sig (Elt F)) : after ops V (Proc.devRef .tc main_arg0) = V (Proc.devRef .tc main_arg0) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg1_eq (V : Valuation τ sig (Elt F)) : after ops V (Proc.devRef .tc main_arg1) = V (Proc.devRef .tc main_arg1) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg2_eq (V : Valuation τ sig (Elt F)) : after ops V (Proc.devRef .tc main_arg2) = V (Proc.devRef .tc main_arg2) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg3_eq (V : Valuation τ sig (Elt F)) : after ops V (Proc.devRef .tc main_arg3) = V (Proc.devRef .tc main_arg3) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg4_eq (V : Valuation τ sig (Elt F)) : after ops V (Proc.devRef .tc main_arg4) = V (Proc.devRef .tc main_arg4) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg5_eq (V : Valuation τ sig (Elt F)) : after ops V (Proc.devRef .tc main_arg5) = V (Proc.devRef .tc main_arg5) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg6_eq (V : Valuation τ sig (Elt F)) : after ops V (Proc.devRef .tc main_arg6) = V (Proc.devRef .tc main_arg6) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg7_eq (V : Valuation τ sig (Elt F)) : after ops V (Proc.devRef .tc main_arg7) = V (Proc.devRef .tc main_arg7) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg8_eq (V : Valuation τ sig (Elt F)) : after ops V (Proc.devRef .tc main_arg8) = V (Proc.devRef .tc main_arg8) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg9_eq (V : Valuation τ sig (Elt F)) : after ops V (Proc.devRef .tc main_arg9) = V (Proc.devRef .tc main_arg9) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg10_eq (V : Valuation τ sig (Elt F)) : after ops V (Proc.devRef .tc main_arg10) = V (Proc.devRef .tc main_arg10) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg11_eq (V : Valuation τ sig (Elt F)) : after ops V (Proc.devRef .tc main_arg11) = V (Proc.devRef .tc main_arg11) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg12_eq (V : Valuation τ sig (Elt F)) : after ops V (Proc.devRef .tc main_arg12) = V (Proc.devRef .tc main_arg12) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg13_eq (V : Valuation τ sig (Elt F)) : after ops V (Proc.devRef .tc main_arg13) = V (Proc.devRef .tc main_arg13) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg14_eq (V : Valuation τ sig (Elt F)) : after ops V (Proc.devRef .tc main_arg14) = V (Proc.devRef .tc main_arg14) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg15_eq (V : Valuation τ sig (Elt F)) : after ops V (Proc.devRef .tc main_arg15) = V (Proc.devRef .tc main_arg15) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

set_option maxRecDepth 8192 in
theorem main_arg16_eq (V : Valuation τ sig (Elt F)) : after ops V (Proc.devRef .tc main_arg16) = V (Proc.devRef .tc main_arg16) := by
  simp (disch := decide) only [ops, opsA, opsB, after_append, Wg1_keep, Ws1_keep, Wl1_keep, Wm1_keep, Wv1_keep, Wb1_keep, Wo1_keep, Wr1_keep, Wg2_keep, Ws2_keep, Wl2_keep, Wm2_keep, Wv2_keep, Wb2_keep, Wo2_keep]

/-- On every device, for any float values, from any memory with zero counters: every weakly fair execution of the
    program terminates with the result at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v84) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v84).trans (out_eq (launchContents m c)),
      (h c main_arg0).trans (main_arg0_eq (launchContents m c)),
      (h c main_arg1).trans (main_arg1_eq (launchContents m c)),
      (h c main_arg2).trans (main_arg2_eq (launchContents m c)),
      (h c main_arg3).trans (main_arg3_eq (launchContents m c)),
      (h c main_arg4).trans (main_arg4_eq (launchContents m c)),
      (h c main_arg5).trans (main_arg5_eq (launchContents m c)),
      (h c main_arg6).trans (main_arg6_eq (launchContents m c)),
      (h c main_arg7).trans (main_arg7_eq (launchContents m c)),
      (h c main_arg8).trans (main_arg8_eq (launchContents m c)),
      (h c main_arg9).trans (main_arg9_eq (launchContents m c)),
      (h c main_arg10).trans (main_arg10_eq (launchContents m c)),
      (h c main_arg11).trans (main_arg11_eq (launchContents m c)),
      (h c main_arg12).trans (main_arg12_eq (launchContents m c)),
      (h c main_arg13).trans (main_arg13_eq (launchContents m c)),
      (h c main_arg14).trans (main_arg14_eq (launchContents m c)),
      (h c main_arg15).trans (main_arg15_eq (launchContents m c)),
      (h c main_arg16).trans (main_arg16_eq (launchContents m c))⟩)
    (run_seq scopedRefs_eq scopedSems_eq defs main (fun _ => ops) main_eq (fun _ => ops_sub) m ρ (fun _ => ops_fresh))

end Cert.ReferenceIdeal.RefRun

end
-- ==== Proof.RefRunFrame.lean ====
/- The reference program's frame: it runs and leaves its argument buffers unchanged. This is the run read back
   at the exact values with the conjunct about the result dropped. -/
import proofs.«143642_j88098369176165_1_alg».proof.Proof.RefRun
import proofs.«143642_j88098369176165_1_alg».proof.Defs

noncomputable section

namespace Cert.ReferenceIdeal.RefRun

open Idealize.ShloMosaic Idealize.SL.Sem

theorem frame [hReferenceIdeal : Cert.ReferenceIdeal.Facts] [hPre_finite_inputs : Cert.Pre_finite_inputs.Facts] :
    Cert.frame_ReferenceIdeal (hReferenceIdeal := hReferenceIdeal) (hPre_finite_inputs := hPre_finite_inputs) :=
  fun m ρ _ => (θ_run Cert.ReferenceIdeal.defs _ _).mono (fun _ h c => (h c).2) (run (F := Ideal) m ρ)

end Cert.ReferenceIdeal.RefRun

end
-- ==== Proof.LibRowAgg.lean ====
/-
  ROWS GATHERED AND SUMMED BACK, READ AT AN ENTRY. For a table `x : [N, C]`, `E` source row numbers and `E` destination
  row numbers, the array  z.at[dst].add(x[src])  is the row gather followed by the row scatter-add. Over the extended
  reals its entry (n, c) is  z(n, c)  plus the sum, over the edges e whose destination row number (read signed, not
  clamped) is n, of  x(row e, c),  where row e is the e-th source row number read signed and clamped into [0, N - 1].
  When z and x have real entries every entry of the result is real: a real plus a finite sum of reals and zeros.
  Generic in the sizes, the widths of the two index arrays and the float format.
-/
import proofs.«143642_j88098369176165_1_alg».proof.Proof.LibRowGather
import proofs.«143642_j88098369176165_1_alg».proof.Proof.LibRowScatterAdd
import proofs.«143642_j88098369176165_1_alg».proof.Proof.LibBatchVariance

noncomputable section

open scoped BigOperators

namespace Cert.RowAgg

open Idealize.ShloMosaic Idealize.ShloMosaic.ValueIdx

/-- The gather followed by the scatter-add, read at (n, c). -/
theorem agg_apply {N E C w w' : Nat} {φ : FTy} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z x : FVec Ideal ⟨2, ![N, C]⟩ φ) (isrc : IVec ⟨2, ![E, 1]⟩ w) (idst : IVec ⟨2, ![E, 1]⟩ w')
    (n : Fin N) (c : Fin C) :
    Host.scatterAdd (F := Ideal) (Cert.RowScatterAdd.dims N E C wfs) z idst
        (Host.gather (Cert.RowGather.dims N E C wfg) x isrc) (ix2 n c)
      = z (ix2 n c) + ∑ e : Fin E,
          if Cert.RowScatterAdd.hits idst e n then x (ix2 (Cert.RowGather.row hN isrc e) c) else 0 := by
  rw [Cert.RowScatterAdd.host_scatterAdd_apply]
  simp only [Cert.RowGather.gather_apply hN]

/-- With real entries in the operand and in the table, every entry of the result is real. -/
theorem agg_real {N E C w w' : Nat} {φ : FTy} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (z x : FVec Ideal ⟨2, ![N, C]⟩ φ) (isrc : IVec ⟨2, ![E, 1]⟩ w) (idst : IVec ⟨2, ![E, 1]⟩ w')
    (hz : ∀ (n : Fin N) (c : Fin C), ∃ v : ℝ, z (ix2 n c) = (v : EReal))
    (hx : ∀ (n : Fin N) (c : Fin C), ∃ v : ℝ, x (ix2 n c) = (v : EReal))
    (n : Fin N) (c : Fin C) :
    ∃ v : ℝ, Host.scatterAdd (F := Ideal) (Cert.RowScatterAdd.dims N E C wfs) z idst
        (Host.gather (Cert.RowGather.dims N E C wfg) x isrc) (ix2 n c) = (v : EReal) := by
  rw [agg_apply hN]
  obtain ⟨zv, hzv⟩ := hz n c
  choose f hf using hx
  refine ⟨zv + ∑ e : Fin E,
    if Cert.RowScatterAdd.hits idst e n then f (Cert.RowGather.row hN isrc e) c else 0, ?_⟩
  rw [EReal.coe_add, hzv, ← Cert.BatchVariance.coe_sum]
  congr 1
  refine Finset.sum_congr rfl fun e _ => ?_
  split
  · exact hf _ _
  · exact EReal.coe_zero.symm

end Cert.RowAgg

end
-- ==== Proof.AggRealKI.lean ====
/-
  The edge aggregate of a real matrix is a real matrix.

  Entry (n, c) of the aggregate is the zero array's entry plus the sum, over the edges whose destination row is n, of
  the gathered source row's entry c: a finite sum of reals.
-/
import proofs.«143642_j88098369176165_1_alg».proof.Proof.HostValueKI
import proofs.«143642_j88098369176165_1_alg».proof.Proof.LibBcastInDim
import proofs.«143642_j88098369176165_1_alg».proof.Proof.LibRowAgg

set_option maxRecDepth 1036

noncomputable section

namespace Cert.KernelIdeal.Hand

open Cert.KernelIdeal Cert.KernelIdeal.Gen Cert.KernelIdeal.GenP Cert.Gin
open Idealize.ShloMosaic Idealize.ShloMosaic.ValueIdx

/-- The printed gather record is the row gather's. -/
theorem gather_rec_eq : gather_S100000x128_S1600000x1_S1600000x128_1_0_n_n_0_1_1128
    = Cert.RowGather.dims 100000 1600000 128 gather_S100000x128_S1600000x1_S1600000x128_1_0_n_n_0_1_1128_wf := rfl

/-- The printed scatter record is the row scatter-add's. -/
theorem scatter_rec_eq : scatter_S100000x128_S1600000x1_S1600000x128_1_0_0_1
    = Cert.RowScatterAdd.dims 100000 1600000 128 scatter_S100000x128_S1600000x1_S1600000x128_1_0_0_1_wf := rfl

/-- The edge aggregate of a real matrix is real. -/
theorem aggMK_real (src dst : (⟨S1600000, .i32⟩ : BufTy).Contents (Elt Ideal)) (h : RM) (hr : IsRealM h) :
    IsRealM (aggMK src dst h) := by
  intro n c
  show ∃ v : ℝ, aggTerm src dst (ofRM h) (ix2 n c) = (v : EReal)
  unfold aggTerm
  rw [gather_rec_eq, scatter_rec_eq]
  refine Cert.RowAgg.agg_real (by norm_num) _ _ _ _ _ _ (fun n c => ⟨0, ?_⟩) (fun n c => hr n c) n c
  rw [Cert.BcastInDim.scalar_apply]
  exact Ideal.ofBits_zero_f32

end Cert.KernelIdeal.Hand

end
-- ==== Proof.Algebra.lean ====
/-
  Realness is preserved by every step of a layer, and on real entries the two layers, hence the two networks, agree.

  Every step of a layer is built from sums, products, differences, a maximum with zero, a division by the real
  100000 and a reciprocal square root of a positive real; each of these maps reals to reals. The variance is a mean
  of squares of reals, hence a nonnegative real, so adding the positive epsilon gives a positive real and its
  reciprocal square root is a real. Since the two layers differ only in how the statistics of the real matrix h1 are
  taken, and those agree on real entries, the layers agree; the network is two layers with a maximum with zero and the
  shared aggregation (which keeps realness) in between.
-/
import proofs.«143642_j88098369176165_1_alg».proof.Proof.Spec
import proofs.«143642_j88098369176165_1_alg».proof.Proof.LibBatchVariance
import proofs.«143642_j88098369176165_1_alg».proof.Proof.LibBlockedSum
import proofs.«143642_j88098369176165_1_alg».proof.Proof.AlgebraStats

noncomputable section

namespace Cert.Gin

open Idealize.ShloMosaic

/-! ## Reals are closed under the operations used -/

theorem real_add {a b : EReal} (ha : ∃ v : ℝ, a = (v : EReal)) (hb : ∃ v : ℝ, b = (v : EReal)) :
    ∃ v : ℝ, a + b = (v : EReal) := by
  obtain ⟨x, rfl⟩ := ha
  obtain ⟨y, rfl⟩ := hb
  exact ⟨x + y, (EReal.coe_add x y).symm⟩

theorem real_sub {a b : EReal} (ha : ∃ v : ℝ, a = (v : EReal)) (hb : ∃ v : ℝ, b = (v : EReal)) :
    ∃ v : ℝ, a - b = (v : EReal) := by
  obtain ⟨x, rfl⟩ := ha
  obtain ⟨y, rfl⟩ := hb
  exact ⟨x - y, (EReal.coe_sub x y).symm⟩

theorem real_mul {a b : EReal} (ha : ∃ v : ℝ, a = (v : EReal)) (hb : ∃ v : ℝ, b = (v : EReal)) :
    ∃ v : ℝ, a * b = (v : EReal) := by
  obtain ⟨x, rfl⟩ := ha
  obtain ⟨y, rfl⟩ := hb
  exact ⟨x * y, (EReal.coe_mul x y).symm⟩

/-- The maximum of a real with the literal zero is a real. -/
theorem real_max_zero {a : EReal} (ha : ∃ v : ℝ, a = (v : EReal)) : ∃ v : ℝ, max a cZero = (v : EReal) := by
  obtain ⟨x, rfl⟩ := ha
  refine ⟨max x 0, ?_⟩
  rw [cZero_eq, ← EReal.coe_zero]
  exact (EReal.coe_strictMono.monotone.map_max).symm

/-- A finite sum of reals is a real. -/
theorem real_sum {ι : Type*} (s : Finset ι) (f : ι → EReal) (hf : ∀ i, ∃ v : ℝ, f i = (v : EReal)) :
    ∃ v : ℝ, ∑ i ∈ s, f i = (v : EReal) := by
  choose y hy using hf
  exact ⟨∑ i ∈ s, y i, by simp only [hy, Cert.BatchVariance.coe_sum]⟩

/-- A real divided by the literal 100000 is that real times 1/100000. -/
theorem div_cN_coe (x : ℝ) : Ideal.div (x : EReal) cN = ((x * (1 / 100000) : ℝ) : EReal) := by
  rw [cN_eq, Ideal.div_coe (by norm_num), ← EReal.coe_mul]

theorem real_div_cN {a : EReal} (ha : ∃ v : ℝ, a = (v : EReal)) : ∃ v : ℝ, Ideal.div a cN = (v : EReal) := by
  obtain ⟨x, rfl⟩ := ha
  exact ⟨_, div_cN_coe x⟩

/-- The reciprocal square root of a positive real is a real. -/
theorem real_rsqrt_pos {p : ℝ} (hp : 0 < p) : ∃ v : ℝ, Ideal.rsqrt (p : EReal) = (v : EReal) := by
  refine ⟨(Real.sqrt p)⁻¹, ?_⟩
  rw [Ideal.rsqrt_coe, if_neg (not_lt.mpr hp.le), if_neg hp.ne']

/-! ## Realness through the steps of a layer -/

theorem combine_real {eps : EReal} {x agg : RM} (he : ∃ v : ℝ, eps = (v : EReal)) (hx : IsRealM x)
    (ha : IsRealM agg) : IsRealM (combine eps x agg) := fun r k =>
  real_add (real_mul (real_add ⟨1, cOne_eq⟩ he) (hx r k)) (ha r k)

theorem lin_real {W : WM} {b : CV} {h : RM} (hW : IsRealW W) (hb : IsRealV b) (hh : IsRealM h) :
    IsRealM (lin W b h) := fun r j =>
  Cert.BatchVariance.sum_mul_add_real (fun k => h r k) (fun k => W k j) (b j) (fun k => hh r k) (fun k => hW k j) (hb j)

theorem sq_real {h : RM} (hh : IsRealM h) : IsRealM (sq h) := fun r k => real_mul (hh r k) (hh r k)

theorem relu_real {h : RM} (hh : IsRealM h) : IsRealM (relu h) := fun r k => real_max_zero (hh r k)

theorem rMean_real {h : RM} (hh : IsRealM h) : IsRealV (rMean h) := fun j =>
  real_div_cN (real_add ⟨0, cZero_eq⟩ (real_sum _ _ fun r => hh r j))

/-- The variance of a real matrix is a nonnegative real: a mean of squares. -/
theorem rVar_real_nonneg {h : RM} (hh : IsRealM h) (j : Fin 128) : ∃ v : ℝ, 0 ≤ v ∧ rVar h j = (v : EReal) := by
  obtain ⟨m, hm⟩ := rMean_real hh j
  choose y hy using fun r => hh r j
  refine ⟨(∑ r : Fin 100000, (y r - m) * (y r - m)) * (1 / 100000), ?_, ?_⟩
  · exact mul_nonneg (Finset.sum_nonneg fun r _ => mul_self_nonneg _) (by norm_num)
  · unfold rVar
    simp only [hm, hy, cZero_eq, zero_add, ← EReal.coe_sub, ← EReal.coe_mul, Cert.BatchVariance.coe_sum]
    exact div_cN_coe _

theorem rVar_real {h : RM} (hh : IsRealM h) : IsRealV (rVar h) := fun j =>
  let ⟨v, _, hv⟩ := rVar_real_nonneg hh j
  ⟨v, hv⟩

/-- Batch normalisation then max with zero keeps realness, when the mean is real and the variance a nonnegative
    real (so that variance plus epsilon is a positive real). -/
theorem bnRelu_real {mean var g bt : CV} {h : RM} (hm : IsRealV mean)
    (hv : ∀ j, ∃ v : ℝ, 0 ≤ v ∧ var j = (v : EReal)) (hg : IsRealV g) (hbt : IsRealV bt) (hh : IsRealM h) :
    IsRealM (bnRelu mean var g bt h) := fun r k => by
  obtain ⟨v, hv0, hvk⟩ := hv k
  obtain ⟨e, he0, hee⟩ := cEps_pos
  have hrs : ∃ w : ℝ, Ideal.rsqrt (var k + cEps) = (w : EReal) := by
    rw [hvk, hee, ← EReal.coe_add]
    exact real_rsqrt_pos (by positivity)
  exact real_max_zero (real_add (real_mul (real_mul (real_sub (hh r k) (hm k)) hrs) (hg k)) (hbt k))

/-- The first linear map of a layer gives a real matrix. -/
theorem h1_real {eps : EReal} {Wa : WM} {ba : CV} {x agg : RM} (he : ∃ v : ℝ, eps = (v : EReal))
    (hWa : IsRealW Wa) (hba : IsRealV ba) (hx : IsRealM x) (ha : IsRealM agg) :
    IsRealM (lin Wa ba (combine eps x agg)) :=
  lin_real hWa hba (combine_real he hx ha)

/-- The reference's layer maps reals to reals. -/
theorem rLayer_real {eps : EReal} {Wa : WM} {ba g bt : CV} {Wb : WM} {bb : CV} {x agg : RM}
    (he : ∃ v : ℝ, eps = (v : EReal)) (hWa : IsRealW Wa) (hba : IsRealV ba) (hg : IsRealV g) (hbt : IsRealV bt)
    (hWb : IsRealW Wb) (hbb : IsRealV bb) (hx : IsRealM x) (ha : IsRealM agg) :
    IsRealM (rLayer eps Wa ba g bt Wb bb x agg) := by
  have h1 := h1_real he hWa hba hx ha
  exact lin_real hWb hbb (bnRelu_real (rMean_real h1) (rVar_real_nonneg h1) hg hbt h1)

/-! ## The layers and the networks agree -/

/-- On real data the kernel's layer is the reference's layer: they differ only in how the statistics of the real
    matrix h1 are taken. -/
theorem layer_eq {eps : EReal} {Wa : WM} {ba g bt : CV} {Wb : WM} {bb : CV} {x agg : RM}
    (he : ∃ v : ℝ, eps = (v : EReal)) (hWa : IsRealW Wa) (hba : IsRealV ba) (hg : IsRealV g) (hbt : IsRealV bt)
    (hWb : IsRealW Wb) (hbb : IsRealV bb) (hx : IsRealM x) (ha : IsRealM agg) :
    kLayer eps Wa ba g bt Wb bb x agg = rLayer eps Wa ba g bt Wb bb x agg := by
  have h1 := h1_real he hWa hba hx ha
  unfold kLayer rLayer layerWith
  rw [(stats_eq _ h1).1, (stats_eq _ h1).2]

/-- The reference's network maps reals to reals, for any aggregation that does. -/
theorem net_real (A : RM → RM) (hA : ∀ h, IsRealM h → IsRealM (A h)) {x : RM} (hx : IsRealM x)
    {eps1 : EReal} {W1a : WM} {b1a g1 bt1 : CV} {W1b : WM} {b1b : CV}
    {eps2 : EReal} {W2a : WM} {b2a g2 bt2 : CV} {W2b : WM} {b2b : CV}
    (he1 : ∃ v : ℝ, eps1 = (v : EReal)) (hW1a : IsRealW W1a) (hb1a : IsRealV b1a) (hg1 : IsRealV g1)
    (hbt1 : IsRealV bt1) (hW1b : IsRealW W1b) (hb1b : IsRealV b1b)
    (he2 : ∃ v : ℝ, eps2 = (v : EReal)) (hW2a : IsRealW W2a) (hb2a : IsRealV b2a) (hg2 : IsRealV g2)
    (hbt2 : IsRealV bt2) (hW2b : IsRealW W2b) (hb2b : IsRealV b2b) :
    IsRealM (netWith rLayer A x eps1 W1a b1a g1 bt1 W1b b1b eps2 W2a b2a g2 bt2 W2b b2b) := by
  have hz := relu_real (rLayer_real he1 hW1a hb1a hg1 hbt1 hW1b hb1b hx (hA x hx))
  exact rLayer_real he2 hW2a hb2a hg2 hbt2 hW2b hb2b hz (hA _ hz)

/-- On real data the kernel's network is the reference's network. -/
theorem net_eq (A : RM → RM) (hA : ∀ h, IsRealM h → IsRealM (A h)) {x : RM} (hx : IsRealM x)
    {eps1 : EReal} {W1a : WM} {b1a g1 bt1 : CV} {W1b : WM} {b1b : CV}
    {eps2 : EReal} {W2a : WM} {b2a g2 bt2 : CV} {W2b : WM} {b2b : CV}
    (he1 : ∃ v : ℝ, eps1 = (v : EReal)) (hW1a : IsRealW W1a) (hb1a : IsRealV b1a) (hg1 : IsRealV g1)
    (hbt1 : IsRealV bt1) (hW1b : IsRealW W1b) (hb1b : IsRealV b1b)
    (he2 : ∃ v : ℝ, eps2 = (v : EReal)) (hW2a : IsRealW W2a) (hb2a : IsRealV b2a) (hg2 : IsRealV g2)
    (hbt2 : IsRealV bt2) (hW2b : IsRealW W2b) (hb2b : IsRealV b2b) :
    netWith kLayer A x eps1 W1a b1a g1 bt1 W1b b1b eps2 W2a b2a g2 bt2 W2b b2b
      = netWith rLayer A x eps1 W1a b1a g1 bt1 W1b b1b eps2 W2a b2a g2 bt2 W2b b2b := by
  have hz := relu_real (rLayer_real he1 hW1a hb1a hg1 hbt1 hW1b hb1b hx (hA x hx))
  unfold netWith
  rw [layer_eq he1 hW1a hb1a hg1 hbt1 hW1b hb1b hx (hA x hx)]
  exact layer_eq he2 hW2a hb2a hg2 hbt2 hW2b hb2b hz (hA _ hz)

end Cert.Gin

end
-- ==== Proof.Finite.lean ====
/-
  What the precondition says of the inputs at exact arithmetic: the printed predicate is the conjunction, over the fifteen
  float inputs, of "every entry satisfies |x| < +inf"; an extended real whose absolute value is below +inf is a real
  number. So under the precondition every entry of every float input is a real.
-/
import proofs.«143642_j88098369176165_1_alg».proof.Pre_finite_inputs
import proofs.«143642_j88098369176165_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The word 0x7F800000 denotes +inf. -/
theorem ofBits_inf : Ideal.ofBits .f32 0x7F800000#32 = (⊤ : EReal) := by
  simp [Ideal.ofBits, Ideal.ieee]

/-- An extended real with |x| < +inf (the comparison's word is 1) is a real. -/
theorem real_of_abs_lt (x : EReal) (h : Ideal.cmp .olt (max x (-x)) (Ideal.ofBits .f32 0x7F800000#32) = 1#1) :
    ∃ v : ℝ, x = (v : EReal) := by
  rw [ofBits_inf] at h
  have hlt : max x (-x) < ⊤ := by
    by_contra hn
    simp [Ideal.cmp, hn] at h
  induction x using EReal.rec with
  | bot => simp at hlt
  | coe v => exact ⟨v, rfl⟩
  | top => simp at hlt

/-- One `jnp.all(|a| < inf)` over an array that is broadcast-compared: every entry is a real. -/
theorem all_real {s : Shape} (a : FVec Ideal s .f32) (B : FVec Ideal s .f32) (hB : ∀ i, B i = Ideal.ofBits .f32 0x7F800000#32)
    (init : IVec S_ 1) {axes : List (Fin s.rank)} (hr : s.ReducesTo axes S_) (hu : 0 < S_.numel)
    (e : Host.reduce IntOp.andi (cmpf .olt (Host.absf a) B) init hr hu ValueIdx.ix0 = 1#1) (i : s.Idx) :
    ∃ v : ℝ, a i = (v : EReal) := by
  have h1 := Host.reduce_andi_all (cmpf .olt (Host.absf a) B) init hr hu ValueIdx.ix0 e i
  refine real_of_abs_lt (a i) ?_
  rw [← hB i]
  exact h1

/-- Under the precondition every entry of every float input is a real: the printed predicate at the scalar index is a
    left-nested conjunction of the fifteen `jnp.all`s, taken apart from the outside in. -/
theorem decode [Cert.Pre_finite_inputs.Facts]
    (a0 : FVec Ideal S100000x128 .f32) (a1 a2 : IVec S1600000 32) (a3 : FVec Ideal S_ .f32) (a4 : FVec Ideal S128x128 .f32)
    (a5 a6 a7 : FVec Ideal S128 .f32) (a8 : FVec Ideal S128x128 .f32) (a9 : FVec Ideal S128 .f32) (a10 : FVec Ideal S_ .f32)
    (a11 : FVec Ideal S128x128 .f32) (a12 a13 a14 : FVec Ideal S128 .f32) (a15 : FVec Ideal S128x128 .f32) (a16 : FVec Ideal S128 .f32)
    (h : Cert.Pre_finite_inputs.fn (F := Ideal) a0 a1 a2 a3 a4 a5 a6 a7 a8 a9 a10 a11 a12 a13 a14 a15 a16 = fun _ => 1#1) :
    (∀ i, ∃ v : ℝ, a0 i = (v : EReal))
      ∧ (∀ i, ∃ v : ℝ, a3 i = (v : EReal))
      ∧ (∀ i, ∃ v : ℝ, a4 i = (v : EReal))
      ∧ (∀ i, ∃ v : ℝ, a5 i = (v : EReal))
      ∧ (∀ i, ∃ v : ℝ, a6 i = (v : EReal))
      ∧ (∀ i, ∃ v : ℝ, a7 i = (v : EReal))
      ∧ (∀ i, ∃ v : ℝ, a8 i = (v : EReal))
      ∧ (∀ i, ∃ v : ℝ, a9 i = (v : EReal))
      ∧ (∀ i, ∃ v : ℝ, a10 i = (v : EReal))
      ∧ (∀ i, ∃ v : ℝ, a11 i = (v : EReal))
      ∧ (∀ i, ∃ v : ℝ, a12 i = (v : EReal))
      ∧ (∀ i, ∃ v : ℝ, a13 i = (v : EReal))
      ∧ (∀ i, ∃ v : ℝ, a14 i = (v : EReal))
      ∧ (∀ i, ∃ v : ℝ, a15 i = (v : EReal))
      ∧ (∀ i, ∃ v : ℝ, a16 i = (v : EReal)) := by
  have h0 := congrFun h ValueIdx.ix0
  dsimp only [fn, fn_part1, fn_part2, fn_part3, fn_part4] at h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨r0, r3⟩ := IntOp.andi_eq_one.1 h0
  exact ⟨fun i => all_real a0 _ (fun _ => rfl) _ _ _ r0 i,
    fun i => all_real a3 _ (fun _ => rfl) _ _ _ r3 i,
    fun i => all_real a4 _ (fun _ => rfl) _ _ _ r4 i,
    fun i => all_real a5 _ (fun _ => rfl) _ _ _ r5 i,
    fun i => all_real a6 _ (fun _ => rfl) _ _ _ r6 i,
    fun i => all_real a7 _ (fun _ => rfl) _ _ _ r7 i,
    fun i => all_real a8 _ (fun _ => rfl) _ _ _ r8 i,
    fun i => all_real a9 _ (fun _ => rfl) _ _ _ r9 i,
    fun i => all_real a10 _ (fun _ => rfl) _ _ _ r10 i,
    fun i => all_real a11 _ (fun _ => rfl) _ _ _ r11 i,
    fun i => all_real a12 _ (fun _ => rfl) _ _ _ r12 i,
    fun i => all_real a13 _ (fun _ => rfl) _ _ _ r13 i,
    fun i => all_real a14 _ (fun _ => rfl) _ _ _ r14 i,
    fun i => all_real a15 _ (fun _ => rfl) _ _ _ r15 i,
    fun i => all_real a16 _ (fun _ => rfl) _ _ _ r16 i⟩

end Cert.Finite

end
-- ==== Proof.PreReal.lean ====
/-
  The precondition of the idealized kernel, read as the hypotheses of the algebra: every float argument array, read
  as a matrix, a vector or a scalar, has real entries.
-/
import proofs.«143642_j88098369176165_1_alg».proof.Defs
import proofs.«143642_j88098369176165_1_alg».proof.Proof.Finite
import proofs.«143642_j88098369176165_1_alg».proof.Proof.Spec

noncomputable section

namespace Cert.PreReal

open Idealize.ShloMosaic Idealize.SL.Sem Cert.Gin

/-- Two [100000,128] arrays with the same entries are the same array. -/
theorem toRM_inj {a b : (⟨2, ![100000, 128]⟩ : Shape).Idx → EReal} (h : toRM a = toRM b) : a = b := by
  funext i
  rw [ValueIdx.eq_ix2 i]
  exact congrFun (congrFun h (i 0)) (i 1)

variable [hK : Cert.KernelIdeal.Facts] [hP : Cert.Pre_finite_inputs.Facts]

open Cert.KernelIdeal in
/-- Under the precondition, on every core, the seventeen arguments' float arrays have real entries. -/
theorem reals_of_pre (m : (ℓ : Loc nD τ sig) → Buf (Elt Ideal) ℓ) (h : Cert.Pre_KernelIdeal m) (c : Dev nD) :
    IsRealM (toRM (m ((c.tc : Thread nD τ).loc main_arg0)))
      ∧ (∃ v : ℝ, toS0 (m ((c.tc : Thread nD τ).loc main_arg3)) = (v : EReal))
      ∧ IsRealW (toWM (m ((c.tc : Thread nD τ).loc main_arg4)))
      ∧ IsRealV (toCV (m ((c.tc : Thread nD τ).loc main_arg5)))
      ∧ IsRealV (toCV (m ((c.tc : Thread nD τ).loc main_arg6)))
      ∧ IsRealV (toCV (m ((c.tc : Thread nD τ).loc main_arg7)))
      ∧ IsRealW (toWM (m ((c.tc : Thread nD τ).loc main_arg8)))
      ∧ IsRealV (toCV (m ((c.tc : Thread nD τ).loc main_arg9)))
      ∧ (∃ v : ℝ, toS0 (m ((c.tc : Thread nD τ).loc main_arg10)) = (v : EReal))
      ∧ IsRealW (toWM (m ((c.tc : Thread nD τ).loc main_arg11)))
      ∧ IsRealV (toCV (m ((c.tc : Thread nD τ).loc main_arg12)))
      ∧ IsRealV (toCV (m ((c.tc : Thread nD τ).loc main_arg13)))
      ∧ IsRealV (toCV (m ((c.tc : Thread nD τ).loc main_arg14)))
      ∧ IsRealW (toWM (m ((c.tc : Thread nD τ).loc main_arg15)))
      ∧ IsRealV (toCV (m ((c.tc : Thread nD τ).loc main_arg16))) := by
  obtain ⟨h0, h3, h4, h5, h6, h7, h8, h9, h10, h11, h12, h13, h14, h15, h16⟩ := Cert.Finite.decode _ _ _ _ _ _ _ _ _ _ _ _ _ _ _ _ _ (h c)
  exact ⟨fun r k => h0 _, h3 _, fun k j => h4 _, fun j => h5 _, fun j => h6 _, fun j => h7 _, fun k j => h8 _, fun j => h9 _,
    h10 _, fun k j => h11 _, fun j => h12 _, fun j => h13 _, fun j => h14 _, fun k j => h15 _, fun j => h16 _⟩

end Cert.PreReal

end
-- ==== Proof.Final.lean ====
/-
  The algebraic conjunct: at exact arithmetic, from memories that agree on the seventeen arguments and satisfy the
  precondition (finite inputs), the kernel program and the reference program both run to the end, leave the arguments
  unchanged, and end with the same result array.

  The kernel's run leaves, in every unscoped buffer, the contents of the last of nine boundaries (four stretches of host
  operations and four kernel regions composed); the reference's run leaves in its result the composed term of its host
  operations. Read as matrices, the reference's result is the two-layer network with the reference's statistics (whole-axis
  mean, mean of squared deviations) and the kernel's result is the same network with the kernel's statistics (running block
  sums, mean of squares minus squared mean); the aggregation is one and the same function on both sides. The
  precondition makes every argument entry a real number; realness is carried through both layers, and on real entries the
  two ways of taking the statistics agree, hence the networks agree entry by entry. The kernel-side reading of the
  result (hval) and the identity of the two aggregations (hagg) are taken as hypotheses here.
-/
import proofs.«143642_j88098369176165_1_alg».proof.Defs
import proofs.«143642_j88098369176165_1_alg».proof.Proof.RunKI
import proofs.«143642_j88098369176165_1_alg».proof.Proof.RefRunFrame
import proofs.«143642_j88098369176165_1_alg».proof.Proof.RefValue
import proofs.«143642_j88098369176165_1_alg».proof.Proof.HostValueKI
import proofs.«143642_j88098369176165_1_alg».proof.Proof.AggRealKI
import proofs.«143642_j88098369176165_1_alg».proof.Proof.Algebra
import proofs.«143642_j88098369176165_1_alg».proof.Proof.PreReal

set_option maxRecDepth 1036

noncomputable section

namespace Cert.Final

open Idealize.ShloMosaic Idealize.SL.Sem
open Cert.KernelIdeal.Hand

/-- The algebraic conjunct from the kernel-side reading of the result and the identity of the two aggregations. -/
theorem algebraic_of [hKernelIdeal : Cert.KernelIdeal.Facts] [hReferenceIdeal : Cert.ReferenceIdeal.Facts]
    [hPre_finite_inputs : Cert.Pre_finite_inputs.Facts]
    (D0 : Cert.KernelIdeal.Hand.RegionData Ideal Cert.KernelIdeal.cfg0) (D1 : Cert.KernelIdeal.Hand.RegionData Ideal Cert.KernelIdeal.cfg1)
    (D2 : Cert.KernelIdeal.Hand.RegionData Ideal Cert.KernelIdeal.cfg2) (D3 : Cert.KernelIdeal.Hand.RegionData Ideal Cert.KernelIdeal.cfg3)
    (hagg : ∀ src dst, Cert.KernelIdeal.Hand.aggMK src dst = Cert.ReferenceIdeal.RefValue.aggM src dst)
    (hval : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        Cert.Gin.toRM (Cert.KernelIdeal.Hand.W8 m ρ D0 D1 D2 D3 c (Proc.devRef .tc Cert.KernelIdeal.main_v49))
          = Cert.Gin.netWith Cert.Gin.kLayer
              (Cert.KernelIdeal.Hand.aggMK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
              (Cert.Gin.toRM (m ((c.tc : Thread Cert.KernelIdeal.nD Cert.KernelIdeal.τ).loc Cert.KernelIdeal.main_arg0)))
              (Cert.Gin.toS0 (m ((c.tc : Thread Cert.KernelIdeal.nD Cert.KernelIdeal.τ).loc Cert.KernelIdeal.main_arg3)))
              (Cert.Gin.toWM (m ((c.tc : Thread Cert.KernelIdeal.nD Cert.KernelIdeal.τ).loc Cert.KernelIdeal.main_arg4)))
              (Cert.Gin.toCV (m ((c.tc : Thread Cert.KernelIdeal.nD Cert.KernelIdeal.τ).loc Cert.KernelIdeal.main_arg5)))
              (Cert.Gin.toCV (m ((c.tc : Thread Cert.KernelIdeal.nD Cert.KernelIdeal.τ).loc Cert.KernelIdeal.main_arg6)))
              (Cert.Gin.toCV (m ((c.tc : Thread Cert.KernelIdeal.nD Cert.KernelIdeal.τ).loc Cert.KernelIdeal.main_arg7)))
              (Cert.Gin.toWM (m ((c.tc : Thread Cert.KernelIdeal.nD Cert.KernelIdeal.τ).loc Cert.KernelIdeal.main_arg8)))
              (Cert.Gin.toCV (m ((c.tc : Thread Cert.KernelIdeal.nD Cert.KernelIdeal.τ).loc Cert.KernelIdeal.main_arg9)))
              (Cert.Gin.toS0 (m ((c.tc : Thread Cert.KernelIdeal.nD Cert.KernelIdeal.τ).loc Cert.KernelIdeal.main_arg10)))
              (Cert.Gin.toWM (m ((c.tc : Thread Cert.KernelIdeal.nD Cert.KernelIdeal.τ).loc Cert.KernelIdeal.main_arg11)))
              (Cert.Gin.toCV (m ((c.tc : Thread Cert.KernelIdeal.nD Cert.KernelIdeal.τ).loc Cert.KernelIdeal.main_arg12)))
              (Cert.Gin.toCV (m ((c.tc : Thread Cert.KernelIdeal.nD Cert.KernelIdeal.τ).loc Cert.KernelIdeal.main_arg13)))
              (Cert.Gin.toCV (m ((c.tc : Thread Cert.KernelIdeal.nD Cert.KernelIdeal.τ).loc Cert.KernelIdeal.main_arg14)))
              (Cert.Gin.toWM (m ((c.tc : Thread Cert.KernelIdeal.nD Cert.KernelIdeal.τ).loc Cert.KernelIdeal.main_arg15)))
              (Cert.Gin.toCV (m ((c.tc : Thread Cert.KernelIdeal.nD Cert.KernelIdeal.τ).loc Cert.KernelIdeal.main_arg16)))) :
    Cert.algebraic_KernelIdeal_ReferenceIdeal (hKernelIdeal := hKernelIdeal) (hReferenceIdeal := hReferenceIdeal)
      (hPre_finite_inputs := hPre_finite_inputs) := by
  intro m ρ m' ρ' hpre hagree
  refine ⟨fun c => Cert.KernelIdeal.Hand.W8 m ρ D0 D1 D2 D3 c (Proc.devRef .tc Cert.KernelIdeal.main_v49), ?_, ?_⟩
  · open Cert.KernelIdeal in
    exact (θ_run _ _ _).mono (fun r h c =>
      ⟨h c _ (mem_uc main_v49 (by decide)),
      (h c _ (mem_uc main_arg0 (by decide))).trans (W8_main_arg0 m ρ D0 D1 D2 D3 c),
      (h c _ (mem_uc main_arg1 (by decide))).trans (W8_main_arg1 m ρ D0 D1 D2 D3 c),
      (h c _ (mem_uc main_arg2 (by decide))).trans (W8_main_arg2 m ρ D0 D1 D2 D3 c),
      (h c _ (mem_uc main_arg3 (by decide))).trans (W8_main_arg3 m ρ D0 D1 D2 D3 c),
      (h c _ (mem_uc main_arg4 (by decide))).trans (W8_main_arg4 m ρ D0 D1 D2 D3 c),
      (h c _ (mem_uc main_arg5 (by decide))).trans (W8_main_arg5 m ρ D0 D1 D2 D3 c),
      (h c _ (mem_uc main_arg6 (by decide))).trans (W8_main_arg6 m ρ D0 D1 D2 D3 c),
      (h c _ (mem_uc main_arg7 (by decide))).trans (W8_main_arg7 m ρ D0 D1 D2 D3 c),
      (h c _ (mem_uc main_arg8 (by decide))).trans (W8_main_arg8 m ρ D0 D1 D2 D3 c),
      (h c _ (mem_uc main_arg9 (by decide))).trans (W8_main_arg9 m ρ D0 D1 D2 D3 c),
      (h c _ (mem_uc main_arg10 (by decide))).trans (W8_main_arg10 m ρ D0 D1 D2 D3 c),
      (h c _ (mem_uc main_arg11 (by decide))).trans (W8_main_arg11 m ρ D0 D1 D2 D3 c),
      (h c _ (mem_uc main_arg12 (by decide))).trans (W8_main_arg12 m ρ D0 D1 D2 D3 c),
      (h c _ (mem_uc main_arg13 (by decide))).trans (W8_main_arg13 m ρ D0 D1 D2 D3 c),
      (h c _ (mem_uc main_arg14 (by decide))).trans (W8_main_arg14 m ρ D0 D1 D2 D3 c),
      (h c _ (mem_uc main_arg15 (by decide))).trans (W8_main_arg15 m ρ D0 D1 D2 D3 c),
      (h c _ (mem_uc main_arg16 (by decide))).trans (W8_main_arg16 m ρ D0 D1 D2 D3 c)⟩) (run m ρ D0 D1 D2 D3)
  · refine (θ_run _ _ _).mono (fun r h c => ⟨(h c).1.trans ?_, (h c).2⟩)
      (Cert.ReferenceIdeal.RefRun.run (F := Ideal) m' ρ')
    obtain ⟨a0, a1, a2, a3, a4, a5, a6, a7, a8, a9, a10, a11, a12, a13, a14, a15, a16⟩ := hagree c
    rw [a0, a1, a2, a3, a4, a5, a6, a7, a8, a9, a10, a11, a12, a13, a14, a15, a16]
    apply Cert.PreReal.toRM_inj
    rw [Cert.ReferenceIdeal.RefValue.refOut_eq, hval m ρ c, ← hagg]
    obtain ⟨hx, he1, hW1a, hb1a, hg1, hbt1, hW1b, hb1b, he2, hW2a, hb2a, hg2, hbt2, hW2b, hb2b⟩ :=
      Cert.PreReal.reals_of_pre m hpre c
    exact (Cert.Gin.net_eq (Cert.KernelIdeal.Hand.aggMK _ _) (fun h hr => Cert.KernelIdeal.Hand.aggMK_real _ _ h hr) hx
      he1 hW1a hb1a hg1 hbt1 hW1b hb1b he2 hW2a hb2a hg2 hbt2 hW2b hb2b).symm

end Cert.Final

end
-- ==== Proof.lean ====
/-
  The proof of Cert.Claim for the two-layer GIN kernel against its jnp reference.

  WHAT IS COMPUTED. On 100000 nodes with 128 features, with x the node features and agg the edge aggregate of x (for
  each destination row, the sum of the source rows of its incoming edges), one layer computes
      h1 = ((1 + eps) * x + agg) * Wa + ba,   mean and var of h1 over the rows, per column,
      h2 = max (((h1 - mean) * rsqrt (var + epsBN)) * g + bt) 0 * Wb + bb,
  and the network is two such layers with a max with zero after the first, the aggregate of each layer taken of that
  layer's input. The reference takes mean = (sum h1) / n and var = (sum (h1 - mean)^2) / n over the whole axis. The
  kernel runs four grid kernels of 25 blocks of 4000 rows: for each layer one accumulating the column sums of h1 and
  of h1 squared block by block, and one applying the normalisation with mean = S / n and var = Q / n - mean * mean;
  between them, host operations form the aggregate, reshape the parameters and divide the sums.

  THE LAWS THAT JOIN THEM, at exact extended-real arithmetic. (1) A sum over 100000 = 25 * 4000 consecutive rows is the
  sum over the blocks of the blocks' sums, so the running sums after the last block are the whole-axis sums and the two
  means are the same extended real. (2) For a column of REAL numbers the mean of squared deviations equals the mean of
  squares minus the squared mean; with an infinite entry it fails, hence (3) realness is carried along: the
  precondition makes every float argument entry a real, and sums, products, differences, max with zero, division by
  100000, and the reciprocal square root of a nonnegative real plus the positive epsilon all map reals to reals, through
  both layers and through the aggregation (a finite sum of gathered entries). Hence the two networks agree entry by
  entry. The narrowing of the weights to a shorter float format is the identity at exact arithmetic.

  THE FRAMES. The kernel program is four stretches of host operations and four kernel regions; each is run from the
  contents the previous one leaves, and no item writes an argument's buffer, so every argument ends holding its launch
  contents (at the float instance and at the exact instance alike). The reference is one line of host operations, none of
  which writes an argument. The idealisation rewrote nothing, so the preservation conjunct holds trivially.
-/
import proofs.«143642_j88098369176165_1_alg».proof.Defs
import proofs.«143642_j88098369176165_1_alg».proof.Proof.Gen.Kernel
import proofs.«143642_j88098369176165_1_alg».proof.Proof.Gen.KernelIdeal
import proofs.«143642_j88098369176165_1_alg».proof.Proof.Gen.ReferenceIdeal
import proofs.«143642_j88098369176165_1_alg».proof.Proof.Gen.Pre_finite_inputs
import proofs.«143642_j88098369176165_1_alg».proof.Proof.DataK
import proofs.«143642_j88098369176165_1_alg».proof.Proof.KernelValue
import proofs.«143642_j88098369176165_1_alg».proof.Proof.EntryKI
import proofs.«143642_j88098369176165_1_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ Cert.Kernel.Hand.D0 Cert.Kernel.Hand.D1 Cert.Kernel.Hand.D2
      Cert.Kernel.Hand.D3,
    fun m ρ _ => Cert.KernelIdeal.Hand.frame (F := Ideal) m ρ Cert.KernelIdeal.Hand.D0 Cert.KernelIdeal.Hand.D1
      Cert.KernelIdeal.Hand.D2 Cert.KernelIdeal.Hand.D3,
    Cert.ReferenceIdeal.RefRun.frame,
    trivial,
    Cert.Final.algebraic_of Cert.KernelIdeal.Hand.D0 Cert.KernelIdeal.Hand.D1 Cert.KernelIdeal.Hand.D2
      Cert.KernelIdeal.Hand.D3 Cert.KernelIdeal.Hand.aggMK_eq (fun m ρ c => Cert.KernelIdeal.Hand.out_eq m ρ c)⟩

end Cert.Proof

end
